-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S4096 : Shape := ⟨1, ![4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x64 .f32) (main_arg16 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x64 .f32) (main_arg16 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S4096 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x64 .f32) (main_arg16 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S4096 : Shape := ⟨1, ![4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S850000x128 : Shape := ⟨2, ![850000, 128]⟩
abbrev S4096x1 : Shape := ⟨2, ![4096, 1]⟩
abbrev S4096x128 : Shape := ⟨2, ![4096, 128]⟩
abbrev S1x64 : Shape := ⟨2, ![1, 64]⟩
abbrev S1024x128 : Shape := ⟨2, ![1024, 128]⟩
abbrev S1024x1 : Shape := ⟨2, ![1024, 1]⟩
abbrev S4096x64 : Shape := ⟨2, ![4096, 64]⟩

abbrev nBuf : Space → Nat
  | .hbm => 116
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S4096, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S50000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S1x800000, .i32⟩
  | .hbm, ⟨22, _⟩ => ⟨S800000, .i32⟩
  | .hbm, ⟨23, _⟩ => ⟨S850000, .i32⟩
  | .hbm, ⟨24, _⟩ => ⟨S_, .f32⟩
  | .hbm, ⟨25, _⟩ => ⟨S850000, .f32⟩
  | .hbm, ⟨26, _⟩ => ⟨S_, .f32⟩
  | .hbm, ⟨27, _⟩ => ⟨S50000, .f32⟩
  | .hbm, ⟨28, _⟩ => ⟨S850000x1, .i32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S50000x128, .bf16⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x128, .bf16⟩
  | .hbm, ⟨49, _⟩ => ⟨S850000x128, .f32⟩
  | .hbm, ⟨50, _⟩ => ⟨S_, .f32⟩
  | .hbm, ⟨51, _⟩ => ⟨S50000x128, .f32⟩
  | .hbm, ⟨52, _⟩ => ⟨S850000x1, .i32⟩
  | .hbm, ⟨53, _⟩ => ⟨S50000x128, .f32⟩
  | .hbm, ⟨54, _⟩ => ⟨S1x128, .f32⟩
  | .hbm, ⟨55, _⟩ => ⟨S1x128, .f32⟩
  | .hbm, ⟨56, _⟩ => ⟨S50000x128, .bf16⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .bf16⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S50000x128, .bf16⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .bf16⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x128, .f32⟩
  | .hbm, ⟨97, _⟩ => ⟨S_, .i32⟩
  | .hbm, ⟨98, _⟩ => ⟨S4096, .i32⟩
  | .hbm, ⟨99, _⟩ => ⟨S4096, .i1⟩
  | .hbm, ⟨100, _⟩ => ⟨S_, .i32⟩
  | .hbm, ⟨101, _⟩ => ⟨S4096, .i32⟩
  | .hbm, ⟨102, _⟩ => ⟨S4096, .i32⟩
  | .hbm, ⟨103, _⟩ => ⟨S4096, .i32⟩
  | .hbm, ⟨104, _⟩ => ⟨S4096x1, .i32⟩
  | .hbm, ⟨105, _⟩ => ⟨S4096x1, .f32⟩
  | .hbm, ⟨106, _⟩ => ⟨S_, .i32⟩
  | .hbm, ⟨107, _⟩ => ⟨S_, .f32⟩
  | .hbm, ⟨108, _⟩ => ⟨S128x128, .f32⟩
  | .hbm, ⟨109, _⟩ => ⟨S1x64, .f32⟩
  | .hbm, ⟨110, _⟩ => ⟨S_, .i32⟩
  | .hbm, ⟨111, _⟩ => ⟨S_, .f32⟩
  | .hbm, ⟨112, _⟩ => ⟨S1x128, .f32⟩
  | .hbm, ⟨113, _⟩ => ⟨S1x128, .f32⟩
  | .hbm, ⟨114, _⟩ => ⟨S4096x128, .f32⟩
  | .hbm, ⟨115, _⟩ => ⟨S4096x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S128x128, .f32⟩
  | .local _ .vmem, ⟨32, _⟩ => ⟨S5000x128, .bf16⟩
  | .local _ .vmem, ⟨33, _⟩ => ⟨S5000x128, .bf16⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S128x128, .f32⟩
  | .local _ .vmem, ⟨59, _⟩ => ⟨S5000x128, .bf16⟩
  | .local _ .vmem, ⟨60, _⟩ => ⟨S5000x128, .bf16⟩
  | .local _ .vmem, ⟨61, _⟩ => ⟨S1024x128, .f32⟩
  | .local _ .vmem, ⟨62, _⟩ => ⟨S1024x128, .f32⟩
  | .local _ .vmem, ⟨63, _⟩ => ⟨S1024x1, .f32⟩
  | .local _ .vmem, ⟨64, _⟩ => ⟨S1024x1, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S128x128, .f32⟩
  | .local _ .vmem, ⟨69, _⟩ => ⟨S1x128, .f32⟩
  | .local _ .vmem, ⟨70, _⟩ => ⟨S1024x128, .f32⟩
  | .local _ .vmem, ⟨71, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_6 : Ref sig .tc := ⟨.hbm, 74, rfl⟩
abbrev main_v49 : Ref sig .tc := ⟨.hbm, 75, rfl⟩
abbrev main_v50 : Ref sig .tc := ⟨.hbm, 76, rfl⟩
abbrev main_c_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_9 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_11 : Ref sig .tc := ⟨.hbm, 97, rfl⟩
abbrev main_v67 : Ref sig .tc := ⟨.hbm, 98, rfl⟩
abbrev main_v68 : Ref sig .tc := ⟨.hbm, 99, rfl⟩
abbrev main_c_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_call0_v0 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_call1_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_scratch0 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc6_stg8_0 : Ref sig .tc := ⟨.vmem, 59, rfl⟩
abbrev cc6_stg8_1 : Ref sig .tc := ⟨.vmem, 60, rfl⟩
abbrev cc7_stg0_0 : Ref sig .tc := ⟨.vmem, 61, rfl⟩
abbrev cc7_stg0_1 : Ref sig .tc := ⟨.vmem, 62, rfl⟩
abbrev cc7_stg1_0 : Ref sig .tc := ⟨.vmem, 63, rfl⟩
abbrev cc7_stg1_1 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg7_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem8_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem8_0 : DmaSem sig := 55
abbrev cc6_sem8_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem7_1 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_12 : BitVec 32 := 0#32
  let v27 : BitVec 1 := Scalar.cmpi .ne v26 c0_i32_12
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_10 : BitVec 32 := 0#32
  let v22 : BitVec 1 := Scalar.cmpi .ne v21 c0_i32_10
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v25 : BitVec 1 := Scalar.cmpi .eq arg0 c9_i32
  let v26 : BitVec 32 := Scalar.extui v25
  let c0_i32_12 : BitVec 32 := 0#32
  let v27 : BitVec 1 := Scalar.cmpi .ne v26 c0_i32_12
  v27

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x128 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1024x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S4096 : S_.BroadcastsInDim S4096 (![] : Fin 0 → Fin S4096.rank)
  bcast_S4096_S4096x1_0 : S4096.BroadcastsInDim S4096x1 (![0] : Fin 1 → Fin S4096x1.rank)
  pads_S128x64_S128x128_000_0640 : S128x64.Pads (![0, 0] : Fin 2 → Nat) ![0, 64] ![0, 0] S128x128
  h_S_ : 0 < S_.numel
  shapeCasts_S64_S1x64 : S64.ShapeCasts S1x64
  pads_S1x64_S1x128_000_0640 : S1x64.Pads (![0, 0] : Fin 2 → Nat) ![0, 64] ![0, 0] S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  broadcasts_S1x128_S1024x128 : S1x128.Broadcasts S1024x128
  shapeCasts_S128x128_S128x128 : S128x128.ShapeCasts S128x128
  slices_S4096x128_S4096x64_0_0 : S4096x128.Slices ![0, 0] S4096x64
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x1_S4096x128_1_0_n_n_0_1_1128_wf : GatherDims.WF S50000x128 S4096x1 S4096x128 [1] [0] [] [0] [] 1 ![1, 128]
  gather_S50000x1_S4096x1_S4096x1_1_0_n_n_0_1_11_wf : GatherDims.WF S50000x1 S4096x1 S4096x1 [1] [0] [] [0] [] 1 ![1, 1]
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .bf16 = 32 ∨ (Rect.block (s := S50000x128) S5000x128.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S50000x128.size a
  hwx6_8 : ∀ i : grid6.Coords, EltTy.bits .bf16 = 32 ∨ (Rect.block (s := S50000x128) S5000x128.size (cc6_transform_8 i) (hinb6_8 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x128.size a ≤ S4096x128.size a
  hwx7_0 : ∀ i : grid7.Coords, EltTy.bits .f32 = 32 ∨ (Rect.block (s := S4096x128) S1024x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x1.size a ≤ S4096x1.size a
  hwx7_1 : ∀ i : grid7.Coords, EltTy.bits .f32 = 32 ∨ (Rect.block (s := S4096x1) S1024x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S1024x128.size a ≤ S4096x128.size a
  hwx7_7 : ∀ i : grid7.Coords, EltTy.bits .f32 = 32 ∨ (Rect.block (s := S4096x128) S1024x128.size (cc7_transform_7 i) (hinb7_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def gather_S50000x1_S4096x1_S4096x1_1_0_n_n_0_1_11 : GatherDims S50000x1 S4096x1 S4096x1 where
  offsetDims := [1]
  collapsedSliceDims := [0]
  operandBatchingDims := []
  startIndicesBatchingDims := []
  startIndexMap := [0]
  indexVectorDim := 1
  sliceSizes := ![1, 1]
  wf := gather_S50000x1_S4096x1_S4096x1_1_0_n_n_0_1_11_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v33) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v16) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg5) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v34) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v45) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v45) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v12) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v14) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v46) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v47) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v18) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v19) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg7) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v48) S5000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v66) S1024x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S1024x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v15) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v77) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v74) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v76) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v78) S1024x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S4096 : Shape := ⟨1, ![4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S4096x1 : Shape := ⟨2, ![4096, 1]⟩
abbrev S4096x128 : Shape := ⟨2, ![4096, 128]⟩
abbrev S4096x64 : Shape := ⟨2, ![4096, 64]⟩
abbrev S1x64 : Shape := ⟨2, ![1, 64]⟩

abbrev nBuf : Space → Nat
  | .hbm => 196
  | .vmem => 0
  | .smem => 0
  | _ => 0

abbrev hbmTy0_0 (i : Nat) : BufTy := match i % 128 with
  | 0 => ⟨S50000x128, .f32⟩
  | 1 => ⟨S2x800000, .i32⟩
  | 2 => ⟨S4096, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S128x64, .f32⟩
  | 16 => ⟨S64, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000x128, .f32⟩
  | 113 => ⟨S850000x1, .f32⟩
  | 114 => ⟨S850000x128, .f32⟩
  | 115 => ⟨S850000x128, .f32⟩
  | 116 => ⟨S_, .f32⟩
  | 117 => ⟨S50000x128, .f32⟩
  | 118 => ⟨S850000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x128, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x128, .f32⟩
  | 38 => ⟨S850000x1, .f32⟩
  | 39 => ⟨S850000x128, .f32⟩
  | 40 => ⟨S850000x128, .f32⟩
  | 41 => ⟨S_, .f32⟩
  | 42 => ⟨S50000x128, .f32⟩
  | 43 => ⟨S850000x1, .i32⟩
  | 44 => ⟨S50000x128, .f32⟩
  | 45 => ⟨S1x128, .f32⟩
  | 46 => ⟨S50000x128, .f32⟩
  | 47 => ⟨S50000x128, .f32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x128, .f32⟩
  | 57 => ⟨S4096x128, .f32⟩
  | 58 => ⟨S1x128, .f32⟩
  | 59 => ⟨S4096x128, .f32⟩
  | 60 => ⟨S4096x128, .f32⟩
  | 61 => ⟨S_, .f32⟩
  | 62 => ⟨S4096x128, .f32⟩
  | 63 => ⟨S4096x128, .f32⟩
  | 64 => ⟨S4096x64, .f32⟩
  | 65 => ⟨S1x64, .f32⟩
  | 66 => ⟨S4096x64, .f32⟩
  | 67 => ⟨S4096x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call0_cst : Ref sig .tc := ⟨.hbm, 100, rfl⟩
abbrev main_call0_v0 : Ref sig .tc := ⟨.hbm, 101, rfl⟩
abbrev main_v69 : Ref sig .tc := ⟨.hbm, 102, rfl⟩
abbrev main_v70 : Ref sig .tc := ⟨.hbm, 103, rfl⟩
abbrev main_c_12 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_cst_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_19 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call1_cst : Ref sig .tc := ⟨.hbm, 153, rfl⟩
abbrev main_call1_v0 : Ref sig .tc := ⟨.hbm, 154, rfl⟩
abbrev main_v112 : Ref sig .tc := ⟨.hbm, 155, rfl⟩
abbrev main_v113 : Ref sig .tc := ⟨.hbm, 156, rfl⟩
abbrev main_c_20 : Ref sig .tc := ⟨.hbm, 157, rfl⟩
abbrev main_v114 : Ref sig .tc := ⟨.hbm, 158, rfl⟩
abbrev main_v115 : Ref sig .tc := ⟨.hbm, 159, rfl⟩
abbrev main_c_21 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_22 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_23 : Ref sig .tc := ⟨.hbm, 176, rfl⟩
abbrev main_v130 : Ref sig .tc := ⟨.hbm, 177, rfl⟩
abbrev main_v131 : Ref sig .tc := ⟨.hbm, 178, rfl⟩
abbrev main_c_24 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_call2_cst : Ref sig .tc := ⟨.hbm, 189, rfl⟩
abbrev main_call2_v0 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S4096x1_S4096x128_1_0_n_n_0_1_1128_wf : GatherDims.WF S50000x128 S4096x1 S4096x128 [1] [0] [] [0] [] 1 ![1, 128]
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.KB.Reg0.lean ====
/-
  Region 0: the first layer's product. At grid point t the body reads rows 5000·t … 5000·t+4999 of the node features
  (window 0), the whole 128×128 weight (window 1, the same block at every point) and the matching 5000 rows of the
  inverse-square-root degrees (window 2), and writes the 5000×128 block  (x_block · W) ⊙ dinv_block  (each row scaled
  by its node's factor) to the matching rows of the output (window 3). Every point writes its own rows; nothing is
  carried from one point to the next.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not it was fetched there:
    when it was not, the block index has not moved since the last fetch. One statement per input window (the block's
    index type is the literal shape only at a literal window). -/
theorem before0_0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_in {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_in {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Each staging buffer as one rectangle: the body loads and stores whole buffers. -/
abbrev whole0 : Rect S5000x128 := Rect.unit (s := S5000x128) ![0, 0] S5000x128.size inb_S5000x128_S5000x128_0_0
abbrev wholeW0 : Rect S128x128 := Rect.unit (s := S128x128) ![0, 0] S128x128.size inb_S128x128_S128x128_0_0
abbrev wholeD0 : Rect S5000x1 := Rect.unit (s := S5000x1) ![0, 0] S5000x1.size inb_S5000x1_S5000x1_0_0

/-- What the body leaves in the output's staging buffer: one store of the whole block, the scaled product. -/
def prod0 (x : Vec F S5000x128 .f32) (w : Vec F S128x128 .f32) (dv : Vec F S5000x1 .f32) : Vec F S5000x128 .bf16 :=
  View.canon [⟨whole0, k0_pay1 (View.ld x whole0) (View.ld w wholeW0) (View.ld dv wholeD0)⟩]

theorem prod0_cover (p0 : Vec F S5000x128 .bf16) (y : S5000x128.Idx) :
    ∃ pc ∈ ([⟨whole0, p0⟩] : List (View.Piece (Elt F) S5000x128 .bf16)), y ∈ pc.1.set :=
  View.cover_of_tiled [⟨whole0, p0⟩] S5000x128.size (by rfl) y

set_option maxHeartbeats 1000000 in
/-- The body on whole staging memrefs: the three inputs are read and kept, the output ends at the scaled product. -/
theorem run_body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x1 .f32) (h3 : a3.IsWhole) (a4 : Memref sig .tc .vmem S5000x128 .bf16) (h4 : a4.IsWhole)
    (x : Vec F S5000x128 .f32) (w : Vec F S128x128 .f32) (dv : Vec F S5000x1 .f32) (K : PUnit → sProp 𝕄) :
    iprop(owns (c : Thread nD τ) a1 fullShare x ∗ owns (c : Thread nD τ) a2 fullShare w ∗ owns (c : Thread nD τ) a3 fullShare dv
        ∗ (∃ d, owns (c : Thread nD τ) a4 fullShare d)
        ∗ (iprop(owns (c : Thread nD τ) a1 fullShare x ∗ owns (c : Thread nD τ) a2 fullShare w ∗ owns (c : Thread nD τ) a3 fullShare dv
            ∗ owns (c : Thread nD τ) a4 fullShare (prod0 x w dv)) -∗ K ⟨⟩))
      ⊢ wp frame (wpE (defs₀ (F := F)) Variants.none c none) E (cc0__matmul_scale_kernel i a1 h1 a2 h2 a3 h3 a4 h4) K := by
  simp only [cc0__matmul_scale_kernel_eq_skeleton]; unfold cc0__matmul_scale_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (prod0_cover _)

/-- The proof data of region 0 on core c: the arrays as found; after the body each input buffer at its block and the
    output buffer at the scaled product of the point's blocks; the untouched scoped rest as invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => prod0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = prod0 (blk0 V c 0 t) (blk0 V c 1 t) (blk0 V c 2 t) := by dsimp only [dat0]

theorem dat0_before0 (c : Dev nD) (t : Fin cfg0.N) (d) : (dat0 V c).before 0 t d = blk0 V c 0 t :=
  before0_0_in V (dat0 V c) (dat0_A V c 0) (dat0_after0 V c) t d
theorem dat0_before1 (c : Dev nD) (t : Fin cfg0.N) (d) : (dat0 V c).before 1 t d = blk0 V c 1 t :=
  before0_1_in V (dat0 V c) (dat0_A V c 1) (dat0_after1 V c) t d
theorem dat0_before2 (c : Dev nD) (t : Fin cfg0.N) (d) : (dat0 V c).before 2 t d = blk0 V c 2 t :=
  before0_2_in V (dat0 V c) (dat0_A V c 2) (dat0_after2 V c) t d

/-- What the body is handed at point t, window by window, and what it gives back. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run_body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1: the column means. The grid has 10 points; at point t the body reads rows 5000·t … 5000·t+4999 of the
  aggregated features (window 0) and of the inverse-square-root degrees (window 1), and the bias row (window 2, the same
  block at every point). A 1×128 scratch row carries a running sum from point to point: the first point zeroes it; every
  point then adds to it the column sums of its block, each row first scaled by its node's factor and the bias row added;
  the last point stores the sum divided by the number of rows, 50000, into the output's 1×128 buffer (window 3), which
  is written back there and nowhere else. At the nine earlier points the output's buffer is not stored into and goes
  back as it came.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not it was fetched there:
    when it was not, the block index has not moved since the last fetch. One statement per input window (the block's
    index type is the literal shape only at a literal window). -/
theorem before1_0_in {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_in {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_in {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- The body's first conditional asks whether the grid coordinate is 0: -/
abbrev isFirst1 (i : grid1.Coords) : Prop := (Scalar.cmpi .ne (Scalar.extui (Scalar.cmpi .eq (BitVec.ofNat 32 (i 0).val) 0#32)) 0#32) = 1#1
/-- true at the first point only. -/
theorem isFirst1_iff : ∀ t : Fin cfg1.N, isFirst1 (grid1.coords t) ↔ t.val % 10 = 0 :=
  (by decide +kernel : ∀ t : Fin grid1.N, isFirst1 (grid1.coords t) ↔ t.val % 10 = 0)
/-- Its second asks whether the coordinate is 9: -/
abbrev isLast1 (i : grid1.Coords) : Prop := k1_cond2 i = 1#1
/-- true at the last point only. -/
theorem isLast1_iff : ∀ t : Fin cfg1.N, isLast1 (grid1.coords t) ↔ t.val % 10 = 9 :=
  (by decide +kernel : ∀ t : Fin grid1.N, isLast1 (grid1.coords t) ↔ t.val % 10 = 9)

/-- The input windows are never idle; the output window is idle exactly where the second conditional is not taken, and
    there the pipeline does not write it back. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem idle1_3_of : ∀ t : Fin cfg1.N, ¬isLast1 (grid1.coords t) → cfg1.idle 3 (grid1.coords t) = true := by decide +kernel
theorem live1_3_of : ∀ t : Fin cfg1.N, isLast1 (grid1.coords t) → cfg1.idle 3 (grid1.coords t) = false := by decide +kernel
theorem noFlush1_3_of : ∀ t : Fin cfg1.N, ¬isLast1 (grid1.coords t) → (cfg1.win 3).flush t = false := by decide +kernel

/-! ## What the body's stores leave -/

/-- Each buffer as one rectangle: the body loads and stores whole buffers. -/
abbrev whole1 : Rect S1x128 := Rect.unit (s := S1x128) ![0, 0] S1x128.size inb_S1x128_S1x128_0_0
abbrev wholeA1 : Rect S5000x128 := Rect.unit (s := S5000x128) ![0, 0] S5000x128.size inb_S5000x128_S5000x128_0_0
abbrev wholeD1 : Rect S5000x1 := Rect.unit (s := S5000x1) ![0, 0] S5000x1.size inb_S5000x1_S5000x1_0_0

/-- The whole-row rectangle holds every index of the row. -/
theorem mem_whole1 (y : S1x128.Idx) : y ∈ whole1.set := by
  obtain ⟨p, hp, hy⟩ := View.cover_of_tiled ([⟨whole1, fun _ => ()⟩] : List (View.Piece (fun _ => Unit) S1x128 .f32)) S1x128.size (by rfl) y
  rw [List.mem_singleton.mp hp] at hy; exact hy

/-- So a list of stores whose last is of the whole row covers the row, -/
theorem cover_whole1 (w : Vec F S1x128 .f32) (L : List (View.Piece (Elt F) S1x128 .f32)) (y : S1x128.Idx) :
    ∃ pc ∈ ((⟨whole1, w⟩ : View.Piece (Elt F) S1x128 .f32) :: L), y ∈ pc.1.set :=
  ⟨_, List.mem_cons_self .., mem_whole1 y⟩

/-- and leaves that store's row, whatever the earlier ones were. -/
theorem canon_cons_whole1 (w : Vec F S1x128 .f32) (L : List (View.Piece (Elt F) S1x128 .f32)) :
    View.canon ((⟨whole1, w⟩ : View.Piece (Elt F) S1x128 .f32) :: L) = View.canon [⟨whole1, w⟩] := by
  funext y
  obtain ⟨x, rfl⟩ := whole1.exists_idx_of_mem (mem_whole1 y)
  exact (View.canon_cons_emb whole1 w L x).trans (View.canon_cons_emb whole1 w [] x).symm

/-- A load of the whole row straight after a store of the whole row reads what that store left. -/
theorem readCov_whole1 {sp : Space} (v : View sig .tc sp S1x128 .f32) (w : Vec F S1x128 .f32) :
    v.readCov [(⟨whole1, w⟩ : View.Piece (Elt F) S1x128 .f32)] whole1.toLoadRect = View.ld (View.canon [⟨whole1, w⟩]) whole1 :=
  View.readCov_eq_canon_ld v _ _ (cover_whole1 _ _)

/-- The row of zeros the first point stores into the scratch. -/
def zero1 : Vec F S1x128 .f32 := View.canon [⟨whole1, k1_pay1 (F := F)⟩]

/-- One point's update of the scratch holding s: s plus the column sums of the block x, each row scaled by its node's
    factor dv and the bias row b added. -/
def step1 (x : Vec F S5000x128 .f32) (dv : Vec F S5000x1 .f32) (b : Vec F S1x128 .f32) (s : Vec F S1x128 .f32) : Vec F S1x128 .f32 :=
  View.canon [⟨whole1, k1_pay2 (View.ld x wholeA1) (View.ld dv wholeD1) (View.ld b whole1) (View.ld s whole1)⟩]

/-- The row the last point stores to the output: the sum s divided by the number of rows, 50000. -/
def mean1 (s : Vec F S1x128 .f32) : Vec F S1x128 .f32 := View.canon [⟨whole1, k1_pay3 (View.ld s whole1)⟩]

set_option maxHeartbeats 1000000 in
/-- The body at the first point, on whole memrefs: the scratch, whatever it held, is zeroed and then updated with the
    point's blocks; the inputs are read and kept; the output's buffer is not touched. -/
theorem run_first1 (c : Dev nD) (E : Set ℕ) (i : grid1.Coords) (hc0 : isFirst1 i) (hc1 : ¬isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ (∃ s, owns (c : Thread nD τ) a5 fullShare s)
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step1 x dv b zero1)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%f4, %hf4, H4⟩, ⟨%s5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_whole1 _ _)).trans ((canon_cons_whole1 _ _).trans ?_)
  exact congrArg (fun z => View.canon [(⟨whole1, k1_pay2 _ _ _ z⟩ : View.Piece (Elt F) S1x128 .f32)]) (readCov_whole1 a5.view k1_pay1)

set_option maxHeartbeats 1000000 in
/-- The body at a point that is neither first nor last: the scratch, holding s, is updated with the point's blocks; the
    inputs are read and kept; the output's buffer is not touched. -/
theorem run_mid1 (c : Dev nD) (E : Set ℕ) (i : grid1.Coords) (hc0 : ¬isFirst1 i) (hc1 : ¬isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step1 x dv b s)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_whole1 _ _)

set_option maxHeartbeats 1000000 in
/-- The body at the last point: the scratch, holding s, is updated with the point's blocks, and the output's buffer,
    whatever it held, is stored with the updated sum divided by the number of rows; the inputs are read and kept. -/
theorem run_last1 (c : Dev nD) (E : Set ℕ) (i : grid1.Coords) (hc0 : ¬isFirst1 i) (hc1 : isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ (∃ d, owns (c : Thread nD τ) a4 fullShare d) ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare (mean1 (step1 x dv b s)) ∗ owns (c : Thread nD τ) a5 fullShare (step1 x dv b s)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_whole1 _ _)).trans ?_
    exact congrArg (fun z => View.canon [(⟨whole1, k1_pay3 z⟩ : View.Piece (Elt F) S1x128 .f32)]) (readCov_whole1 a5.view _)
  iexists _; isplitr
  swap; · iexact H5
  ipureintro
  exact View.read_writes_eq_canon _ _ _ (cover_whole1 _ _)

/-! ## The running sum, point by point -/

/-- THE ACCUMULATION: what the scratch holds after the body at point n. At point 0 the zeroed scratch updated with that
    point's blocks; at point n + 1 what point n left, updated with point n + 1's blocks. -/
def acc1 (c : Dev nD) : (n : ℕ) → n < cfg1.N → Vec F S1x128 .f32
  | 0, hn => step1 (blk1 V c 0 ⟨0, hn⟩) (blk1 V c 1 ⟨0, hn⟩) (blk1 V c 2 ⟨0, hn⟩) zero1
  | n + 1, hn => step1 (blk1 V c 0 ⟨n + 1, hn⟩) (blk1 V c 1 ⟨n + 1, hn⟩) (blk1 V c 2 ⟨n + 1, hn⟩) (acc1 c n (Nat.lt_of_succ_lt hn))

theorem acc1_first (c : Dev nD) (t : Fin cfg1.N) (h : t.val = 0) :
    acc1 V c t.val t.isLt = step1 (blk1 V c 0 t) (blk1 V c 1 t) (blk1 V c 2 t) zero1 := by
  obtain ⟨n, hn⟩ := t
  cases n with
  | zero => rfl
  | succ n => exact absurd h (Nat.succ_ne_zero _)

theorem acc1_later (c : Dev nD) (t : Fin cfg1.N) (h : t.val ≠ 0) :
    acc1 V c t.val t.isLt = step1 (blk1 V c 0 t) (blk1 V c 1 t) (blk1 V c 2 t)
      (acc1 V c (t.val - 1) (Nat.lt_of_le_of_lt (Nat.sub_le _ _) t.isLt)) := by
  obtain ⟨n, hn⟩ := t
  cases n with
  | zero => exact absurd rfl h
  | succ n => rfl

/-- The row the region writes to its output: the last point's sum divided by the number of rows. -/
def final1 (c : Dev nD) : Vec F S1x128 .f32 := mean1 (acc1 V c 9 (by rw [show cfg1.N = 10 from N_1]; decide))

/-! ## The invariant between points -/

/-- The kernel's scratch operand: a whole scoped buffer of its own, passed beside the windows. -/
abbrev scM1 : Memref sig .tc .vmem S1x128 .f32 := Memref.whole cc1_scratch0

/-- The core's other scoped buffers, which this region never opens. -/
abbrev others1 (c : Dev nD) : sProp 𝕄 :=
  Pipeline.scopedRestBut (Ix := Unit) (Name := ℕ) (U := UR sig nD τ) (Lvl := ℕ) (Val := Elt F) spec1 c [cc1_scratch0]

/-- What the region is entered with, the scratch picked out of the scoped rest as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scopedRest1_split]; simp only [scM1, owns_whole]; try rfl

/-- The invariant before point n. Before the first point: what the region is entered with (the scratch at anything).
    Afterwards: the scratch at the running sum the point before left, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The proof data -/

/-- The proof data of this region on core c: the arrays as found; after the body each input buffer at its block; the
    output buffer, at the last point, at the mean row (at the other points the window is idle and the entry is not
    consulted); the invariant carrying the running sum; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => mean1 (acc1 V c t.val t.isLt)
  Φ t := PhiS1 V c t.val (Nat.le_of_lt_succ t.isLt)
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = mean1 (acc1 V c t.val t.isLt) := by dsimp only [dat1]

/-- At the last point the output's buffer is left at the region's mean row. -/
theorem dat1_after_last (c : Dev nD) (t : Fin cfg1.N) (h : t.val = 9) : (dat1 V c).after 3 t = final1 V c := by
  rw [dat1_after3]; obtain ⟨n, hn⟩ := t; subst h; rfl

theorem dat1_before0 (c : Dev nD) (t : Fin cfg1.N) (d) : (dat1 V c).before 0 t d = blk1 V c 0 t :=
  before1_0_in V (dat1 V c) (dat1_A V c 0) (dat1_after0 V c) t d
theorem dat1_before1 (c : Dev nD) (t : Fin cfg1.N) (d) : (dat1 V c).before 1 t d = blk1 V c 1 t :=
  before1_1_in V (dat1 V c) (dat1_A V c 1) (dat1_after1 V c) t d
theorem dat1_before2 (c : Dev nD) (t : Fin cfg1.N) (d) : (dat1 V c).before 2 t d = blk1 V c 2 t :=
  before1_2_in V (dat1 V c) (dat1_A V c 2) (dat1_after2 V c) t d

theorem PhiS1_castSucc (c : Dev nD) (t : Fin cfg1.N) :
    (dat1 V c).Φ t.castSucc = PhiS1 V c t.val (Nat.le_of_lt t.isLt) := by
  dsimp only [dat1]; simp only [Fin.coe_castSucc]

/-- What an input's buffer is left at: its block (the window is never idle). -/
theorem leaves1_0 (c : Dev nD) (t : Fin cfg1.N) :
    (dat1 V c).leavesExact 0 t = owns (c : Thread nD τ) (st1_0 t) fullShare (blk1 V c 0 t) := by
  unfold Dat.leavesExact; rw [live1_0 t, dat1_after0]
theorem leaves1_1 (c : Dev nD) (t : Fin cfg1.N) :
    (dat1 V c).leavesExact 1 t = owns (c : Thread nD τ) (st1_1 t) fullShare (blk1 V c 1 t) := by
  unfold Dat.leavesExact; rw [live1_1 t, dat1_after1]
theorem leaves1_2 (c : Dev nD) (t : Fin cfg1.N) :
    (dat1 V c).leavesExact 2 t = owns (c : Thread nD τ) (st1_2 t) fullShare (blk1 V c 2 t) := by
  unfold Dat.leavesExact; rw [live1_2 t, dat1_after2]

/-! ## The body obligation -/

/-- What the body is handed at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks; the point's place in the grid says which of the two
    conditionals are taken; the invariant hands the body the scratch — at anything at the first point, else at the sum
    the point before left — and takes it back at this point's sum; where the output window is idle its buffer goes back
    as it came, and at the last point it goes back at the mean row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc]
  have hN : t.val < 10 := lt_of_lt_of_eq t.isLt (show cfg1.N = 10 from N_1)
  by_cases h0 : t.val % 10 = 0
  · have hz : t.val = 0 := by omega
    have hl : ¬isLast1 (grid1.coords t) := fun h => by have := (isLast1_iff t).mp h; omega
    rw [Dat.leavesExact_idle (dat1 V c) 3 t (idle1_3_of t hl) (noFlush1_3_of t hl)]
    rw [acc1_first V c t hz, PhiS1_zero V c _ _ hz, PhiA1_eq]
    iintro ⟨⟨⟨⟨%s, HS⟩, HR⟩, Hg⟩, Ho, ⟨%d0, H0⟩, ⟨%d1, H1⟩, ⟨%d2, H2⟩, ⟨%d3, H3⟩⟩
    iapply (run_first1 c Set.univ _ ((isFirst1_iff t).mpr h0) hl _ _ _ _ _ _ _ _ _ _ (blk1 V c 0 t) (blk1 V c 1 t) (blk1 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := by omega
    have hf : ¬isFirst1 (grid1.coords t) := fun h => h0 ((isFirst1_iff t).mp h)
    by_cases h9 : t.val % 10 = 9
    · have hl : isLast1 (grid1.coords t) := (isLast1_iff t).mpr h9
      rw [show (dat1 V c).leavesExact 3 t = owns (c : Thread nD τ) (st1_3 t) fullShare ((dat1 V c).after 3 t) from by
        unfold Dat.leavesExact; rw [live1_3_of t hl], dat1_after3]
      rw [acc1_later V c t hz, PhiS1_pos V c _ _ hz]
      iintro ⟨⟨⟨HS, HR⟩, Hg⟩, Ho, ⟨%d0, H0⟩, ⟨%d1, H1⟩, ⟨%d2, H2⟩, ⟨%d3, H3⟩⟩
      iapply (run_last1 c Set.univ _ hf hl _ _ _ _ _ _ _ _ _ _ (blk1 V c 0 t) (blk1 V c 1 t) (blk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast1 (grid1.coords t) := fun h => h9 ((isLast1_iff t).mp h)
      rw [Dat.leavesExact_idle (dat1 V c) 3 t (idle1_3_of t hl) (noFlush1_3_of t hl)]
      rw [acc1_later V c t hz, PhiS1_pos V c _ _ hz]
      iintro ⟨⟨⟨HS, HR⟩, Hg⟩, Ho, ⟨%d0, H0⟩, ⟨%d1, H1⟩, ⟨%d2, H2⟩, ⟨%d3, H3⟩⟩
      iapply (run_mid1 c Set.univ _ hf hl _ _ _ _ _ _ _ _ _ _ (blk1 V c 0 t) (blk1 V c 1 t) (blk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the scratch's sum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨HS, HR⟩, Hg⟩
  isplitl [HS HR]
  · isplitl [HS]; · iexists _; iexact HS
    iexact HR
  iexact Hg

end Cert.Kernel.Hand

end
-- ==== Proof.KB.Reg2a.lean ====
/-
  Region 2: the variance's sum of squares, accumulated over the grid. At grid point t the body reads rows
  5000·t … 5000·t+4999 of the aggregated features (window 0) and of the inverse-square-root degrees (window 1), the
  bias row (window 2) and the mean row (window 3) — the last two the same block at every point —, forms
  agg ⊙ dinv + b − mean on the block, squares it and adds its column sums to a 1×128 running sum kept in a scratch
  buffer from point to point. The first point zeroes the running sum before adding; the last point, after adding,
  stores the running sum divided by the number of rows (50000) into the output row (window 4), which is written back
  there and nowhere else: at the other points the body does not touch the output's buffer.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not it was fetched there:
    when it was not, the block index has not moved since the last fetch. One statement per input window (the block's
    index type is the literal shape only at a literal window). -/
theorem before2_0_in {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_in {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_in {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_in {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Each staging buffer, and the scratch, as one rectangle: the body loads and stores whole buffers. -/
abbrev wholeA2 : Rect S5000x128 := Rect.unit (s := S5000x128) ![0, 0] S5000x128.size inb_S5000x128_S5000x128_0_0
abbrev wholeD2 : Rect S5000x1 := Rect.unit (s := S5000x1) ![0, 0] S5000x1.size inb_S5000x1_S5000x1_0_0
abbrev wholeR2 : Rect S1x128 := Rect.unit (s := S1x128) ![0, 0] S1x128.size inb_S1x128_S1x128_0_0

/-- The running sum after the first point's reset: one store of the whole row, zeros. -/
def zero2 : Vec F S1x128 .f32 := View.canon [⟨wholeR2, k2_pay1 (F := F)⟩]

/-- The running sum after a point: one store of the whole row, the sum s found there plus the column sums of the
    squares of  x ⊙ dv + b − mu  over the point's block. -/
def step2 (x : Vec F S5000x128 .f32) (dv : Vec F S5000x1 .f32) (b mu s : Vec F S1x128 .f32) : Vec F S1x128 .f32 :=
  View.canon [⟨wholeR2, k2_pay2 (View.ld x wholeA2) (View.ld dv wholeD2) (View.ld b wholeR2) (View.ld mu wholeR2) (View.ld s wholeR2)⟩]

/-- The output row the last point stores: the running sum s divided by the number of rows. -/
def fin2 (s : Vec F S1x128 .f32) : Vec F S1x128 .f32 := View.canon [⟨wholeR2, k2_pay3 (View.ld s wholeR2)⟩]

/-- A store of the whole row covers it, -/
theorem row2_cover1 (p0 : Vec F S1x128 .f32) (y : S1x128.Idx) :
    ∃ pc ∈ ([⟨wholeR2, p0⟩] : List (View.Piece (Elt F) S1x128 .f32)), y ∈ pc.1.set :=
  View.cover_of_tiled [⟨wholeR2, p0⟩] S1x128.size (by rfl) y

/-- whatever was stored before it, -/
theorem row2_cover (p0 : Vec F S1x128 .f32) (L : List (View.Piece (Elt F) S1x128 .f32)) (y : S1x128.Idx) :
    ∃ pc ∈ (⟨wholeR2, p0⟩ :: L : List (View.Piece (Elt F) S1x128 .f32)), y ∈ pc.1.set := by
  obtain ⟨pc, hm, hy⟩ := row2_cover1 p0 y
  obtain rfl := List.mem_singleton.mp hm
  exact ⟨_, List.mem_cons_self, hy⟩

/-- and what it leaves does not depend on the earlier stores: every index of the row is under the last one. -/
theorem canon_row2 (p0 : Vec F S1x128 .f32) (L : List (View.Piece (Elt F) S1x128 .f32)) :
    View.canon (⟨wholeR2, p0⟩ :: L) = View.canon [⟨wholeR2, p0⟩] := by
  funext y
  obtain ⟨pc, hm, hy⟩ := row2_cover1 p0 y
  obtain rfl := List.mem_singleton.mp hm
  obtain ⟨x, rfl⟩ : ∃ x, (wholeR2 : Rect S1x128).emb x = y := (wholeR2 : Rect S1x128).exists_idx_of_mem hy
  rw [View.canon_cons_emb, View.canon_cons_emb]

/-- The condition of the body's first conditional (the reset), from the grid coordinate: the kernel's scalar chain. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (the output's store). -/
abbrev cond2_1 (i : grid2.Coords) : Prop := k2_cond2 i = 1#1
/-- It holds at the last point only — decided over the grid. -/
theorem hcond2_1 : ∀ t : Fin cfg2.N, cond2_1 (grid2.coords t) ↔ t.val = 9 :=
  (by decide +kernel : ∀ t : Fin grid2.N, cond2_1 (grid2.coords t) ↔ t.val = 9)

/-- The output window is idle exactly where the second condition fails, and is not written back there. -/
theorem idleAt2_4 : ∀ t : Fin cfg2.N, t.val ≠ 9 → cfg2.idle 4 (grid2.coords t) = true :=
  (by decide +kernel : ∀ t : Fin grid2.N, t.val ≠ 9 → idle2 4 (grid2.coords t) = true)
theorem liveAt2_4 : ∀ t : Fin cfg2.N, t.val = 9 → cfg2.idle 4 (grid2.coords t) = false :=
  (by decide +kernel : ∀ t : Fin grid2.N, t.val = 9 → idle2 4 (grid2.coords t) = false)
theorem noFlush2_4 : ∀ t : Fin cfg2.N, t.val ≠ 9 → (cfg2.win 4).flush t = false :=
  (by decide +kernel : ∀ t : Fin grid2.N, t.val ≠ 9 → win2_4.flush t = false)

end Cert.Kernel.Hand

end
-- ==== Proof.KB.Reg2b.lean ====
/-
  Region 2, the body's three courses. On whole memrefs — the five windows' staging buffers and the scratch — the
  kernel function runs, according to the grid coordinate, in one of three ways: at the first point it zeroes the
  scratch and adds the block's sum; at a point between it adds the block's sum to what the scratch held; at the last
  point it does that and then stores the total, divided by the number of rows, into the output's buffer. Each is one
  statement: what is handed in, and what the continuation is given back.
-/
import proofs.«161886_j5566277616090_2_alg».proof.Proof.KB.Reg2a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point, on whole memrefs: the inputs are read and kept, the output's buffer is not touched,
    the scratch — at anything before — ends at the first block's sum over the zeroed row. -/
theorem run_body2_first (c : Dev nD) (E : Set ℕ) (i : grid2.Coords) (hc0 : cond2_0 i) (hc1 : ¬cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ (∃ d, owns (c : Thread nD τ) a6 fullShare d)
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step2 x dv b mu zero2)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [View.read_writes_eq_canon _ _ _ (row2_cover _ _), canon_row2, View.readCov_eq_canon_ld _ _ _ (row2_cover1 _)]
  rfl

set_option maxHeartbeats 1000000 in
/-- The body at a point that is neither the first nor the last: the inputs are read and kept, the output's buffer is
    not touched, the scratch goes from the sum s it held to s plus the block's sum. -/
theorem run_body2_middle (c : Dev nD) (E : Set ℕ) (i : grid2.Coords) (hc0 : ¬cond2_0 i) (hc1 : ¬cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step2 x dv b mu s)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  exact View.read_writes_eq_canon _ _ _ (row2_cover1 _)

set_option maxHeartbeats 1000000 in
/-- The body at the last point: the inputs are read and kept, the scratch goes from the sum s it held to s plus the
    block's sum, and the output's buffer — at anything before — ends at that total divided by the number of rows. -/
theorem run_body2_last (c : Dev nD) (E : Set ℕ) (i : grid2.Coords) (hc0 : ¬cond2_0 i) (hc1 : cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ (∃ d, owns (c : Thread nD τ) a5 fullShare d) ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare (fin2 (step2 x dv b mu s))
            ∗ owns (c : Thread nD τ) a6 fullShare (step2 x dv b mu s)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (row2_cover1 _), View.readCov_eq_canon_ld _ _ _ (row2_cover1 _)]
    rfl
  iexists _; isplitr
  swap; · iexact H6
  ipureintro
  sl_unfold_run_names
  exact View.read_writes_eq_canon _ _ _ (row2_cover1 _)

end Cert.Kernel.Hand

end
-- ==== Proof.KB.Reg2.lean ====
/-
  Region 2, the proof data and the body obligation. The scratch after each point by recursion on the point; the
  invariant that carries it from one point to the next; what each window's buffer holds after the body; the body
  obligation, by the point's position among first, between and last; and the two entailments that tie the invariant
  to what the region is handed at entry and gives back at exit.
-/
import proofs.«161886_j5566277616090_2_alg».proof.Proof.KB.Reg2b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- The scratch after point n: after the first point the first block's sum over the zeroed row, after a later point
    that block's sum over what the point before left. -/
def acc2 (c : Dev nD) : (n : ℕ) → n < cfg2.N → Vec F S1x128 .f32
  | 0, hn => step2 (blk2 V c 0 ⟨0, hn⟩) (blk2 V c 1 ⟨0, hn⟩) (blk2 V c 2 ⟨0, hn⟩) (blk2 V c 3 ⟨0, hn⟩) zero2
  | n + 1, hn => step2 (blk2 V c 0 ⟨n + 1, hn⟩) (blk2 V c 1 ⟨n + 1, hn⟩) (blk2 V c 2 ⟨n + 1, hn⟩) (blk2 V c 3 ⟨n + 1, hn⟩) (acc2 c n (Nat.lt_of_succ_lt hn))

theorem acc2_zero (c : Dev nD) (t : Fin cfg2.N) (h : t.val = 0) :
    acc2 V c t.val t.isLt = step2 (blk2 V c 0 t) (blk2 V c 1 t) (blk2 V c 2 t) (blk2 V c 3 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt
      = step2 (blk2 V c 0 t) (blk2 V c 1 t) (blk2 V c 2 t) (blk2 V c 3 t) (acc2 V c (t.val - 1) (Nat.lt_of_le_of_lt (Nat.sub_le _ _) t.isLt)) := by
  obtain ⟨n, hn⟩ := t
  cases n with
  | zero => exact absurd rfl h
  | succ n => rfl

/-- The output row: the total after the last point, divided by the number of rows. -/
def out2 (c : Dev nD) : Vec F S1x128 .f32 := fin2 (acc2 V c 9 (by have : cfg2.N = 10 := N_2; omega))

/-! ## The invariant: the scratch carried from point to point -/

/-- The scratch operand: a whole scoped buffer of the kernel's own, passed beside the windows. -/
abbrev scM2 : Memref sig .tc .vmem S1x128 .f32 := Memref.whole cc2_scratch0

/-- What the launch hands the region, with the scratch as a memref owned at some contents beside the scoped buffers
    the body never names. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The invariant before position n: before the first point what the launch hands over (the scratch at anything);
    afterwards the same with the scratch at what the point before left in it. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of region 2 on core c: the arrays as found; after the body each input buffer at its block; the
    output buffer at the running sum so far divided by the number of rows — which is the output row at the last
    point, the only one where the body stores it and the pipeline reads it (elsewhere the window is idle and the value
    stated here is not consulted) —; the invariant carrying the scratch; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => fin2 (acc2 V c t.val t.isLt)
  Φ t := PhiS2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = fin2 (acc2 V c t.val t.isLt) := by dsimp only [dat2]

/-- At the last point the output's buffer is left at the output row. -/
theorem dat2_after_last (c : Dev nD) (t : Fin cfg2.N) (h : t.val = 9) : (dat2 V c).after 4 t = out2 V c := by
  rw [dat2_after4]; obtain ⟨n, hn⟩ := t; dsimp only at h; subst h; rfl

theorem dat2_before0 (c : Dev nD) (t : Fin cfg2.N) (d) : (dat2 V c).before 0 t d = blk2 V c 0 t :=
  before2_0_in V (dat2 V c) (dat2_A V c 0) (dat2_after0 V c) t d
theorem dat2_before1 (c : Dev nD) (t : Fin cfg2.N) (d) : (dat2 V c).before 1 t d = blk2 V c 1 t :=
  before2_1_in V (dat2 V c) (dat2_A V c 1) (dat2_after1 V c) t d
theorem dat2_before2 (c : Dev nD) (t : Fin cfg2.N) (d) : (dat2 V c).before 2 t d = blk2 V c 2 t :=
  before2_2_in V (dat2 V c) (dat2_A V c 2) (dat2_after2 V c) t d
theorem dat2_before3 (c : Dev nD) (t : Fin cfg2.N) (d) : (dat2 V c).before 3 t d = blk2 V c 3 t :=
  before2_3_in V (dat2 V c) (dat2_A V c 3) (dat2_after3 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-! ## The body obligation -/

/-- What the body is handed at point t, window by window, and what it gives back. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 2000000 in
/-- The body at any point. The inputs' buffers hold their blocks; the point's position says which of the three courses
    the body takes. At the first point the invariant hands over the scratch at anything and takes it back at the first
    running sum; at a later point it hands it over at what the point before left and takes it back at this point's.
    Where the output window is idle its buffer goes back as it came; at the last point it goes back at the output row. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0, dat2_before1, dat2_before2, dat2_before3]
  rw [show (dat2 V c).owesAt () t.succ = (dat2 V c).owesAt () t.castSucc from rfl]
  rw [show (dat2 V c).Φ t.succ = PhiS2 V c (t.val + 1) t.isLt from rfl, PhiS2_succ]
  rw [
    show (dat2 V c).leavesExact 0 t = owns (c : Thread nD τ) (st2_0 t) fullShare ((dat2 V c).after 0 t) from by
      unfold Dat.leavesExact; rw [liveAt2_0 t], dat2_after0,
    show (dat2 V c).leavesExact 1 t = owns (c : Thread nD τ) (st2_1 t) fullShare ((dat2 V c).after 1 t) from by
      unfold Dat.leavesExact; rw [liveAt2_1 t], dat2_after1,
    show (dat2 V c).leavesExact 2 t = owns (c : Thread nD τ) (st2_2 t) fullShare ((dat2 V c).after 2 t) from by
      unfold Dat.leavesExact; rw [liveAt2_2 t], dat2_after2,
    show (dat2 V c).leavesExact 3 t = owns (c : Thread nD τ) (st2_3 t) fullShare ((dat2 V c).after 3 t) from by
      unfold Dat.leavesExact; rw [liveAt2_3 t], dat2_after3]
  have hN : t.val < 10 := lt_of_lt_of_eq t.isLt (show cfg2.N = 10 from N_2)
  by_cases hz : t.val = 0
  · -- the first point
    rw [Dat.leavesExact_idle (dat2 V c) 4 t (idleAt2_4 t (by omega)) (noFlush2_4 t (by omega))]
    rw [PhiS2_castSucc V c t, PhiS2_zero V c _ _ hz, PhiA2_eq, acc2_zero V c t hz]
    iintro ⟨⟨⟨⟨%ds, HS⟩, HR⟩, Hg⟩, Ho, ⟨%d0, H0⟩, ⟨%d1, H1⟩, ⟨%d2, H2⟩, ⟨%d3, H3⟩, ⟨%d4, H4⟩⟩
    iapply (run_body2_first c Set.univ _ ((hcond2_0 t).mpr hz) (fun h => by have := (hcond2_1 t).mp h; omega) _ _ _ _ _ _ _ _ _ _ _ _
      (blk2 V c 0 t) (blk2 V c 1 t) (blk2 V c 2 t) (blk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · by_cases hl : t.val = 9
    · -- the last point
      rw [show (dat2 V c).leavesExact 4 t = owns (c : Thread nD τ) (st2_4 t) fullShare ((dat2 V c).after 4 t) from by
        unfold Dat.leavesExact; rw [liveAt2_4 t hl], dat2_after4]
      rw [PhiS2_castSucc V c t, PhiS2_pos V c _ _ hz, acc2_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body2_last c Set.univ _ (fun h => hz ((hcond2_0 t).mp h)) ((hcond2_1 t).mpr hl) _ _ _ _ _ _ _ _ _ _ _ _
        (blk2 V c 0 t) (blk2 V c 1 t) (blk2 V c 2 t) (blk2 V c 3 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point between
      rw [Dat.leavesExact_idle (dat2 V c) 4 t (idleAt2_4 t hl) (noFlush2_4 t hl)]
      rw [PhiS2_castSucc V c t, PhiS2_pos V c _ _ hz, acc2_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body2_middle c Set.univ _ (fun h => hz ((hcond2_0 t).mp h)) (fun h => hl ((hcond2_1 t).mp h)) _ _ _ _ _ _ _ _ _ _ _ _
        (blk2 V c 0 t) (blk2 V c 1 t) (blk2 V c 2 t) (blk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨HS, HR⟩, Hg⟩
  isplitl [HS HR]
  · isplitl [HS]
    · iexists _; iexact HS
    iexact HR
  iexact Hg

end Cert.Kernel.Hand

end
-- ==== Proof.KB.Reg3.lean ====
/-
  Region 3: batch normalisation fused with the next layer's product. At grid point t the body reads rows
  5000·t … 5000·t+4999 of the aggregated features (window 0) and of the inverse-square-root degrees (window 1), and,
  the same block at every point, the bias row, the feature means, the feature variances, the scale row, the shift row
  (windows 2 … 6, each 1×128) and the whole 128×128 weight (window 7). With h = agg_block ⊙ dinv_block + b it forms
  max(((h − mean) · rsqrt(var + ε)) · gamma + beta, 0), rounds it to bf16, multiplies it by the weight rounded to bf16
  (accumulating in f32 from zero), scales every row again by its node's factor and rounds the result to bf16: that
  5000×128 block is written to the matching rows of the output (window 8). Every point writes its own rows; nothing is
  carried from one point to the next.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether or not it was fetched there:
    when it was not, the block index has not moved since the last fetch (windows 2 … 7 are fetched at the first point
    only, and their block is the same at every point). One statement per input window (the block's index type is the
    literal shape only at a literal window). -/
theorem before3_0_in {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_in {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_in {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_in {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem before3_4_in {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem before3_5_in {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem before3_6_in {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)
theorem before3_7_in {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-- Each staging buffer as one rectangle: the body loads and stores whole buffers. -/
abbrev whole3 : Rect S5000x128 := Rect.unit (s := S5000x128) ![0, 0] S5000x128.size inb_S5000x128_S5000x128_0_0
abbrev wholeD3 : Rect S5000x1 := Rect.unit (s := S5000x1) ![0, 0] S5000x1.size inb_S5000x1_S5000x1_0_0
abbrev wholeR3 : Rect S1x128 := Rect.unit (s := S1x128) ![0, 0] S1x128.size inb_S1x128_S1x128_0_0
abbrev wholeW3 : Rect S128x128 := Rect.unit (s := S128x128) ![0, 0] S128x128.size inb_S128x128_S128x128_0_0

/-- What the body leaves in the output's staging buffer: one store of the whole block. The normalised, rectified
    activations (from the feature rows, the degree factors, the bias, the variances, the means, the scale and the shift,
    in the order the body reads them) times the weight, scaled once more by the degree factors (read a second time),
    rounded to bf16. -/
def out3 (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) : Vec F S5000x128 .bf16 :=
  View.canon [⟨whole3, k3_pay1 (k3_pay2 (View.ld x whole3) (View.ld dv wholeD3) (View.ld b wholeR3) (View.ld var wholeR3) (View.ld mean wholeR3) (View.ld gamma wholeR3) (View.ld beta wholeR3) (View.ld w wholeW3)) (k3_pay3 (View.ld dv wholeD3))⟩]

theorem out3_cover (p0 : Vec F S5000x128 .bf16) (y : S5000x128.Idx) :
    ∃ pc ∈ ([⟨whole3, p0⟩] : List (View.Piece (Elt F) S5000x128 .bf16)), y ∈ pc.1.set :=
  View.cover_of_tiled [⟨whole3, p0⟩] S5000x128.size (by rfl) y

set_option maxHeartbeats 1000000 in
/-- The body on whole staging memrefs: the eight inputs are read and kept, the output ends at the stored block. -/
theorem run_body3 (c : Dev nD) (E : Set ℕ) (i : grid3.Coords)
    (a1 : Memref sig .tc .vmem S5000x128 .f32) (h1 : a1.IsWhole) (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S128x128 .f32) (h8 : a8.IsWhole) (a9 : Memref sig .tc .vmem S5000x128 .bf16) (h9 : a9.IsWhole)
    (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) (K : PUnit → sProp 𝕄) :
    iprop(owns (c : Thread nD τ) a1 fullShare x ∗ owns (c : Thread nD τ) a2 fullShare dv ∗ owns (c : Thread nD τ) a3 fullShare b ∗ owns (c : Thread nD τ) a4 fullShare mean
        ∗ owns (c : Thread nD τ) a5 fullShare var ∗ owns (c : Thread nD τ) a6 fullShare gamma ∗ owns (c : Thread nD τ) a7 fullShare beta ∗ owns (c : Thread nD τ) a8 fullShare w
        ∗ (∃ d, owns (c : Thread nD τ) a9 fullShare d)
        ∗ (iprop(owns (c : Thread nD τ) a1 fullShare x ∗ owns (c : Thread nD τ) a2 fullShare dv ∗ owns (c : Thread nD τ) a3 fullShare b ∗ owns (c : Thread nD τ) a4 fullShare mean
            ∗ owns (c : Thread nD τ) a5 fullShare var ∗ owns (c : Thread nD τ) a6 fullShare gamma ∗ owns (c : Thread nD τ) a7 fullShare beta ∗ owns (c : Thread nD τ) a8 fullShare w
            ∗ owns (c : Thread nD τ) a9 fullShare (out3 x dv b mean var gamma beta w)) -∗ K ⟨⟩))
      ⊢ wp frame (wpE (defs₀ (F := F)) Variants.none c none) E (cc3__fused_bn_matmul_kernel i a1 h1 a2 h2 a3 h3 a4 h4 a5 h5 a6 h6 a7 h7 a8 h8 a9 h9) K := by
  simp only [cc3__fused_bn_matmul_kernel_eq_skeleton]; unfold cc3__fused_bn_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (out3_cover _)

/-- The proof data of region 3 on core c: the arrays as found; after the body each input buffer at its block and the
    output buffer at the stored block computed from the point's input blocks; the untouched scoped rest as invariant;
    nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => out3 (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) : (dat3 V c).after 7 t = blk3 V c 7 t := by dsimp only [dat3]
/-- The output's staging buffer after the body at point t: the stored block of the point's eight input blocks. -/
theorem dat3_after_out (c : Dev nD) (t : Fin cfg3.N) :
    (dat3 V c).after 8 t = out3 (blk3 V c 0 t) (blk3 V c 1 t) (blk3 V c 2 t) (blk3 V c 3 t) (blk3 V c 4 t) (blk3 V c 5 t) (blk3 V c 6 t) (blk3 V c 7 t) := by dsimp only [dat3]

theorem dat3_before0 (c : Dev nD) (t : Fin cfg3.N) (d) : (dat3 V c).before 0 t d = blk3 V c 0 t :=
  before3_0_in V (dat3 V c) (dat3_A V c 0) (dat3_after0 V c) t d
theorem dat3_before1 (c : Dev nD) (t : Fin cfg3.N) (d) : (dat3 V c).before 1 t d = blk3 V c 1 t :=
  before3_1_in V (dat3 V c) (dat3_A V c 1) (dat3_after1 V c) t d
theorem dat3_before2 (c : Dev nD) (t : Fin cfg3.N) (d) : (dat3 V c).before 2 t d = blk3 V c 2 t :=
  before3_2_in V (dat3 V c) (dat3_A V c 2) (dat3_after2 V c) t d
theorem dat3_before3 (c : Dev nD) (t : Fin cfg3.N) (d) : (dat3 V c).before 3 t d = blk3 V c 3 t :=
  before3_3_in V (dat3 V c) (dat3_A V c 3) (dat3_after3 V c) t d
theorem dat3_before4 (c : Dev nD) (t : Fin cfg3.N) (d) : (dat3 V c).before 4 t d = blk3 V c 4 t :=
  before3_4_in V (dat3 V c) (dat3_A V c 4) (dat3_after4 V c) t d
theorem dat3_before5 (c : Dev nD) (t : Fin cfg3.N) (d) : (dat3 V c).before 5 t d = blk3 V c 5 t :=
  before3_5_in V (dat3 V c) (dat3_A V c 5) (dat3_after5 V c) t d
theorem dat3_before6 (c : Dev nD) (t : Fin cfg3.N) (d) : (dat3 V c).before 6 t d = blk3 V c 6 t :=
  before3_6_in V (dat3 V c) (dat3_A V c 6) (dat3_after6 V c) t d
theorem dat3_before7 (c : Dev nD) (t : Fin cfg3.N) (d) : (dat3 V c).before 7 t d = blk3 V c 7 t :=
  before3_7_in V (dat3 V c) (dat3_A V c 7) (dat3_after7 V c) t d

/-- What the body is handed at point t, window by window, and what it gives back. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1, dat3_before2, dat3_before3, dat3_before4, dat3_before5, dat3_before6, dat3_before7]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6, dat3_after7, dat3_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body3 c Set.univ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Region 4: the column means of the second layer (the same kernel as region 1, on that layer's operands). The grid has
  10 points; at point t the body reads rows 5000·t … 5000·t+4999 of the aggregated features (window 0) and of the
  inverse-square-root degrees (window 1), and the bias row (window 2, the same block at every point). A 1×128 scratch
  row carries a running sum from point to point: the first point zeroes it; every point then adds to it the column sums
  of its block, each row first scaled by its node's factor and the bias row added; the last point stores the sum divided
  by the number of rows, 50000, into the output's 1×128 buffer (window 3), which is written back there and nowhere else.
  At the nine earlier points the output's buffer is not stored into and goes back as it came.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, whether or not it was fetched there:
    when it was not, the block index has not moved since the last fetch. One statement per input window (the block's
    index type is the literal shape only at a literal window). -/
theorem before4_0_in {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_in {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_in {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-! ## The two conditions of the body, over the grid -/

/-- The body's first conditional asks whether the grid coordinate is 0: -/
abbrev isFirst4 (i : grid4.Coords) : Prop := (Scalar.cmpi .ne (Scalar.extui (Scalar.cmpi .eq (BitVec.ofNat 32 (i 0).val) 0#32)) 0#32) = 1#1
/-- true at the first point only. -/
theorem isFirst4_iff : ∀ t : Fin cfg4.N, isFirst4 (grid4.coords t) ↔ t.val % 10 = 0 :=
  (by decide +kernel : ∀ t : Fin grid4.N, isFirst4 (grid4.coords t) ↔ t.val % 10 = 0)
/-- Its second asks whether the coordinate is 9: -/
abbrev isLast4 (i : grid4.Coords) : Prop := k4_cond2 i = 1#1
/-- true at the last point only. -/
theorem isLast4_iff : ∀ t : Fin cfg4.N, isLast4 (grid4.coords t) ↔ t.val % 10 = 9 :=
  (by decide +kernel : ∀ t : Fin grid4.N, isLast4 (grid4.coords t) ↔ t.val % 10 = 9)

/-- The input windows are never idle; the output window is idle exactly where the second conditional is not taken, and
    there the pipeline does not write it back. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem idle4_3_of : ∀ t : Fin cfg4.N, ¬isLast4 (grid4.coords t) → cfg4.idle 3 (grid4.coords t) = true := by decide +kernel
theorem live4_3_of : ∀ t : Fin cfg4.N, isLast4 (grid4.coords t) → cfg4.idle 3 (grid4.coords t) = false := by decide +kernel
theorem noFlush4_3_of : ∀ t : Fin cfg4.N, ¬isLast4 (grid4.coords t) → (cfg4.win 3).flush t = false := by decide +kernel

/-! ## What the body's stores leave -/

/-- Each buffer as one rectangle: the body loads and stores whole buffers. -/
abbrev whole4 : Rect S1x128 := Rect.unit (s := S1x128) ![0, 0] S1x128.size inb_S1x128_S1x128_0_0
abbrev wholeA4 : Rect S5000x128 := Rect.unit (s := S5000x128) ![0, 0] S5000x128.size inb_S5000x128_S5000x128_0_0
abbrev wholeD4 : Rect S5000x1 := Rect.unit (s := S5000x1) ![0, 0] S5000x1.size inb_S5000x1_S5000x1_0_0

/-- The whole-row rectangle holds every index of the row. -/
theorem mem_whole4 (y : S1x128.Idx) : y ∈ whole4.set := by
  obtain ⟨p, hp, hy⟩ := View.cover_of_tiled ([⟨whole4, fun _ => ()⟩] : List (View.Piece (fun _ => Unit) S1x128 .f32)) S1x128.size (by rfl) y
  rw [List.mem_singleton.mp hp] at hy; exact hy

/-- So a list of stores whose last is of the whole row covers the row, -/
theorem cover_whole4 (w : Vec F S1x128 .f32) (L : List (View.Piece (Elt F) S1x128 .f32)) (y : S1x128.Idx) :
    ∃ pc ∈ ((⟨whole4, w⟩ : View.Piece (Elt F) S1x128 .f32) :: L), y ∈ pc.1.set :=
  ⟨_, List.mem_cons_self .., mem_whole4 y⟩

/-- and leaves that store's row, whatever the earlier ones were. -/
theorem canon_cons_whole4 (w : Vec F S1x128 .f32) (L : List (View.Piece (Elt F) S1x128 .f32)) :
    View.canon ((⟨whole4, w⟩ : View.Piece (Elt F) S1x128 .f32) :: L) = View.canon [⟨whole4, w⟩] := by
  funext y
  obtain ⟨x, rfl⟩ := whole4.exists_idx_of_mem (mem_whole4 y)
  exact (View.canon_cons_emb whole4 w L x).trans (View.canon_cons_emb whole4 w [] x).symm

/-- A load of the whole row straight after a store of the whole row reads what that store left. -/
theorem readCov_whole4 {sp : Space} (v : View sig .tc sp S1x128 .f32) (w : Vec F S1x128 .f32) :
    v.readCov [(⟨whole4, w⟩ : View.Piece (Elt F) S1x128 .f32)] whole4.toLoadRect = View.ld (View.canon [⟨whole4, w⟩]) whole4 :=
  View.readCov_eq_canon_ld v _ _ (cover_whole4 _ _)

/-- The row of zeros the first point stores into the scratch. -/
def zero4 : Vec F S1x128 .f32 := View.canon [⟨whole4, k4_pay1 (F := F)⟩]

/-- One point's update of the scratch holding s: s plus the column sums of the block x, each row scaled by its node's
    factor dv and the bias row b added. -/
def step4 (x : Vec F S5000x128 .f32) (dv : Vec F S5000x1 .f32) (b : Vec F S1x128 .f32) (s : Vec F S1x128 .f32) : Vec F S1x128 .f32 :=
  View.canon [⟨whole4, k4_pay2 (View.ld x wholeA4) (View.ld dv wholeD4) (View.ld b whole4) (View.ld s whole4)⟩]

/-- The row the last point stores to the output: the sum s divided by the number of rows, 50000. -/
def mean4 (s : Vec F S1x128 .f32) : Vec F S1x128 .f32 := View.canon [⟨whole4, k4_pay3 (View.ld s whole4)⟩]

set_option maxHeartbeats 1000000 in
/-- The body at the first point, on whole memrefs: the scratch, whatever it held, is zeroed and then updated with the
    point's blocks; the inputs are read and kept; the output's buffer is not touched. -/
theorem run_first4 (c : Dev nD) (E : Set ℕ) (i : grid4.Coords) (hc0 : isFirst4 i) (hc1 : ¬isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ (∃ s, owns (c : Thread nD τ) a5 fullShare s)
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step4 x dv b zero4)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%f4, %hf4, H4⟩, ⟨%s5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_whole4 _ _)).trans ((canon_cons_whole4 _ _).trans ?_)
  exact congrArg (fun z => View.canon [(⟨whole4, k4_pay2 _ _ _ z⟩ : View.Piece (Elt F) S1x128 .f32)]) (readCov_whole4 a5.view k4_pay1)

set_option maxHeartbeats 1000000 in
/-- The body at a point that is neither first nor last: the scratch, holding s, is updated with the point's blocks; the
    inputs are read and kept; the output's buffer is not touched. -/
theorem run_mid4 (c : Dev nD) (E : Set ℕ) (i : grid4.Coords) (hc0 : ¬isFirst4 i) (hc1 : ¬isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step4 x dv b s)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_whole4 _ _)

set_option maxHeartbeats 1000000 in
/-- The body at the last point: the scratch, holding s, is updated with the point's blocks, and the output's buffer,
    whatever it held, is stored with the updated sum divided by the number of rows; the inputs are read and kept. -/
theorem run_last4 (c : Dev nD) (E : Set ℕ) (i : grid4.Coords) (hc0 : ¬isFirst4 i) (hc1 : isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ (∃ d, owns (c : Thread nD τ) a4 fullShare d) ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare (mean4 (step4 x dv b s)) ∗ owns (c : Thread nD τ) a5 fullShare (step4 x dv b s)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_whole4 _ _)).trans ?_
    exact congrArg (fun z => View.canon [(⟨whole4, k4_pay3 z⟩ : View.Piece (Elt F) S1x128 .f32)]) (readCov_whole4 a5.view _)
  iexists _; isplitr
  swap; · iexact H5
  ipureintro
  exact View.read_writes_eq_canon _ _ _ (cover_whole4 _ _)

/-! ## The running sum, point by point -/

/-- THE ACCUMULATION: what the scratch holds after the body at point n. At point 0 the zeroed scratch updated with that
    point's blocks; at point n + 1 what point n left, updated with point n + 1's blocks. -/
def acc4 (c : Dev nD) : (n : ℕ) → n < cfg4.N → Vec F S1x128 .f32
  | 0, hn => step4 (blk4 V c 0 ⟨0, hn⟩) (blk4 V c 1 ⟨0, hn⟩) (blk4 V c 2 ⟨0, hn⟩) zero4
  | n + 1, hn => step4 (blk4 V c 0 ⟨n + 1, hn⟩) (blk4 V c 1 ⟨n + 1, hn⟩) (blk4 V c 2 ⟨n + 1, hn⟩) (acc4 c n (Nat.lt_of_succ_lt hn))

theorem acc4_first (c : Dev nD) (t : Fin cfg4.N) (h : t.val = 0) :
    acc4 V c t.val t.isLt = step4 (blk4 V c 0 t) (blk4 V c 1 t) (blk4 V c 2 t) zero4 := by
  obtain ⟨n, hn⟩ := t
  cases n with
  | zero => rfl
  | succ n => exact absurd h (Nat.succ_ne_zero _)

theorem acc4_later (c : Dev nD) (t : Fin cfg4.N) (h : t.val ≠ 0) :
    acc4 V c t.val t.isLt = step4 (blk4 V c 0 t) (blk4 V c 1 t) (blk4 V c 2 t)
      (acc4 V c (t.val - 1) (Nat.lt_of_le_of_lt (Nat.sub_le _ _) t.isLt)) := by
  obtain ⟨n, hn⟩ := t
  cases n with
  | zero => exact absurd rfl h
  | succ n => rfl

/-- The row the region writes to its output: the last point's sum divided by the number of rows. -/
def final4 (c : Dev nD) : Vec F S1x128 .f32 := mean4 (acc4 V c 9 (by rw [show cfg4.N = 10 from N_4]; decide))

/-! ## The invariant between points -/

/-- The kernel's scratch operand: a whole scoped buffer of its own, passed beside the windows. -/
abbrev scM4 : Memref sig .tc .vmem S1x128 .f32 := Memref.whole cc4_scratch0

/-- The core's other scoped buffers, which this region never opens. -/
abbrev others4 (c : Dev nD) : sProp 𝕄 :=
  Pipeline.scopedRestBut (Ix := Unit) (Name := ℕ) (U := UR sig nD τ) (Lvl := ℕ) (Val := Elt F) spec4 c [cc4_scratch0]

/-- What the region is entered with, the scratch picked out of the scoped rest as a memref owned at some contents. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA; rw [scopedRest4_split]; simp only [scM4, owns_whole]; try rfl

/-- The invariant before point n. Before the first point: what the region is entered with (the scratch at anything).
    Afterwards: the scratch at the running sum the point before left, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ others4 c) ∗ (∃ r, prngReg c r)) := by
  cases n with
  | zero => exact absurd rfl hz
  | succ n => rfl

/-! ## The proof data -/

/-- The proof data of this region on core c: the arrays as found; after the body each input buffer at its block; the
    output buffer, at the last point, at the mean row (at the other points the window is idle and the entry is not
    consulted); the invariant carrying the running sum; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => mean4 (acc4 V c t.val t.isLt)
  Φ t := PhiS4 V c t.val (Nat.le_of_lt_succ t.isLt)
  q _ := fullShare
  owed _ := 0

theorem dat4_A (c : Dev nD) (w : Fin cfg4.W) : (dat4 V c).A w = V c (Pipeline.arrRef spec4 w) := by dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) : (dat4 V c).after 3 t = mean4 (acc4 V c t.val t.isLt) := by dsimp only [dat4]

/-- At the last point the output's buffer is left at the region's mean row. -/
theorem dat4_after_last (c : Dev nD) (t : Fin cfg4.N) (h : t.val = 9) : (dat4 V c).after 3 t = final4 V c := by
  rw [dat4_after3]; obtain ⟨n, hn⟩ := t; subst h; rfl

theorem dat4_before0 (c : Dev nD) (t : Fin cfg4.N) (d) : (dat4 V c).before 0 t d = blk4 V c 0 t :=
  before4_0_in V (dat4 V c) (dat4_A V c 0) (dat4_after0 V c) t d
theorem dat4_before1 (c : Dev nD) (t : Fin cfg4.N) (d) : (dat4 V c).before 1 t d = blk4 V c 1 t :=
  before4_1_in V (dat4 V c) (dat4_A V c 1) (dat4_after1 V c) t d
theorem dat4_before2 (c : Dev nD) (t : Fin cfg4.N) (d) : (dat4 V c).before 2 t d = blk4 V c 2 t :=
  before4_2_in V (dat4 V c) (dat4_A V c 2) (dat4_after2 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- What an input's buffer is left at: its block (the window is never idle). -/
theorem leaves4_0 (c : Dev nD) (t : Fin cfg4.N) :
    (dat4 V c).leavesExact 0 t = owns (c : Thread nD τ) (st4_0 t) fullShare (blk4 V c 0 t) := by
  unfold Dat.leavesExact; rw [live4_0 t, dat4_after0]
theorem leaves4_1 (c : Dev nD) (t : Fin cfg4.N) :
    (dat4 V c).leavesExact 1 t = owns (c : Thread nD τ) (st4_1 t) fullShare (blk4 V c 1 t) := by
  unfold Dat.leavesExact; rw [live4_1 t, dat4_after1]
theorem leaves4_2 (c : Dev nD) (t : Fin cfg4.N) :
    (dat4 V c).leavesExact 2 t = owns (c : Thread nD τ) (st4_2 t) fullShare (blk4 V c 2 t) := by
  unfold Dat.leavesExact; rw [live4_2 t, dat4_after2]

/-! ## The body obligation -/

/-- What the body is handed at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it gives back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point. The inputs' buffers hold their blocks; the point's place in the grid says which of the two
    conditionals are taken; the invariant hands the body the scratch — at anything at the first point, else at the sum
    the point before left — and takes it back at this point's sum; where the output window is idle its buffer goes back
    as it came, and at the last point it goes back at the mean row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [dat4_before0, dat4_before1, dat4_before2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, PhiS4_castSucc]
  have hN : t.val < 10 := lt_of_lt_of_eq t.isLt (show cfg4.N = 10 from N_4)
  by_cases h0 : t.val % 10 = 0
  · have hz : t.val = 0 := by omega
    have hl : ¬isLast4 (grid4.coords t) := fun h => by have := (isLast4_iff t).mp h; omega
    rw [Dat.leavesExact_idle (dat4 V c) 3 t (idle4_3_of t hl) (noFlush4_3_of t hl)]
    rw [acc4_first V c t hz, PhiS4_zero V c _ _ hz, PhiA4_eq]
    iintro ⟨⟨⟨⟨%s, HS⟩, HR⟩, Hg⟩, Ho, ⟨%d0, H0⟩, ⟨%d1, H1⟩, ⟨%d2, H2⟩, ⟨%d3, H3⟩⟩
    iapply (run_first4 c Set.univ _ ((isFirst4_iff t).mpr h0) hl _ _ _ _ _ _ _ _ _ _ (blk4 V c 0 t) (blk4 V c 1 t) (blk4 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := by omega
    have hf : ¬isFirst4 (grid4.coords t) := fun h => h0 ((isFirst4_iff t).mp h)
    by_cases h9 : t.val % 10 = 9
    · have hl : isLast4 (grid4.coords t) := (isLast4_iff t).mpr h9
      rw [show (dat4 V c).leavesExact 3 t = owns (c : Thread nD τ) (st4_3 t) fullShare ((dat4 V c).after 3 t) from by
        unfold Dat.leavesExact; rw [live4_3_of t hl], dat4_after3]
      rw [acc4_later V c t hz, PhiS4_pos V c _ _ hz]
      iintro ⟨⟨⟨HS, HR⟩, Hg⟩, Ho, ⟨%d0, H0⟩, ⟨%d1, H1⟩, ⟨%d2, H2⟩, ⟨%d3, H3⟩⟩
      iapply (run_last4 c Set.univ _ hf hl _ _ _ _ _ _ _ _ _ _ (blk4 V c 0 t) (blk4 V c 1 t) (blk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast4 (grid4.coords t) := fun h => h9 ((isLast4_iff t).mp h)
      rw [Dat.leavesExact_idle (dat4 V c) 3 t (idle4_3_of t hl) (noFlush4_3_of t hl)]
      rw [acc4_later V c t hz, PhiS4_pos V c _ _ hz]
      iintro ⟨⟨⟨HS, HR⟩, Hg⟩, Ho, ⟨%d0, H0⟩, ⟨%d1, H1⟩, ⟨%d2, H2⟩, ⟨%d3, H3⟩⟩
      iapply (run_mid4 c Set.univ _ hf hl _ _ _ _ _ _ _ _ _ _ (blk4 V c 0 t) (blk4 V c 1 t) (blk4 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives that back: the scratch's sum is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨HS, HR⟩, Hg⟩
  isplitl [HS HR]
  · isplitl [HS]; · iexists _; iexact HS
    iexact HR
  iexact Hg

end Cert.Kernel.Hand

end
-- ==== Proof.KB.Reg5a.lean ====
/-
  Region 5: the variance's sum of squares, accumulated over the grid. At grid point t the body reads rows
  5000·t … 5000·t+4999 of the aggregated features (window 0) and of the inverse-square-root degrees (window 1), the
  bias row (window 2) and the mean row (window 3) — the last two the same block at every point —, forms
  agg ⊙ dinv + b − mean on the block, squares it and adds its column sums to a 1×128 running sum kept in a scratch
  buffer from point to point. The first point zeroes the running sum before adding; the last point, after adding,
  stores the running sum divided by the number of rows (50000) into the output row (window 4), which is written back
  there and nowhere else: at the other points the body does not touch the output's buffer.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether or not it was fetched there:
    when it was not, the block index has not moved since the last fetch. One statement per input window (the block's
    index type is the literal shape only at a literal window). -/
theorem before5_0_in {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem before5_1_in {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem before5_2_in {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem before5_3_in {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)

/-- Each staging buffer, and the scratch, as one rectangle: the body loads and stores whole buffers. -/
abbrev wholeA5 : Rect S5000x128 := Rect.unit (s := S5000x128) ![0, 0] S5000x128.size inb_S5000x128_S5000x128_0_0
abbrev wholeD5 : Rect S5000x1 := Rect.unit (s := S5000x1) ![0, 0] S5000x1.size inb_S5000x1_S5000x1_0_0
abbrev wholeR5 : Rect S1x128 := Rect.unit (s := S1x128) ![0, 0] S1x128.size inb_S1x128_S1x128_0_0

/-- The running sum after the first point's reset: one store of the whole row, zeros. -/
def zero5 : Vec F S1x128 .f32 := View.canon [⟨wholeR5, k5_pay1 (F := F)⟩]

/-- The running sum after a point: one store of the whole row, the sum s found there plus the column sums of the
    squares of  x ⊙ dv + b − mu  over the point's block. -/
def step5 (x : Vec F S5000x128 .f32) (dv : Vec F S5000x1 .f32) (b mu s : Vec F S1x128 .f32) : Vec F S1x128 .f32 :=
  View.canon [⟨wholeR5, k5_pay2 (View.ld x wholeA5) (View.ld dv wholeD5) (View.ld b wholeR5) (View.ld mu wholeR5) (View.ld s wholeR5)⟩]

/-- The output row the last point stores: the running sum s divided by the number of rows. -/
def fin5 (s : Vec F S1x128 .f32) : Vec F S1x128 .f32 := View.canon [⟨wholeR5, k5_pay3 (View.ld s wholeR5)⟩]

/-- A store of the whole row covers it, -/
theorem row5_cover1 (p0 : Vec F S1x128 .f32) (y : S1x128.Idx) :
    ∃ pc ∈ ([⟨wholeR5, p0⟩] : List (View.Piece (Elt F) S1x128 .f32)), y ∈ pc.1.set :=
  View.cover_of_tiled [⟨wholeR5, p0⟩] S1x128.size (by rfl) y

/-- whatever was stored before it, -/
theorem row5_cover (p0 : Vec F S1x128 .f32) (L : List (View.Piece (Elt F) S1x128 .f32)) (y : S1x128.Idx) :
    ∃ pc ∈ (⟨wholeR5, p0⟩ :: L : List (View.Piece (Elt F) S1x128 .f32)), y ∈ pc.1.set := by
  obtain ⟨pc, hm, hy⟩ := row5_cover1 p0 y
  obtain rfl := List.mem_singleton.mp hm
  exact ⟨_, List.mem_cons_self, hy⟩

/-- and what it leaves does not depend on the earlier stores: every index of the row is under the last one. -/
theorem canon_row5 (p0 : Vec F S1x128 .f32) (L : List (View.Piece (Elt F) S1x128 .f32)) :
    View.canon (⟨wholeR5, p0⟩ :: L) = View.canon [⟨wholeR5, p0⟩] := by
  funext y
  obtain ⟨pc, hm, hy⟩ := row5_cover1 p0 y
  obtain rfl := List.mem_singleton.mp hm
  obtain ⟨x, rfl⟩ : ∃ x, (wholeR5 : Rect S1x128).emb x = y := (wholeR5 : Rect S1x128).exists_idx_of_mem hy
  rw [View.canon_cons_emb, View.canon_cons_emb]

/-- The condition of the body's first conditional (the reset), from the grid coordinate: the kernel's scalar chain. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the body's second conditional (the output's store). -/
abbrev cond5_1 (i : grid5.Coords) : Prop := k5_cond2 i = 1#1
/-- It holds at the last point only — decided over the grid. -/
theorem hcond5_1 : ∀ t : Fin cfg5.N, cond5_1 (grid5.coords t) ↔ t.val = 9 :=
  (by decide +kernel : ∀ t : Fin grid5.N, cond5_1 (grid5.coords t) ↔ t.val = 9)

/-- The output window is idle exactly where the second condition fails, and is not written back there. -/
theorem idleAt5_4 : ∀ t : Fin cfg5.N, t.val ≠ 9 → cfg5.idle 4 (grid5.coords t) = true :=
  (by decide +kernel : ∀ t : Fin grid5.N, t.val ≠ 9 → idle5 4 (grid5.coords t) = true)
theorem liveAt5_4 : ∀ t : Fin cfg5.N, t.val = 9 → cfg5.idle 4 (grid5.coords t) = false :=
  (by decide +kernel : ∀ t : Fin grid5.N, t.val = 9 → idle5 4 (grid5.coords t) = false)
theorem noFlush5_4 : ∀ t : Fin cfg5.N, t.val ≠ 9 → (cfg5.win 4).flush t = false :=
  (by decide +kernel : ∀ t : Fin grid5.N, t.val ≠ 9 → win5_4.flush t = false)

end Cert.Kernel.Hand

end
-- ==== Proof.KB.Reg5b.lean ====
/-
  Region 5, the body's three courses. On whole memrefs — the five windows' staging buffers and the scratch — the
  kernel function runs, according to the grid coordinate, in one of three ways: at the first point it zeroes the
  scratch and adds the block's sum; at a point between it adds the block's sum to what the scratch held; at the last
  point it does that and then stores the total, divided by the number of rows, into the output's buffer. Each is one
  statement: what is handed in, and what the continuation is given back.
-/
import proofs.«161886_j5566277616090_2_alg».proof.Proof.KB.Reg5a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point, on whole memrefs: the inputs are read and kept, the output's buffer is not touched,
    the scratch — at anything before — ends at the first block's sum over the zeroed row. -/
theorem run_body5_first (c : Dev nD) (E : Set ℕ) (i : grid5.Coords) (hc0 : cond5_0 i) (hc1 : ¬cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ (∃ d, owns (c : Thread nD τ) a6 fullShare d)
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step5 x dv b mu zero5)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [View.read_writes_eq_canon _ _ _ (row5_cover _ _), canon_row5, View.readCov_eq_canon_ld _ _ _ (row5_cover1 _)]
  rfl

set_option maxHeartbeats 1000000 in
/-- The body at a point that is neither the first nor the last: the inputs are read and kept, the output's buffer is
    not touched, the scratch goes from the sum s it held to s plus the block's sum. -/
theorem run_body5_middle (c : Dev nD) (E : Set ℕ) (i : grid5.Coords) (hc0 : ¬cond5_0 i) (hc1 : ¬cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step5 x dv b mu s)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  exact View.read_writes_eq_canon _ _ _ (row5_cover1 _)

set_option maxHeartbeats 1000000 in
/-- The body at the last point: the inputs are read and kept, the scratch goes from the sum s it held to s plus the
    block's sum, and the output's buffer — at anything before — ends at that total divided by the number of rows. -/
theorem run_body5_last (c : Dev nD) (E : Set ℕ) (i : grid5.Coords) (hc0 : ¬cond5_0 i) (hc1 : cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ (∃ d, owns (c : Thread nD τ) a5 fullShare d) ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare (fin5 (step5 x dv b mu s))
            ∗ owns (c : Thread nD τ) a6 fullShare (step5 x dv b mu s)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (row5_cover1 _), View.readCov_eq_canon_ld _ _ _ (row5_cover1 _)]
    rfl
  iexists _; isplitr
  swap; · iexact H6
  ipureintro
  sl_unfold_run_names
  exact View.read_writes_eq_canon _ _ _ (row5_cover1 _)

end Cert.Kernel.Hand

end
-- ==== Proof.KB.Reg5.lean ====
/-
  Region 5, the proof data and the body obligation. The scratch after each point by recursion on the point; the
  invariant that carries it from one point to the next; what each window's buffer holds after the body; the body
  obligation, by the point's position among first, between and last; and the two entailments that tie the invariant
  to what the region is handed at entry and gives back at exit.
-/
import proofs.«161886_j5566277616090_2_alg».proof.Proof.KB.Reg5b

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- The scratch after point n: after the first point the first block's sum over the zeroed row, after a later point
    that block's sum over what the point before left. -/
def acc5 (c : Dev nD) : (n : ℕ) → n < cfg5.N → Vec F S1x128 .f32
  | 0, hn => step5 (blk5 V c 0 ⟨0, hn⟩) (blk5 V c 1 ⟨0, hn⟩) (blk5 V c 2 ⟨0, hn⟩) (blk5 V c 3 ⟨0, hn⟩) zero5
  | n + 1, hn => step5 (blk5 V c 0 ⟨n + 1, hn⟩) (blk5 V c 1 ⟨n + 1, hn⟩) (blk5 V c 2 ⟨n + 1, hn⟩) (blk5 V c 3 ⟨n + 1, hn⟩) (acc5 c n (Nat.lt_of_succ_lt hn))

theorem acc5_zero (c : Dev nD) (t : Fin cfg5.N) (h : t.val = 0) :
    acc5 V c t.val t.isLt = step5 (blk5 V c 0 t) (blk5 V c 1 t) (blk5 V c 2 t) (blk5 V c 3 t) zero5 := by
  obtain ⟨n, hn⟩ := t
  cases n with
  | zero => rfl
  | succ n => exact absurd h (Nat.succ_ne_zero n)

theorem acc5_pos (c : Dev nD) (t : Fin cfg5.N) (h : t.val ≠ 0) :
    acc5 V c t.val t.isLt
      = step5 (blk5 V c 0 t) (blk5 V c 1 t) (blk5 V c 2 t) (blk5 V c 3 t) (acc5 V c (t.val - 1) (Nat.lt_of_le_of_lt (Nat.sub_le _ _) t.isLt)) := by
  obtain ⟨n, hn⟩ := t
  cases n with
  | zero => exact absurd rfl h
  | succ n => rfl

/-- The output row: the total after the last point, divided by the number of rows. -/
def out5 (c : Dev nD) : Vec F S1x128 .f32 := fin5 (acc5 V c 9 (by have : cfg5.N = 10 := N_5; omega))

/-! ## The invariant: the scratch carried from point to point -/

/-- The scratch operand: a whole scoped buffer of the kernel's own, passed beside the windows. -/
abbrev scM5 : Memref sig .tc .vmem S1x128 .f32 := Memref.whole cc5_scratch0

/-- What the launch hands the region, with the scratch as a memref owned at some contents beside the scoped buffers
    the body never names. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The invariant before position n: before the first point what the launch hands over (the scratch at anything);
    afterwards the same with the scratch at what the point before left in it. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core c: the arrays as found; after the body each input buffer at its block; the
    output buffer at the running sum so far divided by the number of rows — which is the output row at the last
    point, the only one where the body stores it and the pipeline reads it (elsewhere the window is idle and the value
    stated here is not consulted) —; the invariant carrying the scratch; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => fin5 (acc5 V c t.val t.isLt)
  Φ t := PhiS5 V c t.val (Nat.le_of_lt_succ t.isLt)
  q _ := fullShare
  owed _ := 0

theorem dat5_A (c : Dev nD) (w : Fin cfg5.W) : (dat5 V c).A w = V c (Pipeline.arrRef spec5 w) := by dsimp only [dat5]
theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = blk5 V c 3 t := by dsimp only [dat5]
theorem dat5_after4 (c : Dev nD) (t : Fin cfg5.N) : (dat5 V c).after 4 t = fin5 (acc5 V c t.val t.isLt) := by dsimp only [dat5]

/-- At the last point the output's buffer is left at the output row. -/
theorem dat5_after_last (c : Dev nD) (t : Fin cfg5.N) (h : t.val = 9) : (dat5 V c).after 4 t = out5 V c := by
  rw [dat5_after4]; obtain ⟨n, hn⟩ := t; dsimp only at h; subst h; rfl

theorem dat5_before0 (c : Dev nD) (t : Fin cfg5.N) (d) : (dat5 V c).before 0 t d = blk5 V c 0 t :=
  before5_0_in V (dat5 V c) (dat5_A V c 0) (dat5_after0 V c) t d
theorem dat5_before1 (c : Dev nD) (t : Fin cfg5.N) (d) : (dat5 V c).before 1 t d = blk5 V c 1 t :=
  before5_1_in V (dat5 V c) (dat5_A V c 1) (dat5_after1 V c) t d
theorem dat5_before2 (c : Dev nD) (t : Fin cfg5.N) (d) : (dat5 V c).before 2 t d = blk5 V c 2 t :=
  before5_2_in V (dat5 V c) (dat5_A V c 2) (dat5_after2 V c) t d
theorem dat5_before3 (c : Dev nD) (t : Fin cfg5.N) (d) : (dat5 V c).before 3 t d = blk5 V c 3 t :=
  before5_3_in V (dat5 V c) (dat5_A V c 3) (dat5_after3 V c) t d

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- The input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

/-! ## The body obligation -/

/-- What the body is handed at point t, window by window, and what it gives back. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 2000000 in
/-- The body at any point. The inputs' buffers hold their blocks; the point's position says which of the three courses
    the body takes. At the first point the invariant hands over the scratch at anything and takes it back at the first
    running sum; at a later point it hands it over at what the point before left and takes it back at this point's.
    Where the output window is idle its buffer goes back as it came; at the last point it goes back at the output row. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [dat5_before0, dat5_before1, dat5_before2, dat5_before3]
  rw [show (dat5 V c).owesAt () t.succ = (dat5 V c).owesAt () t.castSucc from rfl]
  rw [show (dat5 V c).Φ t.succ = PhiS5 V c (t.val + 1) t.isLt from rfl, PhiS5_succ]
  rw [
    show (dat5 V c).leavesExact 0 t = owns (c : Thread nD τ) (st5_0 t) fullShare ((dat5 V c).after 0 t) from by
      unfold Dat.leavesExact; rw [liveAt5_0 t], dat5_after0,
    show (dat5 V c).leavesExact 1 t = owns (c : Thread nD τ) (st5_1 t) fullShare ((dat5 V c).after 1 t) from by
      unfold Dat.leavesExact; rw [liveAt5_1 t], dat5_after1,
    show (dat5 V c).leavesExact 2 t = owns (c : Thread nD τ) (st5_2 t) fullShare ((dat5 V c).after 2 t) from by
      unfold Dat.leavesExact; rw [liveAt5_2 t], dat5_after2,
    show (dat5 V c).leavesExact 3 t = owns (c : Thread nD τ) (st5_3 t) fullShare ((dat5 V c).after 3 t) from by
      unfold Dat.leavesExact; rw [liveAt5_3 t], dat5_after3]
  have hN : t.val < 10 := lt_of_lt_of_eq t.isLt (show cfg5.N = 10 from N_5)
  by_cases hz : t.val = 0
  · -- the first point
    rw [Dat.leavesExact_idle (dat5 V c) 4 t (idleAt5_4 t (by omega)) (noFlush5_4 t (by omega))]
    rw [PhiS5_castSucc V c t, PhiS5_zero V c _ _ hz, PhiA5_eq, acc5_zero V c t hz]
    iintro ⟨⟨⟨⟨%ds, HS⟩, HR⟩, Hg⟩, Ho, ⟨%d0, H0⟩, ⟨%d1, H1⟩, ⟨%d2, H2⟩, ⟨%d3, H3⟩, ⟨%d4, H4⟩⟩
    iapply (run_body5_first c Set.univ _ ((hcond5_0 t).mpr hz) (fun h => by have := (hcond5_1 t).mp h; omega) _ _ _ _ _ _ _ _ _ _ _ _
      (blk5 V c 0 t) (blk5 V c 1 t) (blk5 V c 2 t) (blk5 V c 3 t) ((dat5 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · by_cases hl : t.val = 9
    · -- the last point
      rw [show (dat5 V c).leavesExact 4 t = owns (c : Thread nD τ) (st5_4 t) fullShare ((dat5 V c).after 4 t) from by
        unfold Dat.leavesExact; rw [liveAt5_4 t hl], dat5_after4]
      rw [PhiS5_castSucc V c t, PhiS5_pos V c _ _ hz, acc5_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body5_last c Set.univ _ (fun h => hz ((hcond5_0 t).mp h)) ((hcond5_1 t).mpr hl) _ _ _ _ _ _ _ _ _ _ _ _
        (blk5 V c 0 t) (blk5 V c 1 t) (blk5 V c 2 t) (blk5 V c 3 t) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point between
      rw [Dat.leavesExact_idle (dat5 V c) 4 t (idleAt5_4 t hl) (noFlush5_4 t hl)]
      rw [PhiS5_castSucc V c t, PhiS5_pos V c _ _ hz, acc5_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body5_middle c Set.univ _ (fun h => hz ((hcond5_0 t).mp h)) (fun h => hl ((hcond5_1 t).mp h)) _ _ _ _ _ _ _ _ _ _ _ _
        (blk5 V c 0 t) (blk5 V c 1 t) (blk5 V c 2 t) (blk5 V c 3 t) ((dat5 V c).before 4 t d4) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives it back: the scratch's named contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 10 := N_5; omega), PhiA5_eq]
  iintro ⟨⟨HS, HR⟩, Hg⟩
  isplitl [HS HR]
  · isplitl [HS]
    · iexists _; iexact HS
    iexact HR
  iexact Hg

end Cert.Kernel.Hand

end
-- ==== Proof.KB.Reg6.lean ====
/-
  Region 6: batch normalisation fused with the next layer's product. At grid point t the body reads rows
  5000·t … 5000·t+4999 of the aggregated features (window 0) and of the inverse-square-root degrees (window 1), and,
  the same block at every point, the bias row, the feature means, the feature variances, the scale row, the shift row
  (windows 2 … 6, each 1×128) and the whole 128×128 weight (window 7). With h = agg_block ⊙ dinv_block + b it forms
  max(((h − mean) · rsqrt(var + ε)) · gamma + beta, 0), rounds it to bf16, multiplies it by the weight rounded to bf16
  (accumulating in f32 from zero), scales every row again by its node's factor and rounds the result to bf16: that
  5000×128 block is written to the matching rows of the output (window 8). Every point writes its own rows; nothing is
  carried from one point to the next.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, whether or not it was fetched there:
    when it was not, the block index has not moved since the last fetch (windows 2 … 7 are fetched at the first point
    only, and their block is the same at every point). One statement per input window (the block's index type is the
    literal shape only at a literal window). -/
theorem before6_0_in {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem before6_1_in {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)
theorem before6_2_in {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)
theorem before6_3_in {c : Dev nD} (dat : Dat τ (Elt F) Unit ℕ (UR sig nD τ) ℕ cfg6 c) (hA : dat.A 3 = V c (Pipeline.arrRef spec6 3))
    (hafter : ∀ t, dat.after 3 t = blk6 V c 3 t) (t : Fin cfg6.N) (d) : dat.before 3 t d = blk6 V c 3 t :=
  (dat.before_in_eq_fetched 3 rfl (fun _ => rfl) (fun _ _ _ => rfl) (fun t => by rw [hafter]; unfold Dat.blockOf blk6; rw [hA]; try rfl) t d).trans
    (by unfold Dat.fetched Dat.blockOf blk6; rw [hA]; try rfl)
theorem before6_4_in {c : Dev nD} (dat : Dat τ (Elt F) Unit ℕ (UR sig nD τ) ℕ cfg6 c) (hA : dat.A 4 = V c (Pipeline.arrRef spec6 4))
    (hafter : ∀ t, dat.after 4 t = blk6 V c 4 t) (t : Fin cfg6.N) (d) : dat.before 4 t d = blk6 V c 4 t :=
  (dat.before_in_eq_fetched 4 rfl (fun _ => rfl) (fun _ _ _ => rfl) (fun t => by rw [hafter]; unfold Dat.blockOf blk6; rw [hA]; try rfl) t d).trans
    (by unfold Dat.fetched Dat.blockOf blk6; rw [hA]; try rfl)
theorem before6_5_in {c : Dev nD} (dat : Dat τ (Elt F) Unit ℕ (UR sig nD τ) ℕ cfg6 c) (hA : dat.A 5 = V c (Pipeline.arrRef spec6 5))
    (hafter : ∀ t, dat.after 5 t = blk6 V c 5 t) (t : Fin cfg6.N) (d) : dat.before 5 t d = blk6 V c 5 t :=
  (dat.before_in_eq_fetched 5 rfl (fun _ => rfl) (fun _ _ _ => rfl) (fun t => by rw [hafter]; unfold Dat.blockOf blk6; rw [hA]; try rfl) t d).trans
    (by unfold Dat.fetched Dat.blockOf blk6; rw [hA]; try rfl)
theorem before6_6_in {c : Dev nD} (dat : Dat τ (Elt F) Unit ℕ (UR sig nD τ) ℕ cfg6 c) (hA : dat.A 6 = V c (Pipeline.arrRef spec6 6))
    (hafter : ∀ t, dat.after 6 t = blk6 V c 6 t) (t : Fin cfg6.N) (d) : dat.before 6 t d = blk6 V c 6 t :=
  (dat.before_in_eq_fetched 6 rfl (fun _ => rfl) (fun _ _ _ => rfl) (fun t => by rw [hafter]; unfold Dat.blockOf blk6; rw [hA]; try rfl) t d).trans
    (by unfold Dat.fetched Dat.blockOf blk6; rw [hA]; try rfl)
theorem before6_7_in {c : Dev nD} (dat : Dat τ (Elt F) Unit ℕ (UR sig nD τ) ℕ cfg6 c) (hA : dat.A 7 = V c (Pipeline.arrRef spec6 7))
    (hafter : ∀ t, dat.after 7 t = blk6 V c 7 t) (t : Fin cfg6.N) (d) : dat.before 7 t d = blk6 V c 7 t :=
  (dat.before_in_eq_fetched 7 rfl (fun _ => rfl) (fun _ _ _ => rfl) (fun t => by rw [hafter]; unfold Dat.blockOf blk6; rw [hA]; try rfl) t d).trans
    (by unfold Dat.fetched Dat.blockOf blk6; rw [hA]; try rfl)

/-- Each staging buffer as one rectangle: the body loads and stores whole buffers. -/
abbrev whole6 : Rect S5000x128 := Rect.unit (s := S5000x128) ![0, 0] S5000x128.size inb_S5000x128_S5000x128_0_0
abbrev wholeD6 : Rect S5000x1 := Rect.unit (s := S5000x1) ![0, 0] S5000x1.size inb_S5000x1_S5000x1_0_0
abbrev wholeR6 : Rect S1x128 := Rect.unit (s := S1x128) ![0, 0] S1x128.size inb_S1x128_S1x128_0_0
abbrev wholeW6 : Rect S128x128 := Rect.unit (s := S128x128) ![0, 0] S128x128.size inb_S128x128_S128x128_0_0

/-- What the body leaves in the output's staging buffer: one store of the whole block. The normalised, rectified
    activations (from the feature rows, the degree factors, the bias, the variances, the means, the scale and the shift,
    in the order the body reads them) times the weight, scaled once more by the degree factors (read a second time),
    rounded to bf16. -/
def out6 (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) : Vec F S5000x128 .bf16 :=
  View.canon [⟨whole6, k6_pay1 (k6_pay2 (View.ld x whole6) (View.ld dv wholeD6) (View.ld b wholeR6) (View.ld var wholeR6) (View.ld mean wholeR6) (View.ld gamma wholeR6) (View.ld beta wholeR6) (View.ld w wholeW6)) (k6_pay3 (View.ld dv wholeD6))⟩]

theorem out6_cover (p0 : Vec F S5000x128 .bf16) (y : S5000x128.Idx) :
    ∃ pc ∈ ([⟨whole6, p0⟩] : List (View.Piece (Elt F) S5000x128 .bf16)), y ∈ pc.1.set :=
  View.cover_of_tiled [⟨whole6, p0⟩] S5000x128.size (by rfl) y

set_option maxHeartbeats 1000000 in
/-- The body on whole staging memrefs: the eight inputs are read and kept, the output ends at the stored block. -/
theorem run_body6 (c : Dev nD) (E : Set ℕ) (i : grid6.Coords)
    (a1 : Memref sig .tc .vmem S5000x128 .f32) (h1 : a1.IsWhole) (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S128x128 .f32) (h8 : a8.IsWhole) (a9 : Memref sig .tc .vmem S5000x128 .bf16) (h9 : a9.IsWhole)
    (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) (K : PUnit → sProp 𝕄) :
    iprop(owns (c : Thread nD τ) a1 fullShare x ∗ owns (c : Thread nD τ) a2 fullShare dv ∗ owns (c : Thread nD τ) a3 fullShare b ∗ owns (c : Thread nD τ) a4 fullShare mean
        ∗ owns (c : Thread nD τ) a5 fullShare var ∗ owns (c : Thread nD τ) a6 fullShare gamma ∗ owns (c : Thread nD τ) a7 fullShare beta ∗ owns (c : Thread nD τ) a8 fullShare w
        ∗ (∃ d, owns (c : Thread nD τ) a9 fullShare d)
        ∗ (iprop(owns (c : Thread nD τ) a1 fullShare x ∗ owns (c : Thread nD τ) a2 fullShare dv ∗ owns (c : Thread nD τ) a3 fullShare b ∗ owns (c : Thread nD τ) a4 fullShare mean
            ∗ owns (c : Thread nD τ) a5 fullShare var ∗ owns (c : Thread nD τ) a6 fullShare gamma ∗ owns (c : Thread nD τ) a7 fullShare beta ∗ owns (c : Thread nD τ) a8 fullShare w
            ∗ owns (c : Thread nD τ) a9 fullShare (out6 x dv b mean var gamma beta w)) -∗ K ⟨⟩))
      ⊢ wp frame (wpE (defs₀ (F := F)) Variants.none c none) E (cc6__fused_bn_matmul_kernel i a1 h1 a2 h2 a3 h3 a4 h4 a5 h5 a6 h6 a7 h7 a8 h8 a9 h9) K := by
  simp only [cc6__fused_bn_matmul_kernel_eq_skeleton]; unfold cc6__fused_bn_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (out6_cover _)

/-- The proof data of region 6 on core c: the arrays as found; after the body each input buffer at its block and the
    output buffer at the stored block computed from the point's input blocks; the untouched scoped rest as invariant;
    nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => blk6 V c 5 t
    | ⟨6, _⟩ => blk6 V c 6 t
    | ⟨7, _⟩ => blk6 V c 7 t
    | ⟨8, _⟩ => out6 (blk6 V c 0 t) (blk6 V c 1 t) (blk6 V c 2 t) (blk6 V c 3 t) (blk6 V c 4 t) (blk6 V c 5 t) (blk6 V c 6 t) (blk6 V c 7 t)
  Φ _ := Pipeline.ΦA spec6 c
  q _ := fullShare
  owed _ := 0

theorem dat6_A (c : Dev nD) (w : Fin cfg6.W) : (dat6 V c).A w = V c (Pipeline.arrRef spec6 w) := by dsimp only [dat6]
theorem dat6_after0 (c : Dev nD) (t : Fin cfg6.N) : (dat6 V c).after 0 t = blk6 V c 0 t := by dsimp only [dat6]
theorem dat6_after1 (c : Dev nD) (t : Fin cfg6.N) : (dat6 V c).after 1 t = blk6 V c 1 t := by dsimp only [dat6]
theorem dat6_after2 (c : Dev nD) (t : Fin cfg6.N) : (dat6 V c).after 2 t = blk6 V c 2 t := by dsimp only [dat6]
theorem dat6_after3 (c : Dev nD) (t : Fin cfg6.N) : (dat6 V c).after 3 t = blk6 V c 3 t := by dsimp only [dat6]
theorem dat6_after4 (c : Dev nD) (t : Fin cfg6.N) : (dat6 V c).after 4 t = blk6 V c 4 t := by dsimp only [dat6]
theorem dat6_after5 (c : Dev nD) (t : Fin cfg6.N) : (dat6 V c).after 5 t = blk6 V c 5 t := by dsimp only [dat6]
theorem dat6_after6 (c : Dev nD) (t : Fin cfg6.N) : (dat6 V c).after 6 t = blk6 V c 6 t := by dsimp only [dat6]
theorem dat6_after7 (c : Dev nD) (t : Fin cfg6.N) : (dat6 V c).after 7 t = blk6 V c 7 t := by dsimp only [dat6]
/-- The output's staging buffer after the body at point t: the stored block of the point's eight input blocks. -/
theorem dat6_after_out (c : Dev nD) (t : Fin cfg6.N) :
    (dat6 V c).after 8 t = out6 (blk6 V c 0 t) (blk6 V c 1 t) (blk6 V c 2 t) (blk6 V c 3 t) (blk6 V c 4 t) (blk6 V c 5 t) (blk6 V c 6 t) (blk6 V c 7 t) := by dsimp only [dat6]

theorem dat6_before0 (c : Dev nD) (t : Fin cfg6.N) (d) : (dat6 V c).before 0 t d = blk6 V c 0 t :=
  before6_0_in V (dat6 V c) (dat6_A V c 0) (dat6_after0 V c) t d
theorem dat6_before1 (c : Dev nD) (t : Fin cfg6.N) (d) : (dat6 V c).before 1 t d = blk6 V c 1 t :=
  before6_1_in V (dat6 V c) (dat6_A V c 1) (dat6_after1 V c) t d
theorem dat6_before2 (c : Dev nD) (t : Fin cfg6.N) (d) : (dat6 V c).before 2 t d = blk6 V c 2 t :=
  before6_2_in V (dat6 V c) (dat6_A V c 2) (dat6_after2 V c) t d
theorem dat6_before3 (c : Dev nD) (t : Fin cfg6.N) (d) : (dat6 V c).before 3 t d = blk6 V c 3 t :=
  before6_3_in V (dat6 V c) (dat6_A V c 3) (dat6_after3 V c) t d
theorem dat6_before4 (c : Dev nD) (t : Fin cfg6.N) (d) : (dat6 V c).before 4 t d = blk6 V c 4 t :=
  before6_4_in V (dat6 V c) (dat6_A V c 4) (dat6_after4 V c) t d
theorem dat6_before5 (c : Dev nD) (t : Fin cfg6.N) (d) : (dat6 V c).before 5 t d = blk6 V c 5 t :=
  before6_5_in V (dat6 V c) (dat6_A V c 5) (dat6_after5 V c) t d
theorem dat6_before6 (c : Dev nD) (t : Fin cfg6.N) (d) : (dat6 V c).before 6 t d = blk6 V c 6 t :=
  before6_6_in V (dat6 V c) (dat6_A V c 6) (dat6_after6 V c) t d
theorem dat6_before7 (c : Dev nD) (t : Fin cfg6.N) (d) : (dat6 V c).before 7 t d = blk6 V c 7 t :=
  before6_7_in V (dat6 V c) (dat6_A V c 7) (dat6_after7 V c) t d

/-- What the body is handed at point t, window by window, and what it gives back. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [dat6_before0, dat6_before1, dat6_before2, dat6_before3, dat6_before4, dat6_before5, dat6_before6, dat6_before7]
  rw [show (dat6 V c).Φ t.succ = (dat6 V c).Φ t.castSucc from rfl,
    show (dat6 V c).owesAt () t.succ = (dat6 V c).owesAt () t.castSucc from rfl,
    dat6_after0, dat6_after1, dat6_after2, dat6_after3, dat6_after4, dat6_after5, dat6_after6, dat6_after7, dat6_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body6 c Set.univ _ _ _ _ _ _ _ _ _ _ _ _ _ _ _ _ _ _ _ (blk6 V c 0 t) (blk6 V c 1 t) (blk6 V c 2 t) (blk6 V c 3 t) (blk6 V c 4 t) (blk6 V c 5 t) (blk6 V c 6 t) (blk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Reg7.lean ====
/-
  Region 7: the two-layer feed-forward head, with the last graph layer's scaling and bias folded into its start.
  At grid point t the body reads rows 1024·t … 1024·t+1023 of the gathered pre-activation rows (window 0, 1024×128) and
  of their inverse-square-root degrees (window 1, 1024×1), and five blocks that are the same at every point: the graph
  layer's bias (window 2, 1×128), the first feed-forward weight (window 3, 128×128) and bias (window 4, 1×128), the
  second feed-forward weight with its columns zero-padded to 128 (window 5, 128×128) and its bias padded likewise
  (window 6, 1×128). With  u = x ⊙ dinv + b  (each row scaled by its node's factor, the bias added to every row), it
  writes to the matching 1024 rows of the output (window 7) the block
      bf16( max( bf16(u) · bf16(W1) + b1 , 0 ) ) · bf16(W2) + b2'
  both matrix products accumulated in f32 from zero. Every point writes its own rows; nothing is carried from one point
  to the next.
  Stated at a parameter V: the contents of the core's buffers when the region is entered.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, whether or not it was fetched there:
    when it was not (windows 2 to 6 after the first point), the block index has not moved since the last fetch. One
    statement per input window (the block's index type is the literal shape only at a literal window). -/
theorem before7_0_in {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem before7_1_in {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem before7_2_in {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem before7_3_in {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)
theorem before7_4_in {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)
theorem before7_5_in {c : Dev nD} (dat : Dat τ (Elt F) Unit ℕ (UR sig nD τ) ℕ cfg7 c) (hA : dat.A 5 = V c (Pipeline.arrRef spec7 5))
    (hafter : ∀ t, dat.after 5 t = blk7 V c 5 t) (t : Fin cfg7.N) (d) : dat.before 5 t d = blk7 V c 5 t :=
  (dat.before_in_eq_fetched 5 rfl (fun _ => rfl) (fun _ _ _ => rfl) (fun t => by rw [hafter]; unfold Dat.blockOf blk7; rw [hA]; try rfl) t d).trans
    (by unfold Dat.fetched Dat.blockOf blk7; rw [hA]; try rfl)
theorem before7_6_in {c : Dev nD} (dat : Dat τ (Elt F) Unit ℕ (UR sig nD τ) ℕ cfg7 c) (hA : dat.A 6 = V c (Pipeline.arrRef spec7 6))
    (hafter : ∀ t, dat.after 6 t = blk7 V c 6 t) (t : Fin cfg7.N) (d) : dat.before 6 t d = blk7 V c 6 t :=
  (dat.before_in_eq_fetched 6 rfl (fun _ => rfl) (fun _ _ _ => rfl) (fun t => by rw [hafter]; unfold Dat.blockOf blk7; rw [hA]; try rfl) t d).trans
    (by unfold Dat.fetched Dat.blockOf blk7; rw [hA]; try rfl)

/-- Each staging buffer as one rectangle: the body loads and stores whole buffers. Four shapes occur: the row block,
    the column of factors, a single row (the three biases), a square weight. -/
abbrev whole7 : Rect S1024x128 := Rect.unit (s := S1024x128) ![0, 0] S1024x128.size inb_S1024x128_S1024x128_0_0
abbrev wholeD7 : Rect S1024x1 := Rect.unit (s := S1024x1) ![0, 0] S1024x1.size inb_S1024x1_S1024x1_0_0
abbrev wholeB7 : Rect S1x128 := Rect.unit (s := S1x128) ![0, 0] S1x128.size inb_S1x128_S1x128_0_0
abbrev wholeW7 : Rect S128x128 := Rect.unit (s := S128x128) ![0, 0] S128x128.size inb_S128x128_S128x128_0_0

/-- What the body leaves in the output's staging buffer: one store of the whole block, the feed-forward head applied
    to the point's rows (x, their factors dv) with the graph bias b2, first layer (w1, b1) and second layer (w2, bo). -/
def ffn7 (x : Vec F S1024x128 .f32) (dv : Vec F S1024x1 .f32) (b2 : Vec F S1x128 .f32) (w1 : Vec F S128x128 .f32) (b1 : Vec F S1x128 .f32) (w2 : Vec F S128x128 .f32) (bo : Vec F S1x128 .f32) : Vec F S1024x128 .f32 :=
  View.canon [⟨whole7, k7_pay1 (View.ld x whole7) (View.ld dv wholeD7) (View.ld b2 wholeB7) (View.ld w1 wholeW7) (View.ld b1 wholeB7) (View.ld w2 wholeW7) (View.ld bo wholeB7)⟩]

theorem ffn7_cover (p0 : Vec F S1024x128 .f32) (y : S1024x128.Idx) :
    ∃ pc ∈ ([⟨whole7, p0⟩] : List (View.Piece (Elt F) S1024x128 .f32)), y ∈ pc.1.set :=
  View.cover_of_tiled [⟨whole7, p0⟩] S1024x128.size (by rfl) y

set_option maxHeartbeats 1000000 in
/-- The body on whole staging memrefs: the seven inputs are read and kept, the output ends at the head's value. -/
theorem run_body7 (c : Dev nD) (E : Set ℕ) (i : grid7.Coords)
    (a1 : Memref sig .tc .vmem S1024x128 .f32) (h1 : a1.IsWhole) (a2 : Memref sig .tc .vmem S1024x1 .f32) (h2 : a2.IsWhole) (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S1024x128 .f32) (h8 : a8.IsWhole)
    (x : Vec F S1024x128 .f32) (dv : Vec F S1024x1 .f32) (b2 : Vec F S1x128 .f32) (w1 : Vec F S128x128 .f32) (b1 : Vec F S1x128 .f32) (w2 : Vec F S128x128 .f32) (bo : Vec F S1x128 .f32) (K : PUnit → sProp 𝕄) :
    iprop(owns (c : Thread nD τ) a1 fullShare x ∗ owns (c : Thread nD τ) a2 fullShare dv ∗ owns (c : Thread nD τ) a3 fullShare b2 ∗ owns (c : Thread nD τ) a4 fullShare w1 ∗ owns (c : Thread nD τ) a5 fullShare b1 ∗ owns (c : Thread nD τ) a6 fullShare w2 ∗ owns (c : Thread nD τ) a7 fullShare bo
        ∗ (∃ d, owns (c : Thread nD τ) a8 fullShare d)
        ∗ (iprop(owns (c : Thread nD τ) a1 fullShare x ∗ owns (c : Thread nD τ) a2 fullShare dv ∗ owns (c : Thread nD τ) a3 fullShare b2 ∗ owns (c : Thread nD τ) a4 fullShare w1 ∗ owns (c : Thread nD τ) a5 fullShare b1 ∗ owns (c : Thread nD τ) a6 fullShare w2 ∗ owns (c : Thread nD τ) a7 fullShare bo
            ∗ owns (c : Thread nD τ) a8 fullShare (ffn7 x dv b2 w1 b1 w2 bo)) -∗ K ⟨⟩))
      ⊢ wp frame (wpE (defs₀ (F := F)) Variants.none c none) E (cc7__ffn_kernel i a1 h1 a2 h2 a3 h3 a4 h4 a5 h5 a6 h6 a7 h7 a8 h8) K := by
  simp only [cc7__ffn_kernel_eq_skeleton]; unfold cc7__ffn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (ffn7_cover _)

/-- The proof data of region 7 on core c: the arrays as found; after the body each input buffer at its block and the
    output buffer at the head's value on the point's blocks; the untouched scoped rest as invariant; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => blk7 V c 5 t
    | ⟨6, _⟩ => blk7 V c 6 t
    | ⟨7, _⟩ => ffn7 (blk7 V c 0 t) (blk7 V c 1 t) (blk7 V c 2 t) (blk7 V c 3 t) (blk7 V c 4 t) (blk7 V c 5 t) (blk7 V c 6 t)
  Φ _ := Pipeline.ΦA spec7 c
  q _ := fullShare
  owed _ := 0

theorem dat7_A (c : Dev nD) (w : Fin cfg7.W) : (dat7 V c).A w = V c (Pipeline.arrRef spec7 w) := by dsimp only [dat7]
theorem dat7_after0 (c : Dev nD) (t : Fin cfg7.N) : (dat7 V c).after 0 t = blk7 V c 0 t := by dsimp only [dat7]
theorem dat7_after1 (c : Dev nD) (t : Fin cfg7.N) : (dat7 V c).after 1 t = blk7 V c 1 t := by dsimp only [dat7]
theorem dat7_after2 (c : Dev nD) (t : Fin cfg7.N) : (dat7 V c).after 2 t = blk7 V c 2 t := by dsimp only [dat7]
theorem dat7_after3 (c : Dev nD) (t : Fin cfg7.N) : (dat7 V c).after 3 t = blk7 V c 3 t := by dsimp only [dat7]
theorem dat7_after4 (c : Dev nD) (t : Fin cfg7.N) : (dat7 V c).after 4 t = blk7 V c 4 t := by dsimp only [dat7]
theorem dat7_after5 (c : Dev nD) (t : Fin cfg7.N) : (dat7 V c).after 5 t = blk7 V c 5 t := by dsimp only [dat7]
theorem dat7_after6 (c : Dev nD) (t : Fin cfg7.N) : (dat7 V c).after 6 t = blk7 V c 6 t := by dsimp only [dat7]
theorem dat7_after_out (c : Dev nD) (t : Fin cfg7.N) :
    (dat7 V c).after 7 t = ffn7 (blk7 V c 0 t) (blk7 V c 1 t) (blk7 V c 2 t) (blk7 V c 3 t) (blk7 V c 4 t) (blk7 V c 5 t) (blk7 V c 6 t) := by dsimp only [dat7]

theorem dat7_before0 (c : Dev nD) (t : Fin cfg7.N) (d) : (dat7 V c).before 0 t d = blk7 V c 0 t :=
  before7_0_in V (dat7 V c) (dat7_A V c 0) (dat7_after0 V c) t d
theorem dat7_before1 (c : Dev nD) (t : Fin cfg7.N) (d) : (dat7 V c).before 1 t d = blk7 V c 1 t :=
  before7_1_in V (dat7 V c) (dat7_A V c 1) (dat7_after1 V c) t d
theorem dat7_before2 (c : Dev nD) (t : Fin cfg7.N) (d) : (dat7 V c).before 2 t d = blk7 V c 2 t :=
  before7_2_in V (dat7 V c) (dat7_A V c 2) (dat7_after2 V c) t d
theorem dat7_before3 (c : Dev nD) (t : Fin cfg7.N) (d) : (dat7 V c).before 3 t d = blk7 V c 3 t :=
  before7_3_in V (dat7 V c) (dat7_A V c 3) (dat7_after3 V c) t d
theorem dat7_before4 (c : Dev nD) (t : Fin cfg7.N) (d) : (dat7 V c).before 4 t d = blk7 V c 4 t :=
  before7_4_in V (dat7 V c) (dat7_A V c 4) (dat7_after4 V c) t d
theorem dat7_before5 (c : Dev nD) (t : Fin cfg7.N) (d) : (dat7 V c).before 5 t d = blk7 V c 5 t :=
  before7_5_in V (dat7 V c) (dat7_A V c 5) (dat7_after5 V c) t d
theorem dat7_before6 (c : Dev nD) (t : Fin cfg7.N) (d) : (dat7 V c).before 6 t d = blk7 V c 6 t :=
  before7_6_in V (dat7 V c) (dat7_A V c 6) (dat7_after6 V c) t d

/-- What the body is handed at point t, window by window, and what it gives back. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [dat7_before0, dat7_before1, dat7_before2, dat7_before3, dat7_before4, dat7_before5, dat7_before6]
  rw [show (dat7 V c).Φ t.succ = (dat7 V c).Φ t.castSucc from rfl,
    show (dat7 V c).owesAt () t.succ = (dat7 V c).owesAt () t.castSucc from rfl,
    dat7_after0, dat7_after1, dat7_after2, dat7_after3, dat7_after4, dat7_after5, dat7_after6, dat7_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body7 c Set.univ _ _ _ _ _ _ _ _ _ _ _ _ _ _ _ _ _ (blk7 V c 0 t) (blk7 V c 1 t) (blk7 V c 2 t) (blk7 V c 3 t) (blk7 V c 4 t) (blk7 V c 5 t) (blk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KB.Stages.lean ====
/-
  The contents of a core's buffers at each of the eighteen boundaries of @main: the launch memory, each host stretch
  applied in turn, and across each kernel region the region's arrays replaced by what its write-backs leave (an input
  window's array as entered, the output window's array at the folded write-backs of its blocks).
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.KB.Reg0
import proofs.«161886_j5566277616090_2_alg».proof.Proof.KB.Reg1
import proofs.«161886_j5566277616090_2_alg».proof.Proof.KB.Reg2
import proofs.«161886_j5566277616090_2_alg».proof.Proof.KB.Reg3
import proofs.«161886_j5566277616090_2_alg».proof.Proof.KB.Reg4
import proofs.«161886_j5566277616090_2_alg».proof.Proof.KB.Reg5
import proofs.«161886_j5566277616090_2_alg».proof.Proof.KB.Reg6
import proofs.«161886_j5566277616090_2_alg».proof.Proof.KB.Reg7
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! The contents of core c's buffers at each boundary of @main: the launch memory, then each host stretch applied,
    then each region's arrays replaced by what its write-backs leave. -/

/-- Core c's buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- At region 0's exit: its arrays at what the pipeline leaves (inputs as entered, the output's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the host stretch `hostOps1`. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit: its arrays at what the pipeline leaves (inputs as entered, the output's write-backs folded),
    every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- At region 2's exit: its arrays at what the pipeline leaves (inputs as entered, the output's write-backs folded),
    every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)
/-- At region 3's exit: its arrays at what the pipeline leaves (inputs as entered, the output's write-backs folded),
    every other buffer as entered. -/
def W6 (c : Dev nD) : Valuation τ sig (Elt F) :=
  Pipeline.withArrays spec3 c (W5 m c) fun w => (dat3 (E5 m) c).arrAt w cfg3.N
theorem W6_arr (c : Dev nD) (w : Fin cfg3.W) :
    W6 m c (Proc.devRef .tc (Pipeline.arrRef spec3 w)) = (dat3 (E5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
abbrev E6 : (c : Dev nD) → (b : Ref sig .tc) → Buf (Elt F) ((c : Thread nD τ).loc b) := fun c b => W6 m c b
theorem hF3 (c : Dev nD) (w : Fin cfg3.W) : (dat3 (E5 m) c).arrAt w cfg3.N = E6 m c (Pipeline.arrRef spec3 w) :=
  (W6_arr m c w).symm
theorem hrest3 (c : Dev nD) : ∀ b, b ∉ Finset.univ.image (Pipeline.arrRef spec3) → E6 m c b = E5 m c b :=
  fun b hb => W6_of_ne m c b fun w e => hb (Finset.mem_image.mpr ⟨w, Finset.mem_univ _, e⟩)
/-- After the host stretch `hostOps4`. -/
abbrev W7 (c : Dev nD) : Valuation τ sig (Elt F) := StableHlo.after hostOps4 (W6 m c)
abbrev E7 : (c : Dev nD) → (b : Ref sig .tc) → Buf (Elt F) ((c : Thread nD τ).loc b) := fun c b => W7 m c b
/-- At region 4's exit: its arrays at what the pipeline leaves (inputs as entered, the output's write-backs folded),
    every other buffer as entered. -/
def W8 (c : Dev nD) : Valuation τ sig (Elt F) :=
  Pipeline.withArrays spec4 c (W7 m c) fun w => (dat4 (E7 m) c).arrAt w cfg4.N
theorem W8_arr (c : Dev nD) (w : Fin cfg4.W) :
    W8 m c (Proc.devRef .tc (Pipeline.arrRef spec4 w)) = (dat4 (E7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev E8 : (c : Dev nD) → (b : Ref sig .tc) → Buf (Elt F) ((c : Thread nD τ).loc b) := fun c b => W8 m c b
theorem hF4 (c : Dev nD) (w : Fin cfg4.W) : (dat4 (E7 m) c).arrAt w cfg4.N = E8 m c (Pipeline.arrRef spec4 w) :=
  (W8_arr m c w).symm
theorem hrest4 (c : Dev nD) : ∀ b, b ∉ Finset.univ.image (Pipeline.arrRef spec4) → E8 m c b = E7 m c b :=
  fun b hb => W8_of_ne m c b fun w e => hb (Finset.mem_image.mpr ⟨w, Finset.mem_univ _, e⟩)
/-- At region 5's exit: its arrays at what the pipeline leaves (inputs as entered, the output's write-backs folded),
    every other buffer as entered. -/
def W9 (c : Dev nD) : Valuation τ sig (Elt F) :=
  Pipeline.withArrays spec5 c (W8 m c) fun w => (dat5 (E8 m) c).arrAt w cfg5.N
theorem W9_arr (c : Dev nD) (w : Fin cfg5.W) :
    W9 m c (Proc.devRef .tc (Pipeline.arrRef spec5 w)) = (dat5 (E8 m) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) := by
  unfold W9; exact Pipeline.withArrays_of_ne spec5 c _ _ b hb
abbrev E9 : (c : Dev nD) → (b : Ref sig .tc) → Buf (Elt F) ((c : Thread nD τ).loc b) := fun c b => W9 m c b
theorem hF5 (c : Dev nD) (w : Fin cfg5.W) : (dat5 (E8 m) c).arrAt w cfg5.N = E9 m c (Pipeline.arrRef spec5 w) :=
  (W9_arr m c w).symm
theorem hrest5 (c : Dev nD) : ∀ b, b ∉ Finset.univ.image (Pipeline.arrRef spec5) → E9 m c b = E8 m c b :=
  fun b hb => W9_of_ne m c b fun w e => hb (Finset.mem_image.mpr ⟨w, Finset.mem_univ _, e⟩)
/-- At region 6's exit: its arrays at what the pipeline leaves (inputs as entered, the output's write-backs folded),
    every other buffer as entered. -/
def W10 (c : Dev nD) : Valuation τ sig (Elt F) :=
  Pipeline.withArrays spec6 c (W9 m c) fun w => (dat6 (E9 m) c).arrAt w cfg6.N
theorem W10_arr (c : Dev nD) (w : Fin cfg6.W) :
    W10 m c (Proc.devRef .tc (Pipeline.arrRef spec6 w)) = (dat6 (E9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
abbrev E10 : (c : Dev nD) → (b : Ref sig .tc) → Buf (Elt F) ((c : Thread nD τ).loc b) := fun c b => W10 m c b
theorem hF6 (c : Dev nD) (w : Fin cfg6.W) : (dat6 (E9 m) c).arrAt w cfg6.N = E10 m c (Pipeline.arrRef spec6 w) :=
  (W10_arr m c w).symm
theorem hrest6 (c : Dev nD) : ∀ b, b ∉ Finset.univ.image (Pipeline.arrRef spec6) → E10 m c b = E9 m c b :=
  fun b hb => W10_of_ne m c b fun w e => hb (Finset.mem_image.mpr ⟨w, Finset.mem_univ _, e⟩)
/-- After the host stretch `hostOps7`. -/
abbrev W11 (c : Dev nD) : Valuation τ sig (Elt F) := StableHlo.after hostOps7 (W10 m c)
abbrev E11 : (c : Dev nD) → (b : Ref sig .tc) → Buf (Elt F) ((c : Thread nD τ).loc b) := fun c b => W11 m c b
/-- After the host stretch `hostOps7_1`. -/
abbrev W12 (c : Dev nD) : Valuation τ sig (Elt F) := StableHlo.after hostOps7_1 (W11 m c)
abbrev E12 : (c : Dev nD) → (b : Ref sig .tc) → Buf (Elt F) ((c : Thread nD τ).loc b) := fun c b => W12 m c b
/-- After the host stretch `hostOps7_2`. -/
abbrev W13 (c : Dev nD) : Valuation τ sig (Elt F) := StableHlo.after hostOps7_2 (W12 m c)
abbrev E13 : (c : Dev nD) → (b : Ref sig .tc) → Buf (Elt F) ((c : Thread nD τ).loc b) := fun c b => W13 m c b
/-- After the host stretch `hostOps7_3`. -/
abbrev W14 (c : Dev nD) : Valuation τ sig (Elt F) := StableHlo.after hostOps7_3 (W13 m c)
abbrev E14 : (c : Dev nD) → (b : Ref sig .tc) → Buf (Elt F) ((c : Thread nD τ).loc b) := fun c b => W14 m c b
/-- After the host stretch `hostOps7_4`. -/
abbrev W15 (c : Dev nD) : Valuation τ sig (Elt F) := StableHlo.after hostOps7_4 (W14 m c)
abbrev E15 : (c : Dev nD) → (b : Ref sig .tc) → Buf (Elt F) ((c : Thread nD τ).loc b) := fun c b => W15 m c b
/-- At region 7's exit: its arrays at what the pipeline leaves (inputs as entered, the output's write-backs folded),
    every other buffer as entered. -/
def W16 (c : Dev nD) : Valuation τ sig (Elt F) :=
  Pipeline.withArrays spec7 c (W15 m c) fun w => (dat7 (E15 m) c).arrAt w cfg7.N
theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev E16 : (c : Dev nD) → (b : Ref sig .tc) → Buf (Elt F) ((c : Thread nD τ).loc b) := fun c b => W16 m c b
theorem hF7 (c : Dev nD) (w : Fin cfg7.W) : (dat7 (E15 m) c).arrAt w cfg7.N = E16 m c (Pipeline.arrRef spec7 w) :=
  (W16_arr m c w).symm
theorem hrest7 (c : Dev nD) : ∀ b, b ∉ Finset.univ.image (Pipeline.arrRef spec7) → E16 m c b = E15 m c b :=
  fun b hb => W16_of_ne m c b fun w e => hb (Finset.mem_image.mpr ⟨w, Finset.mem_univ _, e⟩)
/-- After the host stretch `hostOps8`. -/
abbrev W17 (c : Dev nD) : Valuation τ sig (Elt F) := StableHlo.after hostOps8 (W16 m c)
abbrev E17 : (c : Dev nD) → (b : Ref sig .tc) → Buf (Elt F) ((c : Thread nD τ).loc b) := fun c b => W17 m c b

end Cert.Kernel.Hand

end
-- ==== Proof.KB.Recs.lean ====
/-
  Each kernel region as a segment of @main over one thread state: every unscoped buffer at the boundary's contents, the
  generator register at some state, nothing owed. On entry the region's arrays are split out of the unscoped buffers; on
  exit they are put back at their exit contents. The four regions that accumulate in a scratch enter and leave their own
  invariant through the class invariant (the scratch at anything before the first point and after the last).
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.KB.Stages
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- No pipeline has a prefetched table. -/
abbrev adm : (p : Fin 8) → (pcfgs (F := F) p).Adm := fun p => (cfgs p).toPCfg_adm
/-- Every pipeline's proof data, each at its region's entry contents: a literal match, so that at a numeral it reduces
    to that region's data. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E5 m) c
  | ⟨4, _⟩ => fun c => dat4 (E7 m) c
  | ⟨5, _⟩ => fun c => dat5 (E8 m) c
  | ⟨6, _⟩ => fun c => dat6 (E9 m) c
  | ⟨7, _⟩ => fun c => dat7 (E15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

-- unifying a library lemma stated over the pinned configuration with the printed one needs unfolding in a metavariable's type
set_option backward.isDefEq.respectTransparency.types false in
/-- Region 0 over the thread state "every unscoped buffer at the boundary's contents, the generator register at some
    state, nothing owed": entered from stage 1, left at stage 2. Its arrays are split out of the unscoped buffers and put
    back at their exit contents; the register goes into the invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 1 over the thread state "every unscoped buffer at the boundary's contents, the generator register at some
    state, nothing owed": entered from stage 3, left at stage 4. Its arrays are split out of the unscoped buffers and put
    back at their exit contents; the register goes into the invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 2 over the thread state "every unscoped buffer at the boundary's contents, the generator register at some
    state, nothing owed": entered from stage 4, left at stage 5. Its arrays are split out of the unscoped buffers and put
    back at their exit contents; the register goes into the invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E4 m) c)
    unfold Pipeline.ΦA
    iintro ⟨Hp, -, Hr⟩
    isplitl [Hr]; · iexact Hr
    iexact Hp
  hout c := by
    rw [Pipeline.ownSems0_none]
    refine (hout2 (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 3 over the thread state "every unscoped buffer at the boundary's contents, the generator register at some
    state, nothing owed": entered from stage 5, left at stage 6. Its arrays are split out of the unscoped buffers and put
    back at their exit contents; the register goes into the invariant and comes back; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E5 m c) (E6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 4 over the thread state "every unscoped buffer at the boundary's contents, the generator register at some
    state, nothing owed": entered from stage 7, left at stage 8. Its arrays are split out of the unscoped buffers and put
    back at their exit contents; the register goes into the invariant and comes back; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (E7 m) c)
    unfold Pipeline.ΦA
    iintro ⟨Hp, -, Hr⟩
    isplitl [Hr]; · iexact Hr
    iexact Hp
  hout c := by
    rw [Pipeline.ownSems0_none]
    refine (hout4 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E7 m c) (E8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 5 over the thread state "every unscoped buffer at the boundary's contents, the generator register at some
    state, nothing owed": entered from stage 8, left at stage 9. Its arrays are split out of the unscoped buffers and put
    back at their exit contents; the register goes into the invariant and comes back; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E8 m) c).loose
  hwaits := Pipeline.hwaits_of_owed_zero _ _ _ _ L lv 5 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec5 c (E8 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (E8 m) c)
    unfold Pipeline.ΦA
    iintro ⟨Hp, -, Hr⟩
    isplitl [Hr]; · iexact Hr
    iexact Hp
  hout c := by
    rw [Pipeline.ownSems0_none]
    refine (hout5 (E8 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E8 m c) (E9 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 6 over the thread state "every unscoped buffer at the boundary's contents, the generator register at some
    state, nothing owed": entered from stage 9, left at stage 10. Its arrays are split out of the unscoped buffers and put
    back at their exit contents; the register goes into the invariant and comes back; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E9 m) c).loose
  hwaits := Pipeline.hwaits_of_owed_zero _ _ _ _ L lv 6 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec6 c (E9 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E9 m c) (E10 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 7 over the thread state "every unscoped buffer at the boundary's contents, the generator register at some
    state, nothing owed": entered from stage 15, left at stage 16. Its arrays are split out of the unscoped buffers and put
    back at their exit contents; the register goes into the invariant and comes back; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Args.lean ====
/-
  Nothing writes an argument. Across a region only its output array changes (an input window's array is never written
  back; a buffer no window stages is not the region's); a host stretch changes only the buffers its operations write.
  So a buffer outside all of these holds its launch contents at the last boundary.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Gen.Kernel.Regions
import proofs.«161886_j5566277616090_2_alg».proof.Proof.KB.Stages
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Across region 0 every buffer but its output array keeps its contents: an input window's array is never written
    back, and a buffer no window stages is not the region's to change. -/
theorem across0 (c : Dev nD) (b : Ref sig .tc) (hb : b ≠ main_v20) :
    W2 m c (Proc.devRef .tc b) = W1 m c (Proc.devRef .tc b) := by
  by_cases h : ∃ w, Pipeline.arrRef spec0 w = b
  · obtain ⟨w, rfl⟩ := h
    rw [W2_arr]
    have hw : (cfg0.win w).isOut = false := by
      fin_cases w <;> first | rfl | exact absurd rfl hb
    exact ((dat0 (E1 m) c).arrAt_in w hw _).trans (dat0_A (E1 m) c w)
  · exact W2_of_ne m c b fun w e => h ⟨w, e⟩
/-- Across region 1 every buffer but its output array keeps its contents: an input window's array is never written
    back, and a buffer no window stages is not the region's to change. -/
theorem across1 (c : Dev nD) (b : Ref sig .tc) (hb : b ≠ main_v32) :
    W4 m c (Proc.devRef .tc b) = W3 m c (Proc.devRef .tc b) := by
  by_cases h : ∃ w, Pipeline.arrRef spec1 w = b
  · obtain ⟨w, rfl⟩ := h
    rw [W4_arr]
    have hw : (cfg1.win w).isOut = false := by
      fin_cases w <;> first | rfl | exact absurd rfl hb
    exact ((dat1 (E3 m) c).arrAt_in w hw _).trans (dat1_A (E3 m) c w)
  · exact W4_of_ne m c b fun w e => h ⟨w, e⟩
/-- Across region 2 every buffer but its output array keeps its contents: an input window's array is never written
    back, and a buffer no window stages is not the region's to change. -/
theorem across2 (c : Dev nD) (b : Ref sig .tc) (hb : b ≠ main_v33) :
    W5 m c (Proc.devRef .tc b) = W4 m c (Proc.devRef .tc b) := by
  by_cases h : ∃ w, Pipeline.arrRef spec2 w = b
  · obtain ⟨w, rfl⟩ := h
    rw [W5_arr]
    have hw : (cfg2.win w).isOut = false := by
      fin_cases w <;> first | rfl | exact absurd rfl hb
    exact ((dat2 (E4 m) c).arrAt_in w hw _).trans (dat2_A (E4 m) c w)
  · exact W5_of_ne m c b fun w e => h ⟨w, e⟩
/-- Across region 3 every buffer but its output array keeps its contents: an input window's array is never written
    back, and a buffer no window stages is not the region's to change. -/
theorem across3 (c : Dev nD) (b : Ref sig .tc) (hb : b ≠ main_v34) :
    W6 m c (Proc.devRef .tc b) = W5 m c (Proc.devRef .tc b) := by
  by_cases h : ∃ w, Pipeline.arrRef spec3 w = b
  · obtain ⟨w, rfl⟩ := h
    rw [W6_arr]
    have hw : (cfg3.win w).isOut = false := by
      fin_cases w <;> first | rfl | exact absurd rfl hb
    exact ((dat3 (E5 m) c).arrAt_in w hw _).trans (dat3_A (E5 m) c w)
  · exact W6_of_ne m c b fun w e => h ⟨w, e⟩
/-- Across region 4 every buffer but its output array keeps its contents: an input window's array is never written
    back, and a buffer no window stages is not the region's to change. -/
theorem across4 (c : Dev nD) (b : Ref sig .tc) (hb : b ≠ main_v46) :
    W8 m c (Proc.devRef .tc b) = W7 m c (Proc.devRef .tc b) := by
  by_cases h : ∃ w, Pipeline.arrRef spec4 w = b
  · obtain ⟨w, rfl⟩ := h
    rw [W8_arr]
    have hw : (cfg4.win w).isOut = false := by
      fin_cases w <;> first | rfl | exact absurd rfl hb
    exact ((dat4 (E7 m) c).arrAt_in w hw _).trans (dat4_A (E7 m) c w)
  · exact W8_of_ne m c b fun w e => h ⟨w, e⟩
/-- Across region 5 every buffer but its output array keeps its contents: an input window's array is never written
    back, and a buffer no window stages is not the region's to change. -/
theorem across5 (c : Dev nD) (b : Ref sig .tc) (hb : b ≠ main_v47) :
    W9 m c (Proc.devRef .tc b) = W8 m c (Proc.devRef .tc b) := by
  by_cases h : ∃ w, Pipeline.arrRef spec5 w = b
  · obtain ⟨w, rfl⟩ := h
    rw [W9_arr]
    have hw : (cfg5.win w).isOut = false := by
      fin_cases w <;> first | rfl | exact absurd rfl hb
    exact ((dat5 (E8 m) c).arrAt_in w hw _).trans (dat5_A (E8 m) c w)
  · exact W9_of_ne m c b fun w e => h ⟨w, e⟩
/-- Across region 6 every buffer but its output array keeps its contents: an input window's array is never written
    back, and a buffer no window stages is not the region's to change. -/
theorem across6 (c : Dev nD) (b : Ref sig .tc) (hb : b ≠ main_v48) :
    W10 m c (Proc.devRef .tc b) = W9 m c (Proc.devRef .tc b) := by
  by_cases h : ∃ w, Pipeline.arrRef spec6 w = b
  · obtain ⟨w, rfl⟩ := h
    rw [W10_arr]
    have hw : (cfg6.win w).isOut = false := by
      fin_cases w <;> first | rfl | exact absurd rfl hb
    exact ((dat6 (E9 m) c).arrAt_in w hw _).trans (dat6_A (E9 m) c w)
  · exact W10_of_ne m c b fun w e => h ⟨w, e⟩
/-- Across region 7 every buffer but its output array keeps its contents: an input window's array is never written
    back, and a buffer no window stages is not the region's to change. -/
theorem across7 (c : Dev nD) (b : Ref sig .tc) (hb : b ≠ main_v78) :
    W16 m c (Proc.devRef .tc b) = W15 m c (Proc.devRef .tc b) := by
  by_cases h : ∃ w, Pipeline.arrRef spec7 w = b
  · obtain ⟨w, rfl⟩ := h
    rw [W16_arr]
    have hw : (cfg7.win w).isOut = false := by
      fin_cases w <;> first | rfl | exact absurd rfl hb
    exact ((dat7 (E15 m) c).arrAt_in w hw _).trans (dat7_A (E15 m) c w)
  · exact W16_of_ne m c b fun w e => h ⟨w, e⟩

/-- A buffer that no host stretch writes and that is no region's output array ends as launched. -/
theorem W17_of_untouched (c : Dev nD) (b : Ref sig .tc)
    (h0 : b ∉ hostOps0_W) (h1 : b ∉ hostOps1_W) (h4 : b ∉ hostOps4_W) (h7 : b ∉ hostOps7_W) (h71 : b ∉ hostOps7_1_W)
    (h72 : b ∉ hostOps7_2_W) (h73 : b ∉ hostOps7_3_W) (h74 : b ∉ hostOps7_4_W) (h8 : b ∉ hostOps8_W)
    (ho : b ∉ ([main_v20, main_v32, main_v33, main_v34, main_v46, main_v47, main_v48, main_v78] : List (Ref sig .tc))) :
    W17 m c (Proc.devRef .tc b) = m ((c : Thread nD τ).loc b) := by
  have o0 : b ≠ main_v20 := fun e => ho (by subst e; decide)
  have o1 : b ≠ main_v32 := fun e => ho (by subst e; decide)
  have o2 : b ≠ main_v33 := fun e => ho (by subst e; decide)
  have o3 : b ≠ main_v34 := fun e => ho (by subst e; decide)
  have o4 : b ≠ main_v46 := fun e => ho (by subst e; decide)
  have o5 : b ≠ main_v47 := fun e => ho (by subst e; decide)
  have o6 : b ≠ main_v48 := fun e => ho (by subst e; decide)
  have o7 : b ≠ main_v78 := fun e => ho (by subst e; decide)
  calc W17 m c (Proc.devRef .tc b)
    _ = W16 m c (Proc.devRef .tc b) := StableHlo.after_of_writes_sub hostOps8 _ hostOps8_writes h8
    _ = W15 m c (Proc.devRef .tc b) := across7 m c b o7
    _ = W14 m c (Proc.devRef .tc b) := StableHlo.after_of_writes_sub hostOps7_4 _ hostOps7_4_writes h74
    _ = W13 m c (Proc.devRef .tc b) := StableHlo.after_of_writes_sub hostOps7_3 _ hostOps7_3_writes h73
    _ = W12 m c (Proc.devRef .tc b) := StableHlo.after_of_writes_sub hostOps7_2 _ hostOps7_2_writes h72
    _ = W11 m c (Proc.devRef .tc b) := StableHlo.after_of_writes_sub hostOps7_1 _ hostOps7_1_writes h71
    _ = W10 m c (Proc.devRef .tc b) := StableHlo.after_of_writes_sub hostOps7 _ hostOps7_writes h7
    _ = W9 m c (Proc.devRef .tc b) := across6 m c b o6
    _ = W8 m c (Proc.devRef .tc b) := across5 m c b o5
    _ = W7 m c (Proc.devRef .tc b) := across4 m c b o4
    _ = W6 m c (Proc.devRef .tc b) := StableHlo.after_of_writes_sub hostOps4 _ hostOps4_writes h4
    _ = W5 m c (Proc.devRef .tc b) := across3 m c b o3
    _ = W4 m c (Proc.devRef .tc b) := across2 m c b o2
    _ = W3 m c (Proc.devRef .tc b) := across1 m c b o1
    _ = W2 m c (Proc.devRef .tc b) := StableHlo.after_of_writes_sub hostOps1 _ hostOps1_writes h1
    _ = W1 m c (Proc.devRef .tc b) := across0 m c b o0
    _ = W0 m c (Proc.devRef .tc b) := StableHlo.after_of_writes_sub hostOps0 _ hostOps0_writes h0
    _ = m ((c : Thread nD τ).loc b) := rfl

end Cert.Kernel.Hand

end
-- ==== Proof.KB.Run.lean ====
/-
  The run of @main as seventeen segments — nine host stretches and eight kernel regions — chained through the boundary
  contents: every weakly fair execution terminates, nothing faults, and at the end every unscoped buffer of a core holds
  the last boundary's contents. The frame claim (arguments unchanged) and the named result are read off that.
-/
import proofs.«161886_j5566277616090_2_alg».proof.Proof.Gen.Kernel.Launch
import proofs.«161886_j5566277616090_2_alg».proof.Proof.Gen.Kernel.Skeleton
import proofs.«161886_j5566277616090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Gen.Kernel.Regions
import proofs.«161886_j5566277616090_2_alg».proof.Proof.KB.Recs
import proofs.«161886_j5566277616090_2_alg».proof.Proof.KB.Args
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents W, the register and the empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seventeen items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m), .region (reg2 m), .region (reg3 m),
    .host (hseg hostOps4 hostOps4_sub hostOps4_fresh (W6 m)),
    .region (reg4 m), .region (reg5 m), .region (reg6 m),
    .host (hseg hostOps7 hostOps7_sub hostOps7_fresh (W10 m)),
    .host (hseg hostOps7_1 hostOps7_1_sub hostOps7_1_fresh (W11 m)),
    .host (hseg hostOps7_2 hostOps7_2_sub hostOps7_2_fresh (W12 m)),
    .host (hseg hostOps7_3 hostOps7_3_sub hostOps7_3_fresh (W13 m)),
    .host (hseg hostOps7_4 hostOps7_4_sub hostOps7_4_fresh (W14 m)),
    .region (reg7 m),
    .host (hseg hostOps8 hostOps8_sub hostOps8_fresh (W16 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last stretch's thread state regrouped: the buffers with the register, beside the empty debt. -/
theorem last_regroup (c : Dev nD) :
    (iprop(StableHlo.held (c : Thread nD τ) (Pipeline.ucRefs τ sig) (W17 m c) ∗ R c) : sProp 𝕄)
      ⊢ iprop((StableHlo.held (c : Thread nD τ) (Pipeline.ucRefs τ sig) (W17 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of @main terminates, nothing faulting, and in
    every final memory each unscoped TensorCore buffer holds the last stage's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W17 m c) ∗ ∃ r, prngReg c r))
    (hch := fun c => ⟨.rfl, .rfl, .rfl, .rfl, .rfl, .rfl, .rfl, .rfl, .rfl, .rfl, .rfl, .rfl, .rfl, .rfl, .rfl, .rfl, .rfl, last_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h => h)

/-- Every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨
    (h c _ (mem_uc main_arg0 (by decide))).trans (W17_of_untouched m c main_arg0 (by decide) (by decide) (by decide) (by decide) (by decide) (by decide) (by decide) (by decide) (by decide) (by decide)),
    (h c _ (mem_uc main_arg1 (by decide))).trans (W17_of_untouched m c main_arg1 (by decide) (by decide) (by decide) (by decide) (by decide) (by decide) (by decide) (by decide) (by decide) (by decide)),
    (h c _ (mem_uc main_arg2 (by decide))).trans (W17_of_untouched m c main_arg2 (by decide) (by decide) (by decide) (by decide) (by decide) (by decide) (by decide) (by decide) (by decide) (by decide)),
    (h c _ (mem_uc main_arg3 (by decide))).trans (W17_of_untouched m c main_arg3 (by decide) (by decide) (by decide) (by decide) (by decide) (by decide) (by decide) (by decide) (by decide) (by decide)),
    (h c _ (mem_uc main_arg4 (by decide))).trans (W17_of_untouched m c main_arg4 (by decide) (by decide) (by decide) (by decide) (by decide) (by decide) (by decide) (by decide) (by decide) (by decide)),
    (h c _ (mem_uc main_arg5 (by decide))).trans (W17_of_untouched m c main_arg5 (by decide) (by decide) (by decide) (by decide) (by decide) (by decide) (by decide) (by decide) (by decide) (by decide)),
    (h c _ (mem_uc main_arg6 (by decide))).trans (W17_of_untouched m c main_arg6 (by decide) (by decide) (by decide) (by decide) (by decide) (by decide) (by decide) (by decide) (by decide) (by decide)),
    (h c _ (mem_uc main_arg7 (by decide))).trans (W17_of_untouched m c main_arg7 (by decide) (by decide) (by decide) (by decide) (by decide) (by decide) (by decide) (by decide) (by decide) (by decide)),
    (h c _ (mem_uc main_arg8 (by decide))).trans (W17_of_untouched m c main_arg8 (by decide) (by decide) (by decide) (by decide) (by decide) (by decide) (by decide) (by decide) (by decide) (by decide)),
    (h c _ (mem_uc main_arg9 (by decide))).trans (W17_of_untouched m c main_arg9 (by decide) (by decide) (by decide) (by decide) (by decide) (by decide) (by decide) (by decide) (by decide) (by decide)),
    (h c _ (mem_uc main_arg10 (by decide))).trans (W17_of_untouched m c main_arg10 (by decide) (by decide) (by decide) (by decide) (by decide) (by decide) (by decide) (by decide) (by decide) (by decide)),
    (h c _ (mem_uc main_arg11 (by decide))).trans (W17_of_untouched m c main_arg11 (by decide) (by decide) (by decide) (by decide) (by decide) (by decide) (by decide) (by decide) (by decide) (by decide)),
    (h c _ (mem_uc main_arg12 (by decide))).trans (W17_of_untouched m c main_arg12 (by decide) (by decide) (by decide) (by decide) (by decide) (by decide) (by decide) (by decide) (by decide) (by decide)),
    (h c _ (mem_uc main_arg13 (by decide))).trans (W17_of_untouched m c main_arg13 (by decide) (by decide) (by decide) (by decide) (by decide) (by decide) (by decide) (by decide) (by decide) (by decide)),
    (h c _ (mem_uc main_arg14 (by decide))).trans (W17_of_untouched m c main_arg14 (by decide) (by decide) (by decide) (by decide) (by decide) (by decide) (by decide) (by decide) (by decide) (by decide)),
    (h c _ (mem_uc main_arg15 (by decide))).trans (W17_of_untouched m c main_arg15 (by decide) (by decide) (by decide) (by decide) (by decide) (by decide) (by decide) (by decide) (by decide) (by decide)),
    (h c _ (mem_uc main_arg16 (by decide))).trans (W17_of_untouched m c main_arg16 (by decide) (by decide) (by decide) (by decide) (by decide) (by decide) (by decide) (by decide) (by decide) (by decide))⟩)
    (run_all m ρ)

/-- The result buffer ends at the last boundary's contents, and every argument array as launched. -/
theorem run_val : θ_run defs (onTc (τ := τ) (main (F := F))) ⟨m, fun _ => 0, ρ⟩ (fun r => ∀ c : Dev nD,
      r.2.mem ((c.tc : Thread nD τ).loc main_v79) = W17 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v79 (by decide)),
    (h c _ (mem_uc main_arg0 (by decide))).trans (W17_of_untouched m c main_arg0 (by decide) (by decide) (by decide) (by decide) (by decide) (by decide) (by decide) (by decide) (by decide) (by decide)),
    (h c _ (mem_uc main_arg1 (by decide))).trans (W17_of_untouched m c main_arg1 (by decide) (by decide) (by decide) (by decide) (by decide) (by decide) (by decide) (by decide) (by decide) (by decide)),
    (h c _ (mem_uc main_arg2 (by decide))).trans (W17_of_untouched m c main_arg2 (by decide) (by decide) (by decide) (by decide) (by decide) (by decide) (by decide) (by decide) (by decide) (by decide)),
    (h c _ (mem_uc main_arg3 (by decide))).trans (W17_of_untouched m c main_arg3 (by decide) (by decide) (by decide) (by decide) (by decide) (by decide) (by decide) (by decide) (by decide) (by decide)),
    (h c _ (mem_uc main_arg4 (by decide))).trans (W17_of_untouched m c main_arg4 (by decide) (by decide) (by decide) (by decide) (by decide) (by decide) (by decide) (by decide) (by decide) (by decide)),
    (h c _ (mem_uc main_arg5 (by decide))).trans (W17_of_untouched m c main_arg5 (by decide) (by decide) (by decide) (by decide) (by decide) (by decide) (by decide) (by decide) (by decide) (by decide)),
    (h c _ (mem_uc main_arg6 (by decide))).trans (W17_of_untouched m c main_arg6 (by decide) (by decide) (by decide) (by decide) (by decide) (by decide) (by decide) (by decide) (by decide) (by decide)),
    (h c _ (mem_uc main_arg7 (by decide))).trans (W17_of_untouched m c main_arg7 (by decide) (by decide) (by decide) (by decide) (by decide) (by decide) (by decide) (by decide) (by decide) (by decide)),
    (h c _ (mem_uc main_arg8 (by decide))).trans (W17_of_untouched m c main_arg8 (by decide) (by decide) (by decide) (by decide) (by decide) (by decide) (by decide) (by decide) (by decide) (by decide)),
    (h c _ (mem_uc main_arg9 (by decide))).trans (W17_of_untouched m c main_arg9 (by decide) (by decide) (by decide) (by decide) (by decide) (by decide) (by decide) (by decide) (by decide) (by decide)),
    (h c _ (mem_uc main_arg10 (by decide))).trans (W17_of_untouched m c main_arg10 (by decide) (by decide) (by decide) (by decide) (by decide) (by decide) (by decide) (by decide) (by decide) (by decide)),
    (h c _ (mem_uc main_arg11 (by decide))).trans (W17_of_untouched m c main_arg11 (by decide) (by decide) (by decide) (by decide) (by decide) (by decide) (by decide) (by decide) (by decide) (by decide)),
    (h c _ (mem_uc main_arg12 (by decide))).trans (W17_of_untouched m c main_arg12 (by decide) (by decide) (by decide) (by decide) (by decide) (by decide) (by decide) (by decide) (by decide) (by decide)),
    (h c _ (mem_uc main_arg13 (by decide))).trans (W17_of_untouched m c main_arg13 (by decide) (by decide) (by decide) (by decide) (by decide) (by decide) (by decide) (by decide) (by decide) (by decide)),
    (h c _ (mem_uc main_arg14 (by decide))).trans (W17_of_untouched m c main_arg14 (by decide) (by decide) (by decide) (by decide) (by decide) (by decide) (by decide) (by decide) (by decide) (by decide)),
    (h c _ (mem_uc main_arg15 (by decide))).trans (W17_of_untouched m c main_arg15 (by decide) (by decide) (by decide) (by decide) (by decide) (by decide) (by decide) (by decide) (by decide) (by decide)),
    (h c _ (mem_uc main_arg16 (by decide))).trans (W17_of_untouched m c main_arg16 (by decide) (by decide) (by decide) (by decide) (by decide) (by decide) (by decide) (by decide) (by decide) (by decide))⟩)
    (run_all m ρ)

end Cert.Kernel.Hand

end
-- ==== Proof.KI.Reg0.lean ====
/-
  Region 0: the first layer's product. At grid point t the body reads rows 5000·t … 5000·t+4999 of the node features
  (window 0), the whole 128×128 weight (window 1, the same block at every point) and the matching 5000 rows of the
  inverse-square-root degrees (window 2), and writes the 5000×128 block  (x_block · W) ⊙ dinv_block  (each row scaled
  by its node's factor) to the matching rows of the output (window 3). Every point writes its own rows; nothing is
  carried from one point to the next.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether or not it was fetched there:
    when it was not, the block index has not moved since the last fetch. One statement per input window (the block's
    index type is the literal shape only at a literal window). -/
theorem before0_0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_in {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_in {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Each staging buffer as one rectangle: the body loads and stores whole buffers. -/
abbrev whole0 : Rect S5000x128 := Rect.unit (s := S5000x128) ![0, 0] S5000x128.size inb_S5000x128_S5000x128_0_0
abbrev wholeW0 : Rect S128x128 := Rect.unit (s := S128x128) ![0, 0] S128x128.size inb_S128x128_S128x128_0_0
abbrev wholeD0 : Rect S5000x1 := Rect.unit (s := S5000x1) ![0, 0] S5000x1.size inb_S5000x1_S5000x1_0_0

/-- What the body leaves in the output's staging buffer: one store of the whole block, the scaled product. -/
def prod0 (x : Vec F S5000x128 .f32) (w : Vec F S128x128 .f32) (dv : Vec F S5000x1 .f32) : Vec F S5000x128 .bf16 :=
  View.canon [⟨whole0, k0_pay1 (View.ld x whole0) (View.ld w wholeW0) (View.ld dv wholeD0)⟩]

theorem prod0_cover (p0 : Vec F S5000x128 .bf16) (y : S5000x128.Idx) :
    ∃ pc ∈ ([⟨whole0, p0⟩] : List (View.Piece (Elt F) S5000x128 .bf16)), y ∈ pc.1.set :=
  View.cover_of_tiled [⟨whole0, p0⟩] S5000x128.size (by rfl) y

set_option maxHeartbeats 1000000 in
/-- The body on whole staging memrefs: the three inputs are read and kept, the output ends at the scaled product. -/
theorem run_body0 (c : Dev nD) (E : Set ℕ) (i : grid0.Coords)
    (a1 : Memref sig .tc .vmem S5000x128 .f32) (h1 : a1.IsWhole) (a2 : Memref sig .tc .vmem S128x128 .f32) (h2 : a2.IsWhole)
    (a3 : Memref sig .tc .vmem S5000x1 .f32) (h3 : a3.IsWhole) (a4 : Memref sig .tc .vmem S5000x128 .bf16) (h4 : a4.IsWhole)
    (x : Vec F S5000x128 .f32) (w : Vec F S128x128 .f32) (dv : Vec F S5000x1 .f32) (K : PUnit → sProp 𝕄) :
    iprop(owns (c : Thread nD τ) a1 fullShare x ∗ owns (c : Thread nD τ) a2 fullShare w ∗ owns (c : Thread nD τ) a3 fullShare dv
        ∗ (∃ d, owns (c : Thread nD τ) a4 fullShare d)
        ∗ (iprop(owns (c : Thread nD τ) a1 fullShare x ∗ owns (c : Thread nD τ) a2 fullShare w ∗ owns (c : Thread nD τ) a3 fullShare dv
            ∗ owns (c : Thread nD τ) a4 fullShare (prod0 x w dv)) -∗ K ⟨⟩))
      ⊢ wp frame (wpE (defs₀ (F := F)) Variants.none c none) E (cc0__matmul_scale_kernel i a1 h1 a2 h2 a3 h3 a4 h4) K := by
  simp only [cc0__matmul_scale_kernel_eq_skeleton]; unfold cc0__matmul_scale_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (prod0_cover _)

/-- The proof data of region 0 on core c: the arrays as found; after the body each input buffer at its block and the
    output buffer at the scaled product of the point's blocks; the untouched scoped rest as invariant; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => prod0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = prod0 (blk0 V c 0 t) (blk0 V c 1 t) (blk0 V c 2 t) := by dsimp only [dat0]

theorem dat0_before0 (c : Dev nD) (t : Fin cfg0.N) (d) : (dat0 V c).before 0 t d = blk0 V c 0 t :=
  before0_0_in V (dat0 V c) (dat0_A V c 0) (dat0_after0 V c) t d
theorem dat0_before1 (c : Dev nD) (t : Fin cfg0.N) (d) : (dat0 V c).before 1 t d = blk0 V c 1 t :=
  before0_1_in V (dat0 V c) (dat0_A V c 1) (dat0_after1 V c) t d
theorem dat0_before2 (c : Dev nD) (t : Fin cfg0.N) (d) : (dat0 V c).before 2 t d = blk0 V c 2 t :=
  before0_2_in V (dat0 V c) (dat0_A V c 2) (dat0_after2 V c) t d

/-- What the body is handed at point t, window by window, and what it gives back. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (run_body0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1: the column means. The grid has 10 points; at point t the body reads rows 5000·t … 5000·t+4999 of the
  aggregated features (window 0) and of the inverse-square-root degrees (window 1), and the bias row (window 2, the same
  block at every point). A 1×128 scratch row carries a running sum from point to point: the first point zeroes it; every
  point then adds to it the column sums of its block, each row first scaled by its node's factor and the bias row added;
  the last point stores the sum divided by the number of rows, 50000, into the output's 1×128 buffer (window 3), which
  is written back there and nowhere else. At the nine earlier points the output's buffer is not stored into and goes
  back as it came.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether or not it was fetched there:
    when it was not, the block index has not moved since the last fetch. One statement per input window (the block's
    index type is the literal shape only at a literal window). -/
theorem before1_0_in {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_in {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_in {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- The body's first conditional asks whether the grid coordinate is 0: -/
abbrev isFirst1 (i : grid1.Coords) : Prop := (Scalar.cmpi .ne (Scalar.extui (Scalar.cmpi .eq (BitVec.ofNat 32 (i 0).val) 0#32)) 0#32) = 1#1
/-- true at the first point only. -/
theorem isFirst1_iff : ∀ t : Fin cfg1.N, isFirst1 (grid1.coords t) ↔ t.val % 10 = 0 :=
  (by decide +kernel : ∀ t : Fin grid1.N, isFirst1 (grid1.coords t) ↔ t.val % 10 = 0)
/-- Its second asks whether the coordinate is 9: -/
abbrev isLast1 (i : grid1.Coords) : Prop := k1_cond2 i = 1#1
/-- true at the last point only. -/
theorem isLast1_iff : ∀ t : Fin cfg1.N, isLast1 (grid1.coords t) ↔ t.val % 10 = 9 :=
  (by decide +kernel : ∀ t : Fin grid1.N, isLast1 (grid1.coords t) ↔ t.val % 10 = 9)

/-- The input windows are never idle; the output window is idle exactly where the second conditional is not taken, and
    there the pipeline does not write it back. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem idle1_3_of : ∀ t : Fin cfg1.N, ¬isLast1 (grid1.coords t) → cfg1.idle 3 (grid1.coords t) = true := by decide +kernel
theorem live1_3_of : ∀ t : Fin cfg1.N, isLast1 (grid1.coords t) → cfg1.idle 3 (grid1.coords t) = false := by decide +kernel
theorem noFlush1_3_of : ∀ t : Fin cfg1.N, ¬isLast1 (grid1.coords t) → (cfg1.win 3).flush t = false := by decide +kernel

/-! ## What the body's stores leave -/

/-- Each buffer as one rectangle: the body loads and stores whole buffers. -/
abbrev whole1 : Rect S1x128 := Rect.unit (s := S1x128) ![0, 0] S1x128.size inb_S1x128_S1x128_0_0
abbrev wholeA1 : Rect S5000x128 := Rect.unit (s := S5000x128) ![0, 0] S5000x128.size inb_S5000x128_S5000x128_0_0
abbrev wholeD1 : Rect S5000x1 := Rect.unit (s := S5000x1) ![0, 0] S5000x1.size inb_S5000x1_S5000x1_0_0

/-- The whole-row rectangle holds every index of the row. -/
theorem mem_whole1 (y : S1x128.Idx) : y ∈ whole1.set := by
  obtain ⟨p, hp, hy⟩ := View.cover_of_tiled ([⟨whole1, fun _ => ()⟩] : List (View.Piece (fun _ => Unit) S1x128 .f32)) S1x128.size (by rfl) y
  rw [List.mem_singleton.mp hp] at hy; exact hy

/-- So a list of stores whose last is of the whole row covers the row, -/
theorem cover_whole1 (w : Vec F S1x128 .f32) (L : List (View.Piece (Elt F) S1x128 .f32)) (y : S1x128.Idx) :
    ∃ pc ∈ ((⟨whole1, w⟩ : View.Piece (Elt F) S1x128 .f32) :: L), y ∈ pc.1.set :=
  ⟨_, List.mem_cons_self .., mem_whole1 y⟩

/-- and leaves that store's row, whatever the earlier ones were. -/
theorem canon_cons_whole1 (w : Vec F S1x128 .f32) (L : List (View.Piece (Elt F) S1x128 .f32)) :
    View.canon ((⟨whole1, w⟩ : View.Piece (Elt F) S1x128 .f32) :: L) = View.canon [⟨whole1, w⟩] := by
  funext y
  obtain ⟨x, rfl⟩ := whole1.exists_idx_of_mem (mem_whole1 y)
  exact (View.canon_cons_emb whole1 w L x).trans (View.canon_cons_emb whole1 w [] x).symm

/-- A load of the whole row straight after a store of the whole row reads what that store left. -/
theorem readCov_whole1 {sp : Space} (v : View sig .tc sp S1x128 .f32) (w : Vec F S1x128 .f32) :
    v.readCov [(⟨whole1, w⟩ : View.Piece (Elt F) S1x128 .f32)] whole1.toLoadRect = View.ld (View.canon [⟨whole1, w⟩]) whole1 :=
  View.readCov_eq_canon_ld v _ _ (cover_whole1 _ _)

/-- The row of zeros the first point stores into the scratch. -/
def zero1 : Vec F S1x128 .f32 := View.canon [⟨whole1, k1_pay1 (F := F)⟩]

/-- One point's update of the scratch holding s: s plus the column sums of the block x, each row scaled by its node's
    factor dv and the bias row b added. -/
def step1 (x : Vec F S5000x128 .f32) (dv : Vec F S5000x1 .f32) (b : Vec F S1x128 .f32) (s : Vec F S1x128 .f32) : Vec F S1x128 .f32 :=
  View.canon [⟨whole1, k1_pay2 (View.ld x wholeA1) (View.ld dv wholeD1) (View.ld b whole1) (View.ld s whole1)⟩]

/-- The row the last point stores to the output: the sum s divided by the number of rows, 50000. -/
def mean1 (s : Vec F S1x128 .f32) : Vec F S1x128 .f32 := View.canon [⟨whole1, k1_pay3 (View.ld s whole1)⟩]

set_option maxHeartbeats 1000000 in
/-- The body at the first point, on whole memrefs: the scratch, whatever it held, is zeroed and then updated with the
    point's blocks; the inputs are read and kept; the output's buffer is not touched. -/
theorem run_first1 (c : Dev nD) (E : Set ℕ) (i : grid1.Coords) (hc0 : isFirst1 i) (hc1 : ¬isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ (∃ s, owns (c : Thread nD τ) a5 fullShare s)
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step1 x dv b zero1)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%f4, %hf4, H4⟩, ⟨%s5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_whole1 _ _)).trans ((canon_cons_whole1 _ _).trans ?_)
  exact congrArg (fun z => View.canon [(⟨whole1, k1_pay2 _ _ _ z⟩ : View.Piece (Elt F) S1x128 .f32)]) (readCov_whole1 a5.view k1_pay1)

set_option maxHeartbeats 1000000 in
/-- The body at a point that is neither first nor last: the scratch, holding s, is updated with the point's blocks; the
    inputs are read and kept; the output's buffer is not touched. -/
theorem run_mid1 (c : Dev nD) (E : Set ℕ) (i : grid1.Coords) (hc0 : ¬isFirst1 i) (hc1 : ¬isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step1 x dv b s)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_whole1 _ _)

set_option maxHeartbeats 1000000 in
/-- The body at the last point: the scratch, holding s, is updated with the point's blocks, and the output's buffer,
    whatever it held, is stored with the updated sum divided by the number of rows; the inputs are read and kept. -/
theorem run_last1 (c : Dev nD) (E : Set ℕ) (i : grid1.Coords) (hc0 : ¬isFirst1 i) (hc1 : isLast1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ (∃ d, owns (c : Thread nD τ) a4 fullShare d) ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare (mean1 (step1 x dv b s)) ∗ owns (c : Thread nD τ) a5 fullShare (step1 x dv b s)) -∗ K ⟨⟩))
      ⊢ wp frame (wpE (defs₀ (F := F)) Variants.none c none) E (cc1__mean_kernel i a1 h1 a2 h2 a3 h3 a4 h4 a5 h5) K := by
  simp only [cc1__mean_kernel_eq_skeleton]; unfold cc1__mean_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_whole1 _ _)).trans ?_
    exact congrArg (fun z => View.canon [(⟨whole1, k1_pay3 z⟩ : View.Piece (Elt F) S1x128 .f32)]) (readCov_whole1 a5.view _)
  iexists _; isplitr
  swap; · iexact H5
  ipureintro
  exact View.read_writes_eq_canon _ _ _ (cover_whole1 _ _)

/-! ## The running sum, point by point -/

/-- THE ACCUMULATION: what the scratch holds after the body at point n. At point 0 the zeroed scratch updated with that
    point's blocks; at point n + 1 what point n left, updated with point n + 1's blocks. -/
def acc1 (c : Dev nD) : (n : ℕ) → n < cfg1.N → Vec F S1x128 .f32
  | 0, hn => step1 (blk1 V c 0 ⟨0, hn⟩) (blk1 V c 1 ⟨0, hn⟩) (blk1 V c 2 ⟨0, hn⟩) zero1
  | n + 1, hn => step1 (blk1 V c 0 ⟨n + 1, hn⟩) (blk1 V c 1 ⟨n + 1, hn⟩) (blk1 V c 2 ⟨n + 1, hn⟩) (acc1 c n (Nat.lt_of_succ_lt hn))

theorem acc1_first (c : Dev nD) (t : Fin cfg1.N) (h : t.val = 0) :
    acc1 V c t.val t.isLt = step1 (blk1 V c 0 t) (blk1 V c 1 t) (blk1 V c 2 t) zero1 := by
  obtain ⟨n, hn⟩ := t
  cases n with
  | zero => rfl
  | succ n => exact absurd h (Nat.succ_ne_zero _)

theorem acc1_later (c : Dev nD) (t : Fin cfg1.N) (h : t.val ≠ 0) :
    acc1 V c t.val t.isLt = step1 (blk1 V c 0 t) (blk1 V c 1 t) (blk1 V c 2 t)
      (acc1 V c (t.val - 1) (Nat.lt_of_le_of_lt (Nat.sub_le _ _) t.isLt)) := by
  obtain ⟨n, hn⟩ := t
  cases n with
  | zero => exact absurd rfl h
  | succ n => rfl

/-- The row the region writes to its output: the last point's sum divided by the number of rows. -/
def final1 (c : Dev nD) : Vec F S1x128 .f32 := mean1 (acc1 V c 9 (by rw [show cfg1.N = 10 from N_1]; decide))

/-! ## The invariant between points -/

/-- The kernel's scratch operand: a whole scoped buffer of its own, passed beside the windows. -/
abbrev scM1 : Memref sig .tc .vmem S1x128 .f32 := Memref.whole cc1_scratch0

/-- The core's other scoped buffers, which this region never opens. -/
abbrev others1 (c : Dev nD) : sProp 𝕄 :=
  Pipeline.scopedRestBut (Ix := Unit) (Name := ℕ) (U := UR sig nD τ) (Lvl := ℕ) (Val := Elt F) spec1 c [cc1_scratch0]

/-- What the region is entered with, the scratch picked out of the scoped rest as a memref owned at some contents. -/
theorem PhiA1_eq (c : Dev nD) :
    (Pipeline.ΦA spec1 c : sProp 𝕄)
      = iprop(iprop((∃ d, owns (c : Thread nD τ) scM1 fullShare d) ∗ others1 c) ∗ (∃ r, prngReg c r)) := by
  unfold Pipeline.ΦA; rw [scopedRest1_split]; simp only [scM1, owns_whole]; try rfl

/-- The invariant before point n. Before the first point: what the region is entered with (the scratch at anything).
    Afterwards: the scratch at the running sum the point before left, the other scoped buffers unopened, the generator
    register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ others1 c) ∗ (∃ r, prngReg c r)) := by
  cases n with
  | zero => exact absurd rfl hz
  | succ n => rfl

/-! ## The proof data -/

/-- The proof data of this region on core c: the arrays as found; after the body each input buffer at its block; the
    output buffer, at the last point, at the mean row (at the other points the window is idle and the entry is not
    consulted); the invariant carrying the running sum; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => mean1 (acc1 V c t.val t.isLt)
  Φ t := PhiS1 V c t.val (Nat.le_of_lt_succ t.isLt)
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = mean1 (acc1 V c t.val t.isLt) := by dsimp only [dat1]

/-- At the last point the output's buffer is left at the region's mean row. -/
theorem dat1_after_last (c : Dev nD) (t : Fin cfg1.N) (h : t.val = 9) : (dat1 V c).after 3 t = final1 V c := by
  rw [dat1_after3]; obtain ⟨n, hn⟩ := t; subst h; rfl

theorem dat1_before0 (c : Dev nD) (t : Fin cfg1.N) (d) : (dat1 V c).before 0 t d = blk1 V c 0 t :=
  before1_0_in V (dat1 V c) (dat1_A V c 0) (dat1_after0 V c) t d
theorem dat1_before1 (c : Dev nD) (t : Fin cfg1.N) (d) : (dat1 V c).before 1 t d = blk1 V c 1 t :=
  before1_1_in V (dat1 V c) (dat1_A V c 1) (dat1_after1 V c) t d
theorem dat1_before2 (c : Dev nD) (t : Fin cfg1.N) (d) : (dat1 V c).before 2 t d = blk1 V c 2 t :=
  before1_2_in V (dat1 V c) (dat1_A V c 2) (dat1_after2 V c) t d

theorem PhiS1_castSucc (c : Dev nD) (t : Fin cfg1.N) :
    (dat1 V c).Φ t.castSucc = PhiS1 V c t.val (Nat.le_of_lt t.isLt) := by
  dsimp only [dat1]; simp only [Fin.coe_castSucc]

/-- What an input's buffer is left at: its block (the window is never idle). -/
theorem leaves1_0 (c : Dev nD) (t : Fin cfg1.N) :
    (dat1 V c).leavesExact 0 t = owns (c : Thread nD τ) (st1_0 t) fullShare (blk1 V c 0 t) := by
  unfold Dat.leavesExact; rw [live1_0 t, dat1_after0]
theorem leaves1_1 (c : Dev nD) (t : Fin cfg1.N) :
    (dat1 V c).leavesExact 1 t = owns (c : Thread nD τ) (st1_1 t) fullShare (blk1 V c 1 t) := by
  unfold Dat.leavesExact; rw [live1_1 t, dat1_after1]
theorem leaves1_2 (c : Dev nD) (t : Fin cfg1.N) :
    (dat1 V c).leavesExact 2 t = owns (c : Thread nD τ) (st1_2 t) fullShare (blk1 V c 2 t) := by
  unfold Dat.leavesExact; rw [live1_2 t, dat1_after2]

/-! ## The body obligation -/

/-- What the body is handed at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at any point. The inputs' buffers hold their blocks; the point's place in the grid says which of the two
    conditionals are taken; the invariant hands the body the scratch — at anything at the first point, else at the sum
    the point before left — and takes it back at this point's sum; where the output window is idle its buffer goes back
    as it came, and at the last point it goes back at the mean row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [dat1_before0, dat1_before1, dat1_before2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, PhiS1_castSucc]
  have hN : t.val < 10 := lt_of_lt_of_eq t.isLt (show cfg1.N = 10 from N_1)
  by_cases h0 : t.val % 10 = 0
  · have hz : t.val = 0 := by omega
    have hl : ¬isLast1 (grid1.coords t) := fun h => by have := (isLast1_iff t).mp h; omega
    rw [Dat.leavesExact_idle (dat1 V c) 3 t (idle1_3_of t hl) (noFlush1_3_of t hl)]
    rw [acc1_first V c t hz, PhiS1_zero V c _ _ hz, PhiA1_eq]
    iintro ⟨⟨⟨⟨%s, HS⟩, HR⟩, Hg⟩, Ho, ⟨%d0, H0⟩, ⟨%d1, H1⟩, ⟨%d2, H2⟩, ⟨%d3, H3⟩⟩
    iapply (run_first1 c Set.univ _ ((isFirst1_iff t).mpr h0) hl _ _ _ _ _ _ _ _ _ _ (blk1 V c 0 t) (blk1 V c 1 t) (blk1 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := by omega
    have hf : ¬isFirst1 (grid1.coords t) := fun h => h0 ((isFirst1_iff t).mp h)
    by_cases h9 : t.val % 10 = 9
    · have hl : isLast1 (grid1.coords t) := (isLast1_iff t).mpr h9
      rw [show (dat1 V c).leavesExact 3 t = owns (c : Thread nD τ) (st1_3 t) fullShare ((dat1 V c).after 3 t) from by
        unfold Dat.leavesExact; rw [live1_3_of t hl], dat1_after3]
      rw [acc1_later V c t hz, PhiS1_pos V c _ _ hz]
      iintro ⟨⟨⟨HS, HR⟩, Hg⟩, Ho, ⟨%d0, H0⟩, ⟨%d1, H1⟩, ⟨%d2, H2⟩, ⟨%d3, H3⟩⟩
      iapply (run_last1 c Set.univ _ hf hl _ _ _ _ _ _ _ _ _ _ (blk1 V c 0 t) (blk1 V c 1 t) (blk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast1 (grid1.coords t) := fun h => h9 ((isLast1_iff t).mp h)
      rw [Dat.leavesExact_idle (dat1 V c) 3 t (idle1_3_of t hl) (noFlush1_3_of t hl)]
      rw [acc1_later V c t hz, PhiS1_pos V c _ _ hz]
      iintro ⟨⟨⟨HS, HR⟩, Hg⟩, Ho, ⟨%d0, H0⟩, ⟨%d1, H1⟩, ⟨%d2, H2⟩, ⟨%d3, H3⟩⟩
      iapply (run_mid1 c Set.univ _ hf hl _ _ _ _ _ _ _ _ _ _ (blk1 V c 0 t) (blk1 V c 1 t) (blk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives that back: the scratch's sum is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 10 := N_1; omega), PhiA1_eq]
  iintro ⟨⟨HS, HR⟩, Hg⟩
  isplitl [HS HR]
  · isplitl [HS]; · iexists _; iexact HS
    iexact HR
  iexact Hg

end Cert.KernelIdeal.Hand

end
-- ==== Proof.KI.Reg2a.lean ====
/-
  Region 2: the variance's sum of squares, accumulated over the grid. At grid point t the body reads rows
  5000·t … 5000·t+4999 of the aggregated features (window 0) and of the inverse-square-root degrees (window 1), the
  bias row (window 2) and the mean row (window 3) — the last two the same block at every point —, forms
  agg ⊙ dinv + b − mean on the block, squares it and adds its column sums to a 1×128 running sum kept in a scratch
  buffer from point to point. The first point zeroes the running sum before adding; the last point, after adding,
  stores the running sum divided by the number of rows (50000) into the output row (window 4), which is written back
  there and nowhere else: at the other points the body does not touch the output's buffer.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the window's block at every point, whether or not it was fetched there:
    when it was not, the block index has not moved since the last fetch. One statement per input window (the block's
    index type is the literal shape only at a literal window). -/
theorem before2_0_in {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_in {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_in {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_in {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-- Each staging buffer, and the scratch, as one rectangle: the body loads and stores whole buffers. -/
abbrev wholeA2 : Rect S5000x128 := Rect.unit (s := S5000x128) ![0, 0] S5000x128.size inb_S5000x128_S5000x128_0_0
abbrev wholeD2 : Rect S5000x1 := Rect.unit (s := S5000x1) ![0, 0] S5000x1.size inb_S5000x1_S5000x1_0_0
abbrev wholeR2 : Rect S1x128 := Rect.unit (s := S1x128) ![0, 0] S1x128.size inb_S1x128_S1x128_0_0

/-- The running sum after the first point's reset: one store of the whole row, zeros. -/
def zero2 : Vec F S1x128 .f32 := View.canon [⟨wholeR2, k2_pay1 (F := F)⟩]

/-- The running sum after a point: one store of the whole row, the sum s found there plus the column sums of the
    squares of  x ⊙ dv + b − mu  over the point's block. -/
def step2 (x : Vec F S5000x128 .f32) (dv : Vec F S5000x1 .f32) (b mu s : Vec F S1x128 .f32) : Vec F S1x128 .f32 :=
  View.canon [⟨wholeR2, k2_pay2 (View.ld x wholeA2) (View.ld dv wholeD2) (View.ld b wholeR2) (View.ld mu wholeR2) (View.ld s wholeR2)⟩]

/-- The output row the last point stores: the running sum s divided by the number of rows. -/
def fin2 (s : Vec F S1x128 .f32) : Vec F S1x128 .f32 := View.canon [⟨wholeR2, k2_pay3 (View.ld s wholeR2)⟩]

/-- A store of the whole row covers it, -/
theorem row2_cover1 (p0 : Vec F S1x128 .f32) (y : S1x128.Idx) :
    ∃ pc ∈ ([⟨wholeR2, p0⟩] : List (View.Piece (Elt F) S1x128 .f32)), y ∈ pc.1.set :=
  View.cover_of_tiled [⟨wholeR2, p0⟩] S1x128.size (by rfl) y

/-- whatever was stored before it, -/
theorem row2_cover (p0 : Vec F S1x128 .f32) (L : List (View.Piece (Elt F) S1x128 .f32)) (y : S1x128.Idx) :
    ∃ pc ∈ (⟨wholeR2, p0⟩ :: L : List (View.Piece (Elt F) S1x128 .f32)), y ∈ pc.1.set := by
  obtain ⟨pc, hm, hy⟩ := row2_cover1 p0 y
  obtain rfl := List.mem_singleton.mp hm
  exact ⟨_, List.mem_cons_self, hy⟩

/-- and what it leaves does not depend on the earlier stores: every index of the row is under the last one. -/
theorem canon_row2 (p0 : Vec F S1x128 .f32) (L : List (View.Piece (Elt F) S1x128 .f32)) :
    View.canon (⟨wholeR2, p0⟩ :: L) = View.canon [⟨wholeR2, p0⟩] := by
  funext y
  obtain ⟨pc, hm, hy⟩ := row2_cover1 p0 y
  obtain rfl := List.mem_singleton.mp hm
  obtain ⟨x, rfl⟩ : ∃ x, (wholeR2 : Rect S1x128).emb x = y := (wholeR2 : Rect S1x128).exists_idx_of_mem hy
  rw [View.canon_cons_emb, View.canon_cons_emb]

/-- The condition of the body's first conditional (the reset), from the grid coordinate: the kernel's scalar chain. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val = 0 :=
  (by decide +kernel : ∀ t : Fin grid2.N, cond2_0 (grid2.coords t) ↔ t.val = 0)

/-- The condition of the body's second conditional (the output's store). -/
abbrev cond2_1 (i : grid2.Coords) : Prop := k2_cond2 i = 1#1
/-- It holds at the last point only — decided over the grid. -/
theorem hcond2_1 : ∀ t : Fin cfg2.N, cond2_1 (grid2.coords t) ↔ t.val = 9 :=
  (by decide +kernel : ∀ t : Fin grid2.N, cond2_1 (grid2.coords t) ↔ t.val = 9)

/-- The output window is idle exactly where the second condition fails, and is not written back there. -/
theorem idleAt2_4 : ∀ t : Fin cfg2.N, t.val ≠ 9 → cfg2.idle 4 (grid2.coords t) = true :=
  (by decide +kernel : ∀ t : Fin grid2.N, t.val ≠ 9 → idle2 4 (grid2.coords t) = true)
theorem liveAt2_4 : ∀ t : Fin cfg2.N, t.val = 9 → cfg2.idle 4 (grid2.coords t) = false :=
  (by decide +kernel : ∀ t : Fin grid2.N, t.val = 9 → idle2 4 (grid2.coords t) = false)
theorem noFlush2_4 : ∀ t : Fin cfg2.N, t.val ≠ 9 → (cfg2.win 4).flush t = false :=
  (by decide +kernel : ∀ t : Fin grid2.N, t.val ≠ 9 → win2_4.flush t = false)

end Cert.KernelIdeal.Hand

end
-- ==== Proof.KI.Reg2b.lean ====
/-
  Region 2, the body's three courses. On whole memrefs — the five windows' staging buffers and the scratch — the
  kernel function runs, according to the grid coordinate, in one of three ways: at the first point it zeroes the
  scratch and adds the block's sum; at a point between it adds the block's sum to what the scratch held; at the last
  point it does that and then stores the total, divided by the number of rows, into the output's buffer. Each is one
  statement: what is handed in, and what the continuation is given back.
-/
import proofs.«161886_j5566277616090_2_alg».proof.Proof.KI.Reg2a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point, on whole memrefs: the inputs are read and kept, the output's buffer is not touched,
    the scratch — at anything before — ends at the first block's sum over the zeroed row. -/
theorem run_body2_first (c : Dev nD) (E : Set ℕ) (i : grid2.Coords) (hc0 : cond2_0 i) (hc1 : ¬cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ (∃ d, owns (c : Thread nD τ) a6 fullShare d)
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step2 x dv b mu zero2)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [View.read_writes_eq_canon _ _ _ (row2_cover _ _), canon_row2, View.readCov_eq_canon_ld _ _ _ (row2_cover1 _)]
  rfl

set_option maxHeartbeats 1000000 in
/-- The body at a point that is neither the first nor the last: the inputs are read and kept, the output's buffer is
    not touched, the scratch goes from the sum s it held to s plus the block's sum. -/
theorem run_body2_middle (c : Dev nD) (E : Set ℕ) (i : grid2.Coords) (hc0 : ¬cond2_0 i) (hc1 : ¬cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step2 x dv b mu s)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  exact View.read_writes_eq_canon _ _ _ (row2_cover1 _)

set_option maxHeartbeats 1000000 in
/-- The body at the last point: the inputs are read and kept, the scratch goes from the sum s it held to s plus the
    block's sum, and the output's buffer — at anything before — ends at that total divided by the number of rows. -/
theorem run_body2_last (c : Dev nD) (E : Set ℕ) (i : grid2.Coords) (hc0 : ¬cond2_0 i) (hc1 : cond2_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ (∃ d, owns (c : Thread nD τ) a5 fullShare d) ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare (fin2 (step2 x dv b mu s))
            ∗ owns (c : Thread nD τ) a6 fullShare (step2 x dv b mu s)) -∗ K ⟨⟩))
      ⊢ wp frame (wpE (defs₀ (F := F)) Variants.none c none) E (cc2__var_kernel i a1 h1 a2 h2 a3 h3 a4 h4 a5 h5 a6 h6) K := by
  simp only [cc2__var_kernel_eq_skeleton]; unfold cc2__var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (row2_cover1 _), View.readCov_eq_canon_ld _ _ _ (row2_cover1 _)]
    rfl
  iexists _; isplitr
  swap; · iexact H6
  ipureintro
  sl_unfold_run_names
  exact View.read_writes_eq_canon _ _ _ (row2_cover1 _)

end Cert.KernelIdeal.Hand

end
-- ==== Proof.KI.Reg2.lean ====
/-
  Region 2, the proof data and the body obligation. The scratch after each point by recursion on the point; the
  invariant that carries it from one point to the next; what each window's buffer holds after the body; the body
  obligation, by the point's position among first, between and last; and the two entailments that tie the invariant
  to what the region is handed at entry and gives back at exit.
-/
import proofs.«161886_j5566277616090_2_alg».proof.Proof.KI.Reg2b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- The scratch after point n: after the first point the first block's sum over the zeroed row, after a later point
    that block's sum over what the point before left. -/
def acc2 (c : Dev nD) : (n : ℕ) → n < cfg2.N → Vec F S1x128 .f32
  | 0, hn => step2 (blk2 V c 0 ⟨0, hn⟩) (blk2 V c 1 ⟨0, hn⟩) (blk2 V c 2 ⟨0, hn⟩) (blk2 V c 3 ⟨0, hn⟩) zero2
  | n + 1, hn => step2 (blk2 V c 0 ⟨n + 1, hn⟩) (blk2 V c 1 ⟨n + 1, hn⟩) (blk2 V c 2 ⟨n + 1, hn⟩) (blk2 V c 3 ⟨n + 1, hn⟩) (acc2 c n (Nat.lt_of_succ_lt hn))

theorem acc2_zero (c : Dev nD) (t : Fin cfg2.N) (h : t.val = 0) :
    acc2 V c t.val t.isLt = step2 (blk2 V c 0 t) (blk2 V c 1 t) (blk2 V c 2 t) (blk2 V c 3 t) zero2 := by
  obtain ⟨n, hn⟩ := t
  cases n with
  | zero => rfl
  | succ n => exact absurd h (Nat.succ_ne_zero n)

theorem acc2_pos (c : Dev nD) (t : Fin cfg2.N) (h : t.val ≠ 0) :
    acc2 V c t.val t.isLt
      = step2 (blk2 V c 0 t) (blk2 V c 1 t) (blk2 V c 2 t) (blk2 V c 3 t) (acc2 V c (t.val - 1) (Nat.lt_of_le_of_lt (Nat.sub_le _ _) t.isLt)) := by
  obtain ⟨n, hn⟩ := t
  cases n with
  | zero => exact absurd rfl h
  | succ n => rfl

/-- The output row: the total after the last point, divided by the number of rows. -/
def out2 (c : Dev nD) : Vec F S1x128 .f32 := fin2 (acc2 V c 9 (by have : cfg2.N = 10 := N_2; omega))

/-! ## The invariant: the scratch carried from point to point -/

/-- The scratch operand: a whole scoped buffer of the kernel's own, passed beside the windows. -/
abbrev scM2 : Memref sig .tc .vmem S1x128 .f32 := Memref.whole cc2_scratch0

/-- What the launch hands the region, with the scratch as a memref owned at some contents beside the scoped buffers
    the body never names. -/
theorem PhiA2_eq (c : Dev nD) :
    (Pipeline.ΦA spec2 c : sProp 𝕄)
      = iprop(iprop(iprop((∃ d, owns (c : Thread nD τ) scM2 fullShare d)) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The invariant before position n: before the first point what the launch hands over (the scratch at anything);
    afterwards the same with the scratch at what the point before left in it. -/
def PhiS2 (c : Dev nD) : (n : ℕ) → n ≤ cfg2.N → sProp 𝕄
  | 0, _ => Pipeline.ΦA spec2 c
  | n + 1, hn => iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of region 2 on core c: the arrays as found; after the body each input buffer at its block; the
    output buffer at the running sum so far divided by the number of rows — which is the output row at the last
    point, the only one where the body stores it and the pipeline reads it (elsewhere the window is idle and the value
    stated here is not consulted) —; the invariant carrying the scratch; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => fin2 (acc2 V c t.val t.isLt)
  Φ t := PhiS2 V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = fin2 (acc2 V c t.val t.isLt) := by dsimp only [dat2]

/-- At the last point the output's buffer is left at the output row. -/
theorem dat2_after_last (c : Dev nD) (t : Fin cfg2.N) (h : t.val = 9) : (dat2 V c).after 4 t = out2 V c := by
  rw [dat2_after4]; obtain ⟨n, hn⟩ := t; dsimp only at h; subst h; rfl

theorem dat2_before0 (c : Dev nD) (t : Fin cfg2.N) (d) : (dat2 V c).before 0 t d = blk2 V c 0 t :=
  before2_0_in V (dat2 V c) (dat2_A V c 0) (dat2_after0 V c) t d
theorem dat2_before1 (c : Dev nD) (t : Fin cfg2.N) (d) : (dat2 V c).before 1 t d = blk2 V c 1 t :=
  before2_1_in V (dat2 V c) (dat2_A V c 1) (dat2_after1 V c) t d
theorem dat2_before2 (c : Dev nD) (t : Fin cfg2.N) (d) : (dat2 V c).before 2 t d = blk2 V c 2 t :=
  before2_2_in V (dat2 V c) (dat2_A V c 2) (dat2_after2 V c) t d
theorem dat2_before3 (c : Dev nD) (t : Fin cfg2.N) (d) : (dat2 V c).before 3 t d = blk2 V c 3 t :=
  before2_3_in V (dat2 V c) (dat2_A V c 3) (dat2_after3 V c) t d

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

/-! ## The body obligation -/

/-- What the body is handed at point t, window by window, and what it gives back. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 2000000 in
/-- The body at any point. The inputs' buffers hold their blocks; the point's position says which of the three courses
    the body takes. At the first point the invariant hands over the scratch at anything and takes it back at the first
    running sum; at a later point it hands it over at what the point before left and takes it back at this point's.
    Where the output window is idle its buffer goes back as it came; at the last point it goes back at the output row. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [dat2_before0, dat2_before1, dat2_before2, dat2_before3]
  rw [show (dat2 V c).owesAt () t.succ = (dat2 V c).owesAt () t.castSucc from rfl]
  rw [show (dat2 V c).Φ t.succ = PhiS2 V c (t.val + 1) t.isLt from rfl, PhiS2_succ]
  rw [
    show (dat2 V c).leavesExact 0 t = owns (c : Thread nD τ) (st2_0 t) fullShare ((dat2 V c).after 0 t) from by
      unfold Dat.leavesExact; rw [liveAt2_0 t], dat2_after0,
    show (dat2 V c).leavesExact 1 t = owns (c : Thread nD τ) (st2_1 t) fullShare ((dat2 V c).after 1 t) from by
      unfold Dat.leavesExact; rw [liveAt2_1 t], dat2_after1,
    show (dat2 V c).leavesExact 2 t = owns (c : Thread nD τ) (st2_2 t) fullShare ((dat2 V c).after 2 t) from by
      unfold Dat.leavesExact; rw [liveAt2_2 t], dat2_after2,
    show (dat2 V c).leavesExact 3 t = owns (c : Thread nD τ) (st2_3 t) fullShare ((dat2 V c).after 3 t) from by
      unfold Dat.leavesExact; rw [liveAt2_3 t], dat2_after3]
  have hN : t.val < 10 := lt_of_lt_of_eq t.isLt (show cfg2.N = 10 from N_2)
  by_cases hz : t.val = 0
  · -- the first point
    rw [Dat.leavesExact_idle (dat2 V c) 4 t (idleAt2_4 t (by omega)) (noFlush2_4 t (by omega))]
    rw [PhiS2_castSucc V c t, PhiS2_zero V c _ _ hz, PhiA2_eq, acc2_zero V c t hz]
    iintro ⟨⟨⟨⟨%ds, HS⟩, HR⟩, Hg⟩, Ho, ⟨%d0, H0⟩, ⟨%d1, H1⟩, ⟨%d2, H2⟩, ⟨%d3, H3⟩, ⟨%d4, H4⟩⟩
    iapply (run_body2_first c Set.univ _ ((hcond2_0 t).mpr hz) (fun h => by have := (hcond2_1 t).mp h; omega) _ _ _ _ _ _ _ _ _ _ _ _
      (blk2 V c 0 t) (blk2 V c 1 t) (blk2 V c 2 t) (blk2 V c 3 t) ((dat2 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · by_cases hl : t.val = 9
    · -- the last point
      rw [show (dat2 V c).leavesExact 4 t = owns (c : Thread nD τ) (st2_4 t) fullShare ((dat2 V c).after 4 t) from by
        unfold Dat.leavesExact; rw [liveAt2_4 t hl], dat2_after4]
      rw [PhiS2_castSucc V c t, PhiS2_pos V c _ _ hz, acc2_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body2_last c Set.univ _ (fun h => hz ((hcond2_0 t).mp h)) ((hcond2_1 t).mpr hl) _ _ _ _ _ _ _ _ _ _ _ _
        (blk2 V c 0 t) (blk2 V c 1 t) (blk2 V c 2 t) (blk2 V c 3 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point between
      rw [Dat.leavesExact_idle (dat2 V c) 4 t (idleAt2_4 t hl) (noFlush2_4 t hl)]
      rw [PhiS2_castSucc V c t, PhiS2_pos V c _ _ hz, acc2_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body2_middle c Set.univ _ (fun h => hz ((hcond2_0 t).mp h)) (fun h => hl ((hcond2_1 t).mp h)) _ _ _ _ _ _ _ _ _ _ _ _
        (blk2 V c 0 t) (blk2 V c 1 t) (blk2 V c 2 t) (blk2 V c 3 t) ((dat2 V c).before 4 t d4) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives it back: the scratch's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨HS, HR⟩, Hg⟩
  isplitl [HS HR]
  · isplitl [HS]
    · iexists _; iexact HS
    iexact HR
  iexact Hg

end Cert.KernelIdeal.Hand

end
-- ==== Proof.KI.Reg3.lean ====
/-
  Region 3: batch normalisation fused with the next layer's product. At grid point t the body reads rows
  5000·t … 5000·t+4999 of the aggregated features (window 0) and of the inverse-square-root degrees (window 1), and,
  the same block at every point, the bias row, the feature means, the feature variances, the scale row, the shift row
  (windows 2 … 6, each 1×128) and the whole 128×128 weight (window 7). With h = agg_block ⊙ dinv_block + b it forms
  max(((h − mean) · rsqrt(var + ε)) · gamma + beta, 0), rounds it to bf16, multiplies it by the weight rounded to bf16
  (accumulating in f32 from zero), scales every row again by its node's factor and rounds the result to bf16: that
  5000×128 block is written to the matching rows of the output (window 8). Every point writes its own rows; nothing is
  carried from one point to the next.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether or not it was fetched there:
    when it was not, the block index has not moved since the last fetch (windows 2 … 7 are fetched at the first point
    only, and their block is the same at every point). One statement per input window (the block's index type is the
    literal shape only at a literal window). -/
theorem before3_0_in {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)
theorem before3_1_in {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)
theorem before3_2_in {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)
theorem before3_3_in {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)
theorem before3_4_in {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)
theorem before3_5_in {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)
theorem before3_6_in {c : Dev nD} (dat : Dat τ (Elt F) Unit ℕ (UR sig nD τ) ℕ cfg3 c) (hA : dat.A 6 = V c (Pipeline.arrRef spec3 6))
    (hafter : ∀ t, dat.after 6 t = blk3 V c 6 t) (t : Fin cfg3.N) (d) : dat.before 6 t d = blk3 V c 6 t :=
  (dat.before_in_eq_fetched 6 rfl (fun _ => rfl) (fun _ _ _ => rfl) (fun t => by rw [hafter]; unfold Dat.blockOf blk3; rw [hA]; try rfl) t d).trans
    (by unfold Dat.fetched Dat.blockOf blk3; rw [hA]; try rfl)
theorem before3_7_in {c : Dev nD} (dat : Dat τ (Elt F) Unit ℕ (UR sig nD τ) ℕ cfg3 c) (hA : dat.A 7 = V c (Pipeline.arrRef spec3 7))
    (hafter : ∀ t, dat.after 7 t = blk3 V c 7 t) (t : Fin cfg3.N) (d) : dat.before 7 t d = blk3 V c 7 t :=
  (dat.before_in_eq_fetched 7 rfl (fun _ => rfl) (fun _ _ _ => rfl) (fun t => by rw [hafter]; unfold Dat.blockOf blk3; rw [hA]; try rfl) t d).trans
    (by unfold Dat.fetched Dat.blockOf blk3; rw [hA]; try rfl)

/-- Each staging buffer as one rectangle: the body loads and stores whole buffers. -/
abbrev whole3 : Rect S5000x128 := Rect.unit (s := S5000x128) ![0, 0] S5000x128.size inb_S5000x128_S5000x128_0_0
abbrev wholeD3 : Rect S5000x1 := Rect.unit (s := S5000x1) ![0, 0] S5000x1.size inb_S5000x1_S5000x1_0_0
abbrev wholeR3 : Rect S1x128 := Rect.unit (s := S1x128) ![0, 0] S1x128.size inb_S1x128_S1x128_0_0
abbrev wholeW3 : Rect S128x128 := Rect.unit (s := S128x128) ![0, 0] S128x128.size inb_S128x128_S128x128_0_0

/-- What the body leaves in the output's staging buffer: one store of the whole block. The normalised, rectified
    activations (from the feature rows, the degree factors, the bias, the variances, the means, the scale and the shift,
    in the order the body reads them) times the weight, scaled once more by the degree factors (read a second time),
    rounded to bf16. -/
def out3 (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) : Vec F S5000x128 .bf16 :=
  View.canon [⟨whole3, k3_pay1 (k3_pay2 (View.ld x whole3) (View.ld dv wholeD3) (View.ld b wholeR3) (View.ld var wholeR3) (View.ld mean wholeR3) (View.ld gamma wholeR3) (View.ld beta wholeR3) (View.ld w wholeW3)) (k3_pay3 (View.ld dv wholeD3))⟩]

theorem out3_cover (p0 : Vec F S5000x128 .bf16) (y : S5000x128.Idx) :
    ∃ pc ∈ ([⟨whole3, p0⟩] : List (View.Piece (Elt F) S5000x128 .bf16)), y ∈ pc.1.set :=
  View.cover_of_tiled [⟨whole3, p0⟩] S5000x128.size (by rfl) y

set_option maxHeartbeats 1000000 in
/-- The body on whole staging memrefs: the eight inputs are read and kept, the output ends at the stored block. -/
theorem run_body3 (c : Dev nD) (E : Set ℕ) (i : grid3.Coords)
    (a1 : Memref sig .tc .vmem S5000x128 .f32) (h1 : a1.IsWhole) (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S128x128 .f32) (h8 : a8.IsWhole) (a9 : Memref sig .tc .vmem S5000x128 .bf16) (h9 : a9.IsWhole)
    (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) (K : PUnit → sProp 𝕄) :
    iprop(owns (c : Thread nD τ) a1 fullShare x ∗ owns (c : Thread nD τ) a2 fullShare dv ∗ owns (c : Thread nD τ) a3 fullShare b ∗ owns (c : Thread nD τ) a4 fullShare mean
        ∗ owns (c : Thread nD τ) a5 fullShare var ∗ owns (c : Thread nD τ) a6 fullShare gamma ∗ owns (c : Thread nD τ) a7 fullShare beta ∗ owns (c : Thread nD τ) a8 fullShare w
        ∗ (∃ d, owns (c : Thread nD τ) a9 fullShare d)
        ∗ (iprop(owns (c : Thread nD τ) a1 fullShare x ∗ owns (c : Thread nD τ) a2 fullShare dv ∗ owns (c : Thread nD τ) a3 fullShare b ∗ owns (c : Thread nD τ) a4 fullShare mean
            ∗ owns (c : Thread nD τ) a5 fullShare var ∗ owns (c : Thread nD τ) a6 fullShare gamma ∗ owns (c : Thread nD τ) a7 fullShare beta ∗ owns (c : Thread nD τ) a8 fullShare w
            ∗ owns (c : Thread nD τ) a9 fullShare (out3 x dv b mean var gamma beta w)) -∗ K ⟨⟩))
      ⊢ wp frame (wpE (defs₀ (F := F)) Variants.none c none) E (cc3__fused_bn_matmul_kernel i a1 h1 a2 h2 a3 h3 a4 h4 a5 h5 a6 h6 a7 h7 a8 h8 a9 h9) K := by
  simp only [cc3__fused_bn_matmul_kernel_eq_skeleton]; unfold cc3__fused_bn_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (out3_cover _)

/-- The proof data of region 3 on core c: the arrays as found; after the body each input buffer at its block and the
    output buffer at the stored block computed from the point's input blocks; the untouched scoped rest as invariant;
    nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => out3 (blk3 V c 0 t) (blk3 V c 1 t) (blk3 V c 2 t) (blk3 V c 3 t) (blk3 V c 4 t) (blk3 V c 5 t) (blk3 V c 6 t) (blk3 V c 7 t)
  Φ _ := Pipeline.ΦA spec3 c
  q _ := fullShare
  owed _ := 0

theorem dat3_A (c : Dev nD) (w : Fin cfg3.W) : (dat3 V c).A w = V c (Pipeline.arrRef spec3 w) := by dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) : (dat3 V c).after 6 t = blk3 V c 6 t := by dsimp only [dat3]
theorem dat3_after7 (c : Dev nD) (t : Fin cfg3.N) : (dat3 V c).after 7 t = blk3 V c 7 t := by dsimp only [dat3]
/-- The output's staging buffer after the body at point t: the stored block of the point's eight input blocks. -/
theorem dat3_after_out (c : Dev nD) (t : Fin cfg3.N) :
    (dat3 V c).after 8 t = out3 (blk3 V c 0 t) (blk3 V c 1 t) (blk3 V c 2 t) (blk3 V c 3 t) (blk3 V c 4 t) (blk3 V c 5 t) (blk3 V c 6 t) (blk3 V c 7 t) := by dsimp only [dat3]

theorem dat3_before0 (c : Dev nD) (t : Fin cfg3.N) (d) : (dat3 V c).before 0 t d = blk3 V c 0 t :=
  before3_0_in V (dat3 V c) (dat3_A V c 0) (dat3_after0 V c) t d
theorem dat3_before1 (c : Dev nD) (t : Fin cfg3.N) (d) : (dat3 V c).before 1 t d = blk3 V c 1 t :=
  before3_1_in V (dat3 V c) (dat3_A V c 1) (dat3_after1 V c) t d
theorem dat3_before2 (c : Dev nD) (t : Fin cfg3.N) (d) : (dat3 V c).before 2 t d = blk3 V c 2 t :=
  before3_2_in V (dat3 V c) (dat3_A V c 2) (dat3_after2 V c) t d
theorem dat3_before3 (c : Dev nD) (t : Fin cfg3.N) (d) : (dat3 V c).before 3 t d = blk3 V c 3 t :=
  before3_3_in V (dat3 V c) (dat3_A V c 3) (dat3_after3 V c) t d
theorem dat3_before4 (c : Dev nD) (t : Fin cfg3.N) (d) : (dat3 V c).before 4 t d = blk3 V c 4 t :=
  before3_4_in V (dat3 V c) (dat3_A V c 4) (dat3_after4 V c) t d
theorem dat3_before5 (c : Dev nD) (t : Fin cfg3.N) (d) : (dat3 V c).before 5 t d = blk3 V c 5 t :=
  before3_5_in V (dat3 V c) (dat3_A V c 5) (dat3_after5 V c) t d
theorem dat3_before6 (c : Dev nD) (t : Fin cfg3.N) (d) : (dat3 V c).before 6 t d = blk3 V c 6 t :=
  before3_6_in V (dat3 V c) (dat3_A V c 6) (dat3_after6 V c) t d
theorem dat3_before7 (c : Dev nD) (t : Fin cfg3.N) (d) : (dat3 V c).before 7 t d = blk3 V c 7 t :=
  before3_7_in V (dat3 V c) (dat3_A V c 7) (dat3_after7 V c) t d

/-- What the body is handed at point t, window by window, and what it gives back. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [dat3_before0, dat3_before1, dat3_before2, dat3_before3, dat3_before4, dat3_before5, dat3_before6, dat3_before7]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6, dat3_after7, dat3_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body3 c Set.univ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4: the column means of the second layer (the same kernel as region 1, on that layer's operands). The grid has
  10 points; at point t the body reads rows 5000·t … 5000·t+4999 of the aggregated features (window 0) and of the
  inverse-square-root degrees (window 1), and the bias row (window 2, the same block at every point). A 1×128 scratch
  row carries a running sum from point to point: the first point zeroes it; every point then adds to it the column sums
  of its block, each row first scaled by its node's factor and the bias row added; the last point stores the sum divided
  by the number of rows, 50000, into the output's 1×128 buffer (window 3), which is written back there and nowhere else.
  At the nine earlier points the output's buffer is not stored into and goes back as it came.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds the window's block at every point, whether or not it was fetched there:
    when it was not, the block index has not moved since the last fetch. One statement per input window (the block's
    index type is the literal shape only at a literal window). -/
theorem before4_0_in {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)
theorem before4_1_in {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)
theorem before4_2_in {c : Dev nD} (dat : Dat τ (Elt F) Unit ℕ (UR sig nD τ) ℕ cfg4 c) (hA : dat.A 2 = V c (Pipeline.arrRef spec4 2))
    (hafter : ∀ t, dat.after 2 t = blk4 V c 2 t) (t : Fin cfg4.N) (d) : dat.before 2 t d = blk4 V c 2 t :=
  (dat.before_in_eq_fetched 2 rfl (fun _ => rfl) (fun _ _ _ => rfl) (fun t => by rw [hafter]; unfold Dat.blockOf blk4; rw [hA]; try rfl) t d).trans
    (by unfold Dat.fetched Dat.blockOf blk4; rw [hA]; try rfl)

/-! ## The two conditions of the body, over the grid -/

/-- The body's first conditional asks whether the grid coordinate is 0: -/
abbrev isFirst4 (i : grid4.Coords) : Prop := (Scalar.cmpi .ne (Scalar.extui (Scalar.cmpi .eq (BitVec.ofNat 32 (i 0).val) 0#32)) 0#32) = 1#1
/-- true at the first point only. -/
theorem isFirst4_iff : ∀ t : Fin cfg4.N, isFirst4 (grid4.coords t) ↔ t.val % 10 = 0 :=
  (by decide +kernel : ∀ t : Fin grid4.N, isFirst4 (grid4.coords t) ↔ t.val % 10 = 0)
/-- Its second asks whether the coordinate is 9: -/
abbrev isLast4 (i : grid4.Coords) : Prop := k4_cond2 i = 1#1
/-- true at the last point only. -/
theorem isLast4_iff : ∀ t : Fin cfg4.N, isLast4 (grid4.coords t) ↔ t.val % 10 = 9 :=
  (by decide +kernel : ∀ t : Fin grid4.N, isLast4 (grid4.coords t) ↔ t.val % 10 = 9)

/-- The input windows are never idle; the output window is idle exactly where the second conditional is not taken, and
    there the pipeline does not write it back. -/
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem idle4_3_of : ∀ t : Fin cfg4.N, ¬isLast4 (grid4.coords t) → cfg4.idle 3 (grid4.coords t) = true := by decide +kernel
theorem live4_3_of : ∀ t : Fin cfg4.N, isLast4 (grid4.coords t) → cfg4.idle 3 (grid4.coords t) = false := by decide +kernel
theorem noFlush4_3_of : ∀ t : Fin cfg4.N, ¬isLast4 (grid4.coords t) → (cfg4.win 3).flush t = false := by decide +kernel

/-! ## What the body's stores leave -/

/-- Each buffer as one rectangle: the body loads and stores whole buffers. -/
abbrev whole4 : Rect S1x128 := Rect.unit (s := S1x128) ![0, 0] S1x128.size inb_S1x128_S1x128_0_0
abbrev wholeA4 : Rect S5000x128 := Rect.unit (s := S5000x128) ![0, 0] S5000x128.size inb_S5000x128_S5000x128_0_0
abbrev wholeD4 : Rect S5000x1 := Rect.unit (s := S5000x1) ![0, 0] S5000x1.size inb_S5000x1_S5000x1_0_0

/-- The whole-row rectangle holds every index of the row. -/
theorem mem_whole4 (y : S1x128.Idx) : y ∈ whole4.set := by
  obtain ⟨p, hp, hy⟩ := View.cover_of_tiled ([⟨whole4, fun _ => ()⟩] : List (View.Piece (fun _ => Unit) S1x128 .f32)) S1x128.size (by rfl) y
  rw [List.mem_singleton.mp hp] at hy; exact hy

/-- So a list of stores whose last is of the whole row covers the row, -/
theorem cover_whole4 (w : Vec F S1x128 .f32) (L : List (View.Piece (Elt F) S1x128 .f32)) (y : S1x128.Idx) :
    ∃ pc ∈ ((⟨whole4, w⟩ : View.Piece (Elt F) S1x128 .f32) :: L), y ∈ pc.1.set :=
  ⟨_, List.mem_cons_self .., mem_whole4 y⟩

/-- and leaves that store's row, whatever the earlier ones were. -/
theorem canon_cons_whole4 (w : Vec F S1x128 .f32) (L : List (View.Piece (Elt F) S1x128 .f32)) :
    View.canon ((⟨whole4, w⟩ : View.Piece (Elt F) S1x128 .f32) :: L) = View.canon [⟨whole4, w⟩] := by
  funext y
  obtain ⟨x, rfl⟩ := whole4.exists_idx_of_mem (mem_whole4 y)
  exact (View.canon_cons_emb whole4 w L x).trans (View.canon_cons_emb whole4 w [] x).symm

/-- A load of the whole row straight after a store of the whole row reads what that store left. -/
theorem readCov_whole4 {sp : Space} (v : View sig .tc sp S1x128 .f32) (w : Vec F S1x128 .f32) :
    v.readCov [(⟨whole4, w⟩ : View.Piece (Elt F) S1x128 .f32)] whole4.toLoadRect = View.ld (View.canon [⟨whole4, w⟩]) whole4 :=
  View.readCov_eq_canon_ld v _ _ (cover_whole4 _ _)

/-- The row of zeros the first point stores into the scratch. -/
def zero4 : Vec F S1x128 .f32 := View.canon [⟨whole4, k4_pay1 (F := F)⟩]

/-- One point's update of the scratch holding s: s plus the column sums of the block x, each row scaled by its node's
    factor dv and the bias row b added. -/
def step4 (x : Vec F S5000x128 .f32) (dv : Vec F S5000x1 .f32) (b : Vec F S1x128 .f32) (s : Vec F S1x128 .f32) : Vec F S1x128 .f32 :=
  View.canon [⟨whole4, k4_pay2 (View.ld x wholeA4) (View.ld dv wholeD4) (View.ld b whole4) (View.ld s whole4)⟩]

/-- The row the last point stores to the output: the sum s divided by the number of rows, 50000. -/
def mean4 (s : Vec F S1x128 .f32) : Vec F S1x128 .f32 := View.canon [⟨whole4, k4_pay3 (View.ld s whole4)⟩]

set_option maxHeartbeats 1000000 in
/-- The body at the first point, on whole memrefs: the scratch, whatever it held, is zeroed and then updated with the
    point's blocks; the inputs are read and kept; the output's buffer is not touched. -/
theorem run_first4 (c : Dev nD) (E : Set ℕ) (i : grid4.Coords) (hc0 : isFirst4 i) (hc1 : ¬isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ (∃ s, owns (c : Thread nD τ) a5 fullShare s)
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step4 x dv b zero4)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%f4, %hf4, H4⟩, ⟨%s5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_whole4 _ _)).trans ((canon_cons_whole4 _ _).trans ?_)
  exact congrArg (fun z => View.canon [(⟨whole4, k4_pay2 _ _ _ z⟩ : View.Piece (Elt F) S1x128 .f32)]) (readCov_whole4 a5.view k4_pay1)

set_option maxHeartbeats 1000000 in
/-- The body at a point that is neither first nor last: the scratch, holding s, is updated with the point's blocks; the
    inputs are read and kept; the output's buffer is not touched. -/
theorem run_mid4 (c : Dev nD) (E : Set ℕ) (i : grid4.Coords) (hc0 : ¬isFirst4 i) (hc1 : ¬isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (o : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ owns (c : Thread nD τ) a4 fullShare o ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare o ∗ owns (c : Thread nD τ) a5 fullShare (step4 x dv b s)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_whole4 _ _)

set_option maxHeartbeats 1000000 in
/-- The body at the last point: the scratch, holding s, is updated with the point's blocks, and the output's buffer,
    whatever it held, is stored with the updated sum divided by the number of rows; the inputs are read and kept. -/
theorem run_last4 (c : Dev nD) (E : Set ℕ) (i : grid4.Coords) (hc0 : ¬isFirst4 i) (hc1 : isLast4 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole)
    (x : Vec F S5000x128 .f32) (dv : Vec F S5000x1 .f32) (b : Vec F S1x128 .f32) (s : Vec F S1x128 .f32)
    (K : PUnit → sProp 𝕄) :
    iprop(owns (c : Thread nD τ) a1 fullShare x ∗ owns (c : Thread nD τ) a2 fullShare dv ∗ owns (c : Thread nD τ) a3 fullShare b
        ∗ (∃ d, owns (c : Thread nD τ) a4 fullShare d) ∗ owns (c : Thread nD τ) a5 fullShare s
        ∗ (iprop(owns (c : Thread nD τ) a1 fullShare x ∗ owns (c : Thread nD τ) a2 fullShare dv ∗ owns (c : Thread nD τ) a3 fullShare b
            ∗ owns (c : Thread nD τ) a4 fullShare (mean4 (step4 x dv b s)) ∗ owns (c : Thread nD τ) a5 fullShare (step4 x dv b s)) -∗ K ⟨⟩))
      ⊢ wp frame (wpE (defs₀ (F := F)) Variants.none c none) E (cc4__mean_kernel i a1 h1 a2 h2 a3 h3 a4 h4 a5 h5) K := by
  simp only [cc4__mean_kernel_eq_skeleton]; unfold cc4__mean_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover_whole4 _ _)).trans ?_
    exact congrArg (fun z => View.canon [(⟨whole4, k4_pay3 z⟩ : View.Piece (Elt F) S1x128 .f32)]) (readCov_whole4 a5.view _)
  iexists _; isplitr
  swap; · iexact H5
  ipureintro
  exact View.read_writes_eq_canon _ _ _ (cover_whole4 _ _)

/-! ## The running sum, point by point -/

/-- THE ACCUMULATION: what the scratch holds after the body at point n. At point 0 the zeroed scratch updated with that
    point's blocks; at point n + 1 what point n left, updated with point n + 1's blocks. -/
def acc4 (c : Dev nD) : (n : ℕ) → n < cfg4.N → Vec F S1x128 .f32
  | 0, hn => step4 (blk4 V c 0 ⟨0, hn⟩) (blk4 V c 1 ⟨0, hn⟩) (blk4 V c 2 ⟨0, hn⟩) zero4
  | n + 1, hn => step4 (blk4 V c 0 ⟨n + 1, hn⟩) (blk4 V c 1 ⟨n + 1, hn⟩) (blk4 V c 2 ⟨n + 1, hn⟩) (acc4 c n (Nat.lt_of_succ_lt hn))

theorem acc4_first (c : Dev nD) (t : Fin cfg4.N) (h : t.val = 0) :
    acc4 V c t.val t.isLt = step4 (blk4 V c 0 t) (blk4 V c 1 t) (blk4 V c 2 t) zero4 := by
  obtain ⟨n, hn⟩ := t
  cases n with
  | zero => rfl
  | succ n => exact absurd h (Nat.succ_ne_zero _)

theorem acc4_later (c : Dev nD) (t : Fin cfg4.N) (h : t.val ≠ 0) :
    acc4 V c t.val t.isLt = step4 (blk4 V c 0 t) (blk4 V c 1 t) (blk4 V c 2 t)
      (acc4 V c (t.val - 1) (Nat.lt_of_le_of_lt (Nat.sub_le _ _) t.isLt)) := by
  obtain ⟨n, hn⟩ := t
  cases n with
  | zero => exact absurd rfl h
  | succ n => rfl

/-- The row the region writes to its output: the last point's sum divided by the number of rows. -/
def final4 (c : Dev nD) : Vec F S1x128 .f32 := mean4 (acc4 V c 9 (by rw [show cfg4.N = 10 from N_4]; decide))

/-! ## The invariant between points -/

/-- The kernel's scratch operand: a whole scoped buffer of its own, passed beside the windows. -/
abbrev scM4 : Memref sig .tc .vmem S1x128 .f32 := Memref.whole cc4_scratch0

/-- The core's other scoped buffers, which this region never opens. -/
abbrev others4 (c : Dev nD) : sProp 𝕄 :=
  Pipeline.scopedRestBut (Ix := Unit) (Name := ℕ) (U := UR sig nD τ) (Lvl := ℕ) (Val := Elt F) spec4 c [cc4_scratch0]

/-- What the region is entered with, the scratch picked out of the scoped rest as a memref owned at some contents. -/
theorem PhiA4_eq (c : Dev nD) :
    (Pipeline.ΦA spec4 c : sProp 𝕄)
      = iprop(iprop((∃ d, owns (c : Thread nD τ) scM4 fullShare d) ∗ others4 c) ∗ (∃ r, prngReg c r)) := by
  unfold Pipeline.ΦA; rw [scopedRest4_split]; simp only [scM4, owns_whole]; try rfl

/-- The invariant before point n. Before the first point: what the region is entered with (the scratch at anything).
    Afterwards: the scratch at the running sum the point before left, the other scoped buffers unopened, the generator
    register at some state. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4 fullShare (acc4 V c n hn) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4 fullShare (acc4 V c (n - 1) (by omega)) ∗ others4 c) ∗ (∃ r, prngReg c r)) := by
  cases n with
  | zero => exact absurd rfl hz
  | succ n => rfl

/-! ## The proof data -/

/-- The proof data of this region on core c: the arrays as found; after the body each input buffer at its block; the
    output buffer, at the last point, at the mean row (at the other points the window is idle and the entry is not
    consulted); the invariant carrying the running sum; nothing owed. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => mean4 (acc4 V c t.val t.isLt)
  Φ t := PhiS4 V c t.val (Nat.le_of_lt_succ t.isLt)
  q _ := fullShare
  owed _ := 0

theorem dat4_A (c : Dev nD) (w : Fin cfg4.W) : (dat4 V c).A w = V c (Pipeline.arrRef spec4 w) := by dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) : (dat4 V c).after 2 t = blk4 V c 2 t := by dsimp only [dat4]
theorem dat4_after3 (c : Dev nD) (t : Fin cfg4.N) : (dat4 V c).after 3 t = mean4 (acc4 V c t.val t.isLt) := by dsimp only [dat4]

/-- At the last point the output's buffer is left at the region's mean row. -/
theorem dat4_after_last (c : Dev nD) (t : Fin cfg4.N) (h : t.val = 9) : (dat4 V c).after 3 t = final4 V c := by
  rw [dat4_after3]; obtain ⟨n, hn⟩ := t; subst h; rfl

theorem dat4_before0 (c : Dev nD) (t : Fin cfg4.N) (d) : (dat4 V c).before 0 t d = blk4 V c 0 t :=
  before4_0_in V (dat4 V c) (dat4_A V c 0) (dat4_after0 V c) t d
theorem dat4_before1 (c : Dev nD) (t : Fin cfg4.N) (d) : (dat4 V c).before 1 t d = blk4 V c 1 t :=
  before4_1_in V (dat4 V c) (dat4_A V c 1) (dat4_after1 V c) t d
theorem dat4_before2 (c : Dev nD) (t : Fin cfg4.N) (d) : (dat4 V c).before 2 t d = blk4 V c 2 t :=
  before4_2_in V (dat4 V c) (dat4_A V c 2) (dat4_after2 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-- What an input's buffer is left at: its block (the window is never idle). -/
theorem leaves4_0 (c : Dev nD) (t : Fin cfg4.N) :
    (dat4 V c).leavesExact 0 t = owns (c : Thread nD τ) (st4_0 t) fullShare (blk4 V c 0 t) := by
  unfold Dat.leavesExact; rw [live4_0 t, dat4_after0]
theorem leaves4_1 (c : Dev nD) (t : Fin cfg4.N) :
    (dat4 V c).leavesExact 1 t = owns (c : Thread nD τ) (st4_1 t) fullShare (blk4 V c 1 t) := by
  unfold Dat.leavesExact; rw [live4_1 t, dat4_after1]
theorem leaves4_2 (c : Dev nD) (t : Fin cfg4.N) :
    (dat4 V c).leavesExact 2 t = owns (c : Thread nD τ) (st4_2 t) fullShare (blk4 V c 2 t) := by
  unfold Dat.leavesExact; rw [live4_2 t, dat4_after2]

/-! ## The body obligation -/

/-- What the body is handed at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it gives back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 1600000 in
/-- The body at any point. The inputs' buffers hold their blocks; the point's place in the grid says which of the two
    conditionals are taken; the invariant hands the body the scratch — at anything at the first point, else at the sum
    the point before left — and takes it back at this point's sum; where the output window is idle its buffer goes back
    as it came, and at the last point it goes back at the mean row. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [dat4_before0, dat4_before1, dat4_before2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, PhiS4_castSucc]
  have hN : t.val < 10 := lt_of_lt_of_eq t.isLt (show cfg4.N = 10 from N_4)
  by_cases h0 : t.val % 10 = 0
  · have hz : t.val = 0 := by omega
    have hl : ¬isLast4 (grid4.coords t) := fun h => by have := (isLast4_iff t).mp h; omega
    rw [Dat.leavesExact_idle (dat4 V c) 3 t (idle4_3_of t hl) (noFlush4_3_of t hl)]
    rw [acc4_first V c t hz, PhiS4_zero V c _ _ hz, PhiA4_eq]
    iintro ⟨⟨⟨⟨%s, HS⟩, HR⟩, Hg⟩, Ho, ⟨%d0, H0⟩, ⟨%d1, H1⟩, ⟨%d2, H2⟩, ⟨%d3, H3⟩⟩
    iapply (run_first4 c Set.univ _ ((isFirst4_iff t).mpr h0) hl _ _ _ _ _ _ _ _ _ _ (blk4 V c 0 t) (blk4 V c 1 t) (blk4 V c 2 t) _ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hz : t.val ≠ 0 := by omega
    have hf : ¬isFirst4 (grid4.coords t) := fun h => h0 ((isFirst4_iff t).mp h)
    by_cases h9 : t.val % 10 = 9
    · have hl : isLast4 (grid4.coords t) := (isLast4_iff t).mpr h9
      rw [show (dat4 V c).leavesExact 3 t = owns (c : Thread nD τ) (st4_3 t) fullShare ((dat4 V c).after 3 t) from by
        unfold Dat.leavesExact; rw [live4_3_of t hl], dat4_after3]
      rw [acc4_later V c t hz, PhiS4_pos V c _ _ hz]
      iintro ⟨⟨⟨HS, HR⟩, Hg⟩, Ho, ⟨%d0, H0⟩, ⟨%d1, H1⟩, ⟨%d2, H2⟩, ⟨%d3, H3⟩⟩
      iapply (run_last4 c Set.univ _ hf hl _ _ _ _ _ _ _ _ _ _ (blk4 V c 0 t) (blk4 V c 1 t) (blk4 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast4 (grid4.coords t) := fun h => h9 ((isLast4_iff t).mp h)
      rw [Dat.leavesExact_idle (dat4 V c) 3 t (idle4_3_of t hl) (noFlush4_3_of t hl)]
      rw [acc4_later V c t hz, PhiS4_pos V c _ _ hz]
      iintro ⟨⟨⟨HS, HR⟩, Hg⟩, Ho, ⟨%d0, H0⟩, ⟨%d1, H1⟩, ⟨%d2, H2⟩, ⟨%d3, H3⟩⟩
      iapply (run_mid4 c Set.univ _ hf hl _ _ _ _ _ _ _ _ _ _ (blk4 V c 0 t) (blk4 V c 1 t) (blk4 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives that back: the scratch's sum is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨HS, HR⟩, Hg⟩
  isplitl [HS HR]
  · isplitl [HS]; · iexists _; iexact HS
    iexact HR
  iexact Hg

end Cert.KernelIdeal.Hand

end
-- ==== Proof.KI.Reg5a.lean ====
/-
  Region 5: the variance's sum of squares, accumulated over the grid. At grid point t the body reads rows
  5000·t … 5000·t+4999 of the aggregated features (window 0) and of the inverse-square-root degrees (window 1), the
  bias row (window 2) and the mean row (window 3) — the last two the same block at every point —, forms
  agg ⊙ dinv + b − mean on the block, squares it and adds its column sums to a 1×128 running sum kept in a scratch
  buffer from point to point. The first point zeroes the running sum before adding; the last point, after adding,
  stores the running sum divided by the number of rows (50000) into the output row (window 4), which is written back
  there and nowhere else: at the other points the body does not touch the output's buffer.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds the window's block at every point, whether or not it was fetched there:
    when it was not, the block index has not moved since the last fetch. One statement per input window (the block's
    index type is the literal shape only at a literal window). -/
theorem before5_0_in {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)
theorem before5_1_in {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)
theorem before5_2_in {c : Dev nD} (dat : Dat τ (Elt F) Unit ℕ (UR sig nD τ) ℕ cfg5 c) (hA : dat.A 2 = V c (Pipeline.arrRef spec5 2))
    (hafter : ∀ t, dat.after 2 t = blk5 V c 2 t) (t : Fin cfg5.N) (d) : dat.before 2 t d = blk5 V c 2 t :=
  (dat.before_in_eq_fetched 2 rfl (fun _ => rfl) (fun _ _ _ => rfl) (fun t => by rw [hafter]; unfold Dat.blockOf blk5; rw [hA]; try rfl) t d).trans
    (by unfold Dat.fetched Dat.blockOf blk5; rw [hA]; try rfl)
theorem before5_3_in {c : Dev nD} (dat : Dat τ (Elt F) Unit ℕ (UR sig nD τ) ℕ cfg5 c) (hA : dat.A 3 = V c (Pipeline.arrRef spec5 3))
    (hafter : ∀ t, dat.after 3 t = blk5 V c 3 t) (t : Fin cfg5.N) (d) : dat.before 3 t d = blk5 V c 3 t :=
  (dat.before_in_eq_fetched 3 rfl (fun _ => rfl) (fun _ _ _ => rfl) (fun t => by rw [hafter]; unfold Dat.blockOf blk5; rw [hA]; try rfl) t d).trans
    (by unfold Dat.fetched Dat.blockOf blk5; rw [hA]; try rfl)

/-- Each staging buffer, and the scratch, as one rectangle: the body loads and stores whole buffers. -/
abbrev wholeA5 : Rect S5000x128 := Rect.unit (s := S5000x128) ![0, 0] S5000x128.size inb_S5000x128_S5000x128_0_0
abbrev wholeD5 : Rect S5000x1 := Rect.unit (s := S5000x1) ![0, 0] S5000x1.size inb_S5000x1_S5000x1_0_0
abbrev wholeR5 : Rect S1x128 := Rect.unit (s := S1x128) ![0, 0] S1x128.size inb_S1x128_S1x128_0_0

/-- The running sum after the first point's reset: one store of the whole row, zeros. -/
def zero5 : Vec F S1x128 .f32 := View.canon [⟨wholeR5, k5_pay1 (F := F)⟩]

/-- The running sum after a point: one store of the whole row, the sum s found there plus the column sums of the
    squares of  x ⊙ dv + b − mu  over the point's block. -/
def step5 (x : Vec F S5000x128 .f32) (dv : Vec F S5000x1 .f32) (b mu s : Vec F S1x128 .f32) : Vec F S1x128 .f32 :=
  View.canon [⟨wholeR5, k5_pay2 (View.ld x wholeA5) (View.ld dv wholeD5) (View.ld b wholeR5) (View.ld mu wholeR5) (View.ld s wholeR5)⟩]

/-- The output row the last point stores: the running sum s divided by the number of rows. -/
def fin5 (s : Vec F S1x128 .f32) : Vec F S1x128 .f32 := View.canon [⟨wholeR5, k5_pay3 (View.ld s wholeR5)⟩]

/-- A store of the whole row covers it, -/
theorem row5_cover1 (p0 : Vec F S1x128 .f32) (y : S1x128.Idx) :
    ∃ pc ∈ ([⟨wholeR5, p0⟩] : List (View.Piece (Elt F) S1x128 .f32)), y ∈ pc.1.set :=
  View.cover_of_tiled [⟨wholeR5, p0⟩] S1x128.size (by rfl) y

/-- whatever was stored before it, -/
theorem row5_cover (p0 : Vec F S1x128 .f32) (L : List (View.Piece (Elt F) S1x128 .f32)) (y : S1x128.Idx) :
    ∃ pc ∈ (⟨wholeR5, p0⟩ :: L : List (View.Piece (Elt F) S1x128 .f32)), y ∈ pc.1.set := by
  obtain ⟨pc, hm, hy⟩ := row5_cover1 p0 y
  obtain rfl := List.mem_singleton.mp hm
  exact ⟨_, List.mem_cons_self, hy⟩

/-- and what it leaves does not depend on the earlier stores: every index of the row is under the last one. -/
theorem canon_row5 (p0 : Vec F S1x128 .f32) (L : List (View.Piece (Elt F) S1x128 .f32)) :
    View.canon (⟨wholeR5, p0⟩ :: L) = View.canon [⟨wholeR5, p0⟩] := by
  funext y
  obtain ⟨pc, hm, hy⟩ := row5_cover1 p0 y
  obtain rfl := List.mem_singleton.mp hm
  obtain ⟨x, rfl⟩ : ∃ x, (wholeR5 : Rect S1x128).emb x = y := (wholeR5 : Rect S1x128).exists_idx_of_mem hy
  rw [View.canon_cons_emb, View.canon_cons_emb]

/-- The condition of the body's first conditional (the reset), from the grid coordinate: the kernel's scalar chain. -/
abbrev cond5_0 (i : grid5.Coords) : Prop := (Scalar.cmpi .ne (Scalar.extui (Scalar.cmpi .eq (BitVec.ofNat 32 (i 0).val) 0#32)) 0#32) = 1#1
/-- It holds at the first point only — decided over the grid. -/
theorem hcond5_0 : ∀ t : Fin cfg5.N, cond5_0 (grid5.coords t) ↔ t.val = 0 :=
  (by decide +kernel : ∀ t : Fin grid5.N, cond5_0 (grid5.coords t) ↔ t.val = 0)

/-- The condition of the body's second conditional (the output's store). -/
abbrev cond5_1 (i : grid5.Coords) : Prop := k5_cond2 i = 1#1
/-- It holds at the last point only — decided over the grid. -/
theorem hcond5_1 : ∀ t : Fin cfg5.N, cond5_1 (grid5.coords t) ↔ t.val = 9 :=
  (by decide +kernel : ∀ t : Fin grid5.N, cond5_1 (grid5.coords t) ↔ t.val = 9)

/-- The output window is idle exactly where the second condition fails, and is not written back there. -/
theorem idleAt5_4 : ∀ t : Fin cfg5.N, t.val ≠ 9 → cfg5.idle 4 (grid5.coords t) = true :=
  (by decide +kernel : ∀ t : Fin grid5.N, t.val ≠ 9 → idle5 4 (grid5.coords t) = true)
theorem liveAt5_4 : ∀ t : Fin cfg5.N, t.val = 9 → cfg5.idle 4 (grid5.coords t) = false :=
  (by decide +kernel : ∀ t : Fin grid5.N, t.val = 9 → idle5 4 (grid5.coords t) = false)
theorem noFlush5_4 : ∀ t : Fin cfg5.N, t.val ≠ 9 → (cfg5.win 4).flush t = false :=
  (by decide +kernel : ∀ t : Fin grid5.N, t.val ≠ 9 → win5_4.flush t = false)

end Cert.KernelIdeal.Hand

end
-- ==== Proof.KI.Reg5b.lean ====
/-
  Region 5, the body's three courses. On whole memrefs — the five windows' staging buffers and the scratch — the
  kernel function runs, according to the grid coordinate, in one of three ways: at the first point it zeroes the
  scratch and adds the block's sum; at a point between it adds the block's sum to what the scratch held; at the last
  point it does that and then stores the total, divided by the number of rows, into the output's buffer. Each is one
  statement: what is handed in, and what the continuation is given back.
-/
import proofs.«161886_j5566277616090_2_alg».proof.Proof.KI.Reg5a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point, on whole memrefs: the inputs are read and kept, the output's buffer is not touched,
    the scratch — at anything before — ends at the first block's sum over the zeroed row. -/
theorem run_body5_first (c : Dev nD) (E : Set ℕ) (i : grid5.Coords) (hc0 : cond5_0 i) (hc1 : ¬cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ (∃ d, owns (c : Thread nD τ) a6 fullShare d)
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step5 x dv b mu zero5)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  rw [View.read_writes_eq_canon _ _ _ (row5_cover _ _), canon_row5, View.readCov_eq_canon_ld _ _ _ (row5_cover1 _)]
  rfl

set_option maxHeartbeats 1000000 in
/-- The body at a point that is neither the first nor the last: the inputs are read and kept, the output's buffer is
    not touched, the scratch goes from the sum s it held to s plus the block's sum. -/
theorem run_body5_middle (c : Dev nD) (E : Set ℕ) (i : grid5.Coords) (hc0 : ¬cond5_0 i) (hc1 : ¬cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu o s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare o
            ∗ owns (c : Thread nD τ) a6 fullShare (step5 x dv b mu s)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1; subst hf2; subst hf3; subst hf4; subst hf5; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  exact View.read_writes_eq_canon _ _ _ (row5_cover1 _)

set_option maxHeartbeats 1000000 in
/-- The body at the last point: the inputs are read and kept, the scratch goes from the sum s it held to s plus the
    block's sum, and the output's buffer — at anything before — ends at that total divided by the number of rows. -/
theorem run_body5_last (c : Dev nD) (E : Set ℕ) (i : grid5.Coords) (hc0 : ¬cond5_0 i) (hc1 : cond5_1 i)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S1x128 .f32) (h4 : a4.IsWhole)
    (a5 : Memref sig .tc .vmem S1x128 .f32) (h5 : a5.IsWhole) (a6 : Memref sig .tc .vmem S1x128 .f32) (h6 : a6.IsWhole)
    (x : Vec F S5000x128 .f32) (dv : Vec F S5000x1 .f32) (b mu s : Vec F S1x128 .f32) (K : PUnit → sProp 𝕄) :
    iprop(owns (c : Thread nD τ) a1 fullShare x ∗ owns (c : Thread nD τ) a2 fullShare dv ∗ owns (c : Thread nD τ) a3 fullShare b
        ∗ owns (c : Thread nD τ) a4 fullShare mu ∗ (∃ d, owns (c : Thread nD τ) a5 fullShare d) ∗ owns (c : Thread nD τ) a6 fullShare s
        ∗ (iprop(owns (c : Thread nD τ) a1 fullShare x ∗ owns (c : Thread nD τ) a2 fullShare dv ∗ owns (c : Thread nD τ) a3 fullShare b
        ∗ owns (c : Thread nD τ) a4 fullShare mu ∗ owns (c : Thread nD τ) a5 fullShare (fin5 (step5 x dv b mu s))
            ∗ owns (c : Thread nD τ) a6 fullShare (step5 x dv b mu s)) -∗ K ⟨⟩))
      ⊢ wp frame (wpE (defs₀ (F := F)) Variants.none c none) E (cc5__var_kernel i a1 h1 a2 h2 a3 h3 a4 h4 a5 h5 a6 h6) K := by
  simp only [cc5__var_kernel_eq_skeleton]; unfold cc5__var_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (row5_cover1 _), View.readCov_eq_canon_ld _ _ _ (row5_cover1 _)]
    rfl
  iexists _; isplitr
  swap; · iexact H6
  ipureintro
  sl_unfold_run_names
  exact View.read_writes_eq_canon _ _ _ (row5_cover1 _)

end Cert.KernelIdeal.Hand

end
-- ==== Proof.KI.Reg5.lean ====
/-
  Region 5, the proof data and the body obligation. The scratch after each point by recursion on the point; the
  invariant that carries it from one point to the next; what each window's buffer holds after the body; the body
  obligation, by the point's position among first, between and last; and the two entailments that tie the invariant
  to what the region is handed at entry and gives back at exit.
-/
import proofs.«161886_j5566277616090_2_alg».proof.Proof.KI.Reg5b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum, point by point -/

/-- The scratch after point n: after the first point the first block's sum over the zeroed row, after a later point
    that block's sum over what the point before left. -/
def acc5 (c : Dev nD) : (n : ℕ) → n < cfg5.N → Vec F S1x128 .f32
  | 0, hn => step5 (blk5 V c 0 ⟨0, hn⟩) (blk5 V c 1 ⟨0, hn⟩) (blk5 V c 2 ⟨0, hn⟩) (blk5 V c 3 ⟨0, hn⟩) zero5
  | n + 1, hn => step5 (blk5 V c 0 ⟨n + 1, hn⟩) (blk5 V c 1 ⟨n + 1, hn⟩) (blk5 V c 2 ⟨n + 1, hn⟩) (blk5 V c 3 ⟨n + 1, hn⟩) (acc5 c n (Nat.lt_of_succ_lt hn))

theorem acc5_zero (c : Dev nD) (t : Fin cfg5.N) (h : t.val = 0) :
    acc5 V c t.val t.isLt = step5 (blk5 V c 0 t) (blk5 V c 1 t) (blk5 V c 2 t) (blk5 V c 3 t) zero5 := by
  obtain ⟨n, hn⟩ := t
  cases n with
  | zero => rfl
  | succ n => exact absurd h (Nat.succ_ne_zero n)

theorem acc5_pos (c : Dev nD) (t : Fin cfg5.N) (h : t.val ≠ 0) :
    acc5 V c t.val t.isLt
      = step5 (blk5 V c 0 t) (blk5 V c 1 t) (blk5 V c 2 t) (blk5 V c 3 t) (acc5 V c (t.val - 1) (Nat.lt_of_le_of_lt (Nat.sub_le _ _) t.isLt)) := by
  obtain ⟨n, hn⟩ := t
  cases n with
  | zero => exact absurd rfl h
  | succ n => rfl

/-- The output row: the total after the last point, divided by the number of rows. -/
def out5 (c : Dev nD) : Vec F S1x128 .f32 := fin5 (acc5 V c 9 (by have : cfg5.N = 10 := N_5; omega))

/-! ## The invariant: the scratch carried from point to point -/

/-- The scratch operand: a whole scoped buffer of the kernel's own, passed beside the windows. -/
abbrev scM5 : Memref sig .tc .vmem S1x128 .f32 := Memref.whole cc5_scratch0

/-- What the launch hands the region, with the scratch as a memref owned at some contents beside the scoped buffers
    the body never names. -/
theorem PhiA5_eq (c : Dev nD) :
    (Pipeline.ΦA spec5 c : sProp 𝕄)
      = iprop(iprop(iprop((∃ d, owns (c : Thread nD τ) scM5 fullShare d)) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The invariant before position n: before the first point what the launch hands over (the scratch at anything);
    afterwards the same with the scratch at what the point before left in it. -/
def PhiS5 (c : Dev nD) : (n : ℕ) → n ≤ cfg5.N → sProp 𝕄
  | 0, _ => Pipeline.ΦA spec5 c
  | n + 1, hn => iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5 fullShare (acc5 V c n hn) ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5 fullShare (acc5 V c (n - 1) (by omega)) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The proof data -/

/-- The proof data of region 5 on core c: the arrays as found; after the body each input buffer at its block; the
    output buffer at the running sum so far divided by the number of rows — which is the output row at the last
    point, the only one where the body stores it and the pipeline reads it (elsewhere the window is idle and the value
    stated here is not consulted) —; the invariant carrying the scratch; nothing owed. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => fin5 (acc5 V c t.val t.isLt)
  Φ t := PhiS5 V c t.val (Nat.le_of_lt_succ t.isLt)
  q _ := fullShare
  owed _ := 0

theorem dat5_A (c : Dev nD) (w : Fin cfg5.W) : (dat5 V c).A w = V c (Pipeline.arrRef spec5 w) := by dsimp only [dat5]
theorem dat5_after0 (c : Dev nD) (t : Fin cfg5.N) : (dat5 V c).after 0 t = blk5 V c 0 t := by dsimp only [dat5]
theorem dat5_after1 (c : Dev nD) (t : Fin cfg5.N) : (dat5 V c).after 1 t = blk5 V c 1 t := by dsimp only [dat5]
theorem dat5_after2 (c : Dev nD) (t : Fin cfg5.N) : (dat5 V c).after 2 t = blk5 V c 2 t := by dsimp only [dat5]
theorem dat5_after3 (c : Dev nD) (t : Fin cfg5.N) : (dat5 V c).after 3 t = blk5 V c 3 t := by dsimp only [dat5]
theorem dat5_after4 (c : Dev nD) (t : Fin cfg5.N) : (dat5 V c).after 4 t = fin5 (acc5 V c t.val t.isLt) := by dsimp only [dat5]

/-- At the last point the output's buffer is left at the output row. -/
theorem dat5_after_last (c : Dev nD) (t : Fin cfg5.N) (h : t.val = 9) : (dat5 V c).after 4 t = out5 V c := by
  rw [dat5_after4]; obtain ⟨n, hn⟩ := t; dsimp only at h; subst h; rfl

theorem dat5_before0 (c : Dev nD) (t : Fin cfg5.N) (d) : (dat5 V c).before 0 t d = blk5 V c 0 t :=
  before5_0_in V (dat5 V c) (dat5_A V c 0) (dat5_after0 V c) t d
theorem dat5_before1 (c : Dev nD) (t : Fin cfg5.N) (d) : (dat5 V c).before 1 t d = blk5 V c 1 t :=
  before5_1_in V (dat5 V c) (dat5_A V c 1) (dat5_after1 V c) t d
theorem dat5_before2 (c : Dev nD) (t : Fin cfg5.N) (d) : (dat5 V c).before 2 t d = blk5 V c 2 t :=
  before5_2_in V (dat5 V c) (dat5_A V c 2) (dat5_after2 V c) t d
theorem dat5_before3 (c : Dev nD) (t : Fin cfg5.N) (d) : (dat5 V c).before 3 t d = blk5 V c 3 t :=
  before5_3_in V (dat5 V c) (dat5_A V c 3) (dat5_after3 V c) t d

/-- The invariant at a point's start, restated at the point's position. -/
theorem PhiS5_castSucc (c : Dev nD) (t : Fin cfg5.N) :
    (dat5 V c).Φ t.castSucc = PhiS5 V c t.val (Nat.le_of_lt t.isLt) := by
  dsimp only [dat5]; simp only [Fin.coe_castSucc]

/-- The input windows are never idle. -/
theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl

/-! ## The body obligation -/

/-- What the body is handed at point t, window by window, and what it gives back. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 2000000 in
/-- The body at any point. The inputs' buffers hold their blocks; the point's position says which of the three courses
    the body takes. At the first point the invariant hands over the scratch at anything and takes it back at the first
    running sum; at a later point it hands it over at what the point before left and takes it back at this point's.
    Where the output window is idle its buffer goes back as it came; at the last point it goes back at the output row. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [dat5_before0, dat5_before1, dat5_before2, dat5_before3]
  rw [show (dat5 V c).owesAt () t.succ = (dat5 V c).owesAt () t.castSucc from rfl]
  rw [show (dat5 V c).Φ t.succ = PhiS5 V c (t.val + 1) t.isLt from rfl, PhiS5_succ]
  rw [
    show (dat5 V c).leavesExact 0 t = owns (c : Thread nD τ) (st5_0 t) fullShare ((dat5 V c).after 0 t) from by
      unfold Dat.leavesExact; rw [liveAt5_0 t], dat5_after0,
    show (dat5 V c).leavesExact 1 t = owns (c : Thread nD τ) (st5_1 t) fullShare ((dat5 V c).after 1 t) from by
      unfold Dat.leavesExact; rw [liveAt5_1 t], dat5_after1,
    show (dat5 V c).leavesExact 2 t = owns (c : Thread nD τ) (st5_2 t) fullShare ((dat5 V c).after 2 t) from by
      unfold Dat.leavesExact; rw [liveAt5_2 t], dat5_after2,
    show (dat5 V c).leavesExact 3 t = owns (c : Thread nD τ) (st5_3 t) fullShare ((dat5 V c).after 3 t) from by
      unfold Dat.leavesExact; rw [liveAt5_3 t], dat5_after3]
  have hN : t.val < 10 := lt_of_lt_of_eq t.isLt (show cfg5.N = 10 from N_5)
  by_cases hz : t.val = 0
  · -- the first point
    rw [Dat.leavesExact_idle (dat5 V c) 4 t (idleAt5_4 t (by omega)) (noFlush5_4 t (by omega))]
    rw [PhiS5_castSucc V c t, PhiS5_zero V c _ _ hz, PhiA5_eq, acc5_zero V c t hz]
    iintro ⟨⟨⟨⟨%ds, HS⟩, HR⟩, Hg⟩, Ho, ⟨%d0, H0⟩, ⟨%d1, H1⟩, ⟨%d2, H2⟩, ⟨%d3, H3⟩, ⟨%d4, H4⟩⟩
    iapply (run_body5_first c Set.univ _ ((hcond5_0 t).mpr hz) (fun h => by have := (hcond5_1 t).mp h; omega) _ _ _ _ _ _ _ _ _ _ _ _
      (blk5 V c 0 t) (blk5 V c 1 t) (blk5 V c 2 t) (blk5 V c 3 t) ((dat5 V c).before 4 t d4) _)
    isplitl [H0]; · iexact H0
    isplitl [H1]; · iexact H1
    isplitl [H2]; · iexact H2
    isplitl [H3]; · iexact H3
    isplitl [H4]; · iexact H4
    isplitl [HS]; · iexists _; iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexists _; iexact H4
  · by_cases hl : t.val = 9
    · -- the last point
      rw [show (dat5 V c).leavesExact 4 t = owns (c : Thread nD τ) (st5_4 t) fullShare ((dat5 V c).after 4 t) from by
        unfold Dat.leavesExact; rw [liveAt5_4 t hl], dat5_after4]
      rw [PhiS5_castSucc V c t, PhiS5_pos V c _ _ hz, acc5_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body5_last c Set.univ _ (fun h => hz ((hcond5_0 t).mp h)) ((hcond5_1 t).mpr hl) _ _ _ _ _ _ _ _ _ _ _ _
        (blk5 V c 0 t) (blk5 V c 1 t) (blk5 V c 2 t) (blk5 V c 3 t) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · -- a point between
      rw [Dat.leavesExact_idle (dat5 V c) 4 t (idleAt5_4 t hl) (noFlush5_4 t hl)]
      rw [PhiS5_castSucc V c t, PhiS5_pos V c _ _ hz, acc5_pos V c t hz]
      iintro ⟨⟨⟨HS, HR⟩, Hg⟩, Ho, ⟨%d0, H0⟩, ⟨%d1, H1⟩, ⟨%d2, H2⟩, ⟨%d3, H3⟩, ⟨%d4, H4⟩⟩
      iapply (run_body5_middle c Set.univ _ (fun h => hz ((hcond5_0 t).mp h)) (fun h => hl ((hcond5_1 t).mp h)) _ _ _ _ _ _ _ _ _ _ _ _
        (blk5 V c 0 t) (blk5 V c 1 t) (blk5 V c 2 t) (blk5 V c 3 t) ((dat5 V c).before 4 t d4) (acc5 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives it back: the scratch's named contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 10 := N_5; omega), PhiA5_eq]
  iintro ⟨⟨HS, HR⟩, Hg⟩
  isplitl [HS HR]
  · isplitl [HS]
    · iexists _; iexact HS
    iexact HR
  iexact Hg

end Cert.KernelIdeal.Hand

end
-- ==== Proof.KI.Reg6.lean ====
/-
  Region 6: batch normalisation fused with the next layer's product. At grid point t the body reads rows
  5000·t … 5000·t+4999 of the aggregated features (window 0) and of the inverse-square-root degrees (window 1), and,
  the same block at every point, the bias row, the feature means, the feature variances, the scale row, the shift row
  (windows 2 … 6, each 1×128) and the whole 128×128 weight (window 7). With h = agg_block ⊙ dinv_block + b it forms
  max(((h − mean) · rsqrt(var + ε)) · gamma + beta, 0), rounds it to bf16, multiplies it by the weight rounded to bf16
  (accumulating in f32 from zero), scales every row again by its node's factor and rounds the result to bf16: that
  5000×128 block is written to the matching rows of the output (window 8). Every point writes its own rows; nothing is
  carried from one point to the next.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds the window's block at every point, whether or not it was fetched there:
    when it was not, the block index has not moved since the last fetch (windows 2 … 7 are fetched at the first point
    only, and their block is the same at every point). One statement per input window (the block's index type is the
    literal shape only at a literal window). -/
theorem before6_0_in {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)
theorem before6_1_in {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)
theorem before6_2_in {c : Dev nD} (dat : Dat τ (Elt F) Unit ℕ (UR sig nD τ) ℕ cfg6 c) (hA : dat.A 2 = V c (Pipeline.arrRef spec6 2))
    (hafter : ∀ t, dat.after 2 t = blk6 V c 2 t) (t : Fin cfg6.N) (d) : dat.before 2 t d = blk6 V c 2 t :=
  (dat.before_in_eq_fetched 2 rfl (fun _ => rfl) (fun _ _ _ => rfl) (fun t => by rw [hafter]; unfold Dat.blockOf blk6; rw [hA]; try rfl) t d).trans
    (by unfold Dat.fetched Dat.blockOf blk6; rw [hA]; try rfl)
theorem before6_3_in {c : Dev nD} (dat : Dat τ (Elt F) Unit ℕ (UR sig nD τ) ℕ cfg6 c) (hA : dat.A 3 = V c (Pipeline.arrRef spec6 3))
    (hafter : ∀ t, dat.after 3 t = blk6 V c 3 t) (t : Fin cfg6.N) (d) : dat.before 3 t d = blk6 V c 3 t :=
  (dat.before_in_eq_fetched 3 rfl (fun _ => rfl) (fun _ _ _ => rfl) (fun t => by rw [hafter]; unfold Dat.blockOf blk6; rw [hA]; try rfl) t d).trans
    (by unfold Dat.fetched Dat.blockOf blk6; rw [hA]; try rfl)
theorem before6_4_in {c : Dev nD} (dat : Dat τ (Elt F) Unit ℕ (UR sig nD τ) ℕ cfg6 c) (hA : dat.A 4 = V c (Pipeline.arrRef spec6 4))
    (hafter : ∀ t, dat.after 4 t = blk6 V c 4 t) (t : Fin cfg6.N) (d) : dat.before 4 t d = blk6 V c 4 t :=
  (dat.before_in_eq_fetched 4 rfl (fun _ => rfl) (fun _ _ _ => rfl) (fun t => by rw [hafter]; unfold Dat.blockOf blk6; rw [hA]; try rfl) t d).trans
    (by unfold Dat.fetched Dat.blockOf blk6; rw [hA]; try rfl)
theorem before6_5_in {c : Dev nD} (dat : Dat τ (Elt F) Unit ℕ (UR sig nD τ) ℕ cfg6 c) (hA : dat.A 5 = V c (Pipeline.arrRef spec6 5))
    (hafter : ∀ t, dat.after 5 t = blk6 V c 5 t) (t : Fin cfg6.N) (d) : dat.before 5 t d = blk6 V c 5 t :=
  (dat.before_in_eq_fetched 5 rfl (fun _ => rfl) (fun _ _ _ => rfl) (fun t => by rw [hafter]; unfold Dat.blockOf blk6; rw [hA]; try rfl) t d).trans
    (by unfold Dat.fetched Dat.blockOf blk6; rw [hA]; try rfl)
theorem before6_6_in {c : Dev nD} (dat : Dat τ (Elt F) Unit ℕ (UR sig nD τ) ℕ cfg6 c) (hA : dat.A 6 = V c (Pipeline.arrRef spec6 6))
    (hafter : ∀ t, dat.after 6 t = blk6 V c 6 t) (t : Fin cfg6.N) (d) : dat.before 6 t d = blk6 V c 6 t :=
  (dat.before_in_eq_fetched 6 rfl (fun _ => rfl) (fun _ _ _ => rfl) (fun t => by rw [hafter]; unfold Dat.blockOf blk6; rw [hA]; try rfl) t d).trans
    (by unfold Dat.fetched Dat.blockOf blk6; rw [hA]; try rfl)
theorem before6_7_in {c : Dev nD} (dat : Dat τ (Elt F) Unit ℕ (UR sig nD τ) ℕ cfg6 c) (hA : dat.A 7 = V c (Pipeline.arrRef spec6 7))
    (hafter : ∀ t, dat.after 7 t = blk6 V c 7 t) (t : Fin cfg6.N) (d) : dat.before 7 t d = blk6 V c 7 t :=
  (dat.before_in_eq_fetched 7 rfl (fun _ => rfl) (fun _ _ _ => rfl) (fun t => by rw [hafter]; unfold Dat.blockOf blk6; rw [hA]; try rfl) t d).trans
    (by unfold Dat.fetched Dat.blockOf blk6; rw [hA]; try rfl)

/-- Each staging buffer as one rectangle: the body loads and stores whole buffers. -/
abbrev whole6 : Rect S5000x128 := Rect.unit (s := S5000x128) ![0, 0] S5000x128.size inb_S5000x128_S5000x128_0_0
abbrev wholeD6 : Rect S5000x1 := Rect.unit (s := S5000x1) ![0, 0] S5000x1.size inb_S5000x1_S5000x1_0_0
abbrev wholeR6 : Rect S1x128 := Rect.unit (s := S1x128) ![0, 0] S1x128.size inb_S1x128_S1x128_0_0
abbrev wholeW6 : Rect S128x128 := Rect.unit (s := S128x128) ![0, 0] S128x128.size inb_S128x128_S128x128_0_0

/-- What the body leaves in the output's staging buffer: one store of the whole block. The normalised, rectified
    activations (from the feature rows, the degree factors, the bias, the variances, the means, the scale and the shift,
    in the order the body reads them) times the weight, scaled once more by the degree factors (read a second time),
    rounded to bf16. -/
def out6 (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) : Vec F S5000x128 .bf16 :=
  View.canon [⟨whole6, k6_pay1 (k6_pay2 (View.ld x whole6) (View.ld dv wholeD6) (View.ld b wholeR6) (View.ld var wholeR6) (View.ld mean wholeR6) (View.ld gamma wholeR6) (View.ld beta wholeR6) (View.ld w wholeW6)) (k6_pay3 (View.ld dv wholeD6))⟩]

theorem out6_cover (p0 : Vec F S5000x128 .bf16) (y : S5000x128.Idx) :
    ∃ pc ∈ ([⟨whole6, p0⟩] : List (View.Piece (Elt F) S5000x128 .bf16)), y ∈ pc.1.set :=
  View.cover_of_tiled [⟨whole6, p0⟩] S5000x128.size (by rfl) y

set_option maxHeartbeats 1000000 in
/-- The body on whole staging memrefs: the eight inputs are read and kept, the output ends at the stored block. -/
theorem run_body6 (c : Dev nD) (E : Set ℕ) (i : grid6.Coords)
    (a1 : Memref sig .tc .vmem S5000x128 .f32) (h1 : a1.IsWhole) (a2 : Memref sig .tc .vmem S5000x1 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S128x128 .f32) (h8 : a8.IsWhole) (a9 : Memref sig .tc .vmem S5000x128 .bf16) (h9 : a9.IsWhole)
    (x : Vec F S5000x128 .f32) (dv : Vec F S5000x1 .f32) (b : Vec F S1x128 .f32) (mean : Vec F S1x128 .f32) (var : Vec F S1x128 .f32) (gamma : Vec F S1x128 .f32) (beta : Vec F S1x128 .f32) (w : Vec F S128x128 .f32) (K : PUnit → sProp 𝕄) :
    iprop(owns (c : Thread nD τ) a1 fullShare x ∗ owns (c : Thread nD τ) a2 fullShare dv ∗ owns (c : Thread nD τ) a3 fullShare b ∗ owns (c : Thread nD τ) a4 fullShare mean
        ∗ owns (c : Thread nD τ) a5 fullShare var ∗ owns (c : Thread nD τ) a6 fullShare gamma ∗ owns (c : Thread nD τ) a7 fullShare beta ∗ owns (c : Thread nD τ) a8 fullShare w
        ∗ (∃ d, owns (c : Thread nD τ) a9 fullShare d)
        ∗ (iprop(owns (c : Thread nD τ) a1 fullShare x ∗ owns (c : Thread nD τ) a2 fullShare dv ∗ owns (c : Thread nD τ) a3 fullShare b ∗ owns (c : Thread nD τ) a4 fullShare mean
            ∗ owns (c : Thread nD τ) a5 fullShare var ∗ owns (c : Thread nD τ) a6 fullShare gamma ∗ owns (c : Thread nD τ) a7 fullShare beta ∗ owns (c : Thread nD τ) a8 fullShare w
            ∗ owns (c : Thread nD τ) a9 fullShare (out6 x dv b mean var gamma beta w)) -∗ K ⟨⟩))
      ⊢ wp frame (wpE (defs₀ (F := F)) Variants.none c none) E (cc6__fused_bn_matmul_kernel i a1 h1 a2 h2 a3 h3 a4 h4 a5 h5 a6 h6 a7 h7 a8 h8 a9 h9) K := by
  simp only [cc6__fused_bn_matmul_kernel_eq_skeleton]; unfold cc6__fused_bn_matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (out6_cover _)

/-- The proof data of region 6 on core c: the arrays as found; after the body each input buffer at its block and the
    output buffer at the stored block computed from the point's input blocks; the untouched scoped rest as invariant;
    nothing owed. -/
def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => blk6 V c 5 t
    | ⟨6, _⟩ => blk6 V c 6 t
    | ⟨7, _⟩ => blk6 V c 7 t
    | ⟨8, _⟩ => out6 (blk6 V c 0 t) (blk6 V c 1 t) (blk6 V c 2 t) (blk6 V c 3 t) (blk6 V c 4 t) (blk6 V c 5 t) (blk6 V c 6 t) (blk6 V c 7 t)
  Φ _ := Pipeline.ΦA spec6 c
  q _ := fullShare
  owed _ := 0

theorem dat6_A (c : Dev nD) (w : Fin cfg6.W) : (dat6 V c).A w = V c (Pipeline.arrRef spec6 w) := by dsimp only [dat6]
theorem dat6_after0 (c : Dev nD) (t : Fin cfg6.N) : (dat6 V c).after 0 t = blk6 V c 0 t := by dsimp only [dat6]
theorem dat6_after1 (c : Dev nD) (t : Fin cfg6.N) : (dat6 V c).after 1 t = blk6 V c 1 t := by dsimp only [dat6]
theorem dat6_after2 (c : Dev nD) (t : Fin cfg6.N) : (dat6 V c).after 2 t = blk6 V c 2 t := by dsimp only [dat6]
theorem dat6_after3 (c : Dev nD) (t : Fin cfg6.N) : (dat6 V c).after 3 t = blk6 V c 3 t := by dsimp only [dat6]
theorem dat6_after4 (c : Dev nD) (t : Fin cfg6.N) : (dat6 V c).after 4 t = blk6 V c 4 t := by dsimp only [dat6]
theorem dat6_after5 (c : Dev nD) (t : Fin cfg6.N) : (dat6 V c).after 5 t = blk6 V c 5 t := by dsimp only [dat6]
theorem dat6_after6 (c : Dev nD) (t : Fin cfg6.N) : (dat6 V c).after 6 t = blk6 V c 6 t := by dsimp only [dat6]
theorem dat6_after7 (c : Dev nD) (t : Fin cfg6.N) : (dat6 V c).after 7 t = blk6 V c 7 t := by dsimp only [dat6]
/-- The output's staging buffer after the body at point t: the stored block of the point's eight input blocks. -/
theorem dat6_after_out (c : Dev nD) (t : Fin cfg6.N) :
    (dat6 V c).after 8 t = out6 (blk6 V c 0 t) (blk6 V c 1 t) (blk6 V c 2 t) (blk6 V c 3 t) (blk6 V c 4 t) (blk6 V c 5 t) (blk6 V c 6 t) (blk6 V c 7 t) := by dsimp only [dat6]

theorem dat6_before0 (c : Dev nD) (t : Fin cfg6.N) (d) : (dat6 V c).before 0 t d = blk6 V c 0 t :=
  before6_0_in V (dat6 V c) (dat6_A V c 0) (dat6_after0 V c) t d
theorem dat6_before1 (c : Dev nD) (t : Fin cfg6.N) (d) : (dat6 V c).before 1 t d = blk6 V c 1 t :=
  before6_1_in V (dat6 V c) (dat6_A V c 1) (dat6_after1 V c) t d
theorem dat6_before2 (c : Dev nD) (t : Fin cfg6.N) (d) : (dat6 V c).before 2 t d = blk6 V c 2 t :=
  before6_2_in V (dat6 V c) (dat6_A V c 2) (dat6_after2 V c) t d
theorem dat6_before3 (c : Dev nD) (t : Fin cfg6.N) (d) : (dat6 V c).before 3 t d = blk6 V c 3 t :=
  before6_3_in V (dat6 V c) (dat6_A V c 3) (dat6_after3 V c) t d
theorem dat6_before4 (c : Dev nD) (t : Fin cfg6.N) (d) : (dat6 V c).before 4 t d = blk6 V c 4 t :=
  before6_4_in V (dat6 V c) (dat6_A V c 4) (dat6_after4 V c) t d
theorem dat6_before5 (c : Dev nD) (t : Fin cfg6.N) (d) : (dat6 V c).before 5 t d = blk6 V c 5 t :=
  before6_5_in V (dat6 V c) (dat6_A V c 5) (dat6_after5 V c) t d
theorem dat6_before6 (c : Dev nD) (t : Fin cfg6.N) (d) : (dat6 V c).before 6 t d = blk6 V c 6 t :=
  before6_6_in V (dat6 V c) (dat6_A V c 6) (dat6_after6 V c) t d
theorem dat6_before7 (c : Dev nD) (t : Fin cfg6.N) (d) : (dat6 V c).before 7 t d = blk6 V c 7 t :=
  before6_7_in V (dat6 V c) (dat6_A V c 7) (dat6_after7 V c) t d

/-- What the body is handed at point t, window by window, and what it gives back. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [dat6_before0, dat6_before1, dat6_before2, dat6_before3, dat6_before4, dat6_before5, dat6_before6, dat6_before7]
  rw [show (dat6 V c).Φ t.succ = (dat6 V c).Φ t.castSucc from rfl,
    show (dat6 V c).owesAt () t.succ = (dat6 V c).owesAt () t.castSucc from rfl,
    dat6_after0, dat6_after1, dat6_after2, dat6_after3, dat6_after4, dat6_after5, dat6_after6, dat6_after7, dat6_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body6 c Set.univ _ _ _ _ _ _ _ _ _ _ _ _ _ _ _ _ _ _ _ (blk6 V c 0 t) (blk6 V c 1 t) (blk6 V c 2 t) (blk6 V c 3 t) (blk6 V c 4 t) (blk6 V c 5 t) (blk6 V c 6 t) (blk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/-
  Region 7: the two-layer feed-forward head, with the last graph layer's scaling and bias folded into its start.
  At grid point t the body reads rows 1024·t … 1024·t+1023 of the gathered pre-activation rows (window 0, 1024×128) and
  of their inverse-square-root degrees (window 1, 1024×1), and five blocks that are the same at every point: the graph
  layer's bias (window 2, 1×128), the first feed-forward weight (window 3, 128×128) and bias (window 4, 1×128), the
  second feed-forward weight with its columns zero-padded to 128 (window 5, 128×128) and its bias padded likewise
  (window 6, 1×128). With  u = x ⊙ dinv + b  (each row scaled by its node's factor, the bias added to every row), it
  writes to the matching 1024 rows of the output (window 7) the block
      bf16( max( bf16(u) · bf16(W1) + b1 , 0 ) ) · bf16(W2) + b2'
  both matrix products accumulated in f32 from zero. Every point writes its own rows; nothing is carried from one point
  to the next.
  Stated at a parameter V: the contents of the core's buffers when the region is entered.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region finds. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's staging buffer holds the window's block at every point, whether or not it was fetched there:
    when it was not (windows 2 to 6 after the first point), the block index has not moved since the last fetch. One
    statement per input window (the block's index type is the literal shape only at a literal window). -/
theorem before7_0_in {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)
theorem before7_1_in {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)
theorem before7_2_in {c : Dev nD} (dat : Dat τ (Elt F) Unit ℕ (UR sig nD τ) ℕ cfg7 c) (hA : dat.A 2 = V c (Pipeline.arrRef spec7 2))
    (hafter : ∀ t, dat.after 2 t = blk7 V c 2 t) (t : Fin cfg7.N) (d) : dat.before 2 t d = blk7 V c 2 t :=
  (dat.before_in_eq_fetched 2 rfl (fun _ => rfl) (fun _ _ _ => rfl) (fun t => by rw [hafter]; unfold Dat.blockOf blk7; rw [hA]; try rfl) t d).trans
    (by unfold Dat.fetched Dat.blockOf blk7; rw [hA]; try rfl)
theorem before7_3_in {c : Dev nD} (dat : Dat τ (Elt F) Unit ℕ (UR sig nD τ) ℕ cfg7 c) (hA : dat.A 3 = V c (Pipeline.arrRef spec7 3))
    (hafter : ∀ t, dat.after 3 t = blk7 V c 3 t) (t : Fin cfg7.N) (d) : dat.before 3 t d = blk7 V c 3 t :=
  (dat.before_in_eq_fetched 3 rfl (fun _ => rfl) (fun _ _ _ => rfl) (fun t => by rw [hafter]; unfold Dat.blockOf blk7; rw [hA]; try rfl) t d).trans
    (by unfold Dat.fetched Dat.blockOf blk7; rw [hA]; try rfl)
theorem before7_4_in {c : Dev nD} (dat : Dat τ (Elt F) Unit ℕ (UR sig nD τ) ℕ cfg7 c) (hA : dat.A 4 = V c (Pipeline.arrRef spec7 4))
    (hafter : ∀ t, dat.after 4 t = blk7 V c 4 t) (t : Fin cfg7.N) (d) : dat.before 4 t d = blk7 V c 4 t :=
  (dat.before_in_eq_fetched 4 rfl (fun _ => rfl) (fun _ _ _ => rfl) (fun t => by rw [hafter]; unfold Dat.blockOf blk7; rw [hA]; try rfl) t d).trans
    (by unfold Dat.fetched Dat.blockOf blk7; rw [hA]; try rfl)
theorem before7_5_in {c : Dev nD} (dat : Dat τ (Elt F) Unit ℕ (UR sig nD τ) ℕ cfg7 c) (hA : dat.A 5 = V c (Pipeline.arrRef spec7 5))
    (hafter : ∀ t, dat.after 5 t = blk7 V c 5 t) (t : Fin cfg7.N) (d) : dat.before 5 t d = blk7 V c 5 t :=
  (dat.before_in_eq_fetched 5 rfl (fun _ => rfl) (fun _ _ _ => rfl) (fun t => by rw [hafter]; unfold Dat.blockOf blk7; rw [hA]; try rfl) t d).trans
    (by unfold Dat.fetched Dat.blockOf blk7; rw [hA]; try rfl)
theorem before7_6_in {c : Dev nD} (dat : Dat τ (Elt F) Unit ℕ (UR sig nD τ) ℕ cfg7 c) (hA : dat.A 6 = V c (Pipeline.arrRef spec7 6))
    (hafter : ∀ t, dat.after 6 t = blk7 V c 6 t) (t : Fin cfg7.N) (d) : dat.before 6 t d = blk7 V c 6 t :=
  (dat.before_in_eq_fetched 6 rfl (fun _ => rfl) (fun _ _ _ => rfl) (fun t => by rw [hafter]; unfold Dat.blockOf blk7; rw [hA]; try rfl) t d).trans
    (by unfold Dat.fetched Dat.blockOf blk7; rw [hA]; try rfl)

/-- Each staging buffer as one rectangle: the body loads and stores whole buffers. Four shapes occur: the row block,
    the column of factors, a single row (the three biases), a square weight. -/
abbrev whole7 : Rect S1024x128 := Rect.unit (s := S1024x128) ![0, 0] S1024x128.size inb_S1024x128_S1024x128_0_0
abbrev wholeD7 : Rect S1024x1 := Rect.unit (s := S1024x1) ![0, 0] S1024x1.size inb_S1024x1_S1024x1_0_0
abbrev wholeB7 : Rect S1x128 := Rect.unit (s := S1x128) ![0, 0] S1x128.size inb_S1x128_S1x128_0_0
abbrev wholeW7 : Rect S128x128 := Rect.unit (s := S128x128) ![0, 0] S128x128.size inb_S128x128_S128x128_0_0

/-- What the body leaves in the output's staging buffer: one store of the whole block, the feed-forward head applied
    to the point's rows (x, their factors dv) with the graph bias b2, first layer (w1, b1) and second layer (w2, bo). -/
def ffn7 (x : Vec F S1024x128 .f32) (dv : Vec F S1024x1 .f32) (b2 : Vec F S1x128 .f32) (w1 : Vec F S128x128 .f32) (b1 : Vec F S1x128 .f32) (w2 : Vec F S128x128 .f32) (bo : Vec F S1x128 .f32) : Vec F S1024x128 .f32 :=
  View.canon [⟨whole7, k7_pay1 (View.ld x whole7) (View.ld dv wholeD7) (View.ld b2 wholeB7) (View.ld w1 wholeW7) (View.ld b1 wholeB7) (View.ld w2 wholeW7) (View.ld bo wholeB7)⟩]

theorem ffn7_cover (p0 : Vec F S1024x128 .f32) (y : S1024x128.Idx) :
    ∃ pc ∈ ([⟨whole7, p0⟩] : List (View.Piece (Elt F) S1024x128 .f32)), y ∈ pc.1.set :=
  View.cover_of_tiled [⟨whole7, p0⟩] S1024x128.size (by rfl) y

set_option maxHeartbeats 1000000 in
/-- The body on whole staging memrefs: the seven inputs are read and kept, the output ends at the head's value. -/
theorem run_body7 (c : Dev nD) (E : Set ℕ) (i : grid7.Coords)
    (a1 : Memref sig .tc .vmem S1024x128 .f32) (h1 : a1.IsWhole) (a2 : Memref sig .tc .vmem S1024x1 .f32) (h2 : a2.IsWhole) (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S1024x128 .f32) (h8 : a8.IsWhole)
    (x : Vec F S1024x128 .f32) (dv : Vec F S1024x1 .f32) (b2 : Vec F S1x128 .f32) (w1 : Vec F S128x128 .f32) (b1 : Vec F S1x128 .f32) (w2 : Vec F S128x128 .f32) (bo : Vec F S1x128 .f32) (K : PUnit → sProp 𝕄) :
    iprop(owns (c : Thread nD τ) a1 fullShare x ∗ owns (c : Thread nD τ) a2 fullShare dv ∗ owns (c : Thread nD τ) a3 fullShare b2 ∗ owns (c : Thread nD τ) a4 fullShare w1 ∗ owns (c : Thread nD τ) a5 fullShare b1 ∗ owns (c : Thread nD τ) a6 fullShare w2 ∗ owns (c : Thread nD τ) a7 fullShare bo
        ∗ (∃ d, owns (c : Thread nD τ) a8 fullShare d)
        ∗ (iprop(owns (c : Thread nD τ) a1 fullShare x ∗ owns (c : Thread nD τ) a2 fullShare dv ∗ owns (c : Thread nD τ) a3 fullShare b2 ∗ owns (c : Thread nD τ) a4 fullShare w1 ∗ owns (c : Thread nD τ) a5 fullShare b1 ∗ owns (c : Thread nD τ) a6 fullShare w2 ∗ owns (c : Thread nD τ) a7 fullShare bo
            ∗ owns (c : Thread nD τ) a8 fullShare (ffn7 x dv b2 w1 b1 w2 bo)) -∗ K ⟨⟩))
      ⊢ wp frame (wpE (defs₀ (F := F)) Variants.none c none) E (cc7__ffn_kernel i a1 h1 a2 h2 a3 h3 a4 h4 a5 h5 a6 h6 a7 h7 a8 h8) K := by
  simp only [cc7__ffn_kernel_eq_skeleton]; unfold cc7__ffn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (ffn7_cover _)

/-- The proof data of region 7 on core c: the arrays as found; after the body each input buffer at its block and the
    output buffer at the head's value on the point's blocks; the untouched scoped rest as invariant; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => blk7 V c 3 t
    | ⟨4, _⟩ => blk7 V c 4 t
    | ⟨5, _⟩ => blk7 V c 5 t
    | ⟨6, _⟩ => blk7 V c 6 t
    | ⟨7, _⟩ => ffn7 (blk7 V c 0 t) (blk7 V c 1 t) (blk7 V c 2 t) (blk7 V c 3 t) (blk7 V c 4 t) (blk7 V c 5 t) (blk7 V c 6 t)
  Φ _ := Pipeline.ΦA spec7 c
  q _ := fullShare
  owed _ := 0

theorem dat7_A (c : Dev nD) (w : Fin cfg7.W) : (dat7 V c).A w = V c (Pipeline.arrRef spec7 w) := by dsimp only [dat7]
theorem dat7_after0 (c : Dev nD) (t : Fin cfg7.N) : (dat7 V c).after 0 t = blk7 V c 0 t := by dsimp only [dat7]
theorem dat7_after1 (c : Dev nD) (t : Fin cfg7.N) : (dat7 V c).after 1 t = blk7 V c 1 t := by dsimp only [dat7]
theorem dat7_after2 (c : Dev nD) (t : Fin cfg7.N) : (dat7 V c).after 2 t = blk7 V c 2 t := by dsimp only [dat7]
theorem dat7_after3 (c : Dev nD) (t : Fin cfg7.N) : (dat7 V c).after 3 t = blk7 V c 3 t := by dsimp only [dat7]
theorem dat7_after4 (c : Dev nD) (t : Fin cfg7.N) : (dat7 V c).after 4 t = blk7 V c 4 t := by dsimp only [dat7]
theorem dat7_after5 (c : Dev nD) (t : Fin cfg7.N) : (dat7 V c).after 5 t = blk7 V c 5 t := by dsimp only [dat7]
theorem dat7_after6 (c : Dev nD) (t : Fin cfg7.N) : (dat7 V c).after 6 t = blk7 V c 6 t := by dsimp only [dat7]
theorem dat7_after_out (c : Dev nD) (t : Fin cfg7.N) :
    (dat7 V c).after 7 t = ffn7 (blk7 V c 0 t) (blk7 V c 1 t) (blk7 V c 2 t) (blk7 V c 3 t) (blk7 V c 4 t) (blk7 V c 5 t) (blk7 V c 6 t) := by dsimp only [dat7]

theorem dat7_before0 (c : Dev nD) (t : Fin cfg7.N) (d) : (dat7 V c).before 0 t d = blk7 V c 0 t :=
  before7_0_in V (dat7 V c) (dat7_A V c 0) (dat7_after0 V c) t d
theorem dat7_before1 (c : Dev nD) (t : Fin cfg7.N) (d) : (dat7 V c).before 1 t d = blk7 V c 1 t :=
  before7_1_in V (dat7 V c) (dat7_A V c 1) (dat7_after1 V c) t d
theorem dat7_before2 (c : Dev nD) (t : Fin cfg7.N) (d) : (dat7 V c).before 2 t d = blk7 V c 2 t :=
  before7_2_in V (dat7 V c) (dat7_A V c 2) (dat7_after2 V c) t d
theorem dat7_before3 (c : Dev nD) (t : Fin cfg7.N) (d) : (dat7 V c).before 3 t d = blk7 V c 3 t :=
  before7_3_in V (dat7 V c) (dat7_A V c 3) (dat7_after3 V c) t d
theorem dat7_before4 (c : Dev nD) (t : Fin cfg7.N) (d) : (dat7 V c).before 4 t d = blk7 V c 4 t :=
  before7_4_in V (dat7 V c) (dat7_A V c 4) (dat7_after4 V c) t d
theorem dat7_before5 (c : Dev nD) (t : Fin cfg7.N) (d) : (dat7 V c).before 5 t d = blk7 V c 5 t :=
  before7_5_in V (dat7 V c) (dat7_A V c 5) (dat7_after5 V c) t d
theorem dat7_before6 (c : Dev nD) (t : Fin cfg7.N) (d) : (dat7 V c).before 6 t d = blk7 V c 6 t :=
  before7_6_in V (dat7 V c) (dat7_A V c 6) (dat7_after6 V c) t d

/-- What the body is handed at point t, window by window, and what it gives back. -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [dat7_before0, dat7_before1, dat7_before2, dat7_before3, dat7_before4, dat7_before5, dat7_before6]
  rw [show (dat7 V c).Φ t.succ = (dat7 V c).Φ t.castSucc from rfl,
    show (dat7 V c).owesAt () t.succ = (dat7 V c).owesAt () t.castSucc from rfl,
    dat7_after0, dat7_after1, dat7_after2, dat7_after3, dat7_after4, dat7_after5, dat7_after6, dat7_after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body7 c Set.univ _ _ _ _ _ _ _ _ _ _ _ _ _ _ _ _ _ (blk7 V c 0 t) (blk7 V c 1 t) (blk7 V c 2 t) (blk7 V c 3 t) (blk7 V c 4 t) (blk7 V c 5 t) (blk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Stages.lean ====
/-
  The contents of a core's buffers at each of the eighteen boundaries of @main: the launch memory, each host stretch
  applied in turn, and across each kernel region the region's arrays replaced by what its write-backs leave (an input
  window's array as entered, the output window's array at the folded write-backs of its blocks).
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.KI.Reg0
import proofs.«161886_j5566277616090_2_alg».proof.Proof.KI.Reg1
import proofs.«161886_j5566277616090_2_alg».proof.Proof.KI.Reg2
import proofs.«161886_j5566277616090_2_alg».proof.Proof.KI.Reg3
import proofs.«161886_j5566277616090_2_alg».proof.Proof.KI.Reg4
import proofs.«161886_j5566277616090_2_alg».proof.Proof.KI.Reg5
import proofs.«161886_j5566277616090_2_alg».proof.Proof.KI.Reg6
import proofs.«161886_j5566277616090_2_alg».proof.Proof.KI.Reg7
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! The contents of core c's buffers at each boundary of @main: the launch memory, then each host stretch applied,
    then each region's arrays replaced by what its write-backs leave. -/

/-- Core c's buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
abbrev E1 : (c : Dev nD) → (b : Ref sig .tc) → Buf (Elt F) ((c : Thread nD τ).loc b) := fun c b => W1 m c b
/-- At region 0's exit: its arrays at what the pipeline leaves (inputs as entered, the output's write-backs folded),
    every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)
/-- After the host stretch `hostOps1`. -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit: its arrays at what the pipeline leaves (inputs as entered, the output's write-backs folded),
    every other buffer as entered. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)
/-- At region 2's exit: its arrays at what the pipeline leaves (inputs as entered, the output's write-backs folded),
    every other buffer as entered. -/
def W5 (c : Dev nD) : Valuation τ sig (Elt F) :=
  Pipeline.withArrays spec2 c (W4 m c) fun w => (dat2 (E4 m) c).arrAt w cfg2.N
theorem W5_arr (c : Dev nD) (w : Fin cfg2.W) :
    W5 m c (Proc.devRef .tc (Pipeline.arrRef spec2 w)) = (dat2 (E4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev E5 : (c : Dev nD) → (b : Ref sig .tc) → Buf (Elt F) ((c : Thread nD τ).loc b) := fun c b => W5 m c b
theorem hF2 (c : Dev nD) (w : Fin cfg2.W) : (dat2 (E4 m) c).arrAt w cfg2.N = E5 m c (Pipeline.arrRef spec2 w) :=
  (W5_arr m c w).symm
theorem hrest2 (c : Dev nD) : ∀ b, b ∉ Finset.univ.image (Pipeline.arrRef spec2) → E5 m c b = E4 m c b :=
  fun b hb => W5_of_ne m c b fun w e => hb (Finset.mem_image.mpr ⟨w, Finset.mem_univ _, e⟩)
/-- At region 3's exit: its arrays at what the pipeline leaves (inputs as entered, the output's write-backs folded),
    every other buffer as entered. -/
def W6 (c : Dev nD) : Valuation τ sig (Elt F) :=
  Pipeline.withArrays spec3 c (W5 m c) fun w => (dat3 (E5 m) c).arrAt w cfg3.N
theorem W6_arr (c : Dev nD) (w : Fin cfg3.W) :
    W6 m c (Proc.devRef .tc (Pipeline.arrRef spec3 w)) = (dat3 (E5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
abbrev E6 : (c : Dev nD) → (b : Ref sig .tc) → Buf (Elt F) ((c : Thread nD τ).loc b) := fun c b => W6 m c b
theorem hF3 (c : Dev nD) (w : Fin cfg3.W) : (dat3 (E5 m) c).arrAt w cfg3.N = E6 m c (Pipeline.arrRef spec3 w) :=
  (W6_arr m c w).symm
theorem hrest3 (c : Dev nD) : ∀ b, b ∉ Finset.univ.image (Pipeline.arrRef spec3) → E6 m c b = E5 m c b :=
  fun b hb => W6_of_ne m c b fun w e => hb (Finset.mem_image.mpr ⟨w, Finset.mem_univ _, e⟩)
/-- After the host stretch `hostOps4`. -/
abbrev W7 (c : Dev nD) : Valuation τ sig (Elt F) := StableHlo.after hostOps4 (W6 m c)
abbrev E7 : (c : Dev nD) → (b : Ref sig .tc) → Buf (Elt F) ((c : Thread nD τ).loc b) := fun c b => W7 m c b
/-- At region 4's exit: its arrays at what the pipeline leaves (inputs as entered, the output's write-backs folded),
    every other buffer as entered. -/
def W8 (c : Dev nD) : Valuation τ sig (Elt F) :=
  Pipeline.withArrays spec4 c (W7 m c) fun w => (dat4 (E7 m) c).arrAt w cfg4.N
theorem W8_arr (c : Dev nD) (w : Fin cfg4.W) :
    W8 m c (Proc.devRef .tc (Pipeline.arrRef spec4 w)) = (dat4 (E7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
abbrev E8 : (c : Dev nD) → (b : Ref sig .tc) → Buf (Elt F) ((c : Thread nD τ).loc b) := fun c b => W8 m c b
theorem hF4 (c : Dev nD) (w : Fin cfg4.W) : (dat4 (E7 m) c).arrAt w cfg4.N = E8 m c (Pipeline.arrRef spec4 w) :=
  (W8_arr m c w).symm
theorem hrest4 (c : Dev nD) : ∀ b, b ∉ Finset.univ.image (Pipeline.arrRef spec4) → E8 m c b = E7 m c b :=
  fun b hb => W8_of_ne m c b fun w e => hb (Finset.mem_image.mpr ⟨w, Finset.mem_univ _, e⟩)
/-- At region 5's exit: its arrays at what the pipeline leaves (inputs as entered, the output's write-backs folded),
    every other buffer as entered. -/
def W9 (c : Dev nD) : Valuation τ sig (Elt F) :=
  Pipeline.withArrays spec5 c (W8 m c) fun w => (dat5 (E8 m) c).arrAt w cfg5.N
theorem W9_arr (c : Dev nD) (w : Fin cfg5.W) :
    W9 m c (Proc.devRef .tc (Pipeline.arrRef spec5 w)) = (dat5 (E8 m) c).arrAt w cfg5.N := by
  unfold W9; exact Pipeline.withArrays_arr spec5 launch5.win.arr_inj c _ _ w
theorem W9_of_ne (c : Dev nD) (b : Ref sig .tc) (hb : ∀ w, Pipeline.arrRef spec5 w ≠ b) :
    W9 m c (Proc.devRef .tc b) = W8 m c (Proc.devRef .tc b) := by
  unfold W9; exact Pipeline.withArrays_of_ne spec5 c _ _ b hb
abbrev E9 : (c : Dev nD) → (b : Ref sig .tc) → Buf (Elt F) ((c : Thread nD τ).loc b) := fun c b => W9 m c b
theorem hF5 (c : Dev nD) (w : Fin cfg5.W) : (dat5 (E8 m) c).arrAt w cfg5.N = E9 m c (Pipeline.arrRef spec5 w) :=
  (W9_arr m c w).symm
theorem hrest5 (c : Dev nD) : ∀ b, b ∉ Finset.univ.image (Pipeline.arrRef spec5) → E9 m c b = E8 m c b :=
  fun b hb => W9_of_ne m c b fun w e => hb (Finset.mem_image.mpr ⟨w, Finset.mem_univ _, e⟩)
/-- At region 6's exit: its arrays at what the pipeline leaves (inputs as entered, the output's write-backs folded),
    every other buffer as entered. -/
def W10 (c : Dev nD) : Valuation τ sig (Elt F) :=
  Pipeline.withArrays spec6 c (W9 m c) fun w => (dat6 (E9 m) c).arrAt w cfg6.N
theorem W10_arr (c : Dev nD) (w : Fin cfg6.W) :
    W10 m c (Proc.devRef .tc (Pipeline.arrRef spec6 w)) = (dat6 (E9 m) c).arrAt w cfg6.N := by
  unfold W10; exact Pipeline.withArrays_arr spec6 launch6.win.arr_inj c _ _ w
theorem W10_of_ne (c : Dev nD) (b : Ref sig .tc) (hb : ∀ w, Pipeline.arrRef spec6 w ≠ b) :
    W10 m c (Proc.devRef .tc b) = W9 m c (Proc.devRef .tc b) := by
  unfold W10; exact Pipeline.withArrays_of_ne spec6 c _ _ b hb
abbrev E10 : (c : Dev nD) → (b : Ref sig .tc) → Buf (Elt F) ((c : Thread nD τ).loc b) := fun c b => W10 m c b
theorem hF6 (c : Dev nD) (w : Fin cfg6.W) : (dat6 (E9 m) c).arrAt w cfg6.N = E10 m c (Pipeline.arrRef spec6 w) :=
  (W10_arr m c w).symm
theorem hrest6 (c : Dev nD) : ∀ b, b ∉ Finset.univ.image (Pipeline.arrRef spec6) → E10 m c b = E9 m c b :=
  fun b hb => W10_of_ne m c b fun w e => hb (Finset.mem_image.mpr ⟨w, Finset.mem_univ _, e⟩)
/-- After the host stretch `hostOps7`. -/
abbrev W11 (c : Dev nD) : Valuation τ sig (Elt F) := StableHlo.after hostOps7 (W10 m c)
abbrev E11 : (c : Dev nD) → (b : Ref sig .tc) → Buf (Elt F) ((c : Thread nD τ).loc b) := fun c b => W11 m c b
/-- After the host stretch `hostOps7_1`. -/
abbrev W12 (c : Dev nD) : Valuation τ sig (Elt F) := StableHlo.after hostOps7_1 (W11 m c)
abbrev E12 : (c : Dev nD) → (b : Ref sig .tc) → Buf (Elt F) ((c : Thread nD τ).loc b) := fun c b => W12 m c b
/-- After the host stretch `hostOps7_2`. -/
abbrev W13 (c : Dev nD) : Valuation τ sig (Elt F) := StableHlo.after hostOps7_2 (W12 m c)
abbrev E13 : (c : Dev nD) → (b : Ref sig .tc) → Buf (Elt F) ((c : Thread nD τ).loc b) := fun c b => W13 m c b
/-- After the host stretch `hostOps7_3`. -/
abbrev W14 (c : Dev nD) : Valuation τ sig (Elt F) := StableHlo.after hostOps7_3 (W13 m c)
abbrev E14 : (c : Dev nD) → (b : Ref sig .tc) → Buf (Elt F) ((c : Thread nD τ).loc b) := fun c b => W14 m c b
/-- After the host stretch `hostOps7_4`. -/
abbrev W15 (c : Dev nD) : Valuation τ sig (Elt F) := StableHlo.after hostOps7_4 (W14 m c)
abbrev E15 : (c : Dev nD) → (b : Ref sig .tc) → Buf (Elt F) ((c : Thread nD τ).loc b) := fun c b => W15 m c b
/-- At region 7's exit: its arrays at what the pipeline leaves (inputs as entered, the output's write-backs folded),
    every other buffer as entered. -/
def W16 (c : Dev nD) : Valuation τ sig (Elt F) :=
  Pipeline.withArrays spec7 c (W15 m c) fun w => (dat7 (E15 m) c).arrAt w cfg7.N
theorem W16_arr (c : Dev nD) (w : Fin cfg7.W) :
    W16 m c (Proc.devRef .tc (Pipeline.arrRef spec7 w)) = (dat7 (E15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev E16 : (c : Dev nD) → (b : Ref sig .tc) → Buf (Elt F) ((c : Thread nD τ).loc b) := fun c b => W16 m c b
theorem hF7 (c : Dev nD) (w : Fin cfg7.W) : (dat7 (E15 m) c).arrAt w cfg7.N = E16 m c (Pipeline.arrRef spec7 w) :=
  (W16_arr m c w).symm
theorem hrest7 (c : Dev nD) : ∀ b, b ∉ Finset.univ.image (Pipeline.arrRef spec7) → E16 m c b = E15 m c b :=
  fun b hb => W16_of_ne m c b fun w e => hb (Finset.mem_image.mpr ⟨w, Finset.mem_univ _, e⟩)
/-- After the host stretch `hostOps8`. -/
abbrev W17 (c : Dev nD) : Valuation τ sig (Elt F) := StableHlo.after hostOps8 (W16 m c)
abbrev E17 : (c : Dev nD) → (b : Ref sig .tc) → Buf (Elt F) ((c : Thread nD τ).loc b) := fun c b => W17 m c b

end Cert.KernelIdeal.Hand

end
-- ==== Proof.KI.Recs.lean ====
/-
  Each kernel region as a segment of @main over one thread state: every unscoped buffer at the boundary's contents, the
  generator register at some state, nothing owed. On entry the region's arrays are split out of the unscoped buffers; on
  exit they are put back at their exit contents. The four regions that accumulate in a scratch enter and leave their own
  invariant through the class invariant (the scratch at anything before the first point and after the last).
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.KI.Stages
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-- No pipeline has a prefetched table. -/
abbrev adm : (p : Fin 8) → (pcfgs (F := F) p).Adm := fun p => (cfgs p).toPCfg_adm
/-- Every pipeline's proof data, each at its region's entry contents: a literal match, so that at a numeral it reduces
    to that region's data. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E4 m) c
  | ⟨3, _⟩ => fun c => dat3 (E5 m) c
  | ⟨4, _⟩ => fun c => dat4 (E7 m) c
  | ⟨5, _⟩ => fun c => dat5 (E8 m) c
  | ⟨6, _⟩ => fun c => dat6 (E9 m) c
  | ⟨7, _⟩ => fun c => dat7 (E15 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

-- unifying a library lemma stated over the pinned configuration with the printed one needs unfolding in a metavariable's type
set_option backward.isDefEq.respectTransparency.types false in
/-- Region 0 over the thread state "every unscoped buffer at the boundary's contents, the generator register at some
    state, nothing owed": entered from stage 1, left at stage 2. Its arrays are split out of the unscoped buffers and put
    back at their exit contents; the register goes into the invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 1 over the thread state "every unscoped buffer at the boundary's contents, the generator register at some
    state, nothing owed": entered from stage 3, left at stage 4. Its arrays are split out of the unscoped buffers and put
    back at their exit contents; the register goes into the invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 2 over the thread state "every unscoped buffer at the boundary's contents, the generator register at some
    state, nothing owed": entered from stage 4, left at stage 5. Its arrays are split out of the unscoped buffers and put
    back at their exit contents; the register goes into the invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (E4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E4 m) c)
    unfold Pipeline.ΦA
    iintro ⟨Hp, -, Hr⟩
    isplitl [Hr]; · iexact Hr
    iexact Hp
  hout c := by
    rw [Pipeline.ownSems0_none]
    refine (hout2 (E4 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E4 m c) (E5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 3 over the thread state "every unscoped buffer at the boundary's contents, the generator register at some
    state, nothing owed": entered from stage 5, left at stage 6. Its arrays are split out of the unscoped buffers and put
    back at their exit contents; the register goes into the invariant and comes back; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec3 c (E5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E5 m c) (E6 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 4 over the thread state "every unscoped buffer at the boundary's contents, the generator register at some
    state, nothing owed": entered from stage 7, left at stage 8. Its arrays are split out of the unscoped buffers and put
    back at their exit contents; the register goes into the invariant and comes back; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec4 c (E7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (E7 m) c)
    unfold Pipeline.ΦA
    iintro ⟨Hp, -, Hr⟩
    isplitl [Hr]; · iexact Hr
    iexact Hp
  hout c := by
    rw [Pipeline.ownSems0_none]
    refine (hout4 (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E7 m c) (E8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 5 over the thread state "every unscoped buffer at the boundary's contents, the generator register at some
    state, nothing owed": entered from stage 8, left at stage 9. Its arrays are split out of the unscoped buffers and put
    back at their exit contents; the register goes into the invariant and comes back; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E8 m) c).loose
  hwaits := Pipeline.hwaits_of_owed_zero _ _ _ _ L lv 5 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec5 c (E8 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin5 (E8 m) c)
    unfold Pipeline.ΦA
    iintro ⟨Hp, -, Hr⟩
    isplitl [Hr]; · iexact Hr
    iexact Hp
  hout c := by
    rw [Pipeline.ownSems0_none]
    refine (hout5 (E8 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (E8 m c) (E9 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 6 over the thread state "every unscoped buffer at the boundary's contents, the generator register at some
    state, nothing owed": entered from stage 9, left at stage 10. Its arrays are split out of the unscoped buffers and put
    back at their exit contents; the register goes into the invariant and comes back; the kernel has no semaphore of its own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E9 m) c).loose
  hwaits := Pipeline.hwaits_of_owed_zero _ _ _ _ L lv 6 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec6 c (E9 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (E9 m c) (E10 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs unfolding in a metavariable's type
set_option backward.isDefEq.respectTransparency.types false in
/-- Region 7 over the thread state "every unscoped buffer at the boundary's contents, the generator register at some
    state, nothing owed": entered from stage 15, left at stage 16. Its arrays are split out of the unscoped buffers and put
    back at their exit contents; the register goes into the invariant and comes back; the kernel has no semaphore of its own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (E15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (E15 m c) (E16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Args.lean ====
/-
  Nothing writes an argument. Across a region only its output array changes (an input window's array is never written
  back; a buffer no window stages is not the region's); a host stretch changes only the buffers its operations write.
  So a buffer outside all of these holds its launch contents at the last boundary.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Gen.KernelIdeal.Regions
import proofs.«161886_j5566277616090_2_alg».proof.Proof.KI.Stages
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Across region 0 every buffer but its output array keeps its contents: an input window's array is never written
    back, and a buffer no window stages is not the region's to change. -/
theorem across0 (c : Dev nD) (b : Ref sig .tc) (hb : b ≠ main_v20) :
    W2 m c (Proc.devRef .tc b) = W1 m c (Proc.devRef .tc b) := by
  by_cases h : ∃ w, Pipeline.arrRef spec0 w = b
  · obtain ⟨w, rfl⟩ := h
    rw [W2_arr]
    have hw : (cfg0.win w).isOut = false := by
      fin_cases w <;> first | rfl | exact absurd rfl hb
    exact ((dat0 (E1 m) c).arrAt_in w hw _).trans (dat0_A (E1 m) c w)
  · exact W2_of_ne m c b fun w e => h ⟨w, e⟩
/-- Across region 1 every buffer but its output array keeps its contents: an input window's array is never written
    back, and a buffer no window stages is not the region's to change. -/
theorem across1 (c : Dev nD) (b : Ref sig .tc) (hb : b ≠ main_v32) :
    W4 m c (Proc.devRef .tc b) = W3 m c (Proc.devRef .tc b) := by
  by_cases h : ∃ w, Pipeline.arrRef spec1 w = b
  · obtain ⟨w, rfl⟩ := h
    rw [W4_arr]
    have hw : (cfg1.win w).isOut = false := by
      fin_cases w <;> first | rfl | exact absurd rfl hb
    exact ((dat1 (E3 m) c).arrAt_in w hw _).trans (dat1_A (E3 m) c w)
  · exact W4_of_ne m c b fun w e => h ⟨w, e⟩
/-- Across region 2 every buffer but its output array keeps its contents: an input window's array is never written
    back, and a buffer no window stages is not the region's to change. -/
theorem across2 (c : Dev nD) (b : Ref sig .tc) (hb : b ≠ main_v33) :
    W5 m c (Proc.devRef .tc b) = W4 m c (Proc.devRef .tc b) := by
  by_cases h : ∃ w, Pipeline.arrRef spec2 w = b
  · obtain ⟨w, rfl⟩ := h
    rw [W5_arr]
    have hw : (cfg2.win w).isOut = false := by
      fin_cases w <;> first | rfl | exact absurd rfl hb
    exact ((dat2 (E4 m) c).arrAt_in w hw _).trans (dat2_A (E4 m) c w)
  · exact W5_of_ne m c b fun w e => h ⟨w, e⟩
/-- Across region 3 every buffer but its output array keeps its contents: an input window's array is never written
    back, and a buffer no window stages is not the region's to change. -/
theorem across3 (c : Dev nD) (b : Ref sig .tc) (hb : b ≠ main_v34) :
    W6 m c (Proc.devRef .tc b) = W5 m c (Proc.devRef .tc b) := by
  by_cases h : ∃ w, Pipeline.arrRef spec3 w = b
  · obtain ⟨w, rfl⟩ := h
    rw [W6_arr]
    have hw : (cfg3.win w).isOut = false := by
      fin_cases w <;> first | rfl | exact absurd rfl hb
    exact ((dat3 (E5 m) c).arrAt_in w hw _).trans (dat3_A (E5 m) c w)
  · exact W6_of_ne m c b fun w e => h ⟨w, e⟩
/-- Across region 4 every buffer but its output array keeps its contents: an input window's array is never written
    back, and a buffer no window stages is not the region's to change. -/
theorem across4 (c : Dev nD) (b : Ref sig .tc) (hb : b ≠ main_v46) :
    W8 m c (Proc.devRef .tc b) = W7 m c (Proc.devRef .tc b) := by
  by_cases h : ∃ w, Pipeline.arrRef spec4 w = b
  · obtain ⟨w, rfl⟩ := h
    rw [W8_arr]
    have hw : (cfg4.win w).isOut = false := by
      fin_cases w <;> first | rfl | exact absurd rfl hb
    exact ((dat4 (E7 m) c).arrAt_in w hw _).trans (dat4_A (E7 m) c w)
  · exact W8_of_ne m c b fun w e => h ⟨w, e⟩
/-- Across region 5 every buffer but its output array keeps its contents: an input window's array is never written
    back, and a buffer no window stages is not the region's to change. -/
theorem across5 (c : Dev nD) (b : Ref sig .tc) (hb : b ≠ main_v47) :
    W9 m c (Proc.devRef .tc b) = W8 m c (Proc.devRef .tc b) := by
  by_cases h : ∃ w, Pipeline.arrRef spec5 w = b
  · obtain ⟨w, rfl⟩ := h
    rw [W9_arr]
    have hw : (cfg5.win w).isOut = false := by
      fin_cases w <;> first | rfl | exact absurd rfl hb
    exact ((dat5 (E8 m) c).arrAt_in w hw _).trans (dat5_A (E8 m) c w)
  · exact W9_of_ne m c b fun w e => h ⟨w, e⟩
/-- Across region 6 every buffer but its output array keeps its contents: an input window's array is never written
    back, and a buffer no window stages is not the region's to change. -/
theorem across6 (c : Dev nD) (b : Ref sig .tc) (hb : b ≠ main_v48) :
    W10 m c (Proc.devRef .tc b) = W9 m c (Proc.devRef .tc b) := by
  by_cases h : ∃ w, Pipeline.arrRef spec6 w = b
  · obtain ⟨w, rfl⟩ := h
    rw [W10_arr]
    have hw : (cfg6.win w).isOut = false := by
      fin_cases w <;> first | rfl | exact absurd rfl hb
    exact ((dat6 (E9 m) c).arrAt_in w hw _).trans (dat6_A (E9 m) c w)
  · exact W10_of_ne m c b fun w e => h ⟨w, e⟩
/-- Across region 7 every buffer but its output array keeps its contents: an input window's array is never written
    back, and a buffer no window stages is not the region's to change. -/
theorem across7 (c : Dev nD) (b : Ref sig .tc) (hb : b ≠ main_v78) :
    W16 m c (Proc.devRef .tc b) = W15 m c (Proc.devRef .tc b) := by
  by_cases h : ∃ w, Pipeline.arrRef spec7 w = b
  · obtain ⟨w, rfl⟩ := h
    rw [W16_arr]
    have hw : (cfg7.win w).isOut = false := by
      fin_cases w <;> first | rfl | exact absurd rfl hb
    exact ((dat7 (E15 m) c).arrAt_in w hw _).trans (dat7_A (E15 m) c w)
  · exact W16_of_ne m c b fun w e => h ⟨w, e⟩

/-- A buffer that no host stretch writes and that is no region's output array ends as launched. -/
theorem W17_of_untouched (c : Dev nD) (b : Ref sig .tc)
    (h0 : b ∉ hostOps0_W) (h1 : b ∉ hostOps1_W) (h4 : b ∉ hostOps4_W) (h7 : b ∉ hostOps7_W) (h71 : b ∉ hostOps7_1_W)
    (h72 : b ∉ hostOps7_2_W) (h73 : b ∉ hostOps7_3_W) (h74 : b ∉ hostOps7_4_W) (h8 : b ∉ hostOps8_W)
    (ho : b ∉ ([main_v20, main_v32, main_v33, main_v34, main_v46, main_v47, main_v48, main_v78] : List (Ref sig .tc))) :
    W17 m c (Proc.devRef .tc b) = m ((c : Thread nD τ).loc b) := by
  have o0 : b ≠ main_v20 := fun e => ho (by subst e; decide)
  have o1 : b ≠ main_v32 := fun e => ho (by subst e; decide)
  have o2 : b ≠ main_v33 := fun e => ho (by subst e; decide)
  have o3 : b ≠ main_v34 := fun e => ho (by subst e; decide)
  have o4 : b ≠ main_v46 := fun e => ho (by subst e; decide)
  have o5 : b ≠ main_v47 := fun e => ho (by subst e; decide)
  have o6 : b ≠ main_v48 := fun e => ho (by subst e; decide)
  have o7 : b ≠ main_v78 := fun e => ho (by subst e; decide)
  calc W17 m c (Proc.devRef .tc b)
    _ = W16 m c (Proc.devRef .tc b) := StableHlo.after_of_writes_sub hostOps8 _ hostOps8_writes h8
    _ = W15 m c (Proc.devRef .tc b) := across7 m c b o7
    _ = W14 m c (Proc.devRef .tc b) := StableHlo.after_of_writes_sub hostOps7_4 _ hostOps7_4_writes h74
    _ = W13 m c (Proc.devRef .tc b) := StableHlo.after_of_writes_sub hostOps7_3 _ hostOps7_3_writes h73
    _ = W12 m c (Proc.devRef .tc b) := StableHlo.after_of_writes_sub hostOps7_2 _ hostOps7_2_writes h72
    _ = W11 m c (Proc.devRef .tc b) := StableHlo.after_of_writes_sub hostOps7_1 _ hostOps7_1_writes h71
    _ = W10 m c (Proc.devRef .tc b) := StableHlo.after_of_writes_sub hostOps7 _ hostOps7_writes h7
    _ = W9 m c (Proc.devRef .tc b) := across6 m c b o6
    _ = W8 m c (Proc.devRef .tc b) := across5 m c b o5
    _ = W7 m c (Proc.devRef .tc b) := across4 m c b o4
    _ = W6 m c (Proc.devRef .tc b) := StableHlo.after_of_writes_sub hostOps4 _ hostOps4_writes h4
    _ = W5 m c (Proc.devRef .tc b) := across3 m c b o3
    _ = W4 m c (Proc.devRef .tc b) := across2 m c b o2
    _ = W3 m c (Proc.devRef .tc b) := across1 m c b o1
    _ = W2 m c (Proc.devRef .tc b) := StableHlo.after_of_writes_sub hostOps1 _ hostOps1_writes h1
    _ = W1 m c (Proc.devRef .tc b) := across0 m c b o0
    _ = W0 m c (Proc.devRef .tc b) := StableHlo.after_of_writes_sub hostOps0 _ hostOps0_writes h0
    _ = m ((c : Thread nD τ).loc b) := rfl

end Cert.KernelIdeal.Hand

end
-- ==== Proof.KI.Run.lean ====
/-
  The run of @main as seventeen segments — nine host stretches and eight kernel regions — chained through the boundary
  contents: every weakly fair execution terminates, nothing faults, and at the end every unscoped buffer of a core holds
  the last boundary's contents. The frame claim (arguments unchanged) and the named result are read off that.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Gen.KernelIdeal.Regions
import proofs.«161886_j5566277616090_2_alg».proof.Proof.KI.Recs
import proofs.«161886_j5566277616090_2_alg».proof.Proof.KI.Args
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A host stretch as a segment over the unscoped references from the contents W, the register and the empty debt riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's seventeen items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m), .region (reg2 m), .region (reg3 m),
    .host (hseg hostOps4 hostOps4_sub hostOps4_fresh (W6 m)),
    .region (reg4 m), .region (reg5 m), .region (reg6 m),
    .host (hseg hostOps7 hostOps7_sub hostOps7_fresh (W10 m)),
    .host (hseg hostOps7_1 hostOps7_1_sub hostOps7_1_fresh (W11 m)),
    .host (hseg hostOps7_2 hostOps7_2_sub hostOps7_2_fresh (W12 m)),
    .host (hseg hostOps7_3 hostOps7_3_sub hostOps7_3_fresh (W13 m)),
    .host (hseg hostOps7_4 hostOps7_4_sub hostOps7_4_fresh (W14 m)),
    .region (reg7 m),
    .host (hseg hostOps8 hostOps8_sub hostOps8_fresh (W16 m)) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last stretch's thread state regrouped: the buffers with the register, beside the empty debt. -/
theorem last_regroup (c : Dev nD) :
    (iprop(StableHlo.held (c : Thread nD τ) (Pipeline.ucRefs τ sig) (W17 m c) ∗ R c) : sProp 𝕄)
      ⊢ iprop((StableHlo.held (c : Thread nD τ) (Pipeline.ucRefs τ sig) (W17 m c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory with zero counters every weakly fair execution of @main terminates, nothing faulting, and in
    every final memory each unscoped TensorCore buffer holds the last stage's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W17 m c) ∗ ∃ r, prngReg c r))
    (hch := fun c => ⟨.rfl, .rfl, .rfl, .rfl, .rfl, .rfl, .rfl, .rfl, .rfl, .rfl, .rfl, .rfl, .rfl, .rfl, .rfl, .rfl, .rfl, last_regroup m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h => h)

/-- Every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨
    (h c _ (mem_uc main_arg0 (by decide))).trans (W17_of_untouched m c main_arg0 (by decide) (by decide) (by decide) (by decide) (by decide) (by decide) (by decide) (by decide) (by decide) (by decide)),
    (h c _ (mem_uc main_arg1 (by decide))).trans (W17_of_untouched m c main_arg1 (by decide) (by decide) (by decide) (by decide) (by decide) (by decide) (by decide) (by decide) (by decide) (by decide)),
    (h c _ (mem_uc main_arg2 (by decide))).trans (W17_of_untouched m c main_arg2 (by decide) (by decide) (by decide) (by decide) (by decide) (by decide) (by decide) (by decide) (by decide) (by decide)),
    (h c _ (mem_uc main_arg3 (by decide))).trans (W17_of_untouched m c main_arg3 (by decide) (by decide) (by decide) (by decide) (by decide) (by decide) (by decide) (by decide) (by decide) (by decide)),
    (h c _ (mem_uc main_arg4 (by decide))).trans (W17_of_untouched m c main_arg4 (by decide) (by decide) (by decide) (by decide) (by decide) (by decide) (by decide) (by decide) (by decide) (by decide)),
    (h c _ (mem_uc main_arg5 (by decide))).trans (W17_of_untouched m c main_arg5 (by decide) (by decide) (by decide) (by decide) (by decide) (by decide) (by decide) (by decide) (by decide) (by decide)),
    (h c _ (mem_uc main_arg6 (by decide))).trans (W17_of_untouched m c main_arg6 (by decide) (by decide) (by decide) (by decide) (by decide) (by decide) (by decide) (by decide) (by decide) (by decide)),
    (h c _ (mem_uc main_arg7 (by decide))).trans (W17_of_untouched m c main_arg7 (by decide) (by decide) (by decide) (by decide) (by decide) (by decide) (by decide) (by decide) (by decide) (by decide)),
    (h c _ (mem_uc main_arg8 (by decide))).trans (W17_of_untouched m c main_arg8 (by decide) (by decide) (by decide) (by decide) (by decide) (by decide) (by decide) (by decide) (by decide) (by decide)),
    (h c _ (mem_uc main_arg9 (by decide))).trans (W17_of_untouched m c main_arg9 (by decide) (by decide) (by decide) (by decide) (by decide) (by decide) (by decide) (by decide) (by decide) (by decide)),
    (h c _ (mem_uc main_arg10 (by decide))).trans (W17_of_untouched m c main_arg10 (by decide) (by decide) (by decide) (by decide) (by decide) (by decide) (by decide) (by decide) (by decide) (by decide)),
    (h c _ (mem_uc main_arg11 (by decide))).trans (W17_of_untouched m c main_arg11 (by decide) (by decide) (by decide) (by decide) (by decide) (by decide) (by decide) (by decide) (by decide) (by decide)),
    (h c _ (mem_uc main_arg12 (by decide))).trans (W17_of_untouched m c main_arg12 (by decide) (by decide) (by decide) (by decide) (by decide) (by decide) (by decide) (by decide) (by decide) (by decide)),
    (h c _ (mem_uc main_arg13 (by decide))).trans (W17_of_untouched m c main_arg13 (by decide) (by decide) (by decide) (by decide) (by decide) (by decide) (by decide) (by decide) (by decide) (by decide)),
    (h c _ (mem_uc main_arg14 (by decide))).trans (W17_of_untouched m c main_arg14 (by decide) (by decide) (by decide) (by decide) (by decide) (by decide) (by decide) (by decide) (by decide) (by decide)),
    (h c _ (mem_uc main_arg15 (by decide))).trans (W17_of_untouched m c main_arg15 (by decide) (by decide) (by decide) (by decide) (by decide) (by decide) (by decide) (by decide) (by decide) (by decide)),
    (h c _ (mem_uc main_arg16 (by decide))).trans (W17_of_untouched m c main_arg16 (by decide) (by decide) (by decide) (by decide) (by decide) (by decide) (by decide) (by decide) (by decide) (by decide))⟩)
    (run_all m ρ)

/-- The result buffer ends at the last boundary's contents, and every argument array as launched. -/
theorem run_val : θ_run defs (onTc (τ := τ) (main (F := F))) ⟨m, fun _ => 0, ρ⟩ (fun r => ∀ c : Dev nD,
      r.2.mem ((c.tc : Thread nD τ).loc main_v79) = W17 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨h c _ (mem_uc main_v79 (by decide)),
    (h c _ (mem_uc main_arg0 (by decide))).trans (W17_of_untouched m c main_arg0 (by decide) (by decide) (by decide) (by decide) (by decide) (by decide) (by decide) (by decide) (by decide) (by decide)),
    (h c _ (mem_uc main_arg1 (by decide))).trans (W17_of_untouched m c main_arg1 (by decide) (by decide) (by decide) (by decide) (by decide) (by decide) (by decide) (by decide) (by decide) (by decide)),
    (h c _ (mem_uc main_arg2 (by decide))).trans (W17_of_untouched m c main_arg2 (by decide) (by decide) (by decide) (by decide) (by decide) (by decide) (by decide) (by decide) (by decide) (by decide)),
    (h c _ (mem_uc main_arg3 (by decide))).trans (W17_of_untouched m c main_arg3 (by decide) (by decide) (by decide) (by decide) (by decide) (by decide) (by decide) (by decide) (by decide) (by decide)),
    (h c _ (mem_uc main_arg4 (by decide))).trans (W17_of_untouched m c main_arg4 (by decide) (by decide) (by decide) (by decide) (by decide) (by decide) (by decide) (by decide) (by decide) (by decide)),
    (h c _ (mem_uc main_arg5 (by decide))).trans (W17_of_untouched m c main_arg5 (by decide) (by decide) (by decide) (by decide) (by decide) (by decide) (by decide) (by decide) (by decide) (by decide)),
    (h c _ (mem_uc main_arg6 (by decide))).trans (W17_of_untouched m c main_arg6 (by decide) (by decide) (by decide) (by decide) (by decide) (by decide) (by decide) (by decide) (by decide) (by decide)),
    (h c _ (mem_uc main_arg7 (by decide))).trans (W17_of_untouched m c main_arg7 (by decide) (by decide) (by decide) (by decide) (by decide) (by decide) (by decide) (by decide) (by decide) (by decide)),
    (h c _ (mem_uc main_arg8 (by decide))).trans (W17_of_untouched m c main_arg8 (by decide) (by decide) (by decide) (by decide) (by decide) (by decide) (by decide) (by decide) (by decide) (by decide)),
    (h c _ (mem_uc main_arg9 (by decide))).trans (W17_of_untouched m c main_arg9 (by decide) (by decide) (by decide) (by decide) (by decide) (by decide) (by decide) (by decide) (by decide) (by decide)),
    (h c _ (mem_uc main_arg10 (by decide))).trans (W17_of_untouched m c main_arg10 (by decide) (by decide) (by decide) (by decide) (by decide) (by decide) (by decide) (by decide) (by decide) (by decide)),
    (h c _ (mem_uc main_arg11 (by decide))).trans (W17_of_untouched m c main_arg11 (by decide) (by decide) (by decide) (by decide) (by decide) (by decide) (by decide) (by decide) (by decide) (by decide)),
    (h c _ (mem_uc main_arg12 (by decide))).trans (W17_of_untouched m c main_arg12 (by decide) (by decide) (by decide) (by decide) (by decide) (by decide) (by decide) (by decide) (by decide) (by decide)),
    (h c _ (mem_uc main_arg13 (by decide))).trans (W17_of_untouched m c main_arg13 (by decide) (by decide) (by decide) (by decide) (by decide) (by decide) (by decide) (by decide) (by decide) (by decide)),
    (h c _ (mem_uc main_arg14 (by decide))).trans (W17_of_untouched m c main_arg14 (by decide) (by decide) (by decide) (by decide) (by decide) (by decide) (by decide) (by decide) (by decide) (by decide)),
    (h c _ (mem_uc main_arg15 (by decide))).trans (W17_of_untouched m c main_arg15 (by decide) (by decide) (by decide) (by decide) (by decide) (by decide) (by decide) (by decide) (by decide) (by decide)),
    (h c _ (mem_uc main_arg16 (by decide))).trans (W17_of_untouched m c main_arg16 (by decide) (by decide) (by decide) (by decide) (by decide) (by decide) (by decide) (by decide) (by decide) (by decide))⟩)
    (run_all m ρ)

end Cert.KernelIdeal.Hand

end
-- ==== Proof.Val.HostIdx.lean ====
import Idealize.ShloMosaic.Lib.ValueIdx
import Idealize.ShloMosaic.Lib.Pipeline.Value

/-!
# Three host operations read at an index, in exact arithmetic

* the accumulating float scatter (`x.at[idx].add(u)`, a segment sum): at every element of the operand,
  the operand's value plus the sum of the updates whose scatter index lands on that element;
* a gather along the leading axis (`x[idx]`): the operand at the start index, read signed and clamped
  into the operand;
* the concatenation of two vectors: the first below the first extent, the second past it.

Scatter and gather are stated for the two index layouts `x[idx]` and `segment_sum` lower to: start or
scatter indices of shape `[R, 1]` (one index per row, the index vector on axis 1) against an operand
`[N]` (updates / result `[R]`) or `[N, H]` (updates / result `[R, H]`, whole rows moved).
Nothing depends on the extents `N`, `H`, `R` or on the index width `w`.
-/

noncomputable section

open scoped BigOperators

namespace Cert.Val

open Idealize.ShloMosaic Idealize.ShloMosaic.ValueIdx

/-! ## Sums over a rank-1 index set -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter, for any dimension numbers

At the exact instance the accumulating float scatter is, by definition, the operand plus the sum of the
updates whose result index is the element read; an update whose result index falls outside the operand
has no result index and is dropped. -/

theorem scatterAdd_apply {s si u : Shape} {w : Nat} {φ : FTy} (d : ScatterDims s si u)
    (x : FVec Ideal s φ) (idx : IVec si w) (upd : FVec Ideal u φ) (i : s.Idx) :
    Host.scatterAdd (F := Ideal) d x idx upd i
      = x i + ∑ j ∈ Finset.univ.filter (fun j => d.resultIdx? j idx = some i), upd j := rfl

/-! ## A gather along the leading axis read at an index -/

section Gather
variable {α : Type}

/-- Dimension numbers of `x[idx]` for a flat operand `[N]` and start indices `[R, 1]`. -/
abbrev gatherDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of a flat operand read at `e`: the operand at the start index `idx[e, 0]`, read signed
and clamped into `[0, N − 1]` (a negative index reads element `0`, one past the end reads the last). -/
theorem gather1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherDims1 N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherDims1 N R wf).start (ix1 e) idx 0 + (gatherDims1 N R wf).batchCoord (ix1 e) 0
    + (gatherDims1 N R wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (gatherDims1 N R wf).startIndexMap from List.mem_singleton.mpr rfl)]
  have hsi : (gatherDims1 N R wf).siIdx (ix1 e)
      ⟨List.idxOf (0 : Fin 1) (gatherDims1 N R wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Dimension numbers of `x[idx]` for a table `[N, H]` and start indices `[R, 1]`: whole rows. -/
abbrev gatherDimsRow (N H R : Nat)
    (wf : GatherDims.WF ⟨2, ![N, H]⟩ ⟨2, ![R, 1]⟩ ⟨2, ![R, H]⟩ [1] [0] [] [0] [] 1 ![1, H]) :
    GatherDims ⟨2, ![N, H]⟩ ⟨2, ![R, 1]⟩ ⟨2, ![R, H]⟩ where
  offsetDims := [1]
  collapsedSliceDims := [0]
  operandBatchingDims := []
  startIndicesBatchingDims := []
  startIndexMap := [0]
  indexVectorDim := 1
  sliceSizes := ![1, H]
  wf := wf

/-- The row gather read at `(e, c)`: column `c` of the table's row at the start index `idx[e, 0]`,
read signed and clamped into `[0, N − 1]`. -/
theorem gatherRow_apply {N H R w : Nat} (hN : 0 < N)
    (wf : GatherDims.WF ⟨2, ![N, H]⟩ ⟨2, ![R, 1]⟩ ⟨2, ![R, H]⟩ [1] [0] [] [0] [] 1 ![1, H])
    (x : (⟨2, ![N, H]⟩ : Shape).Idx → α) (idx : IVec ⟨2, ![R, 1]⟩ w) (e : Fin R) (c : Fin H) :
    Host.gather (gatherDimsRow N H R wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gatherDimsRow N H R wf).start (ix2 e c) idx 0 + (gatherDimsRow N H R wf).batchCoord (ix2 e c) 0
      + (gatherDimsRow N H R wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (gatherDimsRow N H R wf).startIndexMap from List.mem_singleton.mpr rfl)]
    have hsi : (gatherDimsRow N H R wf).siIdx (ix2 e c)
        ⟨List.idxOf (0 : Fin 2) (gatherDimsRow N H R wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherDimsRow N H R wf).start (ix2 e c) idx 1 + (gatherDimsRow N H R wf).batchCoord (ix2 e c) 1
      + (gatherDimsRow N H R wf).offCoord (ix2 e c) 1 = c.val
    rw [GatherDims.batchCoord_eq_zero _ _ _ List.not_mem_nil]
    unfold GatherDims.start
    rw [dif_neg (show (1 : Fin 2) ∉ (gatherDimsRow N H R wf).startIndexMap from
      List.mem_singleton.not.mpr (show ¬ ((1 : Fin 2) = 0) by decide))]
    unfold GatherDims.offCoord
    rw [dif_pos (show (1 : Fin 2) ∈ (gatherDimsRow N H R wf).sKept from
      (GatherDims.mem_sKept _ _).2
        ⟨List.mem_singleton.not.mpr (show ¬ ((1 : Fin 2) = 0) by decide), List.not_mem_nil⟩)]
    simp only [Nat.zero_add, Nat.add_zero]
    rfl

end Gather

/-! ## The accumulating scatter of whole rows: operand `[N, H]`, indices `[R, 1]`, updates `[R, H]` -/

section ScatterRow

/-- Dimension numbers of `segment_sum` / `x.at[idx].add(u)` for whole rows. -/
abbrev scatterDimsRow (N H R : Nat)
    (wf : ScatterDims.WF ⟨2, ![N, H]⟩ ⟨2, ![R, 1]⟩ ⟨2, ![R, H]⟩ [1] [0] [0] 1) :
    ScatterDims ⟨2, ![N, H]⟩ ⟨2, ![R, 1]⟩ ⟨2, ![R, H]⟩ where
  updateWindowDims := [1]
  insertedWindowDims := [0]
  scatterDimsToOperandDims := [0]
  indexVectorDim := 1
  wf := wf

variable {N H R w : Nat} (wf : ScatterDims.WF ⟨2, ![N, H]⟩ ⟨2, ![R, 1]⟩ ⟨2, ![R, H]⟩ [1] [0] [0] 1)
  (idx : IVec ⟨2, ![R, 1]⟩ w) (e : Fin R) (c : Fin H)

/-- On the row axis the window of update `(e, c)` starts at the scatter index `idx[e, 0]`, read signed. -/
theorem scatterRow_start0 :
    (scatterDimsRow N H R wf).start (ix2 e c) idx 0 = (idx (ix2 e (0 : Fin 1))).toInt := by
  unfold ScatterDims.start
  rw [dif_pos (show (0 : Fin 2) ∈ (scatterDimsRow N H R wf).scatterDimsToOperandDims from
    List.mem_singleton.mpr rfl)]
  have hsi : (scatterDimsRow N H R wf).siIdx (ix2 e c)
      ⟨List.idxOf (0 : Fin 2) (scatterDimsRow N H R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at `0`. -/
theorem scatterRow_start1 : (scatterDimsRow N H R wf).start (ix2 e c) idx 1 = 0 := by
  unfold ScatterDims.start
  rw [dif_neg (show (1 : Fin 2) ∉ (scatterDimsRow N H R wf).scatterDimsToOperandDims from
    List.mem_singleton.not.mpr (show ¬ ((1 : Fin 2) = 0) by decide))]

/-- The row axis is inserted: no window coordinate. -/
theorem scatterRow_window0 : (scatterDimsRow N H R wf).window (ix2 e c) 0 = 0 := by
  unfold ScatterDims.window
  rw [dif_neg (show (0 : Fin 2) ∉ (scatterDimsRow N H R wf).sKept by simp [Shape.kept])]

/-- The column axis carries the update's column. -/
theorem scatterRow_window1 : (scatterDimsRow N H R wf).window (ix2 e c) 1 = c.val := by
  unfold ScatterDims.window
  rw [dif_pos (show (1 : Fin 2) ∈ (scatterDimsRow N H R wf).sKept by simp [Shape.kept])]
  rfl

/-- Where update position `(e, c')` lands: on `(n, c)` exactly when the scatter index of row `e`,
read signed, is `n` and the columns agree.  A negative or too large index lands nowhere. -/
theorem scatterRow_resultIdx?_eq_some_iff (c' : Fin H) (n : Fin N) :
    (scatterDimsRow N H R wf).resultIdx? (ix2 e c') idx = some (ix2 n c)
      ↔ (idx (ix2 e (0 : Fin 1))).toInt = (n.val : ℤ) ∧ c' = c := by
  have hn : n.val < N := n.isLt
  have hc' : c'.val < H := c'.isLt
  unfold ScatterDims.resultIdx?
  split
  · next h =>
    rw [Option.some.injEq]
    constructor
    · intro hEq
      have h0 := congrArg Fin.val (congrFun hEq 0)
      have h1 := congrArg Fin.val (congrFun hEq 1)
      have hb := (h 0).1
      simp only [scatterRow_start0, scatterRow_window0, scatterRow_start1, scatterRow_window1] at h0 h1 hb
      refine ⟨?_, Fin.ext ?_⟩
      · change ((idx (ix2 e (0 : Fin 1))).toInt + ((0 : ℕ) : ℤ)).toNat = n.val at h0
        omega
      · change ((0 : ℤ) + ((c'.val : ℕ) : ℤ)).toNat = c.val at h1
        omega
    · rintro ⟨ht, rfl⟩
      funext a
      refine Fin.ext ?_
      match a with
      | ⟨0, _⟩ =>
        show ((scatterDimsRow N H R wf).start (ix2 e c') idx 0
          + ((scatterDimsRow N H R wf).window (ix2 e c') 0 : ℕ)).toNat = n.val
        rw [scatterRow_start0, scatterRow_window0]; omega
      | ⟨1, _⟩ =>
        show ((scatterDimsRow N H R wf).start (ix2 e c') idx 1
          + ((scatterDimsRow N H R wf).window (ix2 e c') 1 : ℕ)).toNat = c'.val
        rw [scatterRow_start1, scatterRow_window1]; omega
  · next h =>
    constructor
    · intro hEq; cases hEq
    · rintro ⟨ht, rfl⟩
      exfalso; apply h
      intro a
      match a with
      | ⟨0, _⟩ =>
        show 0 ≤ (scatterDimsRow N H R wf).start (ix2 e c') idx 0
            + ((scatterDimsRow N H R wf).window (ix2 e c') 0 : ℕ)
          ∧ (scatterDimsRow N H R wf).start (ix2 e c') idx 0
            + ((scatterDimsRow N H R wf).window (ix2 e c') 0 : ℕ) < (N : ℤ)
        rw [scatterRow_start0, scatterRow_window0]; omega
      | ⟨1, _⟩ =>
        show 0 ≤ (scatterDimsRow N H R wf).start (ix2 e c') idx 1
            + ((scatterDimsRow N H R wf).window (ix2 e c') 1 : ℕ)
          ∧ (scatterDimsRow N H R wf).start (ix2 e c') idx 1
            + ((scatterDimsRow N H R wf).window (ix2 e c') 1 : ℕ) < (H : ℤ)
        rw [scatterRow_start1, scatterRow_window1]; omega

/-- THE ACCUMULATING ROW SCATTER READ AT `(n, c)`, exact arithmetic: the operand's element plus the
sum, over the update rows whose scatter index (read signed) is `n`, of the update's element in
column `c`.  Rows whose index is negative or at least `N` contribute to no element. -/
theorem scatterAddRow_apply {φ : FTy} (x : FVec Ideal ⟨2, ![N, H]⟩ φ) (upd : FVec Ideal ⟨2, ![R, H]⟩ φ)
    (n : Fin N) :
    Host.scatterAdd (F := Ideal) (scatterDimsRow N H R wf) x idx upd (ix2 n c)
      = x (ix2 n c)
        + ∑ e ∈ Finset.univ.filter (fun e : Fin R => (idx (ix2 e (0 : Fin 1))).toInt = (n.val : ℤ)),
            upd (ix2 e c) := by
  show Ideal.hostScatterAdd (scatterDimsRow N H R wf) x idx upd (ix2 n c) = _
  unfold Ideal.hostScatterAdd
  congr 1
  rw [Finset.sum_filter, Finset.sum_filter, sum_idx2]
  refine Finset.sum_congr rfl (fun e _ => ?_)
  simp only [scatterRow_resultIdx?_eq_some_iff]
  by_cases ht : (idx (ix2 e (0 : Fin 1))).toInt = (n.val : ℤ)
  · simp [ht]
  · simp [ht]

end ScatterRow

/-! ## The accumulating scatter of scalars: operand `[N]`, indices `[R, 1]`, updates `[R]` -/

section Scatter1

/-- Dimension numbers of `segment_sum` / `x.at[idx].add(u)` for a flat operand. -/
abbrev scatterDims1 (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)
  (idx : IVec ⟨2, ![R, 1]⟩ w) (e : Fin R)

/-- The window of update `e` starts at the scatter index `idx[e, 0]`, read signed. -/
theorem scatter1_start0 :
    (scatterDims1 N R wf).start (ix1 e) idx 0 = (idx (ix2 e (0 : Fin 1))).toInt := by
  unfold ScatterDims.start
  rw [dif_pos (show (0 : Fin 1) ∈ (scatterDims1 N R wf).scatterDimsToOperandDims from
    List.mem_singleton.mpr rfl)]
  have hsi : (scatterDims1 N R wf).siIdx (ix1 e)
      ⟨List.idxOf (0 : Fin 1) (scatterDims1 N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem scatter1_window0 : (scatterDims1 N R wf).window (ix1 e) 0 = 0 := by
  unfold ScatterDims.window
  rw [dif_neg (show (0 : Fin 1) ∉ (scatterDims1 N R wf).sKept by simp [Shape.kept])]

/-- Where update `e` lands: on `n` exactly when its scatter index, read signed, is `n`. -/
theorem scatter1_resultIdx?_eq_some_iff (n : Fin N) :
    (scatterDims1 N R wf).resultIdx? (ix1 e) idx = some (ix1 n)
      ↔ (idx (ix2 e (0 : Fin 1))).toInt = (n.val : ℤ) := by
  have hn : n.val < N := n.isLt
  unfold ScatterDims.resultIdx?
  split
  · next h =>
    rw [Option.some.injEq]
    constructor
    · intro hEq
      have h0 := congrArg Fin.val (congrFun hEq 0)
      have hb := (h 0).1
      simp only [scatter1_start0, scatter1_window0] at h0 hb
      change ((idx (ix2 e (0 : Fin 1))).toInt + ((0 : ℕ) : ℤ)).toNat = n.val at h0
      omega
    · intro ht
      funext a
      obtain rfl : a = 0 := Subsingleton.elim _ _
      refine Fin.ext ?_
      show ((scatterDims1 N R wf).start (ix1 e) idx 0
        + ((scatterDims1 N R wf).window (ix1 e) 0 : ℕ)).toNat = n.val
      rw [scatter1_start0, scatter1_window0]; omega
  · next h =>
    constructor
    · intro hEq; cases hEq
    · intro ht
      exfalso; apply h
      intro a
      obtain rfl : a = 0 := Subsingleton.elim _ _
      show 0 ≤ (scatterDims1 N R wf).start (ix1 e) idx 0
          + ((scatterDims1 N R wf).window (ix1 e) 0 : ℕ)
        ∧ (scatterDims1 N R wf).start (ix1 e) idx 0
          + ((scatterDims1 N R wf).window (ix1 e) 0 : ℕ) < (N : ℤ)
      rw [scatter1_start0, scatter1_window0]; omega

/-- THE ACCUMULATING SCATTER OF SCALARS READ AT `n`, exact arithmetic: the operand's element plus the
sum, over the updates whose scatter index (read signed) is `n`, of the update. -/
theorem scatterAdd1_apply {φ : FTy} (x : FVec Ideal ⟨1, ![N]⟩ φ) (upd : FVec Ideal ⟨1, ![R]⟩ φ)
    (n : Fin N) :
    Host.scatterAdd (F := Ideal) (scatterDims1 N R wf) x idx upd (ix1 n)
      = x (ix1 n)
        + ∑ e ∈ Finset.univ.filter (fun e : Fin R => (idx (ix2 e (0 : Fin 1))).toInt = (n.val : ℤ)),
            upd (ix1 e) := by
  show Ideal.hostScatterAdd (scatterDims1 N R wf) x idx upd (ix1 n) = _
  unfold Ideal.hostScatterAdd
  congr 1
  rw [Finset.sum_filter, Finset.sum_filter, sum_idx1]
  refine Finset.sum_congr rfl (fun e _ => ?_)
  simp only [scatter1_resultIdx?_eq_some_iff]

end Scatter1

/-! ## The concatenation of two vectors read at an index -/

section Concat
variable {α : Type}

/-- Below the first extent the concatenation reads the first vector. -/
theorem concat1_apply_left {n₁ n₂ n : Nat}
    (h : Shape.Concatenates [(⟨1, ![n₁]⟩ : Shape), ⟨1, ![n₂]⟩] ⟨1, ![n]⟩ 0)
    (a : (⟨1, ![n₁]⟩ : Shape).Idx → α) (b : (⟨1, ![n₂]⟩ : Shape).Idx → α) (k : Fin n) (hk : k.val < n₁) :
    concatenate ⟨1, ![n]⟩ 0 [⟨⟨1, ![n₁]⟩, a⟩, ⟨⟨1, ![n₂]⟩, b⟩] h (ix1 k) = a (ix1 ⟨k.val, hk⟩) :=
  concatenate_pair_apply_left 0 a b h (ix1 k) rfl (ix1 ⟨k.val, hk⟩)
    (fun b' => by obtain rfl : b' = 0 := Subsingleton.elim _ _; rfl)

/-- At or past the first extent it reads the second vector, the first extent less. -/
theorem concat1_apply_right {n₁ n₂ n : Nat}
    (h : Shape.Concatenates [(⟨1, ![n₁]⟩ : Shape), ⟨1, ![n₂]⟩] ⟨1, ![n]⟩ 0)
    (a : (⟨1, ![n₁]⟩ : Shape).Idx → α) (b : (⟨1, ![n₂]⟩ : Shape).Idx → α) (k : Fin n) (hk : n₁ ≤ k.val)
    (hk₂ : k.val - n₁ < n₂) :
    concatenate ⟨1, ![n]⟩ 0 [⟨⟨1, ![n₁]⟩, a⟩, ⟨⟨1, ![n₂]⟩, b⟩] h (ix1 k) = b (ix1 ⟨k.val - n₁, hk₂⟩) :=
  concatenate_pair_apply_right 0 a b h (ix1 k) rfl rfl (ix1 ⟨k.val - n₁, hk₂⟩)
    (fun b' hb => absurd (Subsingleton.elim _ _) hb)
    (by show k.val - n₁ + n₁ = k.val; omega)

end Concat

end Cert.Val
-- ==== Proof.Val.Rows.lean ====
import Idealize.ShloMosaic.Lib.ValueIdx

/-!
# The row an index word names

`x[idx]` replaces a negative index `v` by `v + N` and the gather then clamps the start index into
`[0, N − 1]`: every 32-bit word names a row of a table of `N = 50000` rows.  A word that reads
as a row number names that row.
-/

namespace Cert.Val

open Idealize.ShloMosaic

/-- The row of a 50000-row table that the index word `v` names: wrapped, then clamped. -/
def wrapRow (v : BitVec 32) : Fin 50000 :=
  ⟨min (Scalar.select (IntOp.cmpi .slt v 0#32) (IntOp.addi v 50000#32) v).toInt.toNat (50000 - 1),
    by omega⟩

theorem wrapRow_val (v : BitVec 32) :
    (wrapRow v).val
      = min (Scalar.select (IntOp.cmpi .slt v 0#32) (IntOp.addi v 50000#32) v).toInt.toNat (50000 - 1) :=
  rfl

/-- A word that reads as the row `n` names `n`. -/
theorem wrapRow_of_toInt_eq (v : BitVec 32) (n : Fin 50000) (hv : v.toInt = (n.val : ℤ)) :
    wrapRow v = n := by
  have hn := n.isLt
  have hs : v.slt 0#32 = false := by
    rw [BitVec.slt_eq_decide, BitVec.toInt_zero]
    exact decide_eq_false (by omega)
  have hw : Scalar.select (IntOp.cmpi .slt v 0#32) (IntOp.addi v 50000#32) v = v := by
    show (if BitVec.ofBool (v.slt 0#32) = 1 then IntOp.addi v 50000#32 else v) = v
    rw [hs]
    rfl
  refine Fin.ext ?_
  rw [wrapRow_val, hw]
  omega

end Cert.Val
-- ==== Proof.Val.RowAt.lean ====
import proofs.«161886_j5566277616090_2_alg».proof.Proof.Val.Rows

/-!
# A table read at the row an index word names

The gather lemmas read a table at `⟨min w.toInt.toNat (50000 − 1), _⟩` for the start word `w`; when
`w` is the wrap of the word `v`, that is the table at `wrapRow v`.
-/

namespace Cert.Val

open Idealize.ShloMosaic Idealize.ShloMosaic.ValueIdx

/-- A flat table at the clamped start word `w`, the wrap of `v`: the table at the row `v` names. -/
theorem flat_at_wrap {α : Type} (x : (⟨1, ![50000]⟩ : Shape).Idx → α) (w v : BitVec 32)
    (hw : w = Scalar.select (IntOp.cmpi .slt v 0#32) (IntOp.addi v 50000#32) v)
    (hb : min w.toInt.toNat (50000 - 1) < 50000) :
    x (ix1 ⟨min w.toInt.toNat (50000 - 1), hb⟩) = x (ix1 (wrapRow v)) := by
  subst hw; rfl

/-- A table of rows at the clamped start word `w`, the wrap of `v`: column `j` of the row `v` names. -/
theorem row_at_wrap {α : Type} {H : ℕ} (x : (⟨2, ![50000, H]⟩ : Shape).Idx → α) (w v : BitVec 32)
    (hw : w = Scalar.select (IntOp.cmpi .slt v 0#32) (IntOp.addi v 50000#32) v)
    (hb : min w.toInt.toNat (50000 - 1) < 50000) (j : Fin H) :
    x (ix2 ⟨min w.toInt.toNat (50000 - 1), hb⟩ j) = x (ix2 (wrapRow v) j) := by
  subst hw; rfl

end Cert.Val
-- ==== Proof.Val.RefLayer0.lean ====
import proofs.«161886_j5566277616090_2_alg».proof.Proof.Gen.ReferenceIdeal.Read
import proofs.«161886_j5566277616090_2_alg».proof.Proof.Val.HostIdx
import proofs.«161886_j5566277616090_2_alg».proof.Proof.Val.RowAt

/-!
# Layer 0 of the reference, read at an index

The reference computes, per layer, `h'[i, j] = Σ_{e : dst e = i} (h W)[src e, j] · (dinv[src e] · dinv[dst e]) + b[j]`
as a gather of the rows of `h W` at the source words, a product with the per-edge factor (two gathers of
the inverse square roots of the degrees, at the source and destination words), an accumulating scatter at
the destination words, and the bias added.  Read at `(i, j)` through the generated per-operation readings,
with the three unread stages (the gathers and the scatter) read by the lemmas on the host operations, this is
that formula, over the source words, the destination words and the inverse square roots as named arrays.
-/

noncomputable section

open scoped BigOperators

namespace Cert.Val.Ref

open Cert.ReferenceIdeal Idealize.ShloMosaic Idealize.ShloMosaic.ValueIdx Cert.Val

/-! ## Names -/

/-- The arguments of the program that layer 0 reads, at the exact instance. -/
abbrev XArr := (⟨S50000x128, .f32⟩ : BufTy).Contents (Elt Ideal)
abbrev EArr := (⟨S2x800000, .i32⟩ : BufTy).Contents (Elt Ideal)
abbrev WArr := (⟨S128x128, .f32⟩ : BufTy).Contents (Elt Ideal)
abbrev BArr := (⟨S128, .f32⟩ : BufTy).Contents (Elt Ideal)

-- The source words, the destination words and the degrees are names here: nothing below looks inside them.
attribute [local irreducible] Read.val_main_v3 Read.val_main_v6 Read.val_main_v10 Read.val_main_v11

/-- Edge `e`'s destination word, read signed. -/
def dstI (ei : EArr) (e : Fin 850000) : ℤ := (Read.val_main_v6 (F := Ideal) ei (ix1 e)).toInt
/-- The row edge `e`'s source word names. -/
def srcc (ei : EArr) (e : Fin 850000) : Fin 50000 := wrapRow (Read.val_main_v3 (F := Ideal) ei (ix1 e))
/-- The row edge `e`'s destination word names. -/
def dstc (ei : EArr) (e : Fin 850000) : Fin 50000 := wrapRow (Read.val_main_v6 (F := Ideal) ei (ix1 e))
/-- The inverse square root of the degrees. -/
def dinv (ei : EArr) : (⟨1, ![50000]⟩ : Shape).Idx → EReal := Read.val_main_v11 (F := Ideal) ei

/-! ## The index vectors in front of the gathers and scatters -/

/-- The source column of the gather of the inverse square roots: the wrapped source word. -/
theorem v17_at (ei : EArr) (e : Fin 850000) :
    Read.val_main_v17 (F := Ideal) ei (ix2 e (0 : Fin 1))
      = Scalar.select (IntOp.cmpi .slt (Read.val_main_v3 (F := Ideal) ei (ix1 e)) 0#32)
          (IntOp.addi (Read.val_main_v3 (F := Ideal) ei (ix1 e)) 50000#32)
          (Read.val_main_v3 (F := Ideal) ei (ix1 e)) := by
  rw [Read.val_main_v17_apply]
  have hi : Read.idx_main_v17 (ix2 e (0 : Fin 1)) = ix1 e := by
    funext a; match a with | ⟨0, _⟩ => rfl
  rw [hi]
  rfl

/-- The destination column of the gather of the inverse square roots: the wrapped destination word. -/
theorem v24_at (ei : EArr) (e : Fin 850000) :
    Read.val_main_v24 (F := Ideal) ei (ix2 e (0 : Fin 1))
      = Scalar.select (IntOp.cmpi .slt (Read.val_main_v6 (F := Ideal) ei (ix1 e)) 0#32)
          (IntOp.addi (Read.val_main_v6 (F := Ideal) ei (ix1 e)) 50000#32)
          (Read.val_main_v6 (F := Ideal) ei (ix1 e)) := by
  rw [Read.val_main_v24_apply]
  have hi : Read.idx_main_v24 (ix2 e (0 : Fin 1)) = ix1 e := by
    funext a; match a with | ⟨0, _⟩ => rfl
  rw [hi]
  rfl

/-- The source column of the row gather of the product table: the wrapped source word. -/
theorem v33_at (ei : EArr) (e : Fin 850000) :
    Read.val_main_v33 (F := Ideal) ei (ix2 e (0 : Fin 1))
      = Scalar.select (IntOp.cmpi .slt (Read.val_main_v3 (F := Ideal) ei (ix1 e)) 0#32)
          (IntOp.addi (Read.val_main_v3 (F := Ideal) ei (ix1 e)) 50000#32)
          (Read.val_main_v3 (F := Ideal) ei (ix1 e)) := by
  rw [Read.val_main_v33_apply]
  have hi : Read.idx_main_v33 (ix2 e (0 : Fin 1)) = ix1 e := by
    funext a; match a with | ⟨0, _⟩ => rfl
  rw [hi]
  rfl

/-- The scatter's index column: the destination word, not wrapped. -/
theorem v39_at (ei : EArr) (e : Fin 850000) :
    Read.val_main_v39 (F := Ideal) ei (ix2 e (0 : Fin 1)) = Read.val_main_v6 (F := Ideal) ei (ix1 e) := by
  rw [Read.val_main_v39_apply]
  have hi : Read.idx_main_v39 (ix2 e (0 : Fin 1)) = ix1 e := by
    funext a; match a with | ⟨0, _⟩ => rfl
  rw [hi]

attribute [local irreducible] Read.val_main_v17 Read.val_main_v24 Read.val_main_v33 Read.val_main_v39

/-! ## The per-edge factor -/

/-- `dinv[src']` at edge `e`. -/
theorem v18_at (ei : EArr) (e : Fin 850000) :
    Read.val_main_v18 (F := Ideal) ei (ix1 e) = dinv ei (ix1 (srcc ei e)) := by
  unfold Read.val_main_v18
  refine (gather1_apply (by norm_num) Facts₀.gather_S50000_S850000x1_S850000_n_0_n_n_0_1_1_wf
    (Read.val_main_v11 (F := Ideal) ei) (Read.val_main_v17 (F := Ideal) ei) e).trans ?_
  exact flat_at_wrap (Read.val_main_v11 (F := Ideal) ei) (Read.val_main_v17 (F := Ideal) ei (ix2 e (0 : Fin 1)))
    (Read.val_main_v3 (F := Ideal) ei (ix1 e)) (v17_at ei e) _

/-- `dinv[dst']` at edge `e`. -/
theorem v25_at (ei : EArr) (e : Fin 850000) :
    Read.val_main_v25 (F := Ideal) ei (ix1 e) = dinv ei (ix1 (dstc ei e)) := by
  unfold Read.val_main_v25
  refine (gather1_apply (by norm_num) Facts₀.gather_S50000_S850000x1_S850000_n_0_n_n_0_1_1_wf
    (Read.val_main_v11 (F := Ideal) ei) (Read.val_main_v24 (F := Ideal) ei) e).trans ?_
  exact flat_at_wrap (Read.val_main_v11 (F := Ideal) ei) (Read.val_main_v24 (F := Ideal) ei (ix2 e (0 : Fin 1)))
    (Read.val_main_v6 (F := Ideal) ei (ix1 e)) (v24_at ei e) _

attribute [local irreducible] Read.val_main_v18 Read.val_main_v25

/-- The per-edge factor, as a column broadcast along the features. -/
theorem v36_at (ei : EArr) (e : Fin 850000) (j : Fin 128) :
    Read.val_main_v36 (F := Ideal) ei (ix2 e j) = dinv ei (ix1 (srcc ei e)) * dinv ei (ix1 (dstc ei e)) := by
  rw [Read.val_main_v36_apply, Read.val_main_v35_apply, Read.val_main_v26_apply]
  have hi : Read.idx_main_v35 (Read.idx_main_v36 (ix2 e j)) = ix1 e := by
    funext a; match a with | ⟨0, _⟩ => rfl
  rw [hi, v18_at, v25_at]
  rfl

attribute [local irreducible] Read.val_main_v36

/-! ## The messages and their aggregation -/

/-- The product table `x · W` at `(r, j)`. -/
theorem v27_at (x : XArr) (W : WArr) (r : Fin 50000) (j : Fin 128) :
    Read.val_main_v27 (F := Ideal) x W (ix2 r j) = ∑ k : Fin 128, x (ix2 r k) * W (ix2 k j) := by
  rw [Read.val_main_v27_apply]
  refine Finset.sum_congr rfl (fun k _ => ?_)
  have hl : Read.lidx_main_v27 (ix2 r j) k = ix2 r k := by
    funext a; match a with | ⟨0, _⟩ => rfl | ⟨1, _⟩ => rfl
  have hr : Read.ridx_main_v27 (ix2 r j) k = ix2 k j := by
    funext a; match a with | ⟨0, _⟩ => rfl | ⟨1, _⟩ => rfl
  rw [hl, hr]

attribute [local irreducible] Read.val_main_v27

/-- The gathered product row of edge `e`. -/
theorem v34_at (x : XArr) (ei : EArr) (W : WArr) (e : Fin 850000) (j : Fin 128) :
    Read.val_main_v34 (F := Ideal) x ei W (ix2 e j)
      = ∑ k : Fin 128, x (ix2 (srcc ei e) k) * W (ix2 k j) := by
  unfold Read.val_main_v34
  refine (gatherRow_apply (by norm_num) Facts₀.gather_S50000x128_S850000x1_S850000x128_1_0_n_n_0_1_1128_wf
    (Read.val_main_v27 (F := Ideal) x W) (Read.val_main_v33 (F := Ideal) ei) e j).trans ?_
  refine (row_at_wrap (Read.val_main_v27 (F := Ideal) x W) (Read.val_main_v33 (F := Ideal) ei (ix2 e (0 : Fin 1)))
    (Read.val_main_v3 (F := Ideal) ei (ix1 e)) (v33_at ei e) _ j).trans ?_
  exact v27_at x W (srcc ei e) j

attribute [local irreducible] Read.val_main_v34

/-- The message of edge `e`. -/
theorem v37_at (x : XArr) (ei : EArr) (W : WArr) (e : Fin 850000) (j : Fin 128) :
    Read.val_main_v37 (F := Ideal) x ei W (ix2 e j)
      = (∑ k : Fin 128, x (ix2 (srcc ei e) k) * W (ix2 k j))
          * (dinv ei (ix1 (srcc ei e)) * dinv ei (ix1 (dstc ei e))) := by
  rw [Read.val_main_v37_apply, v34_at, v36_at]
  rfl

attribute [local irreducible] Read.val_main_v37

/-- The aggregate at `(i, j)`: the sum of the messages of the edges whose destination word reads `i`. -/
theorem v40_at (x : XArr) (ei : EArr) (W : WArr) (i : Fin 50000) (j : Fin 128) :
    Read.val_main_v40 (F := Ideal) x ei W (ix2 i j)
      = ∑ e ∈ Finset.univ.filter (fun e : Fin 850000 => dstI ei e = (i.val : ℤ)),
          (∑ k : Fin 128, x (ix2 (srcc ei e) k) * W (ix2 k j))
            * (dinv ei (ix1 (srcc ei e)) * dinv ei (ix1 (dstc ei e))) := by
  unfold Read.val_main_v40
  refine (scatterAddRow_apply Facts₀.scatter_S50000x128_S850000x1_S850000x128_1_0_0_1_wf
    (Read.val_main_v39 (F := Ideal) ei) j (Read.val_main_v38 (F := Ideal))
    (Read.val_main_v37 (F := Ideal) x ei W) i).trans ?_
  have h0 : Read.val_main_v38 (F := Ideal) (ix2 i j) = 0 := Ideal.ofBits_zero_f32
  rw [h0, zero_add]
  simp only [v39_at, v37_at]
  rfl

attribute [local irreducible] Read.val_main_v40

/-- LAYER 0 OF THE REFERENCE AT `(i, j)`: the sum, over the edges whose destination word reads `i`, of the
source row of `x · W` times the per-edge factor `dinv[src] · dinv[dst]`, plus the bias. -/
theorem ref_h0_apply (x : XArr) (ei : EArr) (W : WArr) (b : BArr) (i : Fin 50000) (j : Fin 128) :
    Read.val_main_v43 (F := Ideal) x ei W b (ix2 i j)
      = (∑ e ∈ Finset.univ.filter (fun e : Fin 850000 => dstI ei e = (i.val : ℤ)),
          (∑ k : Fin 128, x (ix2 (srcc ei e) k) * W (ix2 k j))
            * (dinv ei (ix1 (srcc ei e)) * dinv ei (ix1 (dstc ei e))))
        + b (ix1 j) := by
  rw [Read.val_main_v43_apply, v40_at, Read.val_main_v42_apply, Read.val_main_v41_apply]
  have hi : Read.idx_main_v41 (Read.idx_main_v42 (ix2 i j)) = ix1 j := by
    funext a; match a with | ⟨0, _⟩ => rfl
  rw [hi]
  rfl

end Cert.Val.Ref
-- ==== Proof.Alg.GlueArgs.lean ====
/-
  Names, with their literal array types, for the launch arguments on a core and for the staged buffers the layer-by-layer
  comparison speaks of. A buffer's contents are a function from the buffer's index type to extended reals (or to index
  words); the type is evident only after the buffer's record is looked up, so arithmetic over raw buffer reads does not
  elaborate. Each name below is reducible and is the raw read, typed.
-/
import proofs.«161886_j5566277616090_2_alg».proof.Proof.KI.Stages
import proofs.«161886_j5566277616090_2_alg».proof.Proof.Val.RefLayer0

set_option maxRecDepth 16384

noncomputable section

namespace Cert.KernelIdeal.Hand.Glue

open Cert.KernelIdeal Cert.KernelIdeal.Gen Cert.KernelIdeal.Hand
open Idealize.ShloMosaic Idealize.ShloMosaic.TcCoe
open Idealize.SL.Sem

variable (m : (ℓ : Loc nD τ sig) → Buf (Elt Ideal) ℓ) (c : Dev nD)

/-! ## The seventeen launch arguments on core c -/

/-- The node features. -/
abbrev argX : S50000x128.Idx → EReal := m ((c.tc : Thread nD τ).loc main_arg0)
/-- The edge list (two rows of index words). -/
abbrev argE : Cert.Val.Ref.EArr := m ((c.tc : Thread nD τ).loc main_arg1)
/-- The target nodes (index words). -/
abbrev argT : S4096.Idx → BitVec 32 := m ((c.tc : Thread nD τ).loc main_arg2)
/-- The first layer's weight. -/
abbrev argW0 : S128x128.Idx → EReal := m ((c.tc : Thread nD τ).loc main_arg3)
/-- The first layer's bias. -/
abbrev argB0 : S128.Idx → EReal := m ((c.tc : Thread nD τ).loc main_arg4)
/-- The second layer's weight. -/
abbrev argW1 : S128x128.Idx → EReal := m ((c.tc : Thread nD τ).loc main_arg5)
/-- The second layer's bias. -/
abbrev argB1 : S128.Idx → EReal := m ((c.tc : Thread nD τ).loc main_arg6)
/-- The third layer's weight. -/
abbrev argW2 : S128x128.Idx → EReal := m ((c.tc : Thread nD τ).loc main_arg7)
/-- The third layer's bias. -/
abbrev argB2 : S128.Idx → EReal := m ((c.tc : Thread nD τ).loc main_arg8)
/-- The first normalisation's scale. -/
abbrev argG0 : S128.Idx → EReal := m ((c.tc : Thread nD τ).loc main_arg9)
/-- The first normalisation's shift. -/
abbrev argBT0 : S128.Idx → EReal := m ((c.tc : Thread nD τ).loc main_arg10)
/-- The second normalisation's scale. -/
abbrev argG1 : S128.Idx → EReal := m ((c.tc : Thread nD τ).loc main_arg11)
/-- The second normalisation's shift. -/
abbrev argBT1 : S128.Idx → EReal := m ((c.tc : Thread nD τ).loc main_arg12)
/-- The first feed-forward weight. -/
abbrev argF1W : S128x128.Idx → EReal := m ((c.tc : Thread nD τ).loc main_arg13)
/-- The first feed-forward bias. -/
abbrev argF1B : S128.Idx → EReal := m ((c.tc : Thread nD τ).loc main_arg14)
/-- The second feed-forward weight. -/
abbrev argF2W : S128x64.Idx → EReal := m ((c.tc : Thread nD τ).loc main_arg15)
/-- The second feed-forward bias. -/
abbrev argF2B : S64.Idx → EReal := m ((c.tc : Thread nD τ).loc main_arg16)

/-! ## The staged buffers: after the first host stretch, after each region and each later stretch -/

/-- The inverse square roots of the degrees as a column. -/
abbrev sDcol : S50000x1.Idx → EReal := W1 m c (Proc.devRef .tc main_v12)
/-- The first layer's bias as a row. -/
abbrev sRow13 : S1x128.Idx → EReal := W1 m c (Proc.devRef .tc main_v13)
/-- The second layer's bias as a row. -/
abbrev sRow14 : S1x128.Idx → EReal := W1 m c (Proc.devRef .tc main_v14)
/-- The third layer's bias as a row. -/
abbrev sRow15 : S1x128.Idx → EReal := W1 m c (Proc.devRef .tc main_v15)
/-- The first normalisation's scale as a row. -/
abbrev sRow16 : S1x128.Idx → EReal := W1 m c (Proc.devRef .tc main_v16)
/-- The first normalisation's shift as a row. -/
abbrev sRow17 : S1x128.Idx → EReal := W1 m c (Proc.devRef .tc main_v17)
/-- The second normalisation's scale as a row. -/
abbrev sRow18 : S1x128.Idx → EReal := W1 m c (Proc.devRef .tc main_v18)
/-- The second normalisation's shift as a row. -/
abbrev sRow19 : S1x128.Idx → EReal := W1 m c (Proc.devRef .tc main_v19)
/-- Region 0's result: the first layer's pre-scaled product table. -/
abbrev sTbl0 : S50000x128.Idx → EReal := W2 m c (Proc.devRef .tc main_v20)
/-- The first aggregate. -/
abbrev sAgg0 : S50000x128.Idx → EReal := W3 m c (Proc.devRef .tc main_v31)
/-- Region 1's result: the first layer's column means. -/
abbrev sMean0 : S1x128.Idx → EReal := W4 m c (Proc.devRef .tc main_v32)
/-- Region 2's result: the first layer's column variances. -/
abbrev sVar0 : S1x128.Idx → EReal := W5 m c (Proc.devRef .tc main_v33)
/-- Region 3's result: the second layer's pre-scaled product table. -/
abbrev sTbl1 : S50000x128.Idx → EReal := W6 m c (Proc.devRef .tc main_v34)
/-- The second aggregate. -/
abbrev sAgg1 : S50000x128.Idx → EReal := W7 m c (Proc.devRef .tc main_v45)
/-- Region 4's result: the second layer's column means. -/
abbrev sMean1 : S1x128.Idx → EReal := W8 m c (Proc.devRef .tc main_v46)
/-- Region 5's result: the second layer's column variances. -/
abbrev sVar1 : S1x128.Idx → EReal := W9 m c (Proc.devRef .tc main_v47)
/-- Region 6's result: the third layer's pre-scaled product table. -/
abbrev sTbl2 : S50000x128.Idx → EReal := W10 m c (Proc.devRef .tc main_v48)
/-- The third aggregate. -/
abbrev sAgg2 : S50000x128.Idx → EReal := W11 m c (Proc.devRef .tc main_v59)
/-- At the last region's entry: the target nodes' aggregated rows. -/
abbrev sTpre : S4096x128.Idx → EReal := W15 m c (Proc.devRef .tc main_v66)
/-- At the last region's entry: the target nodes' inverse square roots. -/
abbrev sDinvt : S4096x1.Idx → EReal := W15 m c (Proc.devRef .tc main_v73)
/-- At the last region's entry: the third layer's bias row. -/
abbrev sB2row : S1x128.Idx → EReal := W15 m c (Proc.devRef .tc main_v15)
/-- At the last region's entry: the first feed-forward bias as a row. -/
abbrev sF1Brow : S1x128.Idx → EReal := W15 m c (Proc.devRef .tc main_v77)
/-- At the last region's entry: the second feed-forward bias, padded to 128 lanes. -/
abbrev sF2Bpad : S1x128.Idx → EReal := W15 m c (Proc.devRef .tc main_v76)
/-- At the last region's entry: the second feed-forward weight, padded to 128 lanes. -/
abbrev sF2Wpad : S128x128.Idx → EReal := W15 m c (Proc.devRef .tc main_v74)
/-- The last region's result. -/
abbrev sOut78 : S4096x128.Idx → EReal := W16 m c (Proc.devRef .tc main_v78)
/-- The program's result: the first 64 lanes of the last region's result. -/
abbrev sOut : S4096x64.Idx → EReal := W17 m c (Proc.devRef .tc main_v79)

end Cert.KernelIdeal.Hand.Glue

end
-- ==== Proof.KI.Val0Pay.lean ====
/-
  Region 0's arithmetic at one entry, at the ideal values: floats are extended reals, a conversion to bf16 is the
  identity, and a matrix product accumulated from zero is the plain sum over the contracted axis.
  For the three loaded blocks x (5000×128 rows of features), w (the 128×128 weight) and dv (5000×1 factors, one per row),
  entry (p, q) of the stored block is
      ( Σ_k x[p,k] · w[k,q] ) · dv[p,0].
  Two facts carry it: term k of the product reads the left operand at (row, k) and the right at (k, column); a column
  of factors broadcast across the lanes reads its row's factor.
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val0

open Cert.KernelIdeal Cert.KernelIdeal.Gen
open Idealize.ShloMosaic Idealize.ShloMosaic.ValueIdx
open scoped BigOperators

/-- The product's dimension numbers: rows of the features against columns of the weight, the features' axis 1
    contracted with the weight's axis 0. -/
abbrev D0 : DotDims S5000x128 S128x128 S5000x128 := dot_S5000x128_S128x128_S5000x128_1_0_0_1_n_n

/-- Where term k of the product reads its operands: the left at (row, k), -/
theorem D0_lhs0 (i : S5000x128.Idx) (s : D0.contr.Idx) : (D0.lhsIdx i s 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem D0_lhs1 (i : S5000x128.Idx) (s : D0.contr.Idx) : (D0.lhsIdx i s 1).val = (s ⟨0, by decide⟩).val :=
  D0.lhsIdx_val_of_single rfl i s
/-- the right at (k, column). -/
theorem D0_rhs0 (i : S5000x128.Idx) (s : D0.contr.Idx) : (D0.rhsIdx i s 0).val = (s ⟨0, by decide⟩).val :=
  D0.rhsIdx_val_of_single rfl i s
theorem D0_rhs1 (i : S5000x128.Idx) (s : D0.contr.Idx) : (D0.rhsIdx i s 1).val = (i 1).val := by
  unfold DotDims.rhsIdx
  rw [dif_neg (show ¬(1 : Fin S128x128.rank) ∈ D0.rhsBatch by decide), dif_pos (show (1 : Fin S128x128.rank) ∈ D0.rhsNonContracting by decide)]
  rfl

/-- The product accumulated from zero, at the ideal values, read at (p, q): the sum over the 128 contracted positions
    of left (p, k) times right (k, q). -/
theorem matmul0_apply (a : FVec Ideal S5000x128 .bf16) (b : FVec Ideal S128x128 .bf16) (p : Fin 5000) (q : Fin 128) :
    matmul D0 none a b (constant (F := Ideal) S5000x128 .f32 0x00000000#32) (ix2 p q) = ∑ k : Fin 128, a (ix2 p k) * b (ix2 k q) := by
  refine (Ideal.matmul_constant_zero_apply D0 none a b (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun ax => Fin.ext (by
    match ax with
    | ⟨0, _⟩ => exact D0_lhs0 _ _
    | ⟨1, _⟩ => exact (D0_lhs1 _ _).trans hk)
  have er : D0.rhsIdx (ix2 p q) ((contrEquiv1 D0 128 rfl rfl).symm k) = ix2 k q := funext fun ax => Fin.ext (by
    match ax with
    | ⟨0, _⟩ => exact (D0_rhs0 _ _).trans hk
    | ⟨1, _⟩ => exact D0_rhs1 _ _)
  rw [el, er]

/-- The 5000×1 column of factors broadcast across the 128 lanes reads, at (p, q), the factor of row p. -/
theorem col0_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else q.val
    rw [if_pos rfl]

/-- Entry (p, q) of the block the body stores, from the three loaded blocks, at the ideal values: the conversions to
    bf16 change nothing here and the product starts from a zero accumulator, so the entry is row p of the features
    against column q of the weight, scaled by row p's factor. -/
theorem k0_pay1_apply (x : Vec Ideal S5000x128 .f32) (w : Vec Ideal S128x128 .f32) (dv : Vec Ideal S5000x1 .f32)
    (p : Fin 5000) (q : Fin 128) :
    k0_pay1 x w dv (ix2 p q) = (∑ k : Fin 128, x (ix2 p k) * w (ix2 k q)) * dv (ix2 p (0 : Fin 1)) := by
  unfold k0_pay1
  simp only [shapeCast_self]
  show (matmul (F := Ideal) D0 none _ _ _) (ix2 p q) * (broadcastTo S5000x128 dv _) (ix2 p q) = _
  refine congrArg₂ (· * ·) ?_ ?_
  · refine (matmul0_apply _ _ p q).trans ?_
    refine Finset.sum_congr rfl fun k _ => ?_
    rfl
  · exact col0_apply dv p q

end Cert.KernelIdeal.Hand.Val0

end
-- ==== Proof.KI.Val0Blk.lean ====
/-
  Region 0's windows as parts of their arrays. The grid has ten points; at point t the features (50000×128), the
  per-row factors (50000×1) and the output (50000×128) are at row block t, rows 5000·t … 5000·t+4999; the 128×128 weight
  is always its whole array. So an entry of an input block is the array's entry 5000·t rows further down (or the same
  entry, for the weight), an entry (r, j) of the output array lies in exactly the block of point r / 5000, and the ten
  blocks written back cover the array.
-/
import proofs.«161886_j5566277616090_2_alg».proof.Proof.KI.Reg0
import Idealize.ShloMosaic.Lib.ValueIdx
import Idealize.ShloMosaic.Lib.Pipeline.Value

set_option maxRecDepth 16384

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The zero offsets of a whole-buffer access, as the constant function. -/
theorem hz : (![0, 0] : Fin 2 → Nat) = fun _ => 0 := funext fun a => by fin_cases a <;> rfl

/-- The printed index maps, decided over the ten grid points: the row blocks of the features, of the factors and of
    the output are block t at point t; the weight is always its one block; no window moves along the lanes. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Each input window's block at point t is the array read where the block sits: rows 5000·t … of the features and of
    the factors, the whole array for the weight. Stated at literal coordinates. -/
theorem blk0_0_apply (c : Dev nD) (t : Fin cfg0.N) (p : Fin 5000) (k : Fin 128) (R : Fin 50000) (hR : R.val = t.val * 5000 + p.val) :
    (blk0 V c 0 t : Vec F S5000x128 .f32) (ix2 p k) = (V c (Pipeline.arrRef spec0 0) : S50000x128.Idx → Elt F .f32) (ix2 R k) := by
  obtain ⟨e00, e01, e10, e11, e20, e21, e30, e31⟩ := idx_facts0 t
  show (V c (Pipeline.arrRef spec0 0) : S50000x128.Idx → Elt F .f32) (((cfg0.win 0).blk t).view.emb (ix2 p k)) = _
  refine congrArg _ (funext fun a => Fin.ext ?_)
  match a with
  | ⟨0, _⟩ => show win0_0.index t (0 : Fin 2) * 5000 + 1 * p.val = R.val; rw [e00, hR]; omega
  | ⟨1, _⟩ => show win0_0.index t (1 : Fin 2) * 128 + 1 * k.val = k.val; rw [e01]; omega
theorem blk0_1_apply (c : Dev nD) (t : Fin cfg0.N) (p : Fin 128) (k : Fin 128) :
    (blk0 V c 1 t : Vec F S128x128 .f32) (ix2 p k) = (V c (Pipeline.arrRef spec0 1) : S128x128.Idx → Elt F .f32) (ix2 p k) := by
  obtain ⟨e00, e01, e10, e11, e20, e21, e30, e31⟩ := idx_facts0 t
  show (V c (Pipeline.arrRef spec0 1) : S128x128.Idx → Elt F .f32) (((cfg0.win 1).blk t).view.emb (ix2 p k)) = _
  refine congrArg _ (funext fun a => Fin.ext ?_)
  match a with
  | ⟨0, _⟩ => show win0_1.index t (0 : Fin 2) * 128 + 1 * p.val = p.val; rw [e10]; omega
  | ⟨1, _⟩ => show win0_1.index t (1 : Fin 2) * 128 + 1 * k.val = k.val; rw [e11]; omega
theorem blk0_2_apply (c : Dev nD) (t : Fin cfg0.N) (p : Fin 5000) (k : Fin 1) (R : Fin 50000) (hR : R.val = t.val * 5000 + p.val) :
    (blk0 V c 2 t : Vec F S5000x1 .f32) (ix2 p k) = (V c (Pipeline.arrRef spec0 2) : S50000x1.Idx → Elt F .f32) (ix2 R k) := by
  obtain ⟨e00, e01, e10, e11, e20, e21, e30, e31⟩ := idx_facts0 t
  show (V c (Pipeline.arrRef spec0 2) : S50000x1.Idx → Elt F .f32) (((cfg0.win 2).blk t).view.emb (ix2 p k)) = _
  refine congrArg _ (funext fun a => Fin.ext ?_)
  match a with
  | ⟨0, _⟩ => show win0_2.index t (0 : Fin 2) * 5000 + 1 * p.val = R.val; rw [e20, hR]; omega
  | ⟨1, _⟩ => show win0_2.index t (1 : Fin 2) * 1 + 1 * k.val = k.val; rw [e21]; omega

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20).slice (win0_3.rect t)).set ↔ _
  rw [View.set_slice_whole, Rect.mem_set_unit]
  exact Iff.rfl

/-- Every entry of the output array is written back by some point: row r by point r / 5000 (50000 rows, 5000 a block). -/
theorem cover0 (i : S50000x128.Idx) : ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 10 := N_0
  have ht : (i 0).val / 5000 < cfg0.N := by rw [hN]; omega
  obtain ⟨e00, e01, e10, e11, e20, e21, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e31]; omega

end Cert.KernelIdeal.Hand.Val0

end
-- ==== Proof.KI.Val0.lean ====
/-
  The value of region 0 at the ideal values: the output array after the region, entry by entry, as one function of the
  three input arrays as the region finds them. With x the node features (50000×128), w the first layer's weight (128×128)
  and dv the per-node factors (50000×1), entry (r, j) of the 50000×128 result is
      ( Σ_k x[r,k] · w[k,j] ) · dv[r,0].
  Point t stores the payload of its input blocks; at an entry that payload is the formula above over the blocks; each
  block entry is an array entry (rows shifted by 5000·t for the features and the factors, the same entry for the
  weight); so what point t writes back is block t of the one function, and the ten blocks cover the array.
-/
import proofs.«161886_j5566277616090_2_alg».proof.Proof.KI.Val0Pay
import proofs.«161886_j5566277616090_2_alg».proof.Proof.KI.Val0Blk

set_option maxRecDepth 16384

noncomputable section

namespace Cert.KernelIdeal.Hand.Val0

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The three input arrays as the region finds them: the node features, the first layer's weight, the per-node
    factors (one column). -/
abbrev feat (c : Dev nD) : S50000x128.Idx → EReal := V c (Pipeline.arrRef spec0 0)
abbrev wgt (c : Dev nD) : S128x128.Idx → EReal := V c (Pipeline.arrRef spec0 1)
abbrev fac (c : Dev nD) : S50000x1.Idx → EReal := V c (Pipeline.arrRef spec0 2)

/-- Entry (r, j) of the result: row r of the features against column j of the weight, scaled by node r's factor. -/
def out0 (c : Dev nD) (r : Fin 50000) (j : Fin 128) : EReal :=
  (∑ k : Fin 128, feat V c (ix2 r k) * wgt V c (ix2 k j)) * fac V c (ix2 r (0 : Fin 1))

/-- The output array as one function of the input arrays, entry by entry. -/
def G0 (c : Dev nD) : S50000x128.Idx → EReal := fun i => out0 V c ⟨(i 0).val, idx2_lt0 i⟩ ⟨(i 1).val, idx2_lt1 i⟩

/-- What point t writes back is block t of that one function: the stored block's entry (p, q) is the payload of the
    point's input blocks there, the features' and the factors' blocks are their arrays 5000·t rows down, the weight's
    block is the weight, and the output block's entry (p, q) is the array's entry (5000·t + p, q). -/
theorem flushed0_eq (c : Dev nD) (t : Fin cfg0.N) :
    (dat0 (F := Ideal) V c).flushed 3 t = ((cfg0.win 3).blk t).view.read (Elt Ideal) (G0 V c) := by
  have hN : cfg0.N = 10 := N_0
  have htl : t.val < 10 := by have := t.isLt; omega
  obtain ⟨e00, e01, e10, e11, e20, e21, e30, e31⟩ := idx_facts0 t
  show (cfg0.win 3).cut (grid0.coords t) ((dat0 V c).after 3 t) = _
  rw [dat0_after3]
  unfold prod0
  rw [View.canon_unit_zero hz]
  simp only [View.ld_unit_zero (S := S5000x128) hz, View.ld_unit_zero (S := S5000x1) hz, View.ld_unit_zero (S := S128x128) hz]
  show (k0_pay1 (blk0 V c 0 t) (blk0 V c 1 t) (blk0 V c 2 t) : S5000x128.Idx → EReal)
      = fun y : S5000x128.Idx => G0 V c (((cfg0.win 3).blk t).view.emb y)
  funext y
  obtain ⟨p, q, rfl⟩ : ∃ (p : Fin 5000) (q : Fin 128), y = ix2 p q := ⟨y 0, y 1, eq_ix2 y⟩
  have hR : t.val * 5000 + p.val < 50000 := by have := p.isLt; omega
  have hemb : (((cfg0.win 3).blk t).view.emb (ix2 p q) : S50000x128.Idx) = ix2 (⟨t.val * 5000 + p.val, hR⟩ : Fin 50000) q :=
    funext fun a => Fin.ext (by
      match a with
      | ⟨0, _⟩ => show win0_3.index t (0 : Fin 2) * 5000 + 1 * p.val = t.val * 5000 + p.val; rw [e30]; omega
      | ⟨1, _⟩ => show win0_3.index t (1 : Fin 2) * 128 + 1 * q.val = q.val; rw [e31]; omega)
  refine (k0_pay1_apply _ _ _ p q).trans ?_
  refine Eq.trans ?_ (congrArg (G0 V c) hemb).symm
  show _ = out0 V c ⟨t.val * 5000 + p.val, hR⟩ q
  unfold out0
  simp only [blk0_0_apply V c t p _ ⟨t.val * 5000 + p.val, hR⟩ rfl, blk0_2_apply V c t p _ ⟨t.val * 5000 + p.val, hR⟩ rfl,
    blk0_1_apply V c t]

/-- The output array after the region is that function: the ten blocks written back cover it. -/
theorem final0 (c : Dev nD) : (dat0 (F := Ideal) V c).arrAt 3 cfg0.N = G0 V c :=
  (dat0 V c).arrAt_eq_of_cover 3 (G0 V c) (fun t _ => flushed0_eq V c t) cover0

/-- THE VALUE OF REGION 0, entry by entry: after the region the output array holds at (r, j)
      ( Σ_k x[r,k] · w[k,j] ) · dv[r,0],
    every array read as the region found it. -/
theorem out0_apply (c : Dev nD) (r : Fin 50000) (j : Fin 128) :
    (dat0 (F := Ideal) V c).arrAt 3 cfg0.N (ix2 r j)
      = (∑ k : Fin 128, feat V c (ix2 r k) * wgt V c (ix2 k j)) * fac V c (ix2 r (0 : Fin 1)) :=
  congrFun (final0 V c) (ix2 r j)

end Cert.KernelIdeal.Hand.Val0

end
-- ==== Proof.KH.Host0.lean ====
/-
  The host operations before the first region, read as terms.  The kernel program computes the source
  words, the destination words, the degrees and their inverse square roots by the same operations as the
  reference program: the two results are the same terms over the edge list.  The remaining operations are
  reshapes: of the inverse square roots to a column, of seven parameter vectors to rows.
  Everything is stated over an arbitrary valuation V of the buffers on entry.
-/
import proofs.«161886_j5566277616090_2_alg».proof.Proof.Gen.KernelIdeal.Launch
import proofs.«161886_j5566277616090_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Hand.Host

open Cert.KernelIdeal Cert.KernelIdeal.Gen
open Idealize.ShloMosaic Idealize.ShloMosaic.TcCoe Idealize.ShloMosaic.ValueIdx Idealize.ShloMosaic.StableHlo
open Idealize.SL.Sem

variable (V : Valuation τ sig (Elt Ideal))

/-- The source words: the first row of the edge list, then the self loops. -/
theorem src_term :
    StableHlo.after (hostOps0 (F := Ideal)) V (Proc.devRef .tc main_v3)
      = Cert.ReferenceIdeal.Read.val_main_v3 (F := Ideal) (V (Proc.devRef .tc main_arg1)) := by
  dsimp only [hostOps0]; after_results; rfl

/-- The destination words: the second row of the edge list, then the self loops. -/
theorem dst_term :
    StableHlo.after (hostOps0 (F := Ideal)) V (Proc.devRef .tc main_v6)
      = Cert.ReferenceIdeal.Read.val_main_v6 (F := Ideal) (V (Proc.devRef .tc main_arg1)) := by
  dsimp only [hostOps0]; after_results; rfl

/-- The degrees: a one scattered to every edge's destination. -/
theorem deg_term :
    StableHlo.after (hostOps0 (F := Ideal)) V (Proc.devRef .tc main_v10)
      = Cert.ReferenceIdeal.Read.val_main_v10 (F := Ideal) (V (Proc.devRef .tc main_arg1)) := by
  dsimp only [hostOps0]; after_results; rfl

/-- The inverse square roots of the degrees. -/
theorem dinv_term :
    StableHlo.after (hostOps0 (F := Ideal)) V (Proc.devRef .tc main_v11)
      = Cert.ReferenceIdeal.Read.val_main_v11 (F := Ideal) (V (Proc.devRef .tc main_arg1)) := by
  dsimp only [hostOps0]; after_results; rfl

/-- The inverse square roots as a column, as a term: the reshape of the vector. -/
theorem dinvCol_term :
    StableHlo.after (hostOps0 (F := Ideal)) V (Proc.devRef .tc main_v12)
      = shapeCast S50000x1 (Cert.ReferenceIdeal.Read.val_main_v11 (F := Ideal) (V (Proc.devRef .tc main_arg1)))
          shapeCasts_S50000_S50000x1 := by
  dsimp only [hostOps0]; after_results; rfl

/-- A vector of `n` entries reshaped to a column, read at `(i, 0)`: the vector at `i`. -/
theorem col_apply {α : Type} {n : ℕ} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) := by
  refine shapeCast_apply x h (ix2 i (0 : Fin 1)) (ix1 i) ?_
  rw [Shape.rowMajor_val_two, Shape.rowMajor_val_one]
  show i.val = i.val * 1 + 0
  omega

/-- A vector of `n` entries reshaped to a row, read at `(0, j)`: the vector at `j`. -/
theorem row_apply {α : Type} {n : ℕ} (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h (ix2 (0 : Fin 1) j) (ix1 j) ?_
  rw [Shape.rowMajor_val_two, Shape.rowMajor_val_one]
  show j.val = 0 * n + j.val
  omega

/-- The column of inverse square roots at `(i, 0)`: the inverse square root of node `i`'s degree. -/
theorem dinvCol_at (i : Fin 50000) :
    StableHlo.after (hostOps0 (F := Ideal)) V (Proc.devRef .tc main_v12) (ix2 i (0 : Fin 1))
      = Cert.ReferenceIdeal.Read.val_main_v11 (F := Ideal) (V (Proc.devRef .tc main_arg1)) (ix1 i) := by
  rw [dinvCol_term]
  exact col_apply _ shapeCasts_S50000_S50000x1 i

/-! ## The parameter vectors as rows -/

/-- The reshape of argument 4 to a row, read at `(0, j)`: the argument at `j`. -/
theorem row13_at (j : Fin 128) :
    StableHlo.after (hostOps0 (F := Ideal)) V (Proc.devRef .tc main_v13) (ix2 (0 : Fin 1) j)
      = V (Proc.devRef .tc main_arg4) (ix1 j) := by
  have e : StableHlo.after (hostOps0 (F := Ideal)) V (Proc.devRef .tc main_v13)
      = shapeCast S1x128 (V (Proc.devRef .tc main_arg4) : S128.Idx → EReal) shapeCasts_S128_S1x128 := by
    dsimp only [hostOps0]; after_results; rfl
  rw [e]
  exact row_apply _ shapeCasts_S128_S1x128 j

/-- The reshape of argument 6 to a row, read at `(0, j)`: the argument at `j`. -/
theorem row14_at (j : Fin 128) :
    StableHlo.after (hostOps0 (F := Ideal)) V (Proc.devRef .tc main_v14) (ix2 (0 : Fin 1) j)
      = V (Proc.devRef .tc main_arg6) (ix1 j) := by
  have e : StableHlo.after (hostOps0 (F := Ideal)) V (Proc.devRef .tc main_v14)
      = shapeCast S1x128 (V (Proc.devRef .tc main_arg6) : S128.Idx → EReal) shapeCasts_S128_S1x128 := by
    dsimp only [hostOps0]; after_results; rfl
  rw [e]
  exact row_apply _ shapeCasts_S128_S1x128 j

/-- The reshape of argument 8 to a row, read at `(0, j)`: the argument at `j`. -/
theorem row15_at (j : Fin 128) :
    StableHlo.after (hostOps0 (F := Ideal)) V (Proc.devRef .tc main_v15) (ix2 (0 : Fin 1) j)
      = V (Proc.devRef .tc main_arg8) (ix1 j) := by
  have e : StableHlo.after (hostOps0 (F := Ideal)) V (Proc.devRef .tc main_v15)
      = shapeCast S1x128 (V (Proc.devRef .tc main_arg8) : S128.Idx → EReal) shapeCasts_S128_S1x128 := by
    dsimp only [hostOps0]; after_results; rfl
  rw [e]
  exact row_apply _ shapeCasts_S128_S1x128 j

/-- The reshape of argument 9 to a row, read at `(0, j)`: the argument at `j`. -/
theorem row16_at (j : Fin 128) :
    StableHlo.after (hostOps0 (F := Ideal)) V (Proc.devRef .tc main_v16) (ix2 (0 : Fin 1) j)
      = V (Proc.devRef .tc main_arg9) (ix1 j) := by
  have e : StableHlo.after (hostOps0 (F := Ideal)) V (Proc.devRef .tc main_v16)
      = shapeCast S1x128 (V (Proc.devRef .tc main_arg9) : S128.Idx → EReal) shapeCasts_S128_S1x128 := by
    dsimp only [hostOps0]; after_results; rfl
  rw [e]
  exact row_apply _ shapeCasts_S128_S1x128 j

/-- The reshape of argument 10 to a row, read at `(0, j)`: the argument at `j`. -/
theorem row17_at (j : Fin 128) :
    StableHlo.after (hostOps0 (F := Ideal)) V (Proc.devRef .tc main_v17) (ix2 (0 : Fin 1) j)
      = V (Proc.devRef .tc main_arg10) (ix1 j) := by
  have e : StableHlo.after (hostOps0 (F := Ideal)) V (Proc.devRef .tc main_v17)
      = shapeCast S1x128 (V (Proc.devRef .tc main_arg10) : S128.Idx → EReal) shapeCasts_S128_S1x128 := by
    dsimp only [hostOps0]; after_results; rfl
  rw [e]
  exact row_apply _ shapeCasts_S128_S1x128 j

/-- The reshape of argument 11 to a row, read at `(0, j)`: the argument at `j`. -/
theorem row18_at (j : Fin 128) :
    StableHlo.after (hostOps0 (F := Ideal)) V (Proc.devRef .tc main_v18) (ix2 (0 : Fin 1) j)
      = V (Proc.devRef .tc main_arg11) (ix1 j) := by
  have e : StableHlo.after (hostOps0 (F := Ideal)) V (Proc.devRef .tc main_v18)
      = shapeCast S1x128 (V (Proc.devRef .tc main_arg11) : S128.Idx → EReal) shapeCasts_S128_S1x128 := by
    dsimp only [hostOps0]; after_results; rfl
  rw [e]
  exact row_apply _ shapeCasts_S128_S1x128 j

/-- The reshape of argument 12 to a row, read at `(0, j)`: the argument at `j`. -/
theorem row19_at (j : Fin 128) :
    StableHlo.after (hostOps0 (F := Ideal)) V (Proc.devRef .tc main_v19) (ix2 (0 : Fin 1) j)
      = V (Proc.devRef .tc main_arg12) (ix1 j) := by
  have e : StableHlo.after (hostOps0 (F := Ideal)) V (Proc.devRef .tc main_v19)
      = shapeCast S1x128 (V (Proc.devRef .tc main_arg12) : S128.Idx → EReal) shapeCasts_S128_S1x128 := by
    dsimp only [hostOps0]; after_results; rfl
  rw [e]
  exact row_apply _ shapeCasts_S128_S1x128 j

end Cert.KernelIdeal.Hand.Host
-- ==== Proof.Val.Wrap.lean ====
import Idealize.ShloMosaic.Lib.ValueIdx
import Idealize.ShloMosaic.Lib.Pipeline.Value

/-!
# The negative-index wrap in front of a gather

`x[idx]` first replaces a negative index `v` by `v + N` (a signed compare with zero, an add, a
select) and the gather then clamps the start index into `[0, N − 1]`.  On an index that already
names a row, `0 ≤ v < N`, both steps are the identity.
-/

namespace Cert.Val

open Idealize.ShloMosaic Idealize.ShloMosaic.ValueIdx

/-- On a word that reads nonnegative the wrap `select (v <ₛ 0) (v + k) v` is `v`. -/
theorem wrap_of_nonneg (v k : BitVec 32) (hv : 0 ≤ v.toInt) :
    Scalar.select (IntOp.cmpi .slt v 0#32) (IntOp.addi v k) v = v := by
  have h : v.slt 0#32 = false := by
    rw [BitVec.slt_eq_decide, BitVec.toInt_zero]
    exact decide_eq_false (not_lt.mpr hv)
  show (if BitVec.ofBool (v.slt 0#32) = 1 then IntOp.addi v k else v) = v
  rw [h]
  rfl

/-- The same on vectors, at an index: the printed `select (cmpi .slt idx z) (addi idx k) idx` with
`z` the zero splat. -/
theorem wrapIdx_apply {s : Shape} (idx z k : IVec s 32) (i : s.Idx) (hz : z i = 0#32)
    (h0 : 0 ≤ (idx i).toInt) :
    select (cmpi .slt idx z) (addi idx k) idx i = idx i := by
  show Scalar.select (IntOp.cmpi .slt (idx i) (z i)) (IntOp.addi (idx i) (k i)) (idx i) = idx i
  rw [hz]
  exact wrap_of_nonneg _ _ h0

/-- A word that reads as the row `n` is clamped to `n`. -/
theorem clamp_of_eq {N : ℕ} (v : BitVec 32) (n : Fin N) (hv : v.toInt = (n.val : ℤ)) :
    min v.toInt.toNat (N - 1) = n.val := by
  have := n.isLt
  omega

/-- Wrapped, then clamped: a word that reads as the row `n` still names `n`. -/
theorem wrap_clamp {N : ℕ} (v k : BitVec 32) (n : Fin N) (hv : v.toInt = (n.val : ℤ)) :
    min (Scalar.select (IntOp.cmpi .slt v 0#32) (IntOp.addi v k) v).toInt.toNat (N - 1) = n.val := by
  rw [wrap_of_nonneg v k (by omega)]
  exact clamp_of_eq v n hv

/-- The same as an element of `Fin N`, whatever the proof of the bound. -/
theorem wrap_clamp_fin {N : ℕ} (v k : BitVec 32) (n : Fin N) (hv : v.toInt = (n.val : ℤ))
    (hb : min (Scalar.select (IntOp.cmpi .slt v 0#32) (IntOp.addi v k) v).toInt.toNat (N - 1) < N) :
    (⟨min (Scalar.select (IntOp.cmpi .slt v 0#32) (IntOp.addi v k) v).toInt.toNat (N - 1), hb⟩ : Fin N)
      = n :=
  Fin.ext (wrap_clamp v k n hv)

/-- Unwrapped, clamped only (the scatter indices are not wrapped; a gather of them is clamped). -/
theorem clamp_fin {N : ℕ} (v : BitVec 32) (n : Fin N) (hv : v.toInt = (n.val : ℤ))
    (hb : min v.toInt.toNat (N - 1) < N) :
    (⟨min v.toInt.toNat (N - 1), hb⟩ : Fin N) = n :=
  Fin.ext (clamp_of_eq v n hv)

/-- An index vector `[R]` broadcast to the column `[R, 1]` a gather or scatter takes, read at
`(e, 0)`, is the vector at `e`. -/
theorem bcastCol_apply {α : Type} {R : ℕ}
    (h : (⟨1, ![R]⟩ : Shape).BroadcastsInDim ⟨2, ![R, 1]⟩ ![0])
    (x : (⟨1, ![R]⟩ : Shape).Idx → α) (e : Fin R) :
    broadcastInDim ⟨2, ![R, 1]⟩ ![0] h x (ix2 e (0 : Fin 1)) = x (ix1 e) := by
  refine broadcastInDim_apply ![0] h x (ix2 e (0 : Fin 1)) (ix1 e) (fun a => ?_)
  obtain rfl : a = 0 := Subsingleton.elim _ _
  show e.val = if R = 1 then 0 else e.val
  have := e.isLt
  split <;> omega

end Cert.Val
-- ==== Proof.KH.Host1.lean ====
/-
  The aggregation stretch read at an index.  Between two regions the host gathers, for every edge, the
  row of a 50000 × 128 table that the edge's source word names (a negative word wrapped, the start
  clamped), widens it, and adds it into the row of a zero table that the edge's destination word names:
      agg[i, j] = 0 + Σ_{e : dst e = i} table[src e, j].
  The stages are named here over an arbitrary table and arbitrary source and destination words, each
  read at an index, and the stretch in front of regions 1–3 is that term at the buffers on entry.
-/
import proofs.«161886_j5566277616090_2_alg».proof.Proof.Gen.KernelIdeal.Launch
import proofs.«161886_j5566277616090_2_alg».proof.Proof.Val.HostIdx
import proofs.«161886_j5566277616090_2_alg».proof.Proof.Val.Wrap
import proofs.«161886_j5566277616090_2_alg».proof.Proof.Val.RowAt
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Host

open Cert.KernelIdeal Cert.KernelIdeal.Gen Cert.Val
open Idealize.ShloMosaic Idealize.ShloMosaic.TcCoe Idealize.ShloMosaic.ValueIdx Idealize.ShloMosaic.StableHlo
open Idealize.SL.Sem

/-- A table of 50000 rows of 128 narrow floats, the source or destination words of the 850000 edges. -/
abbrev Tbl16 := FVec Ideal S50000x128 .bf16
abbrev Words := IVec S850000 32

/-! ## The stages, as terms -/

/-- The index words with the negative ones moved up by 50000, as the column a gather takes. -/
def wrapCol (src : Words) : IVec S850000x1 32 :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- Every edge's source row of the table. -/
def gathered (tbl : Tbl16) (src : Words) : FVec Ideal S850000x128 .bf16 :=
  Host.gather gather_S50000x128_S850000x1_S850000x128_1_0_n_n_0_1_1128 tbl (wrapCol src)

/-- The same, widened. -/
def msgs (tbl : Tbl16) (src : Words) : FVec Ideal S850000x128 .f32 :=
  extf (F := Ideal) .f32 (gathered tbl src) bitsLt_bf16_f32

/-- The zero table the rows are added into. -/
def zeroTbl : FVec Ideal S50000x128 .f32 :=
  broadcastInDim S50000x128 ![] bcast_S_S50000x128 (constant (F := Ideal) S_ .f32 0x00000000#32)

/-- The destination words as the column a scatter takes (not wrapped). -/
def dstCol (dst : Words) : IVec S850000x1 32 :=
  broadcastInDim S850000x1 ![0] bcast_S850000_S850000x1_0 dst

/-- The aggregate: every edge's widened source row added into its destination row of the zero table. -/
def agg (tbl : Tbl16) (src dst : Words) : FVec Ideal S50000x128 .f32 :=
  Host.scatterAdd (F := Ideal) scatter_S50000x128_S850000x1_S850000x128_1_0_0_1 zeroTbl (dstCol dst) (msgs tbl src)

/-! ## The stretch in front of regions 1–3 is that term -/

/-- What the stretch leaves in its result buffer: the aggregate of region 0's output table. -/
theorem agg0_term (V : Valuation τ sig (Elt Ideal)) :
    StableHlo.after (hostOps1 (F := Ideal)) V (Proc.devRef .tc main_v31)
      = agg (V (Proc.devRef .tc main_v20)) (V (Proc.devRef .tc main_v3)) (V (Proc.devRef .tc main_v6)) := by
  dsimp only [hostOps1]; after_results_simp; rfl

/-! ## The stages read at an index -/

/-- The gather's start word of edge `e`: the source word, wrapped. -/
theorem wrapCol_at (src : Words) (e : Fin 850000) :
    wrapCol src (ix2 e (0 : Fin 1))
      = Scalar.select (IntOp.cmpi .slt (src (ix1 e)) 0#32) (IntOp.addi (src (ix1 e)) 50000#32) (src (ix1 e)) := by
  unfold wrapCol
  rw [bcastCol_apply]
  rfl

/-- The scatter's index word of edge `e`: the destination word. -/
theorem dstCol_at (dst : Words) (e : Fin 850000) : dstCol dst (ix2 e (0 : Fin 1)) = dst (ix1 e) := by
  unfold dstCol
  exact bcastCol_apply _ dst e

/-- The zero table is zero. -/
theorem zeroTbl_at (i : Fin 50000) (j : Fin 128) : (zeroTbl (ix2 i j) : EReal) = 0 :=
  Ideal.ofBits_zero_f32

attribute [local irreducible] wrapCol dstCol zeroTbl

/-- Edge `e`'s gathered row: the table's row that the source word names. -/
theorem gathered_at (tbl : Tbl16) (src : Words) (e : Fin 850000) (j : Fin 128) :
    gathered tbl src (ix2 e j) = tbl (ix2 (wrapRow (src (ix1 e))) j) := by
  unfold gathered
  refine (gatherRow_apply (by norm_num) Facts₀.gather_S50000x128_S850000x1_S850000x128_1_0_n_n_0_1_1128_wf
    tbl (wrapCol src) e j).trans ?_
  exact row_at_wrap tbl (wrapCol src (ix2 e (0 : Fin 1))) (src (ix1 e)) (wrapCol_at src e) _ j

attribute [local irreducible] gathered

/-- Widening changes nothing in exact arithmetic. -/
theorem msgs_at (tbl : Tbl16) (src : Words) (e : Fin 850000) (j : Fin 128) :
    (msgs tbl src (ix2 e j) : EReal) = tbl (ix2 (wrapRow (src (ix1 e))) j) := by
  unfold msgs
  exact gathered_at tbl src e j

attribute [local irreducible] msgs

/-- THE AGGREGATE AT `(i, j)`: zero plus the sum, over the edges whose destination word reads `i`, of
column `j` of the table's row that the edge's source word names. -/
theorem agg_at (tbl : Tbl16) (src dst : Words) (i : Fin 50000) (j : Fin 128) :
    (agg tbl src dst (ix2 i j) : EReal)
      = 0 + ∑ e ∈ Finset.univ.filter (fun e : Fin 850000 => (dst (ix1 e)).toInt = (i.val : ℤ)),
          (tbl (ix2 (wrapRow (src (ix1 e))) j) : EReal) := by
  unfold agg
  refine (scatterAddRow_apply Facts₀.scatter_S50000x128_S850000x1_S850000x128_1_0_0_1_wf
    (dstCol dst) j zeroTbl (msgs tbl src) i).trans ?_
  rw [zeroTbl_at]
  refine congrArg (fun s : EReal => 0 + s) ?_
  refine Finset.sum_congr (Finset.filter_congr (fun e _ => by rw [dstCol_at])) (fun e _ => ?_)
  exact msgs_at tbl src e j

/-- The stretch in front of regions 1–3, read at `(i, j)`. -/
theorem agg0_at (V : Valuation τ sig (Elt Ideal)) (i : Fin 50000) (j : Fin 128) :
    @Eq EReal (StableHlo.after (hostOps1 (F := Ideal)) V (Proc.devRef .tc main_v31) (ix2 i j))
      (0 + Finset.sum (M := EReal)
        (Finset.univ.filter
          (fun e : Fin 850000 => (V (Proc.devRef .tc main_v6) (ix1 e)).toInt = (i.val : ℤ)))
        (fun e => V (Proc.devRef .tc main_v20) (ix2 (wrapRow (V (Proc.devRef .tc main_v3) (ix1 e))) j))) := by
  rw [agg0_term]
  exact agg_at _ _ _ i j

end Cert.KernelIdeal.Hand.Host
-- ==== Proof.Alg.Glue0a.lean ====
/-
  The first layer's first two steps, at the staged contents of a core's buffers, in the reference's names. After the
  first host stretch the source words, the destination words and the inverse square roots of the degrees are the
  reference's own terms over the edge list (the same operations on the same argument), and the column the first region
  reads holds node i's inverse square root at (i, 0). Region 0 leaves at (i, j) the product row
      ( Σ_k x[i,k] · w[k,j] ) · dinv[i]
  over the launch arguments x and w, which the first stretch does not write. The stretch after it leaves at (i, j)
      0 + Σ_{e : dst e = i} hw[src e, j],
  hw being region 0's result, the edges' words being those of the first stretch, which region 0 does not write.
-/
import proofs.«161886_j5566277616090_2_alg».proof.Proof.Alg.GlueArgs
import proofs.«161886_j5566277616090_2_alg».proof.Proof.KI.Args
import proofs.«161886_j5566277616090_2_alg».proof.Proof.KI.Val0
import proofs.«161886_j5566277616090_2_alg».proof.Proof.KH.Host0
import proofs.«161886_j5566277616090_2_alg».proof.Proof.KH.Host1
import proofs.«161886_j5566277616090_2_alg».proof.Proof.Val.RefLayer0

set_option maxRecDepth 16384

noncomputable section

open scoped BigOperators

namespace Cert.KernelIdeal.Hand.Glue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

local notation "X" => argX m c
local notation "EI" => argE m c
local notation "WT0" => argW0 m c

/-- After the first stretch the source words are the reference's source words of the edge list; -/
theorem g_src : W1 m c (Proc.devRef .tc main_v3) = Cert.ReferenceIdeal.Read.val_main_v3 (F := Ideal) EI :=
  Host.src_term (W0 m c)
/-- the destination words are the reference's destination words; -/
theorem g_dst : W1 m c (Proc.devRef .tc main_v6) = Cert.ReferenceIdeal.Read.val_main_v6 (F := Ideal) EI :=
  Host.dst_term (W0 m c)
/-- the inverse square roots of the degrees are the reference's. -/
theorem g_dinv : W1 m c (Proc.devRef .tc main_v11) = Cert.ReferenceIdeal.Read.val_main_v11 (F := Ideal) EI :=
  Host.dinv_term (W0 m c)

/-- The column of factors region 0 reads holds at (i, 0) the inverse square root of node i's degree. -/
theorem g_dinvCol (i : Fin 50000) :
    sDcol m c (ix2 i (0 : Fin 1)) = Cert.Val.Ref.dinv EI (ix1 i) :=
  Host.dinvCol_at (W0 m c) i

/-- The first stretch writes neither the features nor the weight. -/
theorem g_x : W1 m c (Proc.devRef .tc main_arg0) = X :=
  StableHlo.after_of_writes_sub hostOps0 _ hostOps0_writes (by decide)
theorem g_w0 : W1 m c (Proc.devRef .tc main_arg3) = WT0 :=
  StableHlo.after_of_writes_sub hostOps0 _ hostOps0_writes (by decide)

/-- REGION 0'S RESULT at (i, j): row i of the features against column j of the weight, scaled by node i's inverse
    square root of the degree. -/
theorem g_hw0 (i : Fin 50000) (j : Fin 128) :
    sTbl0 m c (ix2 i j) = (∑ k : Fin 128, X (ix2 i k) * WT0 (ix2 k j)) * Cert.Val.Ref.dinv EI (ix1 i) := by
  have hx : Val0.feat (E1 m) c = X := g_x m c
  have hw : Val0.wgt (E1 m) c = WT0 := g_w0 m c
  have hd : Val0.fac (E1 m) c (ix2 i (0 : Fin 1)) = Cert.Val.Ref.dinv EI (ix1 i) := g_dinvCol m c i
  have h := Val0.out0_apply (E1 m) c i j
  rw [hx, hw, hd] at h
  exact (congrFun (W2_arr m c 3) (ix2 i j)).trans h

/-- THE FIRST AGGREGATE at (i, j): zero plus the sum, over the edges whose destination word reads i, of column j of
    the row of region 0's result that the edge's source word names. -/
theorem g_agg0 (i : Fin 50000) (j : Fin 128) :
    sAgg0 m c (ix2 i j)
      = 0 + ∑ e ∈ Finset.univ.filter (fun e : Fin 850000 => Cert.Val.Ref.dstI EI e = (i.val : ℤ)),
          sTbl0 m c (ix2 (Cert.Val.Ref.srcc EI e) j) := by
  have h3 : W2 m c (Proc.devRef .tc main_v3) = Cert.ReferenceIdeal.Read.val_main_v3 (F := Ideal) EI :=
    (across0 m c main_v3 (by decide)).trans (g_src m c)
  have h6 : W2 m c (Proc.devRef .tc main_v6) = Cert.ReferenceIdeal.Read.val_main_v6 (F := Ideal) EI :=
    (across0 m c main_v6 (by decide)).trans (g_dst m c)
  refine (Host.agg0_at (W2 m c) i j).trans ?_
  refine congrArg (fun s : EReal => 0 + s) ?_
  refine Finset.sum_congr (Finset.filter_congr fun e _ => ?_) fun e _ => ?_
  · rw [h6]; exact Iff.rfl
  · rw [h3]; rfl

end Cert.KernelIdeal.Hand.Glue

end
-- ==== Proof.Val.Law.lean ====
import Mathlib.Data.EReal.Inv
import Mathlib.Algebra.BigOperators.Group.Finset.Basic

/-!
# Multiplying a finite sum of extended reals by a nonnegative real

Multiplication on the extended reals does not distribute over addition in general
(`(⊤ + ⊥) * c` against `⊤ * c + ⊥ * c`), but it does when the common factor is a
nonnegative *finite* number.  By induction this extends to any finite sum of
arbitrary extended reals.
-/

open scoped BigOperators

namespace Cert.Val

/-- A nonnegative real factor distributes over a finite sum of arbitrary extended reals. -/
theorem sum_mul_coe_nonneg {ι : Type*} (s : Finset ι) (f : ι → EReal) (r : ℝ) (hr : 0 ≤ r) :
    (∑ e ∈ s, f e) * (r : EReal) = ∑ e ∈ s, f e * (r : EReal) := by
  classical
  have hr0 : (0 : EReal) ≤ (r : EReal) := EReal.coe_nonneg.mpr hr
  have hrt : (r : EReal) ≠ ⊤ := EReal.coe_ne_top r
  induction s using Finset.induction_on with
  | empty => simp
  | insert a s ha ih =>
    rw [Finset.sum_insert ha, Finset.sum_insert ha,
      EReal.right_distrib_of_nonneg_of_ne_top hr0 hrt, ih]

/-- The same law with each summand a product `a e * d e`: the outer nonnegative real factor
is moved onto the second factor of every summand. -/
theorem sum_mul_mul_coe_nonneg {ι : Type*} (s : Finset ι) (a d : ι → EReal) (r : ℝ)
    (hr : 0 ≤ r) :
    (∑ e ∈ s, a e * d e) * (r : EReal) = ∑ e ∈ s, a e * (d e * (r : EReal)) := by
  rw [sum_mul_coe_nonneg s (fun e => a e * d e) r hr]
  exact Finset.sum_congr rfl (fun e _ => mul_assoc (a e) (d e) (r : EReal))

end Cert.Val
-- ==== Proof.Val.Bridge.lean ====
import proofs.«161886_j5566277616090_2_alg».proof.Proof.Val.Law

/-!
# One graph-convolution layer, abstractly

The two programs aggregate the same per-edge messages with the symmetric normalisation
`dinv[src] · dinv[dst]` placed differently: one scales every edge's message by the product of both
factors before summing per destination; the other sums the source-scaled messages per destination and
scales the sum by the destination's factor afterwards.  With every factor the coercion of a
nonnegative real, the two agree in the extended reals.
-/

open scoped BigOperators

namespace Cert.Val

/-- Per destination `i` and feature `j`: the sum over the edges into `i` of the source-scaled
message, scaled by the destination's factor, is the sum over the same edges of the message times the
per-edge factor `dinv (src e) * dinv (dst e)`.  The edges into `i` are picked by the signed reading
`dstI` of the destination word; `hd` says that reading determines the destination `dstc`. -/
theorem layer_bridge {M N H : ℕ} (P : Fin N → Fin H → EReal) (dinv : Fin N → EReal) (r : Fin N → ℝ)
    (hr : ∀ n, dinv n = ((r n : ℝ) : EReal)) (hr0 : ∀ n, 0 ≤ r n)
    (srcc dstc : Fin M → Fin N) (dstI : Fin M → ℤ)
    (hd : ∀ e (n : Fin N), dstI e = (n.val : ℤ) → dstc e = n) (i : Fin N) (j : Fin H) :
    (∑ e ∈ Finset.univ.filter (fun e : Fin M => dstI e = (i.val : ℤ)), P (srcc e) j * dinv (srcc e)) * dinv i
      = ∑ e ∈ Finset.univ.filter (fun e : Fin M => dstI e = (i.val : ℤ)),
          P (srcc e) j * (dinv (srcc e) * dinv (dstc e)) := by
  rw [hr i, sum_mul_mul_coe_nonneg _ (fun e => P (srcc e) j) (fun e => dinv (srcc e)) (r i) (hr0 i)]
  refine Finset.sum_congr rfl (fun e he => ?_)
  rw [hd e i (Finset.mem_filter.mp he).2, hr i]

end Cert.Val
-- ==== Proof.Val.Scaled.lean ====
import proofs.«161886_j5566277616090_2_alg».proof.Proof.Val.Bridge
import proofs.«161886_j5566277616090_2_alg».proof.Proof.Val.Rows
import proofs.«161886_j5566277616090_2_alg».proof.Proof.Val.RefLayer0

/-!
# From the aggregate of source-scaled rows to the reference's layer

One side aggregates, per destination, the rows of a table already scaled by the source's factor, and
scales the sum by the destination's factor afterwards; the reference scales every edge's row by the
product of both factors before summing.  With every factor the coercion of a nonnegative real the two
agree; stated over the source rows, destination rows and factors the reference's reading names.
-/

noncomputable section

open scoped BigOperators

namespace Cert.Val.Ref

open Cert.ReferenceIdeal Idealize.ShloMosaic Idealize.ShloMosaic.ValueIdx Cert.Val

-- The words, the degrees and the layer's output are names here; no sum is ever unfolded.
attribute [local irreducible] Read.val_main_v3 Read.val_main_v6 Read.val_main_v10 Read.val_main_v11
  Read.val_main_v43 Finset.sum

/-- An edge whose destination word reads `n` has destination row `n`. -/
theorem dstc_of_dstI (ei : EArr) (e : Fin 850000) (n : Fin 50000) (h : dstI ei e = (n.val : ℤ)) :
    dstc ei e = n :=
  wrapRow_of_toInt_eq (Read.val_main_v6 (F := Ideal) ei (ix1 e)) n h

/-- THE STEP: the aggregate of the source-scaled rows, scaled by the destination's factor, plus the bias,
is the sum over the same edges of the rows times the per-edge factor, plus the bias. -/
theorem scaled_eq_ref (ei : EArr) (r : Fin 50000 → ℝ) (hr0 : ∀ n, 0 ≤ r n)
    (hr : ∀ n, dinv ei (ix1 n) = ((r n : ℝ) : EReal))
    (P : Fin 50000 → Fin 128 → EReal) (agg : Fin 50000 → Fin 128 → EReal) (bias : Fin 128 → EReal)
    (hagg : ∀ i j, agg i j
      = 0 + ∑ e ∈ Finset.univ.filter (fun e : Fin 850000 => dstI ei e = (i.val : ℤ)),
          P (srcc ei e) j * dinv ei (ix1 (srcc ei e)))
    (i : Fin 50000) (j : Fin 128) :
    agg i j * dinv ei (ix1 i) + bias j
      = (∑ e ∈ Finset.univ.filter (fun e : Fin 850000 => dstI ei e = (i.val : ℤ)),
          P (srcc ei e) j * (dinv ei (ix1 (srcc ei e)) * dinv ei (ix1 (dstc ei e))))
        + bias j := by
  rw [hagg i j, zero_add]
  refine congrArg (· + bias j) ?_
  exact layer_bridge P (fun n => dinv ei (ix1 n)) r hr hr0 (srcc ei) (dstc ei) (dstI ei)
    (fun e n h => dstc_of_dstI ei e n h) i j

/-- LAYER 0: the aggregate of the rows of `(x · W0) ⊙ dinv` at the source rows, scaled by the
destination's factor, plus the bias, is the reference's layer 0. -/
theorem scaled0_eq (x : XArr) (ei : EArr) (W0 : WArr) (b0 : BArr)
    (r : Fin 50000 → ℝ) (hr0 : ∀ n, 0 ≤ r n) (hr : ∀ n, dinv ei (ix1 n) = ((r n : ℝ) : EReal))
    (hw : Fin 50000 → Fin 128 → EReal)
    (hhw : ∀ n j, hw n j = (∑ k : Fin 128, x (ix2 n k) * W0 (ix2 k j)) * dinv ei (ix1 n))
    (agg : Fin 50000 → Fin 128 → EReal)
    (hagg : ∀ i j, agg i j
      = 0 + ∑ e ∈ Finset.univ.filter (fun e : Fin 850000 => dstI ei e = (i.val : ℤ)), hw (srcc ei e) j)
    (i : Fin 50000) (j : Fin 128) :
    agg i j * dinv ei (ix1 i) + b0 (ix1 j) = Read.val_main_v43 (F := Ideal) x ei W0 b0 (ix2 i j) := by
  rw [ref_h0_apply]
  exact scaled_eq_ref ei r hr0 hr (fun n j => ∑ k : Fin 128, x (ix2 n k) * W0 (ix2 k j)) agg
    (fun j => b0 (ix1 j))
    (fun i j => (hagg i j).trans (congrArg (0 + ·) (Finset.sum_congr rfl (fun e _ => hhw (srcc ei e) j))))
    i j

end Cert.Val.Ref
-- ==== Proof.Val.RefLayer1.lean ====
import proofs.«161886_j5566277616090_2_alg».proof.Proof.Gen.ReferenceIdeal.Read
import proofs.«161886_j5566277616090_2_alg».proof.Proof.Val.HostIdx
import proofs.«161886_j5566277616090_2_alg».proof.Proof.Val.RowAt
import proofs.«161886_j5566277616090_2_alg».proof.Proof.Val.RefLayer0

/-!
# Layer 1 of the reference, read at an index

The same aggregation as layer 0 — the rows of `a · W` gathered at the source words, times the per-edge
factor `dinv[src] · dinv[dst]`, accumulated at the destination words, plus the bias — with the previous
activation `a` in place of the node features.  The previous activation, the source and destination
words and the inverse square roots of the degrees are named arrays here.
-/

noncomputable section

open scoped BigOperators

namespace Cert.Val.Ref

open Cert.ReferenceIdeal Idealize.ShloMosaic Idealize.ShloMosaic.ValueIdx Cert.Val

-- The words, the degrees, the per-edge gathers of layer 0 and the previous activation are names here.
attribute [local irreducible] Read.val_main_v3 Read.val_main_v6 Read.val_main_v10 Read.val_main_v11
  Read.val_main_v18 Read.val_main_v25 Read.val_main_v69

section
variable (x : (⟨S50000x128, .f32⟩ : BufTy).Contents (Elt Ideal))
  (ei : (⟨S2x800000, .i32⟩ : BufTy).Contents (Elt Ideal))
  (W0 : (⟨S128x128, .f32⟩ : BufTy).Contents (Elt Ideal))
  (b0 : (⟨S128, .f32⟩ : BufTy).Contents (Elt Ideal))
  (W1 : (⟨S128x128, .f32⟩ : BufTy).Contents (Elt Ideal))
  (b1 : (⟨S128, .f32⟩ : BufTy).Contents (Elt Ideal))
  (g0 : (⟨S128, .f32⟩ : BufTy).Contents (Elt Ideal))
  (bt0 : (⟨S128, .f32⟩ : BufTy).Contents (Elt Ideal))

/-- The source column of this layer's row gather: the wrapped source word. -/
theorem v76_at (e : Fin 850000) :
    Read.val_main_v76 (F := Ideal) ei (ix2 e (0 : Fin 1))
      = Scalar.select (IntOp.cmpi .slt (Read.val_main_v3 (F := Ideal) ei (ix1 e)) 0#32)
          (IntOp.addi (Read.val_main_v3 (F := Ideal) ei (ix1 e)) 50000#32)
          (Read.val_main_v3 (F := Ideal) ei (ix1 e)) := by
  rw [Read.val_main_v76_apply]
  have hi : Read.idx_main_v76 (ix2 e (0 : Fin 1)) = ix1 e := by
    funext a; match a with | ⟨0, _⟩ => rfl
  rw [hi]
  rfl

/-- This layer's scatter column: the destination word, not wrapped. -/
theorem v82_at (e : Fin 850000) :
    Read.val_main_v82 (F := Ideal) ei (ix2 e (0 : Fin 1)) = Read.val_main_v6 (F := Ideal) ei (ix1 e) := by
  rw [Read.val_main_v82_apply]
  have hi : Read.idx_main_v82 (ix2 e (0 : Fin 1)) = ix1 e := by
    funext a; match a with | ⟨0, _⟩ => rfl
  rw [hi]

/-- The per-edge factor, broadcast along the features. -/
theorem v79_at (e : Fin 850000) (j : Fin 128) :
    Read.val_main_v79 (F := Ideal) ei (ix2 e j) = dinv ei (ix1 (srcc ei e)) * dinv ei (ix1 (dstc ei e)) := by
  rw [Read.val_main_v79_apply, Read.val_main_v78_apply, Read.val_main_v26_apply]
  have hi : Read.idx_main_v78 (Read.idx_main_v79 (ix2 e j)) = ix1 e := by
    funext a; match a with | ⟨0, _⟩ => rfl
  rw [hi, v18_at, v25_at, Ideal.mulf_def]

attribute [local irreducible] Read.val_main_v76 Read.val_main_v82 Read.val_main_v79

/-- The product table `a · W` at `(r, j)`. -/
theorem v70_at (r : Fin 50000) (j : Fin 128) :
    Read.val_main_v70 (F := Ideal) x ei W0 b0 W1 g0 bt0 (ix2 r j)
      = ∑ k : Fin 128, Read.val_main_v69 (F := Ideal) x ei W0 b0 g0 bt0 (ix2 r k) * W1 (ix2 k j) := by
  rw [Read.val_main_v70_apply]
  refine Finset.sum_congr rfl (fun k _ => ?_)
  have hl : Read.lidx_main_v70 (ix2 r j) k = ix2 r k := by
    funext a; match a with | ⟨0, _⟩ => rfl | ⟨1, _⟩ => rfl
  have hr : Read.ridx_main_v70 (ix2 r j) k = ix2 k j := by
    funext a; match a with | ⟨0, _⟩ => rfl | ⟨1, _⟩ => rfl
  rw [hl, hr]

attribute [local irreducible] Read.val_main_v70

/-- The gathered product row of edge `e`. -/
theorem v77_at (e : Fin 850000) (j : Fin 128) :
    Read.val_main_v77 (F := Ideal) x ei W0 b0 W1 g0 bt0 (ix2 e j)
      = ∑ k : Fin 128, Read.val_main_v69 (F := Ideal) x ei W0 b0 g0 bt0 (ix2 (srcc ei e) k) * W1 (ix2 k j) := by
  unfold Read.val_main_v77
  refine (gatherRow_apply (by norm_num) Facts₀.gather_S50000x128_S850000x1_S850000x128_1_0_n_n_0_1_1128_wf
    (Read.val_main_v70 (F := Ideal) x ei W0 b0 W1 g0 bt0) (Read.val_main_v76 (F := Ideal) ei) e j).trans ?_
  refine (row_at_wrap (Read.val_main_v70 (F := Ideal) x ei W0 b0 W1 g0 bt0) (Read.val_main_v76 (F := Ideal) ei (ix2 e (0 : Fin 1)))
    (Read.val_main_v3 (F := Ideal) ei (ix1 e)) (v76_at ei e) _ j).trans ?_
  exact v70_at x ei W0 b0 W1 g0 bt0 (srcc ei e) j

attribute [local irreducible] Read.val_main_v77

/-- The message of edge `e`. -/
theorem v80_at (e : Fin 850000) (j : Fin 128) :
    Read.val_main_v80 (F := Ideal) x ei W0 b0 W1 g0 bt0 (ix2 e j)
      = (∑ k : Fin 128, Read.val_main_v69 (F := Ideal) x ei W0 b0 g0 bt0 (ix2 (srcc ei e) k) * W1 (ix2 k j))
          * (dinv ei (ix1 (srcc ei e)) * dinv ei (ix1 (dstc ei e))) := by
  rw [Read.val_main_v80_apply, v77_at, v79_at, Ideal.mulf_def]

attribute [local irreducible] Read.val_main_v80

/-- The aggregate at `(i, j)`: the sum of the messages of the edges whose destination word reads `i`. -/
theorem v83_at (i : Fin 50000) (j : Fin 128) :
    Read.val_main_v83 (F := Ideal) x ei W0 b0 W1 g0 bt0 (ix2 i j)
      = ∑ e ∈ Finset.univ.filter (fun e : Fin 850000 => dstI ei e = (i.val : ℤ)),
          (∑ k : Fin 128, Read.val_main_v69 (F := Ideal) x ei W0 b0 g0 bt0 (ix2 (srcc ei e) k) * W1 (ix2 k j))
            * (dinv ei (ix1 (srcc ei e)) * dinv ei (ix1 (dstc ei e))) := by
  unfold Read.val_main_v83
  refine (scatterAddRow_apply Facts₀.scatter_S50000x128_S850000x1_S850000x128_1_0_0_1_wf
    (Read.val_main_v82 (F := Ideal) ei) j (Read.val_main_v81 (F := Ideal))
    (Read.val_main_v80 (F := Ideal) x ei W0 b0 W1 g0 bt0) i).trans ?_
  have h0 : Read.val_main_v81 (F := Ideal) (ix2 i j) = 0 := Ideal.ofBits_zero_f32
  rw [h0, zero_add]
  refine Finset.sum_congr (Finset.filter_congr (fun e _ => ?_)) (fun e _ => ?_)
  · rw [v82_at]; rfl
  · rw [v80_at]

attribute [local irreducible] Read.val_main_v83

/-- LAYER 1 OF THE REFERENCE AT `(i, j)`: the sum, over the edges whose destination word reads `i`, of the
source row of `a · W` times the per-edge factor `dinv[src] · dinv[dst]`, plus the bias. -/
theorem ref_h1_apply (i : Fin 50000) (j : Fin 128) :
    Read.val_main_v86 (F := Ideal) x ei W0 b0 W1 b1 g0 bt0 (ix2 i j)
      = (∑ e ∈ Finset.univ.filter (fun e : Fin 850000 => dstI ei e = (i.val : ℤ)),
          (∑ k : Fin 128, Read.val_main_v69 (F := Ideal) x ei W0 b0 g0 bt0 (ix2 (srcc ei e) k) * W1 (ix2 k j))
            * (dinv ei (ix1 (srcc ei e)) * dinv ei (ix1 (dstc ei e))))
        + b1 (ix1 j) := by
  rw [Read.val_main_v86_apply, v83_at, Read.val_main_v85_apply, Read.val_main_v84_apply]
  have hi : Read.idx_main_v84 (Read.idx_main_v85 (ix2 i j)) = ix1 j := by
    funext a; match a with | ⟨0, _⟩ => rfl
  rw [hi, Ideal.addf_def]

end

end Cert.Val.Ref
-- ==== Proof.Val.Scaled1.lean ====
import proofs.«161886_j5566277616090_2_alg».proof.Proof.Val.Scaled
import proofs.«161886_j5566277616090_2_alg».proof.Proof.Val.RefLayer1

/-!
# From the aggregate of source-scaled rows to the reference's layer 1

The step of layer 0 again, with the previous activation in place of the node features.
-/

noncomputable section

open scoped BigOperators

namespace Cert.Val.Ref

open Cert.ReferenceIdeal Idealize.ShloMosaic Idealize.ShloMosaic.ValueIdx Cert.Val

-- The words, the degrees, the previous activation and the layer's output are names here; no sum is ever unfolded.
attribute [local irreducible] Read.val_main_v3 Read.val_main_v6 Read.val_main_v10 Read.val_main_v11
  Read.val_main_v69 Read.val_main_v86 Finset.sum

/-- LAYER 1: the aggregate of the rows of `(a · W) ⊙ dinv` at the source rows, scaled by the
destination's factor, plus the bias, is the reference's layer 1. -/
theorem scaled1_eq (x : (⟨S50000x128, .f32⟩ : BufTy).Contents (Elt Ideal))
    (ei : (⟨S2x800000, .i32⟩ : BufTy).Contents (Elt Ideal))
    (W0 : (⟨S128x128, .f32⟩ : BufTy).Contents (Elt Ideal))
    (b0 : (⟨S128, .f32⟩ : BufTy).Contents (Elt Ideal))
    (W1 : (⟨S128x128, .f32⟩ : BufTy).Contents (Elt Ideal))
    (b1 : (⟨S128, .f32⟩ : BufTy).Contents (Elt Ideal))
    (g0 : (⟨S128, .f32⟩ : BufTy).Contents (Elt Ideal))
    (bt0 : (⟨S128, .f32⟩ : BufTy).Contents (Elt Ideal))
    (r : Fin 50000 → ℝ) (hr0 : ∀ n, 0 ≤ r n) (hr : ∀ n, dinv ei (ix1 n) = ((r n : ℝ) : EReal))
    (hw : Fin 50000 → Fin 128 → EReal)
    (hhw : ∀ n j, hw n j
      = (∑ k : Fin 128, Read.val_main_v69 (F := Ideal) x ei W0 b0 g0 bt0 (ix2 n k) * W1 (ix2 k j)) * dinv ei (ix1 n))
    (agg : Fin 50000 → Fin 128 → EReal)
    (hagg : ∀ i j, agg i j
      = 0 + ∑ e ∈ Finset.univ.filter (fun e : Fin 850000 => dstI ei e = (i.val : ℤ)), hw (srcc ei e) j)
    (i : Fin 50000) (j : Fin 128) :
    agg i j * dinv ei (ix1 i) + b1 (ix1 j)
      = Read.val_main_v86 (F := Ideal) x ei W0 b0 W1 b1 g0 bt0 (ix2 i j) := by
  rw [ref_h1_apply]
  exact scaled_eq_ref ei r hr0 hr
    (fun n j => ∑ k : Fin 128, Read.val_main_v69 (F := Ideal) x ei W0 b0 g0 bt0 (ix2 n k) * W1 (ix2 k j)) agg
    (fun j => b1 (ix1 j))
    (fun i j => (hagg i j).trans (congrArg (0 + ·) (Finset.sum_congr rfl (fun e _ => hhw (srcc ei e) j))))
    i j

end Cert.Val.Ref
-- ==== Proof.Val.RefLayer2.lean ====
import proofs.«161886_j5566277616090_2_alg».proof.Proof.Gen.ReferenceIdeal.Read
import proofs.«161886_j5566277616090_2_alg».proof.Proof.Val.HostIdx
import proofs.«161886_j5566277616090_2_alg».proof.Proof.Val.RowAt
import proofs.«161886_j5566277616090_2_alg».proof.Proof.Val.RefLayer0

/-!
# Layer 2 of the reference, read at an index

The same aggregation as layer 0 — the rows of `a · W` gathered at the source words, times the per-edge
factor `dinv[src] · dinv[dst]`, accumulated at the destination words, plus the bias — with the previous
activation `a` in place of the node features.  The previous activation, the source and destination
words and the inverse square roots of the degrees are named arrays here.
-/

noncomputable section

open scoped BigOperators

namespace Cert.Val.Ref

open Cert.ReferenceIdeal Idealize.ShloMosaic Idealize.ShloMosaic.ValueIdx Cert.Val

-- The words, the degrees, the per-edge gathers of layer 0 and the previous activation are names here.
attribute [local irreducible] Read.val_main_v3 Read.val_main_v6 Read.val_main_v10 Read.val_main_v11
  Read.val_main_v18 Read.val_main_v25 Read.val_main_v112

section
variable (x : (⟨S50000x128, .f32⟩ : BufTy).Contents (Elt Ideal))
  (ei : (⟨S2x800000, .i32⟩ : BufTy).Contents (Elt Ideal))
  (W0 : (⟨S128x128, .f32⟩ : BufTy).Contents (Elt Ideal))
  (b0 : (⟨S128, .f32⟩ : BufTy).Contents (Elt Ideal))
  (W1 : (⟨S128x128, .f32⟩ : BufTy).Contents (Elt Ideal))
  (b1 : (⟨S128, .f32⟩ : BufTy).Contents (Elt Ideal))
  (W2 : (⟨S128x128, .f32⟩ : BufTy).Contents (Elt Ideal))
  (b2 : (⟨S128, .f32⟩ : BufTy).Contents (Elt Ideal))
  (g0 : (⟨S128, .f32⟩ : BufTy).Contents (Elt Ideal))
  (bt0 : (⟨S128, .f32⟩ : BufTy).Contents (Elt Ideal))
  (g1 : (⟨S128, .f32⟩ : BufTy).Contents (Elt Ideal))
  (bt1 : (⟨S128, .f32⟩ : BufTy).Contents (Elt Ideal))

/-- The source column of this layer's row gather: the wrapped source word. -/
theorem v119_at (e : Fin 850000) :
    Read.val_main_v119 (F := Ideal) ei (ix2 e (0 : Fin 1))
      = Scalar.select (IntOp.cmpi .slt (Read.val_main_v3 (F := Ideal) ei (ix1 e)) 0#32)
          (IntOp.addi (Read.val_main_v3 (F := Ideal) ei (ix1 e)) 50000#32)
          (Read.val_main_v3 (F := Ideal) ei (ix1 e)) := by
  rw [Read.val_main_v119_apply]
  have hi : Read.idx_main_v119 (ix2 e (0 : Fin 1)) = ix1 e := by
    funext a; match a with | ⟨0, _⟩ => rfl
  rw [hi]
  rfl

/-- This layer's scatter column: the destination word, not wrapped. -/
theorem v125_at (e : Fin 850000) :
    Read.val_main_v125 (F := Ideal) ei (ix2 e (0 : Fin 1)) = Read.val_main_v6 (F := Ideal) ei (ix1 e) := by
  rw [Read.val_main_v125_apply]
  have hi : Read.idx_main_v125 (ix2 e (0 : Fin 1)) = ix1 e := by
    funext a; match a with | ⟨0, _⟩ => rfl
  rw [hi]

/-- The per-edge factor, broadcast along the features. -/
theorem v122_at (e : Fin 850000) (j : Fin 128) :
    Read.val_main_v122 (F := Ideal) ei (ix2 e j) = dinv ei (ix1 (srcc ei e)) * dinv ei (ix1 (dstc ei e)) := by
  rw [Read.val_main_v122_apply, Read.val_main_v121_apply, Read.val_main_v26_apply]
  have hi : Read.idx_main_v121 (Read.idx_main_v122 (ix2 e j)) = ix1 e := by
    funext a; match a with | ⟨0, _⟩ => rfl
  rw [hi, v18_at, v25_at, Ideal.mulf_def]

attribute [local irreducible] Read.val_main_v119 Read.val_main_v125 Read.val_main_v122

/-- The product table `a · W` at `(r, j)`. -/
theorem v113_at (r : Fin 50000) (j : Fin 128) :
    Read.val_main_v113 (F := Ideal) x ei W0 b0 W1 b1 W2 g0 bt0 g1 bt1 (ix2 r j)
      = ∑ k : Fin 128, Read.val_main_v112 (F := Ideal) x ei W0 b0 W1 b1 g0 bt0 g1 bt1 (ix2 r k) * W2 (ix2 k j) := by
  rw [Read.val_main_v113_apply]
  refine Finset.sum_congr rfl (fun k _ => ?_)
  have hl : Read.lidx_main_v113 (ix2 r j) k = ix2 r k := by
    funext a; match a with | ⟨0, _⟩ => rfl | ⟨1, _⟩ => rfl
  have hr : Read.ridx_main_v113 (ix2 r j) k = ix2 k j := by
    funext a; match a with | ⟨0, _⟩ => rfl | ⟨1, _⟩ => rfl
  rw [hl, hr]

attribute [local irreducible] Read.val_main_v113

/-- The gathered product row of edge `e`. -/
theorem v120_at (e : Fin 850000) (j : Fin 128) :
    Read.val_main_v120 (F := Ideal) x ei W0 b0 W1 b1 W2 g0 bt0 g1 bt1 (ix2 e j)
      = ∑ k : Fin 128, Read.val_main_v112 (F := Ideal) x ei W0 b0 W1 b1 g0 bt0 g1 bt1 (ix2 (srcc ei e) k) * W2 (ix2 k j) := by
  unfold Read.val_main_v120
  refine (gatherRow_apply (by norm_num) Facts₀.gather_S50000x128_S850000x1_S850000x128_1_0_n_n_0_1_1128_wf
    (Read.val_main_v113 (F := Ideal) x ei W0 b0 W1 b1 W2 g0 bt0 g1 bt1) (Read.val_main_v119 (F := Ideal) ei) e j).trans ?_
  refine (row_at_wrap (Read.val_main_v113 (F := Ideal) x ei W0 b0 W1 b1 W2 g0 bt0 g1 bt1) (Read.val_main_v119 (F := Ideal) ei (ix2 e (0 : Fin 1)))
    (Read.val_main_v3 (F := Ideal) ei (ix1 e)) (v119_at ei e) _ j).trans ?_
  exact v113_at x ei W0 b0 W1 b1 W2 g0 bt0 g1 bt1 (srcc ei e) j

attribute [local irreducible] Read.val_main_v120

/-- The message of edge `e`. -/
theorem v123_at (e : Fin 850000) (j : Fin 128) :
    Read.val_main_v123 (F := Ideal) x ei W0 b0 W1 b1 W2 g0 bt0 g1 bt1 (ix2 e j)
      = (∑ k : Fin 128, Read.val_main_v112 (F := Ideal) x ei W0 b0 W1 b1 g0 bt0 g1 bt1 (ix2 (srcc ei e) k) * W2 (ix2 k j))
          * (dinv ei (ix1 (srcc ei e)) * dinv ei (ix1 (dstc ei e))) := by
  rw [Read.val_main_v123_apply, v120_at, v122_at, Ideal.mulf_def]

attribute [local irreducible] Read.val_main_v123

/-- The aggregate at `(i, j)`: the sum of the messages of the edges whose destination word reads `i`. -/
theorem v126_at (i : Fin 50000) (j : Fin 128) :
    Read.val_main_v126 (F := Ideal) x ei W0 b0 W1 b1 W2 g0 bt0 g1 bt1 (ix2 i j)
      = ∑ e ∈ Finset.univ.filter (fun e : Fin 850000 => dstI ei e = (i.val : ℤ)),
          (∑ k : Fin 128, Read.val_main_v112 (F := Ideal) x ei W0 b0 W1 b1 g0 bt0 g1 bt1 (ix2 (srcc ei e) k) * W2 (ix2 k j))
            * (dinv ei (ix1 (srcc ei e)) * dinv ei (ix1 (dstc ei e))) := by
  unfold Read.val_main_v126
  refine (scatterAddRow_apply Facts₀.scatter_S50000x128_S850000x1_S850000x128_1_0_0_1_wf
    (Read.val_main_v125 (F := Ideal) ei) j (Read.val_main_v124 (F := Ideal))
    (Read.val_main_v123 (F := Ideal) x ei W0 b0 W1 b1 W2 g0 bt0 g1 bt1) i).trans ?_
  have h0 : Read.val_main_v124 (F := Ideal) (ix2 i j) = 0 := Ideal.ofBits_zero_f32
  rw [h0, zero_add]
  refine Finset.sum_congr (Finset.filter_congr (fun e _ => ?_)) (fun e _ => ?_)
  · rw [v125_at]; rfl
  · rw [v123_at]

attribute [local irreducible] Read.val_main_v126

/-- LAYER 2 OF THE REFERENCE AT `(i, j)`: the sum, over the edges whose destination word reads `i`, of the
source row of `a · W` times the per-edge factor `dinv[src] · dinv[dst]`, plus the bias. -/
theorem ref_h2_apply (i : Fin 50000) (j : Fin 128) :
    Read.val_main_v129 (F := Ideal) x ei W0 b0 W1 b1 W2 b2 g0 bt0 g1 bt1 (ix2 i j)
      = (∑ e ∈ Finset.univ.filter (fun e : Fin 850000 => dstI ei e = (i.val : ℤ)),
          (∑ k : Fin 128, Read.val_main_v112 (F := Ideal) x ei W0 b0 W1 b1 g0 bt0 g1 bt1 (ix2 (srcc ei e) k) * W2 (ix2 k j))
            * (dinv ei (ix1 (srcc ei e)) * dinv ei (ix1 (dstc ei e))))
        + b2 (ix1 j) := by
  rw [Read.val_main_v129_apply, v126_at, Read.val_main_v128_apply, Read.val_main_v127_apply]
  have hi : Read.idx_main_v127 (Read.idx_main_v128 (ix2 i j)) = ix1 j := by
    funext a; match a with | ⟨0, _⟩ => rfl
  rw [hi, Ideal.addf_def]

end

end Cert.Val.Ref
-- ==== Proof.Val.Scaled2.lean ====
import proofs.«161886_j5566277616090_2_alg».proof.Proof.Val.Scaled
import proofs.«161886_j5566277616090_2_alg».proof.Proof.Val.RefLayer2

/-!
# From the aggregate of source-scaled rows to the reference's layer 2

The step of layer 0 again, with the previous activation in place of the node features.
-/

noncomputable section

open scoped BigOperators

namespace Cert.Val.Ref

open Cert.ReferenceIdeal Idealize.ShloMosaic Idealize.ShloMosaic.ValueIdx Cert.Val

-- The words, the degrees, the previous activation and the layer's output are names here; no sum is ever unfolded.
attribute [local irreducible] Read.val_main_v3 Read.val_main_v6 Read.val_main_v10 Read.val_main_v11
  Read.val_main_v112 Read.val_main_v129 Finset.sum

/-- LAYER 2: the aggregate of the rows of `(a · W) ⊙ dinv` at the source rows, scaled by the
destination's factor, plus the bias, is the reference's layer 2. -/
theorem scaled2_eq (x : (⟨S50000x128, .f32⟩ : BufTy).Contents (Elt Ideal))
    (ei : (⟨S2x800000, .i32⟩ : BufTy).Contents (Elt Ideal))
    (W0 : (⟨S128x128, .f32⟩ : BufTy).Contents (Elt Ideal))
    (b0 : (⟨S128, .f32⟩ : BufTy).Contents (Elt Ideal))
    (W1 : (⟨S128x128, .f32⟩ : BufTy).Contents (Elt Ideal))
    (b1 : (⟨S128, .f32⟩ : BufTy).Contents (Elt Ideal))
    (W2 : (⟨S128x128, .f32⟩ : BufTy).Contents (Elt Ideal))
    (b2 : (⟨S128, .f32⟩ : BufTy).Contents (Elt Ideal))
    (g0 : (⟨S128, .f32⟩ : BufTy).Contents (Elt Ideal))
    (bt0 : (⟨S128, .f32⟩ : BufTy).Contents (Elt Ideal))
    (g1 : (⟨S128, .f32⟩ : BufTy).Contents (Elt Ideal))
    (bt1 : (⟨S128, .f32⟩ : BufTy).Contents (Elt Ideal))
    (r : Fin 50000 → ℝ) (hr0 : ∀ n, 0 ≤ r n) (hr : ∀ n, dinv ei (ix1 n) = ((r n : ℝ) : EReal))
    (hw : Fin 50000 → Fin 128 → EReal)
    (hhw : ∀ n j, hw n j
      = (∑ k : Fin 128, Read.val_main_v112 (F := Ideal) x ei W0 b0 W1 b1 g0 bt0 g1 bt1 (ix2 n k) * W2 (ix2 k j)) * dinv ei (ix1 n))
    (agg : Fin 50000 → Fin 128 → EReal)
    (hagg : ∀ i j, agg i j
      = 0 + ∑ e ∈ Finset.univ.filter (fun e : Fin 850000 => dstI ei e = (i.val : ℤ)), hw (srcc ei e) j)
    (i : Fin 50000) (j : Fin 128) :
    agg i j * dinv ei (ix1 i) + b2 (ix1 j)
      = Read.val_main_v129 (F := Ideal) x ei W0 b0 W1 b1 W2 b2 g0 bt0 g1 bt1 (ix2 i j) := by
  rw [ref_h2_apply]
  exact scaled_eq_ref ei r hr0 hr
    (fun n j => ∑ k : Fin 128, Read.val_main_v112 (F := Ideal) x ei W0 b0 W1 b1 g0 bt0 g1 bt1 (ix2 n k) * W2 (ix2 k j)) agg
    (fun j => b2 (ix1 j))
    (fun i j => (hagg i j).trans (congrArg (0 + ·) (Finset.sum_congr rfl (fun e _ => hhw (srcc ei e) j))))
    i j

end Cert.Val.Ref
-- ==== Proof.Val.Degree.lean ====
import Idealize.ShloMosaic.Lib.ValueIdx

/-!
# Degrees and their inverse square roots, in exact arithmetic

A node's degree is a finite sum of ones, so it is the coercion of a natural number; with a self-loop
on every node that number is at least one, and the reciprocal square root of such a count is the
coercion of a nonnegative real — the shape of factor that distributes over a sum of extended reals.
-/

noncomputable section

open scoped BigOperators

namespace Cert.Val

open Idealize.ShloMosaic

/-- The host's reciprocal square root of a vector, read at an index, is the exact reciprocal square
root of the element. -/
theorem hostRsqrt_apply {s : Shape} {φ : FTy} (x : FVec Ideal s φ) (i : s.Idx) :
    Host.rsqrt (F := Ideal) x i = Ideal.rsqrt (x i) := rfl

/-- A finite sum of ones is the number of summands. -/
theorem sum_one_eq_card {ι : Type*} (s : Finset ι) :
    ∑ _e ∈ s, (1 : EReal) = ((s.card : ℝ) : EReal) := by
  rw [Finset.sum_const, EReal.nsmul_eq_mul, mul_one]
  rfl

/-- The same behind the scatter's zero operand. -/
theorem zero_add_sum_one_eq_card {ι : Type*} (s : Finset ι) :
    0 + ∑ _e ∈ s, (1 : EReal) = ((s.card : ℝ) : EReal) := by
  rw [zero_add, sum_one_eq_card]

/-- The exact reciprocal square root of a positive count is the real `(√k)⁻¹`. -/
theorem rsqrt_natCast {k : ℕ} (hk : 1 ≤ k) :
    Ideal.rsqrt ((k : ℝ) : EReal) = (((Real.sqrt (k : ℝ))⁻¹ : ℝ) : EReal) := by
  have hpos : (0 : ℝ) < (k : ℝ) := by exact_mod_cast hk
  rw [Ideal.rsqrt_coe, if_neg (not_lt.mpr hpos.le), if_neg hpos.ne']

/-- That real is nonnegative. -/
theorem inv_sqrt_natCast_nonneg (k : ℕ) : 0 ≤ (Real.sqrt (k : ℝ))⁻¹ :=
  inv_nonneg.mpr (Real.sqrt_nonneg _)

/-- The reciprocal square root of a positive count is the coercion of a nonnegative real. -/
theorem rsqrt_natCast_exists {k : ℕ} (hk : 1 ≤ k) :
    ∃ r : ℝ, 0 ≤ r ∧ Ideal.rsqrt ((k : ℝ) : EReal) = (r : EReal) :=
  ⟨(Real.sqrt (k : ℝ))⁻¹, inv_sqrt_natCast_nonneg k, rsqrt_natCast hk⟩

/-- The reciprocal square root of a degree — zero plus a sum of ones over a nonempty set of edges —
is the coercion of a nonnegative real. -/
theorem rsqrt_degree_exists {ι : Type*} (s : Finset ι) (hs : s.Nonempty) :
    ∃ r : ℝ, 0 ≤ r ∧ Ideal.rsqrt (0 + ∑ _e ∈ s, (1 : EReal)) = (r : EReal) := by
  rw [zero_add_sum_one_eq_card]
  exact rsqrt_natCast_exists (Finset.card_pos.mpr hs)

/-- The edges into a node are nonempty as soon as one edge (its self-loop) goes there. -/
theorem filter_nonempty_of_mem {M : ℕ} (p : Fin M → Prop) [DecidablePred p] (e₀ : Fin M) (h₀ : p e₀) :
    (Finset.univ.filter p).Nonempty :=
  ⟨e₀, Finset.mem_filter.mpr ⟨Finset.mem_univ _, h₀⟩⟩

end Cert.Val
-- ==== Proof.Val.RefDinv.lean ====
import proofs.«161886_j5566277616090_2_alg».proof.Proof.Gen.ReferenceIdeal.Read
import proofs.«161886_j5566277616090_2_alg».proof.Proof.Val.HostIdx
import proofs.«161886_j5566277616090_2_alg».proof.Proof.Val.Degree
import proofs.«161886_j5566277616090_2_alg».proof.Proof.Val.RefLayer0
import Idealize.ShloMosaic.Lib.IdealHost

/-!
# The inverse square roots of the degrees are nonnegative reals

The reference appends one self-loop per node to the edge list, so the destination words of the last
50000 edges are the node numbers themselves.  A node's degree is zero plus a sum of ones over the edges
whose destination word reads as the node, a set that contains the node's self-loop: the degree is the
coercion of a natural number that is at least one, and its reciprocal square root is the coercion of a
nonnegative real.
-/

noncomputable section

open scoped BigOperators

namespace Cert.Val.Ref

open Cert.ReferenceIdeal Idealize.ShloMosaic Idealize.ShloMosaic.ValueIdx Cert.Val

/-! ## The self-loops -/

-- The reshaped second row of the edge words is a name here: the self-loops sit after it.
attribute [local irreducible] Read.val_main_v5

/-- The self-loop of node `n`: the edge after the 800000 given ones, at offset `n`. -/
def loopEdge (n : Fin 50000) : Fin 850000 := ⟨800000 + n.val, by have := n.isLt; omega⟩

/-- The destination word of the self-loop of `n` is the word of `n`. -/
theorem v6_loop (ei : EArr) (n : Fin 50000) :
    Read.val_main_v6 (F := Ideal) ei (ix1 (loopEdge n)) = BitVec.ofNat 32 n.val := by
  have hn := n.isLt
  have hk : (800000 : ℕ) ≤ (loopEdge n).val := by show 800000 ≤ 800000 + n.val; omega
  have hk₂ : (loopEdge n).val - 800000 < 50000 := by show 800000 + n.val - 800000 < 50000; omega
  unfold Read.val_main_v6
  refine (concat1_apply_right Facts₀.concatenates_S800000_S50000_S850000_d0
    (Read.val_main_v5 (F := Ideal) ei) (Read.val_main_v0 (F := Ideal)) (loopEdge n) hk hk₂).trans ?_
  rw [Read.val_main_v0_apply]
  have hv : ((ix1 (⟨(loopEdge n).val - 800000, hk₂⟩ : Fin 50000) : S50000.Idx) 0).val = n.val := by
    show 800000 + n.val - 800000 = n.val
    omega
  exact congrArg (BitVec.ofNat 32) hv

/-- The word of a node number reads, signed, as the number. -/
theorem toInt_ofNat_node (n : Fin 50000) : (BitVec.ofNat 32 n.val).toInt = (n.val : ℤ) := by
  have hn := n.isLt
  rw [BitVec.toInt_eq_toNat_cond, BitVec.toNat_ofNat]
  have hm : n.val % 2 ^ 32 = n.val := Nat.mod_eq_of_lt (by omega)
  rw [hm, if_pos (by omega)]

-- From here on the destination words are a name.
attribute [local irreducible] Read.val_main_v6

/-- The self-loop of `n` goes to `n`. -/
theorem dstI_loop (ei : EArr) (n : Fin 50000) : dstI ei (loopEdge n) = (n.val : ℤ) := by
  unfold dstI
  rw [v6_loop, toInt_ofNat_node]

/-! ## The degrees -/

/-- The scatter's index column: the destination word. -/
theorem v9_at (ei : EArr) (e : Fin 850000) :
    Read.val_main_v9 (F := Ideal) ei (ix2 e (0 : Fin 1)) = Read.val_main_v6 (F := Ideal) ei (ix1 e) := by
  rw [Read.val_main_v9_apply]
  have hi : Read.idx_main_v9 (ix2 e (0 : Fin 1)) = ix1 e := by
    funext a; match a with | ⟨0, _⟩ => rfl
  rw [hi]

attribute [local irreducible] Read.val_main_v9

/-- The scattered updates are ones. -/
theorem v7_at (e : Fin 850000) : Read.val_main_v7 (F := Ideal) (ix1 e) = 1 := by
  rw [Read.val_main_v7_apply, Read.val_main_cst_apply, Ideal.ofBits_def]
  exact Ideal.ofBits_one_f32

/-- The scatter's operand is zero. -/
theorem v8_at (n : Fin 50000) : Read.val_main_v8 (F := Ideal) (ix1 n) = 0 := by
  rw [Read.val_main_v8_apply, Read.val_main_cst_0_apply, Ideal.ofBits_def]
  exact Ideal.ofBits_zero_f32

attribute [local irreducible] Read.val_main_v7 Read.val_main_v8

/-- The degree of `n`: zero plus a one for every edge whose destination word reads `n`. -/
theorem v10_at (ei : EArr) (n : Fin 50000) :
    Read.val_main_v10 (F := Ideal) ei (ix1 n)
      = 0 + ∑ _e ∈ Finset.univ.filter (fun e : Fin 850000 => dstI ei e = (n.val : ℤ)), (1 : EReal) := by
  unfold Read.val_main_v10
  refine (scatterAdd1_apply Facts₀.scatter_S50000_S850000x1_S850000_n_0_0_1_wf
    (Read.val_main_v9 (F := Ideal) ei) (Read.val_main_v8 (F := Ideal)) (Read.val_main_v7 (F := Ideal)) n).trans ?_
  rw [v8_at]
  simp only [v9_at, v7_at]
  rfl

attribute [local irreducible] Read.val_main_v10

/-! ## Their inverse square roots -/

/-- THE INVERSE SQUARE ROOT OF A DEGREE IS A NONNEGATIVE REAL. -/
theorem dinv_real (ei : EArr) (n : Fin 50000) : ∃ r : ℝ, 0 ≤ r ∧ dinv ei (ix1 n) = ((r : ℝ) : EReal) := by
  have h : dinv ei (ix1 n)
      = Ideal.rsqrt (0 + ∑ _e ∈ Finset.univ.filter (fun e : Fin 850000 => dstI ei e = (n.val : ℤ)), (1 : EReal)) := by
    unfold dinv
    rw [Read.val_main_v11_apply, Ideal.hostUnary_rsqrt_def, v10_at]
  rw [h]
  exact rsqrt_degree_exists _
    (filter_nonempty_of_mem (fun e : Fin 850000 => dstI ei e = (n.val : ℤ)) (loopEdge n) (dstI_loop ei n))

/-- The same for all the nodes at once: the inverse square roots are the coercions of a nonnegative real vector. -/
theorem dinv_coe (ei : EArr) :
    ∃ r : Fin 50000 → ℝ, (∀ n, 0 ≤ r n) ∧ ∀ n, dinv ei (ix1 n) = ((r n : ℝ) : EReal) :=
  ⟨fun n => Classical.choose (dinv_real ei n),
    fun n => (Classical.choose_spec (dinv_real ei n)).1,
    fun n => (Classical.choose_spec (dinv_real ei n)).2⟩

end Cert.Val.Ref
-- ==== Proof.Alg.GlueH.lean ====
/-
  The pre-activation of each graph-convolution layer. The kernel holds the per-destination sum of the pre-scaled table
  and multiplies it by the destination's own factor afterwards; the reference multiplies every edge's term by both
  factors before summing. The destination's factor is a nonnegative real (each node has its self-loop, so each degree
  is at least one), and multiplication by a nonnegative real distributes over a finite sum of extended reals.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Alg.GlueArgs
import proofs.«161886_j5566277616090_2_alg».proof.Proof.Val.Scaled
import proofs.«161886_j5566277616090_2_alg».proof.Proof.Val.Scaled1
import proofs.«161886_j5566277616090_2_alg».proof.Proof.Val.Scaled2
import proofs.«161886_j5566277616090_2_alg».proof.Proof.Val.RefDinv
set_option maxRecDepth 16384

noncomputable section

namespace Cert.KernelIdeal.Hand.Glue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

open Cert.Val.Ref in
/-- Layer 0: the aggregate of the layer's table, scaled by the destination's factor, plus the bias row, is the
    reference's pre-activation. -/
theorem g_h0
    (hHW : ∀ (n : Fin 50000) (j : Fin 128), sTbl0 m c (ix2 n j) = (∑ k : Fin 128, argX m c (ix2 n k) * argW0 m c (ix2 k j)) * dinv (argE m c) (ix1 n))
    (hAGG : ∀ (i : Fin 50000) (j : Fin 128), sAgg0 m c (ix2 i j) = 0 + ∑ e ∈ Finset.univ.filter (fun e : Fin 850000 => dstI (argE m c) e = (i.val : ℤ)), sTbl0 m c (ix2 (srcc (argE m c) e) j))
    (hDC : ∀ i : Fin 50000, sDcol m c (ix2 i (0 : Fin 1)) = dinv (argE m c) (ix1 i))
    (hB : ∀ j : Fin 128, sRow13 m c (ix2 (0 : Fin 1) j) = argB0 m c (ix1 j))
    (i : Fin 50000) (j : Fin 128) :
    sAgg0 m c (ix2 i j) * sDcol m c (ix2 i (0 : Fin 1)) + sRow13 m c (ix2 (0 : Fin 1) j)
      = Cert.ReferenceIdeal.Read.val_main_v43 (F := Ideal) (argX m c) (argE m c) (argW0 m c) (argB0 m c) (ix2 i j) := by
  obtain ⟨r, hr0, hr⟩ := dinv_coe (argE m c)
  rw [hDC, hB]
  exact scaled0_eq (argX m c) (argE m c) (argW0 m c) (argB0 m c) r hr0 hr (fun n j => sTbl0 m c (ix2 n j)) hHW (fun i j => sAgg0 m c (ix2 i j)) hAGG i j

open Cert.Val.Ref in
/-- Layer 1: the aggregate of the layer's table, scaled by the destination's factor, plus the bias row, is the
    reference's pre-activation. -/
theorem g_h1
    (hHW : ∀ (n : Fin 50000) (j : Fin 128), sTbl1 m c (ix2 n j) = (∑ k : Fin 128, Cert.ReferenceIdeal.Read.val_main_v69 (F := Ideal) (argX m c) (argE m c) (argW0 m c) (argB0 m c) (argG0 m c) (argBT0 m c) (ix2 n k) * argW1 m c (ix2 k j)) * dinv (argE m c) (ix1 n))
    (hAGG : ∀ (i : Fin 50000) (j : Fin 128), sAgg1 m c (ix2 i j) = 0 + ∑ e ∈ Finset.univ.filter (fun e : Fin 850000 => dstI (argE m c) e = (i.val : ℤ)), sTbl1 m c (ix2 (srcc (argE m c) e) j))
    (hDC : ∀ i : Fin 50000, sDcol m c (ix2 i (0 : Fin 1)) = dinv (argE m c) (ix1 i))
    (hB : ∀ j : Fin 128, sRow14 m c (ix2 (0 : Fin 1) j) = argB1 m c (ix1 j))
    (i : Fin 50000) (j : Fin 128) :
    sAgg1 m c (ix2 i j) * sDcol m c (ix2 i (0 : Fin 1)) + sRow14 m c (ix2 (0 : Fin 1) j)
      = Cert.ReferenceIdeal.Read.val_main_v86 (F := Ideal) (argX m c) (argE m c) (argW0 m c) (argB0 m c) (argW1 m c) (argB1 m c) (argG0 m c) (argBT0 m c) (ix2 i j) := by
  obtain ⟨r, hr0, hr⟩ := dinv_coe (argE m c)
  rw [hDC, hB]
  exact scaled1_eq (argX m c) (argE m c) (argW0 m c) (argB0 m c) (argW1 m c) (argB1 m c) (argG0 m c) (argBT0 m c) r hr0 hr (fun n j => sTbl1 m c (ix2 n j)) hHW (fun i j => sAgg1 m c (ix2 i j)) hAGG i j

open Cert.Val.Ref in
/-- Layer 2: the aggregate of the layer's table, scaled by the destination's factor, plus the bias row, is the
    reference's pre-activation. -/
theorem g_h2
    (hHW : ∀ (n : Fin 50000) (j : Fin 128), sTbl2 m c (ix2 n j) = (∑ k : Fin 128, Cert.ReferenceIdeal.Read.val_main_v112 (F := Ideal) (argX m c) (argE m c) (argW0 m c) (argB0 m c) (argW1 m c) (argB1 m c) (argG0 m c) (argBT0 m c) (argG1 m c) (argBT1 m c) (ix2 n k) * argW2 m c (ix2 k j)) * dinv (argE m c) (ix1 n))
    (hAGG : ∀ (i : Fin 50000) (j : Fin 128), sAgg2 m c (ix2 i j) = 0 + ∑ e ∈ Finset.univ.filter (fun e : Fin 850000 => dstI (argE m c) e = (i.val : ℤ)), sTbl2 m c (ix2 (srcc (argE m c) e) j))
    (hDC : ∀ i : Fin 50000, sDcol m c (ix2 i (0 : Fin 1)) = dinv (argE m c) (ix1 i))
    (hB : ∀ j : Fin 128, sRow15 m c (ix2 (0 : Fin 1) j) = argB2 m c (ix1 j))
    (i : Fin 50000) (j : Fin 128) :
    sAgg2 m c (ix2 i j) * sDcol m c (ix2 i (0 : Fin 1)) + sRow15 m c (ix2 (0 : Fin 1) j)
      = Cert.ReferenceIdeal.Read.val_main_v129 (F := Ideal) (argX m c) (argE m c) (argW0 m c) (argB0 m c) (argW1 m c) (argB1 m c) (argW2 m c) (argB2 m c) (argG0 m c) (argBT0 m c) (argG1 m c) (argBT1 m c) (ix2 i j) := by
  obtain ⟨r, hr0, hr⟩ := dinv_coe (argE m c)
  rw [hDC, hB]
  exact scaled2_eq (argX m c) (argE m c) (argW0 m c) (argB0 m c) (argW1 m c) (argB1 m c) (argW2 m c) (argB2 m c) (argG0 m c) (argBT0 m c) (argG1 m c) (argBT1 m c) r hr0 hr (fun n j => sTbl2 m c (ix2 n j)) hHW (fun i j => sAgg2 m c (ix2 i j)) hAGG i j

end Cert.KernelIdeal.Hand.Glue

end
-- ==== Proof.KI.Keep.lean ====
/-
  A buffer that only the first host stretch writes (the edge endpoints, the degree factors, the reshaped bias and scale
  rows) or that nothing writes (an argument) holds, at every later boundary, what it held after that first stretch.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Gen.KernelIdeal.Regions
import proofs.«161886_j5566277616090_2_alg».proof.Proof.KI.Args
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The side conditions of "nothing after the first stretch writes b": b is written by no later host stretch and is no
    region's output array. -/
structure Kept (b : Ref sig .tc) : Prop where
  h1 : b ∉ hostOps1_W
  h4 : b ∉ hostOps4_W
  h7 : b ∉ hostOps7_W
  h71 : b ∉ hostOps7_1_W
  h72 : b ∉ hostOps7_2_W
  h73 : b ∉ hostOps7_3_W
  h74 : b ∉ hostOps7_4_W
  ho : b ∉ ([main_v20, main_v32, main_v33, main_v34, main_v46, main_v47, main_v48, main_v78] : List (Ref sig .tc))

theorem Kept.ne {b : Ref sig .tc} (k : Kept b) (o : Ref sig .tc)
    (ho : o ∈ ([main_v20, main_v32, main_v33, main_v34, main_v46, main_v47, main_v48, main_v78] : List (Ref sig .tc))) : b ≠ o :=
  fun e => k.ho (e ▸ ho)
theorem keep2 (c : Dev nD) {b : Ref sig .tc} (k : Kept b) : W2 m c (Proc.devRef .tc b) = W1 m c (Proc.devRef .tc b) :=
  across0 m c b (k.ne main_v20 (by decide))
theorem keep3 (c : Dev nD) {b : Ref sig .tc} (k : Kept b) : W3 m c (Proc.devRef .tc b) = W1 m c (Proc.devRef .tc b) :=
  (StableHlo.after_of_writes_sub hostOps1 _ hostOps1_writes k.h1).trans (keep2 m c k)
theorem keep4 (c : Dev nD) {b : Ref sig .tc} (k : Kept b) : W4 m c (Proc.devRef .tc b) = W1 m c (Proc.devRef .tc b) :=
  (across1 m c b (k.ne main_v32 (by decide))).trans (keep3 m c k)
theorem keep5 (c : Dev nD) {b : Ref sig .tc} (k : Kept b) : W5 m c (Proc.devRef .tc b) = W1 m c (Proc.devRef .tc b) :=
  (across2 m c b (k.ne main_v33 (by decide))).trans (keep4 m c k)
theorem keep6 (c : Dev nD) {b : Ref sig .tc} (k : Kept b) : W6 m c (Proc.devRef .tc b) = W1 m c (Proc.devRef .tc b) :=
  (across3 m c b (k.ne main_v34 (by decide))).trans (keep5 m c k)
theorem keep7 (c : Dev nD) {b : Ref sig .tc} (k : Kept b) : W7 m c (Proc.devRef .tc b) = W1 m c (Proc.devRef .tc b) :=
  (StableHlo.after_of_writes_sub hostOps4 _ hostOps4_writes k.h4).trans (keep6 m c k)
theorem keep8 (c : Dev nD) {b : Ref sig .tc} (k : Kept b) : W8 m c (Proc.devRef .tc b) = W1 m c (Proc.devRef .tc b) :=
  (across4 m c b (k.ne main_v46 (by decide))).trans (keep7 m c k)
theorem keep9 (c : Dev nD) {b : Ref sig .tc} (k : Kept b) : W9 m c (Proc.devRef .tc b) = W1 m c (Proc.devRef .tc b) :=
  (across5 m c b (k.ne main_v47 (by decide))).trans (keep8 m c k)
theorem keep10 (c : Dev nD) {b : Ref sig .tc} (k : Kept b) : W10 m c (Proc.devRef .tc b) = W1 m c (Proc.devRef .tc b) :=
  (across6 m c b (k.ne main_v48 (by decide))).trans (keep9 m c k)
theorem keep11 (c : Dev nD) {b : Ref sig .tc} (k : Kept b) : W11 m c (Proc.devRef .tc b) = W1 m c (Proc.devRef .tc b) :=
  (StableHlo.after_of_writes_sub hostOps7 _ hostOps7_writes k.h7).trans (keep10 m c k)
theorem keep12 (c : Dev nD) {b : Ref sig .tc} (k : Kept b) : W12 m c (Proc.devRef .tc b) = W1 m c (Proc.devRef .tc b) :=
  (StableHlo.after_of_writes_sub hostOps7_1 _ hostOps7_1_writes k.h71).trans (keep11 m c k)
theorem keep13 (c : Dev nD) {b : Ref sig .tc} (k : Kept b) : W13 m c (Proc.devRef .tc b) = W1 m c (Proc.devRef .tc b) :=
  (StableHlo.after_of_writes_sub hostOps7_2 _ hostOps7_2_writes k.h72).trans (keep12 m c k)
theorem keep14 (c : Dev nD) {b : Ref sig .tc} (k : Kept b) : W14 m c (Proc.devRef .tc b) = W1 m c (Proc.devRef .tc b) :=
  (StableHlo.after_of_writes_sub hostOps7_3 _ hostOps7_3_writes k.h73).trans (keep13 m c k)
theorem keep15 (c : Dev nD) {b : Ref sig .tc} (k : Kept b) : W15 m c (Proc.devRef .tc b) = W1 m c (Proc.devRef .tc b) :=
  (StableHlo.after_of_writes_sub hostOps7_4 _ hostOps7_4_writes k.h74).trans (keep14 m c k)
theorem keep16 (c : Dev nD) {b : Ref sig .tc} (k : Kept b) : W16 m c (Proc.devRef .tc b) = W1 m c (Proc.devRef .tc b) :=
  (across7 m c b (k.ne main_v78 (by decide))).trans (keep15 m c k)

end Cert.KernelIdeal.Hand

end
-- ==== Proof.KI.Val1a.lean ====
/-
  Region 1's arithmetic, away from the pipeline. Two things. First, sums: the column sum over all 50000 rows is the ten
  points' sums over their 5000 rows added up (addition of extended reals is commutative and associative; nothing else
  is used). Second, the three rows the kernel stores, read at one lane over the extended reals: the first point's row
  is zero; every point's row is the scratch's lane plus the sum over the block's rows of (feature × the row's factor +
  bias); the last point's row is the scratch's lane divided by the kernel's constant for the number of rows.
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Ten blocks of rows are the whole column -/

/-- A sum over m·n consecutive naturals, taken n at a time. -/
theorem sum_blocks1 {M : Type*} [AddCommMonoid M] (n : ℕ) (g : ℕ → M) :
    ∀ m : ℕ, ∑ t ∈ Finset.range m, ∑ r ∈ Finset.range n, g (n * t + r) = ∑ i ∈ Finset.range (m * n), g i
  | 0 => by simp
  | m + 1 => by
    rw [Finset.sum_range_succ, sum_blocks1 n g m, Nat.succ_mul, Finset.sum_range_add, Nat.mul_comm n m]

/-- Row i's share of column j of the sum: the aggregated feature scaled by the row's factor, plus the bias. A function
    of a natural number (zero past the last row), so that sums over blocks of rows can be joined by arithmetic on
    the row number. -/
def term1 (agg : S50000x128.Idx → EReal) (dinv : S50000x1.Idx → EReal) (b : S1x128.Idx → EReal) (j : Fin 128) (i : ℕ) : EReal :=
  if h : i < 50000 then agg (ix2 ⟨i, h⟩ j) * dinv (ix2 ⟨i, h⟩ 0) + b (ix2 0 j) else 0

theorem term1_of_lt (agg : S50000x128.Idx → EReal) (dinv : S50000x1.Idx → EReal) (b : S1x128.Idx → EReal) (j : Fin 128)
    (i : ℕ) (h : i < 50000) : term1 agg dinv b j i = agg (ix2 ⟨i, h⟩ j) * dinv (ix2 ⟨i, h⟩ 0) + b (ix2 0 j) := dif_pos h

/-- The ten points' sums over their 5000 rows, added up, are the sum over all 50000 rows. -/
theorem total1 (agg : S50000x128.Idx → EReal) (dinv : S50000x1.Idx → EReal) (b : S1x128.Idx → EReal) (j : Fin 128) :
    ∑ t ∈ Finset.range 10, ∑ r : Fin 5000, term1 agg dinv b j (5000 * t + r.val)
      = ∑ i : Fin 50000, (agg (ix2 i j) * dinv (ix2 i 0) + b (ix2 0 j)) := by
  have e1 : ∀ t ∈ Finset.range 10, ∑ r : Fin 5000, term1 agg dinv b j (5000 * t + r.val)
      = ∑ r ∈ Finset.range 5000, term1 agg dinv b j (5000 * t + r) :=
    fun t _ => (Finset.sum_range (fun r => term1 agg dinv b j (5000 * t + r))).symm
  rw [Finset.sum_congr rfl e1, sum_blocks1 5000 (term1 agg dinv b j) 10]
  rw [show (10 : ℕ) * 5000 = 50000 from rfl, Finset.sum_range]
  exact Finset.sum_congr rfl fun i _ => term1_of_lt agg dinv b j i.val i.isLt

/-! ## The three stored rows, read at a lane, over the extended reals -/

theorem hz1 : (![0, 0] : Fin 2 → Nat) = fun _ => 0 := funext fun a => by fin_cases a <;> rfl

/-- The first point's row is zero in every lane. -/
theorem k1_pay1_apply (j : Fin 128) : k1_pay1 (F := Ideal) (ix2 (0 : Fin 1) j) = 0 := by
  unfold k1_pay1
  show shapeCast S1x128 (broadcast S1x128 (Scalar.ofBits (F := Ideal) .f32 0x00000000#32)) _ (ix2 (0 : Fin 1) j) = 0
  rw [shapeCast_self]
  exact Ideal.ofBits_zero_f32

/-- The last point's row: the sum's lane divided by the constant the kernel was given for the number of rows. -/
theorem k1_pay3_apply (s : Vec Ideal S1x128 .f32) (j : Fin 128) :
    k1_pay3 (F := Ideal) s (ix2 (0 : Fin 1) j) = Ideal.div (s (ix2 (0 : Fin 1) j)) (Ideal.ofBits .f32 0x47435000#32) := by
  unfold k1_pay3; rfl

/-- A sum along the rows of a 5000×128 vector, read at lane j: the sum over the 5000 rows of that lane. -/
theorem colsum1 (v : FVec Ideal S5000x128 .f32) (h : S5000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 5000, v (ix2 r j) :=
  (Ideal.multiReduction_add_single v 0x00000000#32 h hφ hacc (ix1 j)).trans
    (Finset.sum_congr rfl fun r _ => congrArg v (funext fun a => match a with | ⟨0, _⟩ => rfl | ⟨1, _⟩ => rfl))

/-- The block with each row scaled by its node's factor and the bias row added, read at row r and lane j. -/
theorem scaled1_apply (x : FVec Ideal S5000x128 .f32) (dv : FVec Ideal S5000x1 .f32) (b : FVec Ideal S1x128 .f32)
    (h1 : S5000x128.ShapeCasts S5000x128) (h2 : S5000x1.ShapeCasts S5000x1) (h3 : S5000x1.Broadcasts S5000x128)
    (h4 : S1x128.ShapeCasts S1x128) (h5 : S1x128.Broadcasts S5000x128) (r : Fin 5000) (j : Fin 128) :
    addf (F := Ideal) (φ := .f32) (mulf (F := Ideal) (φ := .f32) (shapeCast S5000x128 x h1) (broadcastTo S5000x128 (shapeCast S5000x1 dv h2) h3))
        (broadcastTo S5000x128 (shapeCast S1x128 b h4) h5) (ix2 r j)
      = x (ix2 r j) * dv (ix2 r (0 : Fin 1)) + b (ix2 (0 : Fin 1) j) := by
  rw [shapeCast_self, shapeCast_self, shapeCast_self]
  show x (ix2 r j) * broadcastTo S5000x128 dv h3 (ix2 r j) + broadcastTo S5000x128 b h5 (ix2 r j) = _
  rw [broadcastTo_apply dv h3 (ix2 r j) (ix2 r (0 : Fin 1)) (fun a => match a with | ⟨0, _⟩ => rfl | ⟨1, _⟩ => rfl),
    broadcastTo_apply b h5 (ix2 r j) (ix2 (0 : Fin 1) j) (fun a => match a with | ⟨0, _⟩ => rfl | ⟨1, _⟩ => rfl)]

/-- Every point's row: the scratch's lane plus the sum, over the block's 5000 rows, of the scaled and biased lane. -/
theorem k1_pay2_apply (x : Vec Ideal S5000x128 .f32) (dv : Vec Ideal S5000x1 .f32) (b s : Vec Ideal S1x128 .f32) (j : Fin 128) :
    k1_pay2 (F := Ideal) x dv b s (ix2 (0 : Fin 1) j)
      = s (ix2 (0 : Fin 1) j) + ∑ r : Fin 5000, (x (ix2 r j) * dv (ix2 r (0 : Fin 1)) + b (ix2 (0 : Fin 1) j)) := by
  unfold k1_pay2
  dsimp only
  rw [shapeCast_self]
  refine congrArg (fun z => s (ix2 (0 : Fin 1) j) + z) ?_
  refine (shapeCast_addUnit_apply (n := 1) ![128] _ shapeCasts_S128_S1x128 (ix2 (0 : Fin 1) j)).trans ?_
  refine (congrArg _ (show (fun a : Fin 1 => (ix2 (0 : Fin 1) j) a.succ) = ix1 j from
    funext fun a => match a with | ⟨0, _⟩ => rfl)).trans ?_
  refine (colsum1 _ _ _ _ j).trans ?_
  exact Finset.sum_congr rfl fun r _ => scaled1_apply x dv b _ _ _ _ _ r j

end Cert.KernelIdeal.Hand

end
-- ==== Proof.KI.Val1b.lean ====
/-
  Region 1, between the pipeline and the arithmetic. What each store leaves is its payload (every store and every load
  is of a whole buffer), and an input window's block at point t, read at a row and lane, is the array at row 5000·t +
  the row (the bias row: itself). For any float instance.
-/
import proofs.«161886_j5566277616090_2_alg».proof.Proof.KI.Reg1
import proofs.«161886_j5566277616090_2_alg».proof.Proof.KI.Val1a
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]
variable (V : (c : Dev nD) → (b : Ref sig .tc) → Buf (Elt F) ((c : Thread nD τ).loc b))

/-! ## The stored rows are the payloads: every store and every load is of a whole buffer -/

theorem zero1_eq : zero1 (F := F) = k1_pay1 := by
  unfold zero1; exact View.canon_unit_zero hz1 _ _

theorem step1_eq (x : Vec F S5000x128 .f32) (dv : Vec F S5000x1 .f32) (b s : Vec F S1x128 .f32) :
    step1 x dv b s = k1_pay2 x dv b s := by
  unfold step1
  rw [View.canon_unit_zero hz1, View.ld_unit_zero (S := S5000x128) hz1, View.ld_unit_zero (S := S5000x1) hz1,
    View.ld_unit_zero (S := S1x128) hz1, View.ld_unit_zero (S := S1x128) hz1]

theorem mean1_eq (s : Vec F S1x128 .f32) : mean1 s = k1_pay3 s := by
  unfold mean1
  rw [View.canon_unit_zero hz1, View.ld_unit_zero (S := S1x128) hz1]

theorem zero1_apply (j : Fin 128) : zero1 (F := Ideal) (ix2 (0 : Fin 1) j) = 0 :=
  (congrFun zero1_eq _).trans (k1_pay1_apply j)

theorem step1_apply (x : Vec Ideal S5000x128 .f32) (dv : Vec Ideal S5000x1 .f32) (b s : Vec Ideal S1x128 .f32) (j : Fin 128) :
    step1 x dv b s (ix2 (0 : Fin 1) j)
      = s (ix2 (0 : Fin 1) j) + ∑ r : Fin 5000, (x (ix2 r j) * dv (ix2 r (0 : Fin 1)) + b (ix2 (0 : Fin 1) j)) :=
  (congrFun (step1_eq x dv b s) _).trans (k1_pay2_apply x dv b s j)

theorem mean1_apply (s : Vec Ideal S1x128 .f32) (j : Fin 128) :
    mean1 s (ix2 (0 : Fin 1) j) = Ideal.div (s (ix2 (0 : Fin 1) j)) (Ideal.ofBits .f32 0x47435000#32) :=
  (congrFun (mean1_eq s) _).trans (k1_pay3_apply s j)

/-! ## A window's block at a point, read at an index, is the array at an index -/

/-- Where each input window's block sits at point t, decided over the grid: the row blocks move with the point,
    the bias row does not. -/
theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem index1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem index1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- Row x₀ of point t's block of the aggregated features is row 5000·t + x₀ of the array. -/
theorem blk1_0_apply (c : Dev nD) (t : Fin cfg1.N) (x : S5000x128.Idx) (k : S50000x128.Idx)
    (hk0 : (k 0).val = 5000 * t.val + (x 0).val) (hk1 : (k 1).val = (x 1).val) :
    (blk1 V c 0 t : Vec F S5000x128 .f32) x = (V c (Pipeline.arrRef spec1 0) : S50000x128.Idx → Elt F .f32) k := by
  unfold blk1
  rw [View.read_apply]
  refine congrArg (V c (Pipeline.arrRef spec1 0) : S50000x128.Idx → Elt F .f32) ?_
  funext a
  apply Fin.ext
  match a with
  | ⟨0, _⟩ => show win1_0.index t 0 * 5000 + 1 * (x 0).val = (k 0).val; rw [(index1_0 t).1, hk0]; omega
  | ⟨1, _⟩ => show win1_0.index t 1 * 128 + 1 * (x 1).val = (k 1).val; rw [(index1_0 t).2, hk1]; omega

/-- Likewise for the nodes' factors, -/
theorem blk1_1_apply (c : Dev nD) (t : Fin cfg1.N) (x : S5000x1.Idx) (k : S50000x1.Idx)
    (hk0 : (k 0).val = 5000 * t.val + (x 0).val) (hk1 : (k 1).val = (x 1).val) :
    (blk1 V c 1 t : Vec F S5000x1 .f32) x = (V c (Pipeline.arrRef spec1 1) : S50000x1.Idx → Elt F .f32) k := by
  unfold blk1
  rw [View.read_apply]
  refine congrArg (V c (Pipeline.arrRef spec1 1) : S50000x1.Idx → Elt F .f32) ?_
  funext a
  apply Fin.ext
  match a with
  | ⟨0, _⟩ => show win1_1.index t 0 * 5000 + 1 * (x 0).val = (k 0).val; rw [(index1_1 t).1, hk0]; omega
  | ⟨1, _⟩ => show win1_1.index t 1 * 1 + 1 * (x 1).val = (k 1).val; rw [(index1_1 t).2, hk1]; omega

/-- and the bias row's block is the bias row at every point. -/
theorem blk1_2_apply (c : Dev nD) (t : Fin cfg1.N) (x : S1x128.Idx) :
    (blk1 V c 2 t : Vec F S1x128 .f32) x = (V c (Pipeline.arrRef spec1 2) : S1x128.Idx → Elt F .f32) x := by
  unfold blk1
  rw [View.read_apply]
  refine congrArg (V c (Pipeline.arrRef spec1 2) : S1x128.Idx → Elt F .f32) ?_
  funext a
  apply Fin.ext
  match a with
  | ⟨0, _⟩ => show win1_2.index t 0 * 1 + 1 * (x 0).val = (x 0).val; rw [(index1_2 t).1]; omega
  | ⟨1, _⟩ => show win1_2.index t 1 * 128 + 1 * (x 1).val = (x 1).val; rw [(index1_2 t).2]; omega

/-- The point's three input blocks, at their literal shapes. -/
def rows1 (c : Dev nD) (t : Fin cfg1.N) : Vec F S5000x128 .f32 := blk1 V c 0 t
def facs1 (c : Dev nD) (t : Fin cfg1.N) : Vec F S5000x1 .f32 := blk1 V c 1 t
def brow1 (c : Dev nD) (t : Fin cfg1.N) : Vec F S1x128 .f32 := blk1 V c 2 t

theorem rows1_apply (c : Dev nD) (t : Fin cfg1.N) (r : Fin 5000) (j : Fin 128) (h : 5000 * t.val + r.val < 50000) :
    rows1 V c t (ix2 r j) = (V c (Pipeline.arrRef spec1 0) : S50000x128.Idx → Elt F .f32) (ix2 ⟨5000 * t.val + r.val, h⟩ j) :=
  blk1_0_apply V c t (ix2 r j) (ix2 ⟨5000 * t.val + r.val, h⟩ j) rfl rfl
theorem facs1_apply (c : Dev nD) (t : Fin cfg1.N) (r : Fin 5000) (h : 5000 * t.val + r.val < 50000) :
    facs1 V c t (ix2 r (0 : Fin 1))
      = (V c (Pipeline.arrRef spec1 1) : S50000x1.Idx → Elt F .f32) (ix2 ⟨5000 * t.val + r.val, h⟩ (0 : Fin 1)) :=
  blk1_1_apply V c t (ix2 r (0 : Fin 1)) (ix2 ⟨5000 * t.val + r.val, h⟩ (0 : Fin 1)) rfl rfl
theorem brow1_apply (c : Dev nD) (t : Fin cfg1.N) (j : Fin 128) :
    brow1 V c t (ix2 (0 : Fin 1) j) = (V c (Pipeline.arrRef spec1 2) : S1x128.Idx → Elt F .f32) (ix2 (0 : Fin 1) j) :=
  blk1_2_apply V c t (ix2 (0 : Fin 1) j)

end Cert.KernelIdeal.Hand

end
-- ==== Proof.KI.Val1.lean ====
/-
  Region 1's result over the extended reals: the mean row. By induction on the point the scratch's lane j after point
  n is the sum of the first n + 1 points' addends; after the last point that is the sum over all 50000 rows, and the
  row the last point stores divides it by the kernel's constant; the one write-back, at the last point, puts that row
  in the output array, whose one block is the whole array.
-/
import proofs.«161886_j5566277616090_2_alg».proof.Proof.KI.Reg1
import proofs.«161886_j5566277616090_2_alg».proof.Proof.KI.Val1a
import proofs.«161886_j5566277616090_2_alg».proof.Proof.KI.Val1b
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]
variable (V : (c : Dev nD) → (b : Ref sig .tc) → Buf (Elt F) ((c : Thread nD τ).loc b))

/-! ## The running sum, read at a lane -/

section AtIdeal

variable (W : (c : Dev nD) → (b : Ref sig .tc) → Buf (Elt Ideal) ((c : Thread nD τ).loc b))

/-- The three arrays the region reads, as the region finds them. -/
abbrev agg1 (c : Dev nD) : S50000x128.Idx → EReal := W c (Pipeline.arrRef spec1 0)
abbrev dinv1 (c : Dev nD) : S50000x1.Idx → EReal := W c (Pipeline.arrRef spec1 1)
abbrev bias1 (c : Dev nD) : S1x128.Idx → EReal := W c (Pipeline.arrRef spec1 2)

/-- Point t's addend at lane j: the sum over its block's rows is the sum over rows 5000·t … 5000·t + 4999 of the arrays. -/
theorem block_sum1 (c : Dev nD) (t : Fin cfg1.N) (j : Fin 128) :
    ∑ r : Fin 5000, (rows1 W c t (ix2 r j) * facs1 W c t (ix2 r (0 : Fin 1)) + brow1 W c t (ix2 (0 : Fin 1) j))
      = ∑ r : Fin 5000, term1 (agg1 W c) (dinv1 W c) (bias1 W c) j (5000 * t.val + r.val) := by
  have hN : t.val < 10 := lt_of_lt_of_eq t.isLt (show cfg1.N = 10 from N_1)
  refine Finset.sum_congr rfl fun r _ => ?_
  have hr : 5000 * t.val + r.val < 50000 := by have := r.isLt; omega
  rw [term1_of_lt _ _ _ j _ hr, rows1_apply W c t r j hr, facs1_apply W c t r hr, brow1_apply W c t j]

/-- THE INVARIANT: after point n the scratch's lane j holds the sum of the addends of points 0 … n. -/
theorem acc1_apply (c : Dev nD) (j : Fin 128) : ∀ (n : ℕ) (hn : n < cfg1.N),
    acc1 W c n hn (ix2 (0 : Fin 1) j)
      = ∑ t ∈ Finset.range (n + 1), ∑ r : Fin 5000, term1 (agg1 W c) (dinv1 W c) (bias1 W c) j (5000 * t + r.val)
  | 0, hn => by
    refine (step1_apply (rows1 W c ⟨0, hn⟩) (facs1 W c ⟨0, hn⟩) (brow1 W c ⟨0, hn⟩) zero1 j).trans ?_
    rw [zero1_apply, zero_add, Finset.sum_range_one]
    exact block_sum1 W c ⟨0, hn⟩ j
  | n + 1, hn => by
    refine (step1_apply (rows1 W c ⟨n + 1, hn⟩) (facs1 W c ⟨n + 1, hn⟩) (brow1 W c ⟨n + 1, hn⟩)
      (acc1 W c n (Nat.lt_of_succ_lt hn)) j).trans ?_
    rw [acc1_apply c j n (Nat.lt_of_succ_lt hn), Finset.sum_range_succ _ (n + 1)]
    exact congrArg _ (block_sum1 W c ⟨n + 1, hn⟩ j)

/-- The row the region writes, at lane j: the sum over all 50000 rows, divided by the kernel's constant. -/
theorem final1_apply (c : Dev nD) (j : Fin 128) :
    final1 W c (ix2 (0 : Fin 1) j)
      = Ideal.div (∑ i : Fin 50000, (agg1 W c (ix2 i j) * dinv1 W c (ix2 i (0 : Fin 1)) + bias1 W c (ix2 (0 : Fin 1) j)))
          (Ideal.ofBits .f32 0x47435000#32) := by
  unfold final1
  rw [mean1_apply, acc1_apply W c j 9, show (9 : ℕ) + 1 = 10 from rfl, total1]

end AtIdeal

/-! ## From the last point's buffer to the output array -/

/-- The one write-back, at the last point, writes the region's row: the output's one block is the whole 1×128 array. -/
theorem flushed1_eq (c : Dev nD) (t : Fin cfg1.N) (hf : (cfg1.win 3).flush t = true) :
    (dat1 V c).flushed 3 t = ((cfg1.win 3).blk t).view.read (Elt F) (final1 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [dat1_after_last V c t1_9 rfl]
  have hz' : (fun a => win1_3.index t1_9 a * main_v32.ty.shape.size a) = fun _ => 0 := funext fun a => by fin_cases a <;> decide
  exact (Memref.read_access_unit_zero (Elt F) main_v32 hz' (fun a => by rw [congrFun hz' a]; simp) (final1 V c)).symm

/-- So after the region the output array holds the region's row. -/
theorem arr1_eq (c : Dev nD) : (dat1 V c).arrAt 3 cfg1.N = final1 V c :=
  (dat1 V c).arrAt_eq_of_cover 3 (final1 V c) (flushed1_eq V c) fun i =>
    ⟨t1_9, (flush1_3 t1_9).mpr rfl, by
      show i ∈ ((View.whole main_v32).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- THE MEAN ROW: over the extended reals, after the region the output array at lane j is the sum over all 50000 rows
    of the aggregated feature scaled by the row's factor plus the bias, divided by the kernel's constant for 50000. -/
theorem out1_apply (W : (c : Dev nD) → (b : Ref sig .tc) → Buf (Elt Ideal) ((c : Thread nD τ).loc b)) (c : Dev nD) (j : Fin 128) :
    ((dat1 W c).arrAt 3 cfg1.N : S1x128.Idx → EReal) (ix2 (0 : Fin 1) j)
      = Ideal.div (∑ i : Fin 50000, (agg1 W c (ix2 i j) * dinv1 W c (ix2 i (0 : Fin 1)) + bias1 W c (ix2 (0 : Fin 1) j)))
          (Ideal.ofBits .f32 0x47435000#32) :=
  (congrFun (arr1_eq W c) _).trans (final1_apply W c j)

end Cert.KernelIdeal.Hand

end
-- ==== Proof.KI.Val4a.lean ====
/-
  Region 4's arithmetic (the same kernel as region 1), away from the pipeline. Two things. First, sums: the column sum
  over all 50000 rows is the ten points' sums over their 5000 rows added up (addition of extended reals is commutative
  and associative; nothing else is used). Second, the three rows the kernel stores, read at one lane over the extended
  reals: the first point's row is zero; every point's row is the scratch's lane plus the sum over the block's rows of
  (feature × the row's factor + bias); the last point's row is the scratch's lane divided by the kernel's constant for
  the number of rows.
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## Ten blocks of rows are the whole column -/

/-- A sum over m·n consecutive naturals, taken n at a time. -/
theorem sum_blocks4 {M : Type*} [AddCommMonoid M] (n : ℕ) (g : ℕ → M) :
    ∀ m : ℕ, ∑ t ∈ Finset.range m, ∑ r ∈ Finset.range n, g (n * t + r) = ∑ i ∈ Finset.range (m * n), g i
  | 0 => by simp
  | m + 1 => by
    rw [Finset.sum_range_succ, sum_blocks4 n g m, Nat.succ_mul, Finset.sum_range_add, Nat.mul_comm n m]

/-- Row i's share of column j of the sum: the aggregated feature scaled by the row's factor, plus the bias. A function
    of a natural number (zero past the last row), so that sums over blocks of rows can be joined by arithmetic on
    the row number. -/
def term4 (agg : S50000x128.Idx → EReal) (dinv : S50000x1.Idx → EReal) (b : S1x128.Idx → EReal) (j : Fin 128) (i : ℕ) : EReal :=
  if h : i < 50000 then agg (ix2 ⟨i, h⟩ j) * dinv (ix2 ⟨i, h⟩ 0) + b (ix2 0 j) else 0

theorem term4_of_lt (agg : S50000x128.Idx → EReal) (dinv : S50000x1.Idx → EReal) (b : S1x128.Idx → EReal) (j : Fin 128)
    (i : ℕ) (h : i < 50000) : term4 agg dinv b j i = agg (ix2 ⟨i, h⟩ j) * dinv (ix2 ⟨i, h⟩ 0) + b (ix2 0 j) := dif_pos h

/-- The ten points' sums over their 5000 rows, added up, are the sum over all 50000 rows. -/
theorem total4 (agg : S50000x128.Idx → EReal) (dinv : S50000x1.Idx → EReal) (b : S1x128.Idx → EReal) (j : Fin 128) :
    ∑ t ∈ Finset.range 10, ∑ r : Fin 5000, term4 agg dinv b j (5000 * t + r.val)
      = ∑ i : Fin 50000, (agg (ix2 i j) * dinv (ix2 i 0) + b (ix2 0 j)) := by
  have e1 : ∀ t ∈ Finset.range 10, ∑ r : Fin 5000, term4 agg dinv b j (5000 * t + r.val)
      = ∑ r ∈ Finset.range 5000, term4 agg dinv b j (5000 * t + r) :=
    fun t _ => (Finset.sum_range (fun r => term4 agg dinv b j (5000 * t + r))).symm
  rw [Finset.sum_congr rfl e1, sum_blocks4 5000 (term4 agg dinv b j) 10]
  rw [show (10 : ℕ) * 5000 = 50000 from rfl, Finset.sum_range]
  exact Finset.sum_congr rfl fun i _ => term4_of_lt agg dinv b j i.val i.isLt

/-! ## The three stored rows, read at a lane, over the extended reals -/

theorem hz4 : (![0, 0] : Fin 2 → Nat) = fun _ => 0 := funext fun a => by fin_cases a <;> rfl

/-- The first point's row is zero in every lane. -/
theorem k4_pay1_apply (j : Fin 128) : k4_pay1 (F := Ideal) (ix2 (0 : Fin 1) j) = 0 := by
  unfold k4_pay1
  show shapeCast S1x128 (broadcast S1x128 (Scalar.ofBits (F := Ideal) .f32 0x00000000#32)) _ (ix2 (0 : Fin 1) j) = 0
  rw [shapeCast_self]
  exact Ideal.ofBits_zero_f32

/-- The last point's row: the sum's lane divided by the constant the kernel was given for the number of rows. -/
theorem k4_pay3_apply (s : Vec Ideal S1x128 .f32) (j : Fin 128) :
    k4_pay3 (F := Ideal) s (ix2 (0 : Fin 1) j) = Ideal.div (s (ix2 (0 : Fin 1) j)) (Ideal.ofBits .f32 0x47435000#32) := by
  unfold k4_pay3; rfl

/-- A sum along the rows of a 5000×128 vector, read at lane j: the sum over the 5000 rows of that lane. -/
theorem colsum4 (v : FVec Ideal S5000x128 .f32) (h : S5000x128.Reduces [0] S128) (hφ : FKind.Formats .f32)
    (hacc : (0x00000000#32 : BitVec 32) = FKind.add.neutral .f32 hφ) (j : Fin 128) :
    multiReduction .add [0] S128 v 0x00000000#32 h hφ hacc (ix1 j) = ∑ r : Fin 5000, v (ix2 r j) :=
  (Ideal.multiReduction_add_single v 0x00000000#32 h hφ hacc (ix1 j)).trans
    (Finset.sum_congr rfl fun r _ => congrArg v (funext fun a => match a with | ⟨0, _⟩ => rfl | ⟨1, _⟩ => rfl))

/-- The block with each row scaled by its node's factor and the bias row added, read at row r and lane j. -/
theorem scaled4_apply (x : FVec Ideal S5000x128 .f32) (dv : FVec Ideal S5000x1 .f32) (b : FVec Ideal S1x128 .f32)
    (h1 : S5000x128.ShapeCasts S5000x128) (h2 : S5000x1.ShapeCasts S5000x1) (h3 : S5000x1.Broadcasts S5000x128)
    (h4 : S1x128.ShapeCasts S1x128) (h5 : S1x128.Broadcasts S5000x128) (r : Fin 5000) (j : Fin 128) :
    addf (F := Ideal) (φ := .f32) (mulf (F := Ideal) (φ := .f32) (shapeCast S5000x128 x h1) (broadcastTo S5000x128 (shapeCast S5000x1 dv h2) h3))
        (broadcastTo S5000x128 (shapeCast S1x128 b h4) h5) (ix2 r j)
      = x (ix2 r j) * dv (ix2 r (0 : Fin 1)) + b (ix2 (0 : Fin 1) j) := by
  rw [shapeCast_self, shapeCast_self, shapeCast_self]
  show x (ix2 r j) * broadcastTo S5000x128 dv h3 (ix2 r j) + broadcastTo S5000x128 b h5 (ix2 r j) = _
  rw [broadcastTo_apply dv h3 (ix2 r j) (ix2 r (0 : Fin 1)) (fun a => match a with | ⟨0, _⟩ => rfl | ⟨1, _⟩ => rfl),
    broadcastTo_apply b h5 (ix2 r j) (ix2 (0 : Fin 1) j) (fun a => match a with | ⟨0, _⟩ => rfl | ⟨1, _⟩ => rfl)]

/-- Every point's row: the scratch's lane plus the sum, over the block's 5000 rows, of the scaled and biased lane. -/
theorem k4_pay2_apply (x : Vec Ideal S5000x128 .f32) (dv : Vec Ideal S5000x1 .f32) (b s : Vec Ideal S1x128 .f32) (j : Fin 128) :
    k4_pay2 (F := Ideal) x dv b s (ix2 (0 : Fin 1) j)
      = s (ix2 (0 : Fin 1) j) + ∑ r : Fin 5000, (x (ix2 r j) * dv (ix2 r (0 : Fin 1)) + b (ix2 (0 : Fin 1) j)) := by
  unfold k4_pay2
  dsimp only
  rw [shapeCast_self]
  refine congrArg (fun z => s (ix2 (0 : Fin 1) j) + z) ?_
  refine (shapeCast_addUnit_apply (n := 1) ![128] _ shapeCasts_S128_S1x128 (ix2 (0 : Fin 1) j)).trans ?_
  refine (congrArg _ (show (fun a : Fin 1 => (ix2 (0 : Fin 1) j) a.succ) = ix1 j from
    funext fun a => match a with | ⟨0, _⟩ => rfl)).trans ?_
  refine (colsum4 _ _ _ _ j).trans ?_
  exact Finset.sum_congr rfl fun r _ => scaled4_apply x dv b _ _ _ _ _ r j

end Cert.KernelIdeal.Hand

end
-- ==== Proof.KI.Val4b.lean ====
/-
  Region 4, between the pipeline and the arithmetic. What each store leaves is its payload (every store and every load
  is of a whole buffer), and an input window's block at point t, read at a row and lane, is the array at row 5000·t +
  the row (the bias row: itself). For any float instance.
-/
import proofs.«161886_j5566277616090_2_alg».proof.Proof.KI.Reg4
import proofs.«161886_j5566277616090_2_alg».proof.Proof.KI.Val4a
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]
variable (V : (c : Dev nD) → (b : Ref sig .tc) → Buf (Elt F) ((c : Thread nD τ).loc b))

/-! ## The stored rows are the payloads: every store and every load is of a whole buffer -/

theorem zero4_eq : zero4 (F := F) = k4_pay1 := by
  unfold zero4; exact View.canon_unit_zero hz4 _ _

theorem step4_eq (x : Vec F S5000x128 .f32) (dv : Vec F S5000x1 .f32) (b s : Vec F S1x128 .f32) :
    step4 x dv b s = k4_pay2 x dv b s := by
  unfold step4
  rw [View.canon_unit_zero hz4, View.ld_unit_zero (S := S5000x128) hz4, View.ld_unit_zero (S := S5000x1) hz4,
    View.ld_unit_zero (S := S1x128) hz4, View.ld_unit_zero (S := S1x128) hz4]

theorem mean4_eq (s : Vec F S1x128 .f32) : mean4 s = k4_pay3 s := by
  unfold mean4
  rw [View.canon_unit_zero hz4, View.ld_unit_zero (S := S1x128) hz4]

theorem zero4_apply (j : Fin 128) : zero4 (F := Ideal) (ix2 (0 : Fin 1) j) = 0 :=
  (congrFun zero4_eq _).trans (k4_pay1_apply j)

theorem step4_apply (x : Vec Ideal S5000x128 .f32) (dv : Vec Ideal S5000x1 .f32) (b s : Vec Ideal S1x128 .f32) (j : Fin 128) :
    step4 x dv b s (ix2 (0 : Fin 1) j)
      = s (ix2 (0 : Fin 1) j) + ∑ r : Fin 5000, (x (ix2 r j) * dv (ix2 r (0 : Fin 1)) + b (ix2 (0 : Fin 1) j)) :=
  (congrFun (step4_eq x dv b s) _).trans (k4_pay2_apply x dv b s j)

theorem mean4_apply (s : Vec Ideal S1x128 .f32) (j : Fin 128) :
    mean4 s (ix2 (0 : Fin 1) j) = Ideal.div (s (ix2 (0 : Fin 1) j)) (Ideal.ofBits .f32 0x47435000#32) :=
  (congrFun (mean4_eq s) _).trans (k4_pay3_apply s j)

/-! ## A window's block at a point, read at an index, is the array at an index -/

/-- Where each input window's block sits at point t, decided over the grid: the row blocks move with the point,
    the bias row does not. -/
theorem index4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem index4_1 : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
theorem index4_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)

/-- Row x₀ of point t's block of the aggregated features is row 5000·t + x₀ of the array. -/
theorem blk4_0_apply (c : Dev nD) (t : Fin cfg4.N) (x : S5000x128.Idx) (k : S50000x128.Idx)
    (hk0 : (k 0).val = 5000 * t.val + (x 0).val) (hk1 : (k 1).val = (x 1).val) :
    (blk4 V c 0 t : Vec F S5000x128 .f32) x = (V c (Pipeline.arrRef spec4 0) : S50000x128.Idx → Elt F .f32) k := by
  unfold blk4
  rw [View.read_apply]
  refine congrArg (V c (Pipeline.arrRef spec4 0) : S50000x128.Idx → Elt F .f32) ?_
  funext a
  apply Fin.ext
  match a with
  | ⟨0, _⟩ => show win4_0.index t 0 * 5000 + 1 * (x 0).val = (k 0).val; rw [(index4_0 t).1, hk0]; omega
  | ⟨1, _⟩ => show win4_0.index t 1 * 128 + 1 * (x 1).val = (k 1).val; rw [(index4_0 t).2, hk1]; omega

/-- Likewise for the nodes' factors, -/
theorem blk4_1_apply (c : Dev nD) (t : Fin cfg4.N) (x : S5000x1.Idx) (k : S50000x1.Idx)
    (hk0 : (k 0).val = 5000 * t.val + (x 0).val) (hk1 : (k 1).val = (x 1).val) :
    (blk4 V c 1 t : Vec F S5000x1 .f32) x = (V c (Pipeline.arrRef spec4 1) : S50000x1.Idx → Elt F .f32) k := by
  unfold blk4
  rw [View.read_apply]
  refine congrArg (V c (Pipeline.arrRef spec4 1) : S50000x1.Idx → Elt F .f32) ?_
  funext a
  apply Fin.ext
  match a with
  | ⟨0, _⟩ => show win4_1.index t 0 * 5000 + 1 * (x 0).val = (k 0).val; rw [(index4_1 t).1, hk0]; omega
  | ⟨1, _⟩ => show win4_1.index t 1 * 1 + 1 * (x 1).val = (k 1).val; rw [(index4_1 t).2, hk1]; omega

/-- and the bias row's block is the bias row at every point. -/
theorem blk4_2_apply (c : Dev nD) (t : Fin cfg4.N) (x : S1x128.Idx) :
    (blk4 V c 2 t : Vec F S1x128 .f32) x = (V c (Pipeline.arrRef spec4 2) : S1x128.Idx → Elt F .f32) x := by
  unfold blk4
  rw [View.read_apply]
  refine congrArg (V c (Pipeline.arrRef spec4 2) : S1x128.Idx → Elt F .f32) ?_
  funext a
  apply Fin.ext
  match a with
  | ⟨0, _⟩ => show win4_2.index t 0 * 1 + 1 * (x 0).val = (x 0).val; rw [(index4_2 t).1]; omega
  | ⟨1, _⟩ => show win4_2.index t 1 * 128 + 1 * (x 1).val = (x 1).val; rw [(index4_2 t).2]; omega

/-- The point's three input blocks, at their literal shapes. -/
def rows4 (c : Dev nD) (t : Fin cfg4.N) : Vec F S5000x128 .f32 := blk4 V c 0 t
def facs4 (c : Dev nD) (t : Fin cfg4.N) : Vec F S5000x1 .f32 := blk4 V c 1 t
def brow4 (c : Dev nD) (t : Fin cfg4.N) : Vec F S1x128 .f32 := blk4 V c 2 t

theorem rows4_apply (c : Dev nD) (t : Fin cfg4.N) (r : Fin 5000) (j : Fin 128) (h : 5000 * t.val + r.val < 50000) :
    rows4 V c t (ix2 r j) = (V c (Pipeline.arrRef spec4 0) : S50000x128.Idx → Elt F .f32) (ix2 ⟨5000 * t.val + r.val, h⟩ j) :=
  blk4_0_apply V c t (ix2 r j) (ix2 ⟨5000 * t.val + r.val, h⟩ j) rfl rfl
theorem facs4_apply (c : Dev nD) (t : Fin cfg4.N) (r : Fin 5000) (h : 5000 * t.val + r.val < 50000) :
    facs4 V c t (ix2 r (0 : Fin 1))
      = (V c (Pipeline.arrRef spec4 1) : S50000x1.Idx → Elt F .f32) (ix2 ⟨5000 * t.val + r.val, h⟩ (0 : Fin 1)) :=
  blk4_1_apply V c t (ix2 r (0 : Fin 1)) (ix2 ⟨5000 * t.val + r.val, h⟩ (0 : Fin 1)) rfl rfl
theorem brow4_apply (c : Dev nD) (t : Fin cfg4.N) (j : Fin 128) :
    brow4 V c t (ix2 (0 : Fin 1) j) = (V c (Pipeline.arrRef spec4 2) : S1x128.Idx → Elt F .f32) (ix2 (0 : Fin 1) j) :=
  blk4_2_apply V c t (ix2 (0 : Fin 1) j)

end Cert.KernelIdeal.Hand

end
-- ==== Proof.KI.Val4.lean ====
/-
  Region 4's result over the extended reals: the mean row. By induction on the point the scratch's lane j after point
  n is the sum of the first n + 1 points' addends; after the last point that is the sum over all 50000 rows, and the
  row the last point stores divides it by the kernel's constant; the one write-back, at the last point, puts that row
  in the output array, whose one block is the whole array.
-/
import proofs.«161886_j5566277616090_2_alg».proof.Proof.KI.Reg4
import proofs.«161886_j5566277616090_2_alg».proof.Proof.KI.Val4a
import proofs.«161886_j5566277616090_2_alg».proof.Proof.KI.Val4b
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable {F : FTy → Type} [FloatOps F]
variable (V : (c : Dev nD) → (b : Ref sig .tc) → Buf (Elt F) ((c : Thread nD τ).loc b))

/-! ## The running sum, read at a lane -/

section AtIdeal

variable (W : (c : Dev nD) → (b : Ref sig .tc) → Buf (Elt Ideal) ((c : Thread nD τ).loc b))

/-- The three arrays the region reads, as the region finds them. -/
abbrev agg4 (c : Dev nD) : S50000x128.Idx → EReal := W c (Pipeline.arrRef spec4 0)
abbrev dinv4 (c : Dev nD) : S50000x1.Idx → EReal := W c (Pipeline.arrRef spec4 1)
abbrev bias4 (c : Dev nD) : S1x128.Idx → EReal := W c (Pipeline.arrRef spec4 2)

/-- Point t's addend at lane j: the sum over its block's rows is the sum over rows 5000·t … 5000·t + 4999 of the arrays. -/
theorem block_sum4 (c : Dev nD) (t : Fin cfg4.N) (j : Fin 128) :
    ∑ r : Fin 5000, (rows4 W c t (ix2 r j) * facs4 W c t (ix2 r (0 : Fin 1)) + brow4 W c t (ix2 (0 : Fin 1) j))
      = ∑ r : Fin 5000, term4 (agg4 W c) (dinv4 W c) (bias4 W c) j (5000 * t.val + r.val) := by
  have hN : t.val < 10 := lt_of_lt_of_eq t.isLt (show cfg4.N = 10 from N_4)
  refine Finset.sum_congr rfl fun r _ => ?_
  have hr : 5000 * t.val + r.val < 50000 := by have := r.isLt; omega
  rw [term4_of_lt _ _ _ j _ hr, rows4_apply W c t r j hr, facs4_apply W c t r hr, brow4_apply W c t j]

/-- THE INVARIANT: after point n the scratch's lane j holds the sum of the addends of points 0 … n. -/
theorem acc4_apply (c : Dev nD) (j : Fin 128) : ∀ (n : ℕ) (hn : n < cfg4.N),
    acc4 W c n hn (ix2 (0 : Fin 1) j)
      = ∑ t ∈ Finset.range (n + 1), ∑ r : Fin 5000, term4 (agg4 W c) (dinv4 W c) (bias4 W c) j (5000 * t + r.val)
  | 0, hn => by
    refine (step4_apply (rows4 W c ⟨0, hn⟩) (facs4 W c ⟨0, hn⟩) (brow4 W c ⟨0, hn⟩) zero4 j).trans ?_
    rw [zero4_apply, zero_add, Finset.sum_range_one]
    exact block_sum4 W c ⟨0, hn⟩ j
  | n + 1, hn => by
    refine (step4_apply (rows4 W c ⟨n + 1, hn⟩) (facs4 W c ⟨n + 1, hn⟩) (brow4 W c ⟨n + 1, hn⟩)
      (acc4 W c n (Nat.lt_of_succ_lt hn)) j).trans ?_
    rw [acc4_apply c j n (Nat.lt_of_succ_lt hn), Finset.sum_range_succ _ (n + 1)]
    exact congrArg _ (block_sum4 W c ⟨n + 1, hn⟩ j)

/-- The row the region writes, at lane j: the sum over all 50000 rows, divided by the kernel's constant. -/
theorem final4_apply (c : Dev nD) (j : Fin 128) :
    final4 W c (ix2 (0 : Fin 1) j)
      = Ideal.div (∑ i : Fin 50000, (agg4 W c (ix2 i j) * dinv4 W c (ix2 i (0 : Fin 1)) + bias4 W c (ix2 (0 : Fin 1) j)))
          (Ideal.ofBits .f32 0x47435000#32) := by
  unfold final4
  rw [mean4_apply, acc4_apply W c j 9, show (9 : ℕ) + 1 = 10 from rfl, total4]

end AtIdeal

/-! ## From the last point's buffer to the output array -/

/-- The one write-back, at the last point, writes the region's row: the output's one block is the whole 1×128 array. -/
theorem flushed4_eq (c : Dev nD) (t : Fin cfg4.N) (hf : (cfg4.win 3).flush t = true) :
    (dat4 V c).flushed 3 t = ((cfg4.win 3).blk t).view.read (Elt F) (final4 V c) := by
  have hN : cfg4.N = 10 := N_4
  have h9 : t.val = 9 := by have := (flush4_3 t).mp hf; have := t.isLt; omega
  obtain rfl : t = t4_9 := Fin.ext h9
  show (cfg4.win 3).cut (grid4.coords t4_9) ((dat4 V c).after 3 t4_9) = _
  rw [dat4_after_last V c t4_9 rfl]
  have hz' : (fun a => win4_3.index t4_9 a * main_v46.ty.shape.size a) = fun _ => 0 := funext fun a => by fin_cases a <;> decide
  exact (Memref.read_access_unit_zero (Elt F) main_v46 hz' (fun a => by rw [congrFun hz' a]; simp) (final4 V c)).symm

/-- So after the region the output array holds the region's row. -/
theorem arr4_eq (c : Dev nD) : (dat4 V c).arrAt 3 cfg4.N = final4 V c :=
  (dat4 V c).arrAt_eq_of_cover 3 (final4 V c) (flushed4_eq V c) fun i =>
    ⟨t4_9, (flush4_3 t4_9).mpr rfl, by
      show i ∈ ((View.whole main_v46).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

/-- THE MEAN ROW: over the extended reals, after the region the output array at lane j is the sum over all 50000 rows
    of the aggregated feature scaled by the row's factor plus the bias, divided by the kernel's constant for 50000. -/
theorem out4_apply (W : (c : Dev nD) → (b : Ref sig .tc) → Buf (Elt Ideal) ((c : Thread nD τ).loc b)) (c : Dev nD) (j : Fin 128) :
    ((dat4 W c).arrAt 3 cfg4.N : S1x128.Idx → EReal) (ix2 (0 : Fin 1) j)
      = Ideal.div (∑ i : Fin 50000, (agg4 W c (ix2 i j) * dinv4 W c (ix2 i (0 : Fin 1)) + bias4 W c (ix2 (0 : Fin 1) j)))
          (Ideal.ofBits .f32 0x47435000#32) :=
  (congrFun (arr4_eq W c) _).trans (final4_apply W c j)

end Cert.KernelIdeal.Hand

end
-- ==== Proof.Val.RefStats0.lean ====
import proofs.«161886_j5566277616090_2_alg».proof.Proof.Gen.ReferenceIdeal.Read

/-!
# The batch statistics of layer 0 of the reference, read at an index

Over the layer's output `h0` as a named array: the mean of column `j` is the column's sum divided by the
number of rows, the variance the sum of the squared deviations from that mean divided by the same.
-/

noncomputable section

open scoped BigOperators

namespace Cert.Val.Ref

open Cert.ReferenceIdeal Idealize.ShloMosaic Idealize.ShloMosaic.ValueIdx

/-- The single-precision word `0x47435000` is fifty thousand. -/
theorem ofBits_50000 : Ideal.ofBits .f32 0x47435000#32 = ((50000 : ℝ) : EReal) := by
  simp [Ideal.ofBits, Ideal.ieee, -EReal.coe_mul]
  norm_num

-- The layer's output is a name here: nothing below looks inside it.
attribute [local irreducible] Read.val_main_v43

section
variable (x : (⟨S50000x128, .f32⟩ : BufTy).Contents (Elt Ideal))
  (ei : (⟨S2x800000, .i32⟩ : BufTy).Contents (Elt Ideal))
  (W : (⟨S128x128, .f32⟩ : BufTy).Contents (Elt Ideal))
  (b : (⟨S128, .f32⟩ : BufTy).Contents (Elt Ideal))

/-- The column sum behind the mean. -/
theorem v44_at (j : Fin 128) :
    Read.val_main_v44 (F := Ideal) x ei W b (ix1 j)
      = ∑ i : Fin 50000, Read.val_main_v43 (F := Ideal) x ei W b (ix2 i j) := by
  rw [Read.val_main_v44_apply]
  rw [show Read.val_main_cst_7 (F := Ideal) _ = 0 from Ideal.ofBits_zero_f32, zero_add]
  refine Finset.sum_congr rfl (fun k _ => ?_)
  have hi : Read.idx_main_v44 (ix1 j) k = ix2 k j := by
    funext a; match a with | ⟨0, _⟩ => rfl | ⟨1, _⟩ => rfl
  rw [hi]

/-- The divisor. -/
theorem v45_at (j : Fin 128) : Read.val_main_v45 (F := Ideal) (ix1 j) = ((50000 : ℝ) : EReal) :=
  ofBits_50000

attribute [local irreducible] Read.val_main_v44 Read.val_main_v45

/-- THE MEAN of column `j` of the layer's output: the column's sum over the 50000 rows, divided by 50000. -/
theorem ref_mean0_apply (j : Fin 128) :
    Read.val_main_v46 (F := Ideal) x ei W b (ix1 j)
      = Ideal.div (∑ i : Fin 50000, Read.val_main_v43 (F := Ideal) x ei W b (ix2 i j))
          ((50000 : ℝ) : EReal) := by
  rw [Read.val_main_v46_apply, v44_at, v45_at, Ideal.hostDivf_def]

/-- The mean, broadcast back over the rows, at `(i, j)`. -/
theorem v48_at (i : Fin 50000) (j : Fin 128) :
    Read.val_main_v48 (F := Ideal) x ei W b (ix2 i j) = Read.val_main_v46 (F := Ideal) x ei W b (ix1 j) := by
  rw [Read.val_main_v48_apply, Read.val_main_v47_apply]
  have hi : Read.idx_main_v47 (Read.idx_main_v48 (ix2 i j)) = ix1 j := by
    funext a; match a with | ⟨0, _⟩ => rfl
  rw [hi]

attribute [local irreducible] Read.val_main_v46 Read.val_main_v48

/-- The squared deviation from the column's mean at `(i, j)`. -/
theorem v50_at (i : Fin 50000) (j : Fin 128) :
    Read.val_main_v50 (F := Ideal) x ei W b (ix2 i j)
      = (Read.val_main_v43 (F := Ideal) x ei W b (ix2 i j) - Read.val_main_v46 (F := Ideal) x ei W b (ix1 j))
          * (Read.val_main_v43 (F := Ideal) x ei W b (ix2 i j) - Read.val_main_v46 (F := Ideal) x ei W b (ix1 j)) := by
  rw [Read.val_main_v50_apply, Read.val_main_v49_apply, v48_at, Ideal.mulf_def, Ideal.subf_def]

attribute [local irreducible] Read.val_main_v50

/-- The column sum behind the variance. -/
theorem v51_at (j : Fin 128) :
    Read.val_main_v51 (F := Ideal) x ei W b (ix1 j)
      = ∑ i : Fin 50000,
          (Read.val_main_v43 (F := Ideal) x ei W b (ix2 i j) - Read.val_main_v46 (F := Ideal) x ei W b (ix1 j))
            * (Read.val_main_v43 (F := Ideal) x ei W b (ix2 i j) - Read.val_main_v46 (F := Ideal) x ei W b (ix1 j)) := by
  rw [Read.val_main_v51_apply]
  rw [show Read.val_main_cst_9 (F := Ideal) _ = 0 from Ideal.ofBits_zero_f32, zero_add]
  refine Finset.sum_congr rfl (fun k _ => ?_)
  have hi : Read.idx_main_v51 (ix1 j) k = ix2 k j := by
    funext a; match a with | ⟨0, _⟩ => rfl | ⟨1, _⟩ => rfl
  rw [hi, v50_at]

/-- The divisor. -/
theorem v52_at (j : Fin 128) : Read.val_main_v52 (F := Ideal) (ix1 j) = ((50000 : ℝ) : EReal) :=
  ofBits_50000

attribute [local irreducible] Read.val_main_v51 Read.val_main_v52

/-- THE VARIANCE of column `j`: the sum over the rows of the squared deviation from the column's mean,
divided by 50000. -/
theorem ref_var0_apply (j : Fin 128) :
    Read.val_main_v53 (F := Ideal) x ei W b (ix1 j)
      = Ideal.div
          (∑ i : Fin 50000,
            (Read.val_main_v43 (F := Ideal) x ei W b (ix2 i j) - Read.val_main_v46 (F := Ideal) x ei W b (ix1 j))
              * (Read.val_main_v43 (F := Ideal) x ei W b (ix2 i j) - Read.val_main_v46 (F := Ideal) x ei W b (ix1 j)))
          ((50000 : ℝ) : EReal) := by
  rw [Read.val_main_v53_apply, v51_at, v52_at, Ideal.hostDivf_def]

end

end Cert.Val.Ref
-- ==== Proof.Val.BnGlue.lean ====
import Mathlib.Data.EReal.Operations
import Idealize.ShloMosaic.PureOps.Ideal
import proofs.«161886_j5566277616090_2_alg».proof.Proof.Val.RefStats0

/-!
# Batch normalisation: one layer's statistics and activation, two spellings

One side adds the bias to the scaled aggregate inside every formula, divides by the single-precision
word of fifty thousand, and multiplies deviation, reciprocal square root and scale in the order
`((s − m) · r) · g`; the other names the biased aggregate `h`, divides by the real fifty thousand, and
multiplies in the order `(g · (s − m)) · r`.  Over plain functions the two agree: the sums term by term,
the divisors because the word is that real, the products by commutativity and associativity of the
product of extended reals.  Nothing here needs a value to be finite.
-/

noncomputable section

open scoped BigOperators

namespace Cert.Val

open Idealize.ShloMosaic

variable (agg h : Fin 50000 → Fin 128 → EReal) (dv : Fin 50000 → EReal)
  (b mu mu' var var' g bt : Fin 128 → EReal)

/-- THE MEAN: the column sum of the scaled aggregate plus the bias, over the word of fifty thousand, is
the column sum of the biased aggregate over fifty thousand. -/
theorem mean_glue (hs : ∀ i j, agg i j * dv i + b j = h i j) (j : Fin 128) :
    Ideal.div (∑ i : Fin 50000, (agg i j * dv i + b j)) (Ideal.ofBits .f32 0x47435000#32)
      = Ideal.div (∑ i : Fin 50000, h i j) ((50000 : ℝ) : EReal) := by
  have hsum : ∑ i : Fin 50000, (agg i j * dv i + b j) = ∑ i : Fin 50000, h i j :=
    Finset.sum_congr rfl fun i _ => by rw [hs]
  rw [hsum, Ref.ofBits_50000]

/-- THE VARIANCE: the column sum of the squared deviations, with equal means, the same way. -/
theorem var_glue (hs : ∀ i j, agg i j * dv i + b j = h i j) (j : Fin 128) (hmu : mu j = mu' j) :
    Ideal.div (∑ i : Fin 50000, (agg i j * dv i + b j - mu j) * (agg i j * dv i + b j - mu j))
        (Ideal.ofBits .f32 0x47435000#32)
      = Ideal.div (∑ i : Fin 50000, (h i j - mu' j) * (h i j - mu' j)) ((50000 : ℝ) : EReal) := by
  have hsum : ∑ i : Fin 50000, (agg i j * dv i + b j - mu j) * (agg i j * dv i + b j - mu j)
      = ∑ i : Fin 50000, (h i j - mu' j) * (h i j - mu' j) :=
    Finset.sum_congr rfl fun i _ => by rw [hs, hmu]
  rw [hsum, Ref.ofBits_50000]

/-- One normalised, scaled and shifted entry: the two orders of the product agree. -/
theorem norm_glue (s m r γ β : EReal) : ((s - m) * r) * γ + β = γ * (s - m) * r + β := by
  rw [mul_right_comm, mul_comm (s - m) γ]

/-- THE NEXT LAYER'S TABLE: the activation of the normalised biased aggregate, times the next weight,
summed over the features and scaled by the row's factor, is the named activation's product with the
weight scaled the same way. -/
theorem act_glue (hs : ∀ i j, agg i j * dv i + b j = h i j) (hmu : ∀ k, mu k = mu' k)
    (hvar : ∀ k, var k = var' k) (a : Fin 50000 → Fin 128 → EReal)
    (ha : ∀ i k, a i k
      = max (g k * (h i k - mu' k) * Ideal.rsqrt (var' k + Ideal.ofBits .f32 0x3727C5AC#32) + bt k) 0)
    (w : Fin 128 → Fin 128 → EReal) (i : Fin 50000) (j : Fin 128) :
    (∑ k : Fin 128,
        max ((((agg i k * dv i + b k) - mu k) * Ideal.rsqrt (var k + Ideal.ofBits .f32 0x3727C5AC#32)) * g k
          + bt k) 0 * w k j) * dv i
      = (∑ k : Fin 128, a i k * w k j) * dv i := by
  have hsum : (∑ k : Fin 128,
        max ((((agg i k * dv i + b k) - mu k) * Ideal.rsqrt (var k + Ideal.ofBits .f32 0x3727C5AC#32)) * g k
          + bt k) 0 * w k j)
      = ∑ k : Fin 128, a i k * w k j :=
    Finset.sum_congr rfl fun k _ => by rw [ha, hs, hmu, hvar, norm_glue]
  rw [hsum]

end Cert.Val
-- ==== Proof.Val.RefStats1.lean ====
import proofs.«161886_j5566277616090_2_alg».proof.Proof.Gen.ReferenceIdeal.Read
import proofs.«161886_j5566277616090_2_alg».proof.Proof.Val.RefStats0

/-!
# The batch statistics of layer 1 of the reference, read at an index

Over the layer's output as a named array: the mean of column `j` is the column's sum divided by the
number of rows, the variance the sum of the squared deviations from that mean divided by the same.
-/

noncomputable section

open scoped BigOperators

namespace Cert.Val.Ref

open Cert.ReferenceIdeal Idealize.ShloMosaic Idealize.ShloMosaic.ValueIdx

-- The layer's output is a name here: nothing below looks inside it.
attribute [local irreducible] Read.val_main_v86

section
variable (x : (⟨S50000x128, .f32⟩ : BufTy).Contents (Elt Ideal))
  (ei : (⟨S2x800000, .i32⟩ : BufTy).Contents (Elt Ideal))
  (W0 : (⟨S128x128, .f32⟩ : BufTy).Contents (Elt Ideal))
  (b0 : (⟨S128, .f32⟩ : BufTy).Contents (Elt Ideal))
  (W1 : (⟨S128x128, .f32⟩ : BufTy).Contents (Elt Ideal))
  (b1 : (⟨S128, .f32⟩ : BufTy).Contents (Elt Ideal))
  (g0 : (⟨S128, .f32⟩ : BufTy).Contents (Elt Ideal))
  (bt0 : (⟨S128, .f32⟩ : BufTy).Contents (Elt Ideal))

/-- The column sum behind the mean. -/
theorem v87_at (j : Fin 128) :
    Read.val_main_v87 (F := Ideal) x ei W0 b0 W1 b1 g0 bt0 (ix1 j)
      = ∑ i : Fin 50000, Read.val_main_v86 (F := Ideal) x ei W0 b0 W1 b1 g0 bt0 (ix2 i j) := by
  rw [Read.val_main_v87_apply]
  rw [show Read.val_main_cst_15 (F := Ideal) _ = 0 from Ideal.ofBits_zero_f32, zero_add]
  refine Finset.sum_congr rfl (fun k _ => ?_)
  have hi : Read.idx_main_v87 (ix1 j) k = ix2 k j := by
    funext a; match a with | ⟨0, _⟩ => rfl | ⟨1, _⟩ => rfl
  rw [hi]

/-- The divisor. -/
theorem v88_at (j : Fin 128) : Read.val_main_v88 (F := Ideal) (ix1 j) = ((50000 : ℝ) : EReal) :=
  ofBits_50000

attribute [local irreducible] Read.val_main_v87 Read.val_main_v88

/-- THE MEAN of column `j` of the layer's output: the column's sum over the 50000 rows, divided by 50000. -/
theorem ref_mean1_apply (j : Fin 128) :
    Read.val_main_v89 (F := Ideal) x ei W0 b0 W1 b1 g0 bt0 (ix1 j)
      = Ideal.div (∑ i : Fin 50000, Read.val_main_v86 (F := Ideal) x ei W0 b0 W1 b1 g0 bt0 (ix2 i j))
          ((50000 : ℝ) : EReal) := by
  rw [Read.val_main_v89_apply, v87_at, v88_at, Ideal.hostDivf_def]

/-- The mean, broadcast back over the rows, at `(i, j)`. -/
theorem v91_at (i : Fin 50000) (j : Fin 128) :
    Read.val_main_v91 (F := Ideal) x ei W0 b0 W1 b1 g0 bt0 (ix2 i j) = Read.val_main_v89 (F := Ideal) x ei W0 b0 W1 b1 g0 bt0 (ix1 j) := by
  rw [Read.val_main_v91_apply, Read.val_main_v90_apply]
  have hi : Read.idx_main_v90 (Read.idx_main_v91 (ix2 i j)) = ix1 j := by
    funext a; match a with | ⟨0, _⟩ => rfl
  rw [hi]

attribute [local irreducible] Read.val_main_v89 Read.val_main_v91

/-- The squared deviation from the column's mean at `(i, j)`. -/
theorem v93_at (i : Fin 50000) (j : Fin 128) :
    Read.val_main_v93 (F := Ideal) x ei W0 b0 W1 b1 g0 bt0 (ix2 i j)
      = (Read.val_main_v86 (F := Ideal) x ei W0 b0 W1 b1 g0 bt0 (ix2 i j) - Read.val_main_v89 (F := Ideal) x ei W0 b0 W1 b1 g0 bt0 (ix1 j))
          * (Read.val_main_v86 (F := Ideal) x ei W0 b0 W1 b1 g0 bt0 (ix2 i j) - Read.val_main_v89 (F := Ideal) x ei W0 b0 W1 b1 g0 bt0 (ix1 j)) := by
  rw [Read.val_main_v93_apply, Read.val_main_v92_apply, v91_at, Ideal.mulf_def, Ideal.subf_def]

attribute [local irreducible] Read.val_main_v93

/-- The column sum behind the variance. -/
theorem v94_at (j : Fin 128) :
    Read.val_main_v94 (F := Ideal) x ei W0 b0 W1 b1 g0 bt0 (ix1 j)
      = ∑ i : Fin 50000,
          (Read.val_main_v86 (F := Ideal) x ei W0 b0 W1 b1 g0 bt0 (ix2 i j) - Read.val_main_v89 (F := Ideal) x ei W0 b0 W1 b1 g0 bt0 (ix1 j))
            * (Read.val_main_v86 (F := Ideal) x ei W0 b0 W1 b1 g0 bt0 (ix2 i j) - Read.val_main_v89 (F := Ideal) x ei W0 b0 W1 b1 g0 bt0 (ix1 j)) := by
  rw [Read.val_main_v94_apply]
  rw [show Read.val_main_cst_17 (F := Ideal) _ = 0 from Ideal.ofBits_zero_f32, zero_add]
  refine Finset.sum_congr rfl (fun k _ => ?_)
  have hi : Read.idx_main_v94 (ix1 j) k = ix2 k j := by
    funext a; match a with | ⟨0, _⟩ => rfl | ⟨1, _⟩ => rfl
  rw [hi, v93_at]

/-- The divisor. -/
theorem v95_at (j : Fin 128) : Read.val_main_v95 (F := Ideal) (ix1 j) = ((50000 : ℝ) : EReal) :=
  ofBits_50000

attribute [local irreducible] Read.val_main_v94 Read.val_main_v95

/-- THE VARIANCE of column `j`: the sum over the rows of the squared deviation from the column's mean,
divided by 50000. -/
theorem ref_var1_apply (j : Fin 128) :
    Read.val_main_v96 (F := Ideal) x ei W0 b0 W1 b1 g0 bt0 (ix1 j)
      = Ideal.div
          (∑ i : Fin 50000,
            (Read.val_main_v86 (F := Ideal) x ei W0 b0 W1 b1 g0 bt0 (ix2 i j) - Read.val_main_v89 (F := Ideal) x ei W0 b0 W1 b1 g0 bt0 (ix1 j))
              * (Read.val_main_v86 (F := Ideal) x ei W0 b0 W1 b1 g0 bt0 (ix2 i j) - Read.val_main_v89 (F := Ideal) x ei W0 b0 W1 b1 g0 bt0 (ix1 j)))
          ((50000 : ℝ) : EReal) := by
  rw [Read.val_main_v96_apply, v94_at, v95_at, Ideal.hostDivf_def]

end

end Cert.Val.Ref
-- ==== Proof.Alg.GlueMean.lean ====
/-
  The column means of the two normalised layers. Each mean-kernel region leaves in its output array, at lane j, the sum
  over all 50000 rows of (aggregate × the row's factor + bias), divided by the kernel's constant for 50000. Given that
  the summand is the reference's pre-activation at that row and lane, the sums agree term by term, the constant is the
  real number 50000, and the quotient is the reference's mean of the pre-activation's column.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.KI.Stages
import proofs.«161886_j5566277616090_2_alg».proof.Proof.KI.Keep
import proofs.«161886_j5566277616090_2_alg».proof.Proof.KI.Val1
import proofs.«161886_j5566277616090_2_alg».proof.Proof.KI.Val4
import proofs.«161886_j5566277616090_2_alg».proof.Proof.Alg.GlueArgs
import proofs.«161886_j5566277616090_2_alg».proof.Proof.Val.BnGlue
import proofs.«161886_j5566277616090_2_alg».proof.Proof.Val.RefStats0
import proofs.«161886_j5566277616090_2_alg».proof.Proof.Val.RefStats1
set_option maxRecDepth 16384

noncomputable section

namespace Cert.KernelIdeal.Hand.Glue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- Nothing after the first host stretch writes the degree factors' column or the first layer's bias row. -/
private theorem kept_v12 : Kept main_v12 := ⟨by decide, by decide, by decide, by decide, by decide, by decide, by decide, by decide⟩
private theorem kept_v13 : Kept main_v13 := ⟨by decide, by decide, by decide, by decide, by decide, by decide, by decide, by decide⟩

/-- Layer 0's column means: region 1 leaves in its output array, at lane j, the sum over all rows of (aggregate × the
    row's factor + bias) divided by the kernel's constant for 50000; with the summand the reference's pre-activation
    (hH) and the constant the real 50000, that is the reference's mean of the pre-activation's column j. -/
theorem g_mean0
    (hH : ∀ (i : Fin 50000) (j : Fin 128), sAgg0 m c (ix2 i j) * sDcol m c (ix2 i (0 : Fin 1)) + sRow13 m c (ix2 (0 : Fin 1) j)
      = Cert.ReferenceIdeal.Read.val_main_v43 (F := Ideal) (argX m c) (argE m c) (argW0 m c) (argB0 m c) (ix2 i j))
    (j : Fin 128) :
    sMean0 m c (ix2 (0 : Fin 1) j)
      = Cert.ReferenceIdeal.Read.val_main_v46 (F := Ideal) (argX m c) (argE m c) (argW0 m c) (argB0 m c) (ix1 j) := by
  have e3 : sMean0 m c = ((dat1 (E3 m) c).arrAt 3 cfg1.N : S1x128.Idx → EReal) := W4_arr m c 3
  have e12 : dinv1 (E3 m) c = sDcol m c := keep3 m c kept_v12
  have e13 : bias1 (E3 m) c = sRow13 m c := keep3 m c kept_v13
  have e31 : agg1 (E3 m) c = sAgg0 m c := rfl
  rw [e3, out1_apply (E3 m) c j, e12, e13, e31]
  refine (Cert.Val.mean_glue (fun i j => sAgg0 m c (ix2 i j))
    (fun i j => Cert.ReferenceIdeal.Read.val_main_v43 (F := Ideal) (argX m c) (argE m c) (argW0 m c) (argB0 m c) (ix2 i j))
    (fun i => sDcol m c (ix2 i (0 : Fin 1))) (fun j => sRow13 m c (ix2 (0 : Fin 1) j)) hH j).trans ?_
  exact (Cert.Val.Ref.ref_mean0_apply (argX m c) (argE m c) (argW0 m c) (argB0 m c) j).symm

/-- Nor the second layer's bias row. -/
private theorem kept_v14 : Kept main_v14 := ⟨by decide, by decide, by decide, by decide, by decide, by decide, by decide, by decide⟩

/-- Layer 1's column means, the same way: region 4's output array against the reference's mean of the second
    pre-activation's column j. -/
theorem g_mean1
    (hH : ∀ (i : Fin 50000) (j : Fin 128), sAgg1 m c (ix2 i j) * sDcol m c (ix2 i (0 : Fin 1)) + sRow14 m c (ix2 (0 : Fin 1) j)
      = Cert.ReferenceIdeal.Read.val_main_v86 (F := Ideal) (argX m c) (argE m c) (argW0 m c) (argB0 m c) (argW1 m c) (argB1 m c)
          (argG0 m c) (argBT0 m c) (ix2 i j))
    (j : Fin 128) :
    sMean1 m c (ix2 (0 : Fin 1) j)
      = Cert.ReferenceIdeal.Read.val_main_v89 (F := Ideal) (argX m c) (argE m c) (argW0 m c) (argB0 m c) (argW1 m c) (argB1 m c)
          (argG0 m c) (argBT0 m c) (ix1 j) := by
  have e3 : sMean1 m c = ((dat4 (E7 m) c).arrAt 3 cfg4.N : S1x128.Idx → EReal) := W8_arr m c 3
  have e12 : dinv4 (E7 m) c = sDcol m c := keep7 m c kept_v12
  have e14 : bias4 (E7 m) c = sRow14 m c := keep7 m c kept_v14
  have e45 : agg4 (E7 m) c = sAgg1 m c := rfl
  rw [e3, out4_apply (E7 m) c j, e12, e14, e45]
  refine (Cert.Val.mean_glue (fun i j => sAgg1 m c (ix2 i j))
    (fun i j => Cert.ReferenceIdeal.Read.val_main_v86 (F := Ideal) (argX m c) (argE m c) (argW0 m c) (argB0 m c) (argW1 m c)
      (argB1 m c) (argG0 m c) (argBT0 m c) (ix2 i j))
    (fun i => sDcol m c (ix2 i (0 : Fin 1))) (fun j => sRow14 m c (ix2 (0 : Fin 1) j)) hH j).trans ?_
  exact (Cert.Val.Ref.ref_mean1_apply (argX m c) (argE m c) (argW0 m c) (argB0 m c) (argW1 m c) (argB1 m c) (argG0 m c)
    (argBT0 m c) j).symm

end Cert.KernelIdeal.Hand.Glue

end
-- ==== Proof.KI.Val2a.lean ====
/-
  Region 2's arithmetic read at an index, at the exact extended reals. The reset row is zero; a point's row at column j
  is the sum it found there plus the 5000 squares (x·d + b − μ)² of its block's rows at that column — the lane sum of
  the reduction over the rows —; the output row at column j is the total there divided by the kernel's literal for the
  number of rows. Then the same for the three stated contents of the scratch and of the output's buffer, each one store
  of a whole row.
-/
import proofs.«161886_j5566277616090_2_alg».proof.Proof.KI.Reg2a
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The zero offsets of a whole-buffer rectangle, however spelt. -/
theorem hz2 : (![0, 0] : Fin 2 → Nat) = fun _ => 0 := funext fun a => by fin_cases a <;> rfl

/-- A column broadcast along the rows: an [a, 1] array broadcast to [a, b] reads, at (p, q), the operand's entry of row p. -/
theorem bcastCol2_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One row's term at column j: the square of  x·d + b − μ. -/
def sqT2 (x : FVec Ideal S5000x128 .f32) (dv : FVec Ideal S5000x1 .f32) (b mu : FVec Ideal S1x128 .f32) (r : Fin 5000) (j : Fin 128) : EReal :=
  (x (ix2 r j) * dv (ix2 r (0 : Fin 1)) + b (ix2 (0 : Fin 1) j) - mu (ix2 (0 : Fin 1) j))
    * (x (ix2 r j) * dv (ix2 r (0 : Fin 1)) + b (ix2 (0 : Fin 1) j) - mu (ix2 (0 : Fin 1) j))

/-- The reset row is zero everywhere. -/
theorem k2_pay1_apply (j : Fin 128) : k2_pay1 (F := Ideal) (ix2 (0 : Fin 1) j) = 0 := by
  unfold k2_pay1
  simp only [shapeCast_self, broadcast_apply]
  exact Ideal.ofBits_zero_f32

/-- The source index over column j with row r put back is (r, j). -/
theorem lift2 (j : Fin 128) (r : Fin 5000) : reduces_S5000x128_S128.lift (ix1 j) r = ix2 r j :=
  funext fun c => Fin.ext (by match c with | ⟨0, _⟩ => rfl | ⟨1, _⟩ => rfl)

/-- A point's row read at column j: the sum found there plus the block's 5000 row terms. -/
theorem k2_pay2_apply (x : FVec Ideal S5000x128 .f32) (dv : FVec Ideal S5000x1 .f32) (b mu s : FVec Ideal S1x128 .f32) (j : Fin 128) :
    k2_pay2 (F := Ideal) x dv b mu s (ix2 (0 : Fin 1) j) = s (ix2 (0 : Fin 1) j) + ∑ r : Fin 5000, sqT2 x dv b mu r j := by
  unfold k2_pay2
  simp only [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single _ _ reduces_S5000x128_S128 _ _ (ix1 j)).trans ?_
  refine Finset.sum_congr rfl fun (r : Fin 5000) _ => ?_
  rw [lift2 j r]
  unfold sqT2
  rw [mulf_apply, subf_apply, addf_apply, mulf_apply, bcastCol2_apply, broadcastTo_1b_ab_apply, broadcastTo_1b_ab_apply]

/-- The output row read at column j: the total there divided by the number of rows. -/
theorem k2_pay3_apply (s : FVec Ideal S1x128 .f32) (j : Fin 128) :
    k2_pay3 (F := Ideal) s (ix2 (0 : Fin 1) j) = Ideal.div (s (ix2 (0 : Fin 1) j)) (Ideal.ofBits .f32 0x47435000#32) := by
  unfold k2_pay3
  rfl

/-- The three stated contents read at column j. -/
theorem zero2_apply (j : Fin 128) : zero2 (F := Ideal) (ix2 (0 : Fin 1) j) = 0 := by
  unfold zero2
  rw [View.canon_unit_zero hz2]
  exact k2_pay1_apply j

theorem step2_apply (x : FVec Ideal S5000x128 .f32) (dv : FVec Ideal S5000x1 .f32) (b mu s : FVec Ideal S1x128 .f32) (j : Fin 128) :
    step2 (F := Ideal) x dv b mu s (ix2 (0 : Fin 1) j) = s (ix2 (0 : Fin 1) j) + ∑ r : Fin 5000, sqT2 x dv b mu r j := by
  unfold step2
  rw [View.canon_unit_zero hz2]
  simp only [View.ld_unit_zero (S := S5000x128) hz2, View.ld_unit_zero (S := S5000x1) hz2, View.ld_unit_zero (S := S1x128) hz2]
  exact k2_pay2_apply x dv b mu s j

theorem fin2_apply (s : FVec Ideal S1x128 .f32) (j : Fin 128) :
    fin2 (F := Ideal) s (ix2 (0 : Fin 1) j) = Ideal.div (s (ix2 (0 : Fin 1) j)) (Ideal.ofBits .f32 0x47435000#32) := by
  unfold fin2
  rw [View.canon_unit_zero hz2]
  simp only [View.ld_unit_zero (S := S1x128) hz2]
  exact k2_pay3_apply s j

end Cert.KernelIdeal.Hand

end
-- ==== Proof.KI.Val2b.lean ====
/-
  Region 2's blocks as rows of the arrays. A block's entry at (r, j) is the array's entry at the block's own offset plus
  (r, j): along each axis, block index × block extent + the coordinate inside the block. The two row-blocked windows sit
  at block row t at point t, so row r of their block is row 5000·t + r of the array; the bias and mean rows are their
  whole arrays at every point. So a block's row term is the arrays' row term at that row.
-/
import proofs.«161886_j5566277616090_2_alg».proof.Proof.KI.Val2a

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The four arrays the region reads, as it finds them, over literal indices: the aggregated features, the
    inverse-square-root degrees, the bias row and the mean row. -/
abbrev agg2 (c : Dev nD) : S50000x128.Idx → EReal := V c (Pipeline.arrRef spec2 0)
abbrev dinv2 (c : Dev nD) : S50000x1.Idx → EReal := V c (Pipeline.arrRef spec2 1)
abbrev bias2 (c : Dev nD) : S1x128.Idx → EReal := V c (Pipeline.arrRef spec2 2)
abbrev mean2 (c : Dev nD) : S1x128.Idx → EReal := V c (Pipeline.arrRef spec2 3)

/-- Where each window's block sits at point t: the two row-blocked windows at block row t, the two rows at the origin. -/
theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_2 : ∀ t : Fin cfg2.N, win2_2.index t 0 = 0 ∧ win2_2.index t 1 = 0 :=
  (by decide +kernel : ∀ t : Fin grid2.N, win2_2.index t 0 = 0 ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)

/-- A block's entry is the array's: along each axis, block index × block extent + the coordinate inside the block. -/
theorem blk2_0_apply (c : Dev nD) (t : Fin cfg2.N) (r : Fin 5000) (j : Fin 128) (i : Fin 50000) (hi : i.val = 5000 * t.val + r.val) :
    (blk2 V c 0 t : FVec Ideal S5000x128 .f32) (ix2 r j) = agg2 V c (ix2 i j) := by
  unfold blk2
  rw [View.read_apply]
  show V c (Pipeline.arrRef spec2 0) _ = V c (Pipeline.arrRef spec2 0) _
  congr 1
  funext a
  apply Fin.ext
  match a with
  | ⟨0, _⟩ => show win2_0.index t 0 * 5000 + 1 * r.val = i.val; rw [(idx2_0 t).1, hi]; omega
  | ⟨1, _⟩ => show win2_0.index t 1 * 128 + 1 * j.val = j.val; rw [(idx2_0 t).2]; omega

theorem blk2_1_apply (c : Dev nD) (t : Fin cfg2.N) (r : Fin 5000) (i : Fin 50000) (hi : i.val = 5000 * t.val + r.val) :
    (blk2 V c 1 t : FVec Ideal S5000x1 .f32) (ix2 r (0 : Fin 1)) = dinv2 V c (ix2 i (0 : Fin 1)) := by
  unfold blk2
  rw [View.read_apply]
  show V c (Pipeline.arrRef spec2 1) _ = V c (Pipeline.arrRef spec2 1) _
  congr 1
  funext a
  apply Fin.ext
  match a with
  | ⟨0, _⟩ => show win2_1.index t 0 * 5000 + 1 * r.val = i.val; rw [(idx2_1 t).1, hi]; omega
  | ⟨1, _⟩ => show win2_1.index t 1 * 1 + 1 * 0 = 0; rw [(idx2_1 t).2]

theorem blk2_2_apply (c : Dev nD) (t : Fin cfg2.N) (j : Fin 128) :
    (blk2 V c 2 t : FVec Ideal S1x128 .f32) (ix2 (0 : Fin 1) j) = bias2 V c (ix2 (0 : Fin 1) j) := by
  unfold blk2
  rw [View.read_apply]
  show V c (Pipeline.arrRef spec2 2) _ = V c (Pipeline.arrRef spec2 2) _
  congr 1
  funext a
  apply Fin.ext
  match a with
  | ⟨0, _⟩ => show win2_2.index t 0 * 1 + 1 * 0 = 0; rw [(idx2_2 t).1]
  | ⟨1, _⟩ => show win2_2.index t 1 * 128 + 1 * j.val = j.val; rw [(idx2_2 t).2]; omega

theorem blk2_3_apply (c : Dev nD) (t : Fin cfg2.N) (j : Fin 128) :
    (blk2 V c 3 t : FVec Ideal S1x128 .f32) (ix2 (0 : Fin 1) j) = mean2 V c (ix2 (0 : Fin 1) j) := by
  unfold blk2
  rw [View.read_apply]
  show V c (Pipeline.arrRef spec2 3) _ = V c (Pipeline.arrRef spec2 3) _
  congr 1
  funext a
  apply Fin.ext
  match a with
  | ⟨0, _⟩ => show win2_3.index t 0 * 1 + 1 * 0 = 0; rw [(idx2_3 t).1]
  | ⟨1, _⟩ => show win2_3.index t 1 * 128 + 1 * j.val = j.val; rw [(idx2_3 t).2]; omega

/-- Row i's term at column j, over the whole arrays: the square of  agg·dinv + b − mean. -/
def term2 (c : Dev nD) (i : Fin 50000) (j : Fin 128) : EReal :=
  (agg2 V c (ix2 i j) * dinv2 V c (ix2 i (0 : Fin 1)) + bias2 V c (ix2 (0 : Fin 1) j) - mean2 V c (ix2 (0 : Fin 1) j))
    * (agg2 V c (ix2 i j) * dinv2 V c (ix2 i (0 : Fin 1)) + bias2 V c (ix2 (0 : Fin 1) j) - mean2 V c (ix2 (0 : Fin 1) j))

/-- A block's row term is the array's, at the row the block's row is. -/
theorem sqT2_blk (c : Dev nD) (t : Fin cfg2.N) (r : Fin 5000) (j : Fin 128) (i : Fin 50000) (hi : i.val = 5000 * t.val + r.val) :
    sqT2 (blk2 V c 0 t) (blk2 V c 1 t) (blk2 V c 2 t) (blk2 V c 3 t) r j = term2 V c i j := by
  unfold sqT2 term2
  rw [blk2_0_apply V c t r j i hi, blk2_1_apply V c t r i hi, blk2_2_apply V c t j, blk2_3_apply V c t j]

end Cert.KernelIdeal.Hand

end
-- ==== Proof.KI.Val2.lean ====
/-
  Region 2's result, at the exact extended reals: the variance row. The scratch after point n holds at column j the
  sum of the block sums of points 0 … n (induction on the point); ten blocks of 5000 rows are the 50000 rows, each once;
  the last point stores that total divided by the number of rows into the output's buffer and the pipeline writes that
  buffer back, covering the 1×128 output array. So after the region the output array holds at column j the sum over all
  rows of (agg·dinv + b − mean)² divided by the number of rows.
-/
import proofs.«161886_j5566277616090_2_alg».proof.Proof.KI.Reg2
import proofs.«161886_j5566277616090_2_alg».proof.Proof.KI.Val2b

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Row 5000·t + r of the arrays, for a block row t below 10 (row 0 otherwise, which nothing reads). -/
def row2 (t : ℕ) (r : Fin 5000) : Fin 50000 :=
  if h : t < 10 then ⟨5000 * t + r.val, by have := r.isLt; omega⟩ else ⟨0, by decide⟩

theorem row2_val (t : ℕ) (r : Fin 5000) (h : t < 10) : (row2 t r).val = 5000 * t + r.val := by
  unfold row2; rw [dif_pos h]

/-- Block row t's 5000 row terms at column j, added. -/
def blockSum2 (c : Dev nD) (t : ℕ) (j : Fin 128) : EReal := ∑ r : Fin 5000, term2 V c (row2 t r) j

/-- The point's own contribution is its block's sum. -/
theorem point_sum2 (c : Dev nD) (t : Fin cfg2.N) (j : Fin 128) :
    ∑ r : Fin 5000, sqT2 (blk2 V c 0 t) (blk2 V c 1 t) (blk2 V c 2 t) (blk2 V c 3 t) r j = blockSum2 V c t.val j := by
  have hN : cfg2.N = 10 := N_2
  unfold blockSum2
  exact Finset.sum_congr rfl fun r _ => sqT2_blk V c t r j (row2 t.val r) (row2_val t.val r (by have := t.isLt; omega))

/-- THE RUNNING SUM: after point n the scratch holds, at column j, the block sums of points 0 … n — by induction on the
    point: the first point adds its block to the zeroed row, each later one to what the point before left. -/
theorem acc2_apply (c : Dev nD) (j : Fin 128) : ∀ (n : ℕ) (hn : n < cfg2.N),
    acc2 V c n hn (ix2 (0 : Fin 1) j) = ∑ t ∈ Finset.range (n + 1), blockSum2 V c t j
  | 0, hn => by
    have e : acc2 V c 0 hn = step2 (blk2 V c 0 ⟨0, hn⟩) (blk2 V c 1 ⟨0, hn⟩) (blk2 V c 2 ⟨0, hn⟩) (blk2 V c 3 ⟨0, hn⟩) zero2 :=
      acc2_zero V c ⟨0, hn⟩ rfl
    rw [e, step2_apply, zero2_apply, zero_add, point_sum2 V c ⟨0, hn⟩ j, Finset.sum_range_one]
  | n + 1, hn => by
    have e : acc2 V c (n + 1) hn = step2 (blk2 V c 0 ⟨n + 1, hn⟩) (blk2 V c 1 ⟨n + 1, hn⟩) (blk2 V c 2 ⟨n + 1, hn⟩) (blk2 V c 3 ⟨n + 1, hn⟩)
        (acc2 V c n (Nat.lt_of_succ_lt hn)) :=
      acc2_pos V c ⟨n + 1, hn⟩ (Nat.succ_ne_zero n)
    rw [e, step2_apply, acc2_apply c j n (Nat.lt_of_succ_lt hn), point_sum2 V c ⟨n + 1, hn⟩ j, Finset.sum_range_succ _ (n + 1)]

/-- Ten blocks of 5000 rows are the 50000 rows: the pair (block row, row in the block) runs through every row once. -/
theorem sum_rows2 (f : Fin 50000 → EReal) :
    ∑ t ∈ Finset.range 10, ∑ r : Fin 5000, f (row2 t r) = ∑ i : Fin 50000, f i := by
  rw [← Fin.sum_univ_eq_sum_range (fun t => ∑ r : Fin 5000, f (row2 t r)) 10]
  rw [← Equiv.sum_comp (finProdFinEquiv (m := 10) (n := 5000)) f, Fintype.sum_prod_type]
  refine Finset.sum_congr rfl fun t _ => Finset.sum_congr rfl fun r _ => congrArg f (Fin.ext ?_)
  rw [row2_val t.val r t.isLt]
  show 5000 * t.val + r.val = r.val + 5000 * t.val
  omega

/-- The one write-back, at the last point, writes the output row: block (0, 0) of a 1×128 array is the array. -/
theorem flushed2_eq (c : Dev nD) (t : Fin cfg2.N) (hf : (cfg2.win 4).flush t = true) :
    (dat2 V c).flushed 4 t = ((cfg2.win 4).blk t).view.read (Elt Ideal) (out2 V c) := by
  have hN : cfg2.N = 10 := N_2
  have h9 : t.val = 9 := by have := (flush2_4 t).mp hf; have := t.isLt; omega
  show (cfg2.win 4).cut (grid2.coords t) ((dat2 V c).after 4 t) = _
  rw [dat2_after_last V c t h9]
  obtain rfl : t = t2_9 := Fin.ext h9
  have hz' : (fun a => win2_4.index t2_9 a * main_v33.ty.shape.size a) = fun _ => 0 := funext fun a => by fin_cases a <;> decide
  exact (Memref.read_access_unit_zero (Elt Ideal) main_v33 hz' (fun a => by rw [congrFun hz' a]; simp) (out2 V c)).symm

/-- So the output array ends holding the output row: the last point's block covers it. -/
theorem final2 (c : Dev nD) : (dat2 V c).arrAt 4 cfg2.N = out2 V c :=
  (dat2 V c).arrAt_eq_of_cover 4 (out2 V c) (flushed2_eq V c) fun i =>
    ⟨t2_9, (flush2_4 t2_9).mpr rfl, by
      show i ∈ ((View.whole main_v33).slice (win2_4.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 1 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

/-- THE VARIANCE ROW. After the region the output array holds, at column j, the sum over all 50000 rows of the squares of
    agg·dinv + b − mean, divided by the number of rows (the kernel's own literal for 50000). -/
theorem out2_apply (c : Dev nD) (j : Fin 128) :
    ((dat2 (F := Ideal) V c).arrAt 4 cfg2.N : S1x128.Idx → EReal) (ix2 (0 : Fin 1) j)
      = Ideal.div (∑ i : Fin 50000, term2 V c i j) (Ideal.ofBits .f32 0x47435000#32) := by
  rw [final2 V c]
  unfold out2
  rw [fin2_apply, acc2_apply V c j 9 _]
  unfold blockSum2
  rw [sum_rows2 (fun i => term2 V c i j)]

end Cert.KernelIdeal.Hand

end
-- ==== Proof.KI.Val5a.lean ====
/-
  Region 5's arithmetic read at an index, at the exact extended reals. The reset row is zero; a point's row at column j
  is the sum it found there plus the 5000 squares (x·d + b − μ)² of its block's rows at that column — the lane sum of
  the reduction over the rows —; the output row at column j is the total there divided by the kernel's literal for the
  number of rows. Then the same for the three stated contents of the scratch and of the output's buffer, each one store
  of a whole row.
-/
import proofs.«161886_j5566277616090_2_alg».proof.Proof.KI.Reg5a
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- The zero offsets of a whole-buffer rectangle, however spelt. -/
theorem hz5 : (![0, 0] : Fin 2 → Nat) = fun _ => 0 := funext fun a => by fin_cases a <;> rfl

/-- A column broadcast along the rows: an [a, 1] array broadcast to [a, b] reads, at (p, q), the operand's entry of row p. -/
theorem bcastCol5_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One row's term at column j: the square of  x·d + b − μ. -/
def sqT5 (x : FVec Ideal S5000x128 .f32) (dv : FVec Ideal S5000x1 .f32) (b mu : FVec Ideal S1x128 .f32) (r : Fin 5000) (j : Fin 128) : EReal :=
  (x (ix2 r j) * dv (ix2 r (0 : Fin 1)) + b (ix2 (0 : Fin 1) j) - mu (ix2 (0 : Fin 1) j))
    * (x (ix2 r j) * dv (ix2 r (0 : Fin 1)) + b (ix2 (0 : Fin 1) j) - mu (ix2 (0 : Fin 1) j))

/-- The reset row is zero everywhere. -/
theorem k5_pay1_apply (j : Fin 128) : k5_pay1 (F := Ideal) (ix2 (0 : Fin 1) j) = 0 := by
  unfold k5_pay1
  simp only [shapeCast_self, broadcast_apply]
  exact Ideal.ofBits_zero_f32

/-- The source index over column j with row r put back is (r, j). -/
theorem lift5 (j : Fin 128) (r : Fin 5000) : reduces_S5000x128_S128.lift (ix1 j) r = ix2 r j :=
  funext fun c => Fin.ext (by match c with | ⟨0, _⟩ => rfl | ⟨1, _⟩ => rfl)

/-- A point's row read at column j: the sum found there plus the block's 5000 row terms. -/
theorem k5_pay2_apply (x : FVec Ideal S5000x128 .f32) (dv : FVec Ideal S5000x1 .f32) (b mu s : FVec Ideal S1x128 .f32) (j : Fin 128) :
    k5_pay2 (F := Ideal) x dv b mu s (ix2 (0 : Fin 1) j) = s (ix2 (0 : Fin 1) j) + ∑ r : Fin 5000, sqT5 x dv b mu r j := by
  unfold k5_pay2
  simp only [shapeCast_self]
  refine (addf_apply _ _ _).trans ?_
  refine congrArg (s (ix2 (0 : Fin 1) j) + ·) ?_
  refine (shapeCast_a_1a_apply _ shapeCasts_S128_S1x128 (0 : Fin 1) j).trans ?_
  refine (Ideal.multiReduction_add_single _ _ reduces_S5000x128_S128 _ _ (ix1 j)).trans ?_
  refine Finset.sum_congr rfl fun (r : Fin 5000) _ => ?_
  rw [lift5 j r]
  unfold sqT5
  rw [mulf_apply, subf_apply, addf_apply, mulf_apply, bcastCol5_apply, broadcastTo_1b_ab_apply, broadcastTo_1b_ab_apply]

/-- The output row read at column j: the total there divided by the number of rows. -/
theorem k5_pay3_apply (s : FVec Ideal S1x128 .f32) (j : Fin 128) :
    k5_pay3 (F := Ideal) s (ix2 (0 : Fin 1) j) = Ideal.div (s (ix2 (0 : Fin 1) j)) (Ideal.ofBits .f32 0x47435000#32) := by
  unfold k5_pay3
  rfl

/-- The three stated contents read at column j. -/
theorem zero5_apply (j : Fin 128) : zero5 (F := Ideal) (ix2 (0 : Fin 1) j) = 0 := by
  unfold zero5
  rw [View.canon_unit_zero hz5]
  exact k5_pay1_apply j

theorem step5_apply (x : FVec Ideal S5000x128 .f32) (dv : FVec Ideal S5000x1 .f32) (b mu s : FVec Ideal S1x128 .f32) (j : Fin 128) :
    step5 (F := Ideal) x dv b mu s (ix2 (0 : Fin 1) j) = s (ix2 (0 : Fin 1) j) + ∑ r : Fin 5000, sqT5 x dv b mu r j := by
  unfold step5
  rw [View.canon_unit_zero hz5]
  simp only [View.ld_unit_zero (S := S5000x128) hz5, View.ld_unit_zero (S := S5000x1) hz5, View.ld_unit_zero (S := S1x128) hz5]
  exact k5_pay2_apply x dv b mu s j

theorem fin5_apply (s : FVec Ideal S1x128 .f32) (j : Fin 128) :
    fin5 (F := Ideal) s (ix2 (0 : Fin 1) j) = Ideal.div (s (ix2 (0 : Fin 1) j)) (Ideal.ofBits .f32 0x47435000#32) := by
  unfold fin5
  rw [View.canon_unit_zero hz5]
  simp only [View.ld_unit_zero (S := S1x128) hz5]
  exact k5_pay3_apply s j

end Cert.KernelIdeal.Hand

end
-- ==== Proof.KI.Val5b.lean ====
/-
  Region 5's blocks as rows of the arrays. A block's entry at (r, j) is the array's entry at the block's own offset plus
  (r, j): along each axis, block index × block extent + the coordinate inside the block. The two row-blocked windows sit
  at block row t at point t, so row r of their block is row 5000·t + r of the array; the bias and mean rows are their
  whole arrays at every point. So a block's row term is the arrays' row term at that row.
-/
import proofs.«161886_j5566277616090_2_alg».proof.Proof.KI.Val5a

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The four arrays the region reads, as it finds them, over literal indices: the aggregated features, the
    inverse-square-root degrees, the bias row and the mean row. -/
abbrev agg5 (c : Dev nD) : S50000x128.Idx → EReal := V c (Pipeline.arrRef spec5 0)
abbrev dinv5 (c : Dev nD) : S50000x1.Idx → EReal := V c (Pipeline.arrRef spec5 1)
abbrev bias5 (c : Dev nD) : S1x128.Idx → EReal := V c (Pipeline.arrRef spec5 2)
abbrev mean5 (c : Dev nD) : S1x128.Idx → EReal := V c (Pipeline.arrRef spec5 3)

/-- Where each window's block sits at point t: the two row-blocked windows at block row t, the two rows at the origin. -/
theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = t.val ∧ win5_1.index t 1 = 0 :=
  (by decide +kernel : ∀ t : Fin grid5.N, win5_1.index t 0 = t.val ∧ win5_1.index t 1 = 0)
theorem idx5_2 : ∀ t : Fin cfg5.N, win5_2.index t 0 = 0 ∧ win5_2.index t 1 = 0 :=
  (by decide +kernel : ∀ t : Fin grid5.N, win5_2.index t 0 = 0 ∧ win5_2.index t 1 = 0)
theorem idx5_3 : ∀ t : Fin cfg5.N, win5_3.index t 0 = 0 ∧ win5_3.index t 1 = 0 :=
  (by decide +kernel : ∀ t : Fin grid5.N, win5_3.index t 0 = 0 ∧ win5_3.index t 1 = 0)

/-- A block's entry is the array's: along each axis, block index × block extent + the coordinate inside the block. -/
theorem blk5_0_apply (c : Dev nD) (t : Fin cfg5.N) (r : Fin 5000) (j : Fin 128) (i : Fin 50000) (hi : i.val = 5000 * t.val + r.val) :
    (blk5 V c 0 t : FVec Ideal S5000x128 .f32) (ix2 r j) = agg5 V c (ix2 i j) := by
  unfold blk5
  rw [View.read_apply]
  show V c (Pipeline.arrRef spec5 0) _ = V c (Pipeline.arrRef spec5 0) _
  congr 1
  funext a
  apply Fin.ext
  match a with
  | ⟨0, _⟩ => show win5_0.index t 0 * 5000 + 1 * r.val = i.val; rw [(idx5_0 t).1, hi]; omega
  | ⟨1, _⟩ => show win5_0.index t 1 * 128 + 1 * j.val = j.val; rw [(idx5_0 t).2]; omega

theorem blk5_1_apply (c : Dev nD) (t : Fin cfg5.N) (r : Fin 5000) (i : Fin 50000) (hi : i.val = 5000 * t.val + r.val) :
    (blk5 V c 1 t : FVec Ideal S5000x1 .f32) (ix2 r (0 : Fin 1)) = dinv5 V c (ix2 i (0 : Fin 1)) := by
  unfold blk5
  rw [View.read_apply]
  show V c (Pipeline.arrRef spec5 1) _ = V c (Pipeline.arrRef spec5 1) _
  congr 1
  funext a
  apply Fin.ext
  match a with
  | ⟨0, _⟩ => show win5_1.index t 0 * 5000 + 1 * r.val = i.val; rw [(idx5_1 t).1, hi]; omega
  | ⟨1, _⟩ => show win5_1.index t 1 * 1 + 1 * 0 = 0; rw [(idx5_1 t).2]

theorem blk5_2_apply (c : Dev nD) (t : Fin cfg5.N) (j : Fin 128) :
    (blk5 V c 2 t : FVec Ideal S1x128 .f32) (ix2 (0 : Fin 1) j) = bias5 V c (ix2 (0 : Fin 1) j) := by
  unfold blk5
  rw [View.read_apply]
  show V c (Pipeline.arrRef spec5 2) _ = V c (Pipeline.arrRef spec5 2) _
  congr 1
  funext a
  apply Fin.ext
  match a with
  | ⟨0, _⟩ => show win5_2.index t 0 * 1 + 1 * 0 = 0; rw [(idx5_2 t).1]
  | ⟨1, _⟩ => show win5_2.index t 1 * 128 + 1 * j.val = j.val; rw [(idx5_2 t).2]; omega

theorem blk5_3_apply (c : Dev nD) (t : Fin cfg5.N) (j : Fin 128) :
    (blk5 V c 3 t : FVec Ideal S1x128 .f32) (ix2 (0 : Fin 1) j) = mean5 V c (ix2 (0 : Fin 1) j) := by
  unfold blk5
  rw [View.read_apply]
  show V c (Pipeline.arrRef spec5 3) _ = V c (Pipeline.arrRef spec5 3) _
  congr 1
  funext a
  apply Fin.ext
  match a with
  | ⟨0, _⟩ => show win5_3.index t 0 * 1 + 1 * 0 = 0; rw [(idx5_3 t).1]
  | ⟨1, _⟩ => show win5_3.index t 1 * 128 + 1 * j.val = j.val; rw [(idx5_3 t).2]; omega

/-- Row i's term at column j, over the whole arrays: the square of  agg·dinv + b − mean. -/
def term5 (c : Dev nD) (i : Fin 50000) (j : Fin 128) : EReal :=
  (agg5 V c (ix2 i j) * dinv5 V c (ix2 i (0 : Fin 1)) + bias5 V c (ix2 (0 : Fin 1) j) - mean5 V c (ix2 (0 : Fin 1) j))
    * (agg5 V c (ix2 i j) * dinv5 V c (ix2 i (0 : Fin 1)) + bias5 V c (ix2 (0 : Fin 1) j) - mean5 V c (ix2 (0 : Fin 1) j))

/-- A block's row term is the array's, at the row the block's row is. -/
theorem sqT5_blk (c : Dev nD) (t : Fin cfg5.N) (r : Fin 5000) (j : Fin 128) (i : Fin 50000) (hi : i.val = 5000 * t.val + r.val) :
    sqT5 (blk5 V c 0 t) (blk5 V c 1 t) (blk5 V c 2 t) (blk5 V c 3 t) r j = term5 V c i j := by
  unfold sqT5 term5
  rw [blk5_0_apply V c t r j i hi, blk5_1_apply V c t r i hi, blk5_2_apply V c t j, blk5_3_apply V c t j]

end Cert.KernelIdeal.Hand

end
-- ==== Proof.KI.Val5.lean ====
/-
  Region 5's result, at the exact extended reals: the variance row. The scratch after point n holds at column j the
  sum of the block sums of points 0 … n (induction on the point); ten blocks of 5000 rows are the 50000 rows, each once;
  the last point stores that total divided by the number of rows into the output's buffer and the pipeline writes that
  buffer back, covering the 1×128 output array. So after the region the output array holds at column j the sum over all
  rows of (agg·dinv + b − mean)² divided by the number of rows.
-/
import proofs.«161886_j5566277616090_2_alg».proof.Proof.KI.Reg5
import proofs.«161886_j5566277616090_2_alg».proof.Proof.KI.Val5b

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Row 5000·t + r of the arrays, for a block row t below 10 (row 0 otherwise, which nothing reads). -/
def row5 (t : ℕ) (r : Fin 5000) : Fin 50000 :=
  if h : t < 10 then ⟨5000 * t + r.val, by have := r.isLt; omega⟩ else ⟨0, by decide⟩

theorem row5_val (t : ℕ) (r : Fin 5000) (h : t < 10) : (row5 t r).val = 5000 * t + r.val := by
  unfold row5; rw [dif_pos h]

/-- Block row t's 5000 row terms at column j, added. -/
def blockSum5 (c : Dev nD) (t : ℕ) (j : Fin 128) : EReal := ∑ r : Fin 5000, term5 V c (row5 t r) j

/-- The point's own contribution is its block's sum. -/
theorem point_sum5 (c : Dev nD) (t : Fin cfg5.N) (j : Fin 128) :
    ∑ r : Fin 5000, sqT5 (blk5 V c 0 t) (blk5 V c 1 t) (blk5 V c 2 t) (blk5 V c 3 t) r j = blockSum5 V c t.val j := by
  have hN : cfg5.N = 10 := N_5
  unfold blockSum5
  exact Finset.sum_congr rfl fun r _ => sqT5_blk V c t r j (row5 t.val r) (row5_val t.val r (by have := t.isLt; omega))

/-- THE RUNNING SUM: after point n the scratch holds, at column j, the block sums of points 0 … n — by induction on the
    point: the first point adds its block to the zeroed row, each later one to what the point before left. -/
theorem acc5_apply (c : Dev nD) (j : Fin 128) : ∀ (n : ℕ) (hn : n < cfg5.N),
    acc5 V c n hn (ix2 (0 : Fin 1) j) = ∑ t ∈ Finset.range (n + 1), blockSum5 V c t j
  | 0, hn => by
    have e : acc5 V c 0 hn = step5 (blk5 V c 0 ⟨0, hn⟩) (blk5 V c 1 ⟨0, hn⟩) (blk5 V c 2 ⟨0, hn⟩) (blk5 V c 3 ⟨0, hn⟩) zero5 :=
      acc5_zero V c ⟨0, hn⟩ rfl
    rw [e, step5_apply, zero5_apply, zero_add, point_sum5 V c ⟨0, hn⟩ j, Finset.sum_range_one]
  | n + 1, hn => by
    have e : acc5 V c (n + 1) hn = step5 (blk5 V c 0 ⟨n + 1, hn⟩) (blk5 V c 1 ⟨n + 1, hn⟩) (blk5 V c 2 ⟨n + 1, hn⟩) (blk5 V c 3 ⟨n + 1, hn⟩)
        (acc5 V c n (Nat.lt_of_succ_lt hn)) :=
      acc5_pos V c ⟨n + 1, hn⟩ (Nat.succ_ne_zero n)
    rw [e, step5_apply, acc5_apply c j n (Nat.lt_of_succ_lt hn), point_sum5 V c ⟨n + 1, hn⟩ j, Finset.sum_range_succ _ (n + 1)]

/-- Ten blocks of 5000 rows are the 50000 rows: the pair (block row, row in the block) runs through every row once. -/
theorem sum_rows5 (f : Fin 50000 → EReal) :
    ∑ t ∈ Finset.range 10, ∑ r : Fin 5000, f (row5 t r) = ∑ i : Fin 50000, f i := by
  rw [← Fin.sum_univ_eq_sum_range (fun t => ∑ r : Fin 5000, f (row5 t r)) 10]
  rw [← Equiv.sum_comp (finProdFinEquiv (m := 10) (n := 5000)) f, Fintype.sum_prod_type]
  refine Finset.sum_congr rfl fun t _ => Finset.sum_congr rfl fun r _ => congrArg f (Fin.ext ?_)
  rw [row5_val t.val r t.isLt]
  show 5000 * t.val + r.val = r.val + 5000 * t.val
  omega

/-- The one write-back, at the last point, writes the output row: block (0, 0) of a 1×128 array is the array. -/
theorem flushed5_eq (c : Dev nD) (t : Fin cfg5.N) (hf : (cfg5.win 4).flush t = true) :
    (dat5 V c).flushed 4 t = ((cfg5.win 4).blk t).view.read (Elt Ideal) (out5 V c) := by
  have hN : cfg5.N = 10 := N_5
  have h9 : t.val = 9 := by have := (flush5_4 t).mp hf; have := t.isLt; omega
  show (cfg5.win 4).cut (grid5.coords t) ((dat5 V c).after 4 t) = _
  rw [dat5_after_last V c t h9]
  obtain rfl : t = t5_9 := Fin.ext h9
  have hz' : (fun a => win5_4.index t5_9 a * main_v47.ty.shape.size a) = fun _ => 0 := funext fun a => by fin_cases a <;> decide
  exact (Memref.read_access_unit_zero (Elt Ideal) main_v47 hz' (fun a => by rw [congrFun hz' a]; simp) (out5 V c)).symm

/-- So the output array ends holding the output row: the last point's block covers it. -/
theorem final5 (c : Dev nD) : (dat5 V c).arrAt 4 cfg5.N = out5 V c :=
  (dat5 V c).arrAt_eq_of_cover 4 (out5 V c) (flushed5_eq V c) fun i =>
    ⟨t5_9, (flush5_4 t5_9).mpr rfl, by
      show i ∈ ((View.whole main_v47).slice (win5_4.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_4.index t5_9 0 * win5_4.size 0 ≤ (i 0 : Nat) ∧ (i 0 : Nat) < win5_4.index t5_9 0 * win5_4.size 0 + win5_4.xsize (grid5.coords t5_9) 0
                  rw [show win5_4.index t5_9 0 * win5_4.size 0 = 0 from by decide +kernel, show win5_4.xsize (grid5.coords t5_9) 0 = 1 from by decide +kernel]; omega
      | ⟨1, _⟩ => show win5_4.index t5_9 1 * win5_4.size 1 ≤ (i 1 : Nat) ∧ (i 1 : Nat) < win5_4.index t5_9 1 * win5_4.size 1 + win5_4.xsize (grid5.coords t5_9) 1
                  rw [show win5_4.index t5_9 1 * win5_4.size 1 = 0 from by decide +kernel, show win5_4.xsize (grid5.coords t5_9) 1 = 128 from by decide +kernel]; omega⟩

/-- THE VARIANCE ROW. After the region the output array holds, at column j, the sum over all 50000 rows of the squares of
    agg·dinv + b − mean, divided by the number of rows (the kernel's own literal for 50000). -/
theorem out5_apply (c : Dev nD) (j : Fin 128) :
    ((dat5 (F := Ideal) V c).arrAt 4 cfg5.N : S1x128.Idx → EReal) (ix2 (0 : Fin 1) j)
      = Ideal.div (∑ i : Fin 50000, term5 V c i j) (Ideal.ofBits .f32 0x47435000#32) := by
  rw [final5 V c]
  unfold out5
  rw [fin5_apply, acc5_apply V c j 9 _]
  unfold blockSum5
  rw [sum_rows5 (fun i => term5 V c i j)]

end Cert.KernelIdeal.Hand

end
-- ==== Proof.Alg.GlueVar.lean ====
/-
  The variance rows of the two normalised layers, at the staged contents of a core's buffers, in the reference's names.
  Region 2 leaves at column j the sum over the 50000 rows of the squares of  agg·dinv + b − mean, divided by the kernel's
  word for the number of rows; the arrays it reads are, at its entry, the aggregate the stretch before left (the mean's
  region does not write it), the column of factors and the bias row of the first stretch (nothing later writes them) and
  the mean row the region before left. Given that  agg·dinv + b  is the reference's layer output entry by entry, and the
  mean row the reference's mean, the sums agree term by term and the word is fifty thousand: the row is the reference's
  variance. The second layer's the same, two stages on.
-/
import proofs.«161886_j5566277616090_2_alg».proof.Proof.KI.Args
import proofs.«161886_j5566277616090_2_alg».proof.Proof.KI.Keep
import proofs.«161886_j5566277616090_2_alg».proof.Proof.KI.Val2
import proofs.«161886_j5566277616090_2_alg».proof.Proof.KI.Val5
import proofs.«161886_j5566277616090_2_alg».proof.Proof.Val.RefLayer0
import proofs.«161886_j5566277616090_2_alg».proof.Proof.Val.RefStats0
import proofs.«161886_j5566277616090_2_alg».proof.Proof.Val.RefStats1
import proofs.«161886_j5566277616090_2_alg».proof.Proof.Val.BnGlue
import proofs.«161886_j5566277616090_2_alg».proof.Proof.Alg.GlueArgs

set_option maxRecDepth 16384

noncomputable section

open scoped BigOperators

namespace Cert.KernelIdeal.Hand.Glue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- THE FIRST LAYER'S VARIANCE ROW. Given the layer's output entry by entry (hH) and its mean row (hM), the row region 2
    leaves is the reference's variance. -/
theorem g_var0
    (hH : ∀ (i : Fin 50000) (j : Fin 128),
      sAgg0 m c (ix2 i j) * sDcol m c (ix2 i (0 : Fin 1)) + sRow13 m c (ix2 (0 : Fin 1) j)
        = Cert.ReferenceIdeal.Read.val_main_v43 (F := Ideal) (argX m c) (argE m c) (argW0 m c) (argB0 m c) (ix2 i j))
    (hM : ∀ j : Fin 128, sMean0 m c (ix2 (0 : Fin 1) j) = Cert.ReferenceIdeal.Read.val_main_v46 (F := Ideal) (argX m c) (argE m c) (argW0 m c) (argB0 m c) (ix1 j))
    (j : Fin 128) :
    sVar0 m c (ix2 (0 : Fin 1) j) = Cert.ReferenceIdeal.Read.val_main_v53 (F := Ideal) (argX m c) (argE m c) (argW0 m c) (argB0 m c) (ix1 j) := by
  -- the four arrays the region reads, at the stages the hypotheses speak of: the aggregate is the stretch's before (the
  -- mean's region does not write it), the column of factors and the bias row the first stretch's, the mean row as left
  have ha : agg2 (E4 m) c = sAgg0 m c := across1 m c main_v31 (by decide)
  have hd : dinv2 (E4 m) c = sDcol m c := keep4 m c (b := main_v12) ⟨by decide, by decide, by decide, by decide, by decide, by decide, by decide, by decide⟩
  have hb : bias2 (E4 m) c = sRow13 m c := keep4 m c (b := main_v13) ⟨by decide, by decide, by decide, by decide, by decide, by decide, by decide, by decide⟩
  have hmu : mean2 (E4 m) c = sMean0 m c := rfl
  have key := Cert.Val.var_glue
    (fun i j => sAgg0 m c (ix2 i j))
    (fun i j => Cert.ReferenceIdeal.Read.val_main_v43 (F := Ideal) (argX m c) (argE m c) (argW0 m c) (argB0 m c) (ix2 i j))
    (fun i => sDcol m c (ix2 i (0 : Fin 1)))
    (fun j => sRow13 m c (ix2 (0 : Fin 1) j))
    (fun j => sMean0 m c (ix2 (0 : Fin 1) j))
    (fun j => Cert.ReferenceIdeal.Read.val_main_v46 (F := Ideal) (argX m c) (argE m c) (argW0 m c) (argB0 m c) (ix1 j))
    hH j (hM j)
  beta_reduce at key
  refine (congrFun (W5_arr m c 4) (ix2 (0 : Fin 1) j)).trans ?_
  refine (out2_apply (E4 m) c j).trans ?_
  rw [Cert.Val.Ref.ref_var0_apply, ← key]
  refine congrArg (fun s : EReal => Ideal.div s (Ideal.ofBits .f32 0x47435000#32)) (Finset.sum_congr rfl fun i _ => ?_)
  unfold term2
  rw [ha, hd, hb, hmu]

/-- THE SECOND LAYER'S VARIANCE ROW, the same two stages on: region 5's row is the reference's second variance. -/
theorem g_var1
    (hH : ∀ (i : Fin 50000) (j : Fin 128),
      sAgg1 m c (ix2 i j) * sDcol m c (ix2 i (0 : Fin 1)) + sRow14 m c (ix2 (0 : Fin 1) j)
        = Cert.ReferenceIdeal.Read.val_main_v86 (F := Ideal) (argX m c) (argE m c) (argW0 m c) (argB0 m c) (argW1 m c) (argB1 m c) (argG0 m c) (argBT0 m c) (ix2 i j))
    (hM : ∀ j : Fin 128, sMean1 m c (ix2 (0 : Fin 1) j) = Cert.ReferenceIdeal.Read.val_main_v89 (F := Ideal) (argX m c) (argE m c) (argW0 m c) (argB0 m c) (argW1 m c) (argB1 m c) (argG0 m c) (argBT0 m c) (ix1 j))
    (j : Fin 128) :
    sVar1 m c (ix2 (0 : Fin 1) j) = Cert.ReferenceIdeal.Read.val_main_v96 (F := Ideal) (argX m c) (argE m c) (argW0 m c) (argB0 m c) (argW1 m c) (argB1 m c) (argG0 m c) (argBT0 m c) (ix1 j) := by
  -- the four arrays the region reads, at the stages the hypotheses speak of: the aggregate is the stretch's before (the
  -- mean's region does not write it), the column of factors and the bias row the first stretch's, the mean row as left
  have ha : agg5 (E8 m) c = sAgg1 m c := across4 m c main_v45 (by decide)
  have hd : dinv5 (E8 m) c = sDcol m c := keep8 m c (b := main_v12) ⟨by decide, by decide, by decide, by decide, by decide, by decide, by decide, by decide⟩
  have hb : bias5 (E8 m) c = sRow14 m c := keep8 m c (b := main_v14) ⟨by decide, by decide, by decide, by decide, by decide, by decide, by decide, by decide⟩
  have hmu : mean5 (E8 m) c = sMean1 m c := rfl
  have key := Cert.Val.var_glue
    (fun i j => sAgg1 m c (ix2 i j))
    (fun i j => Cert.ReferenceIdeal.Read.val_main_v86 (F := Ideal) (argX m c) (argE m c) (argW0 m c) (argB0 m c) (argW1 m c) (argB1 m c) (argG0 m c) (argBT0 m c) (ix2 i j))
    (fun i => sDcol m c (ix2 i (0 : Fin 1)))
    (fun j => sRow14 m c (ix2 (0 : Fin 1) j))
    (fun j => sMean1 m c (ix2 (0 : Fin 1) j))
    (fun j => Cert.ReferenceIdeal.Read.val_main_v89 (F := Ideal) (argX m c) (argE m c) (argW0 m c) (argB0 m c) (argW1 m c) (argB1 m c) (argG0 m c) (argBT0 m c) (ix1 j))
    hH j (hM j)
  beta_reduce at key
  refine (congrFun (W9_arr m c 4) (ix2 (0 : Fin 1) j)).trans ?_
  refine (out5_apply (E8 m) c j).trans ?_
  rw [Cert.Val.Ref.ref_var1_apply, ← key]
  refine congrArg (fun s : EReal => Ideal.div s (Ideal.ofBits .f32 0x47435000#32)) (Finset.sum_congr rfl fun i _ => ?_)
  unfold term5
  rw [ha, hd, hb, hmu]

end Cert.KernelIdeal.Hand.Glue

end
-- ==== Proof.KI.Val3Pay.lean ====
/-
  Region 3's stored block, read at an index, at the extended reals. There every rounding to or from bf16 is the identity
  and the product into a zero accumulator is the plain sum over the 128 features, so with the block's inputs x (5000×128
  aggregated rows), dv (5000×1 degree factors), b, var, mean, gamma, beta (1×128 rows) and w (128×128), the element at
  row p, column q is
      ( Σ_k  max( (((x[p,k]·dv[p,0] + b[0,k]) − mean[0,k]) · rsqrt(var[0,k] + ε)) · gamma[0,k] + beta[0,k], 0 ) · w[k,q] ) · dv[p,0],
  ε the f32 word 0x3727C5AC. A 1×128 row broadcast over the rows reads its column's entry; a 5000×1 column broadcast over
  the columns reads its row's entry; a shape cast to the same shape is the identity.
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val3

open Cert.KernelIdeal Cert.KernelIdeal.Gen
open Idealize.ShloMosaic Idealize.ShloMosaic.ValueIdx
open scoped BigOperators

/-- The product's dimension numbers: rows of the left operand against columns of the right, contracting the left's
    axis 1 with the right's axis 0. -/
abbrev D3 : DotDims S5000x128 S128x128 S5000x128 := dot_S5000x128_S128x128_S5000x128_1_0_0_1_n_n

/-- The left operand is read at the output's row and the contraction position; -/
theorem lhs3_0 (i : S5000x128.Idx) (q : D3.contr.Idx) : (D3.lhsIdx i q 0).val = (i 0).val := by
  unfold DotDims.lhsIdx
  rw [dif_neg (show ¬(0 : Fin S5000x128.rank) ∈ D3.lhsBatch by decide), dif_pos (show (0 : Fin S5000x128.rank) ∈ D3.lhsNonContracting by decide)]
  rfl
theorem lhs3_1 (i : S5000x128.Idx) (q : D3.contr.Idx) : (D3.lhsIdx i q 1).val = (q ⟨0, by decide⟩).val :=
  D3.lhsIdx_val_of_single rfl i q
/-- the right operand at the contraction position and the output's column. -/
theorem rhs3_0 (i : S5000x128.Idx) (q : D3.contr.Idx) : (D3.rhsIdx i q 0).val = (q ⟨0, by decide⟩).val :=
  D3.rhsIdx_val_of_single rfl i q
theorem rhs3_1 (i : S5000x128.Idx) (q : D3.contr.Idx) : (D3.rhsIdx i q 1).val = (i 1).val := by
  unfold DotDims.rhsIdx
  rw [dif_neg (show ¬(1 : Fin S128x128.rank) ∈ D3.rhsBatch by decide), dif_pos (show (1 : Fin S128x128.rank) ∈ D3.rhsNonContracting by decide)]
  rfl

/-- The product into the zero accumulator, at row p and column q: the sum over the 128 features. -/
theorem matmul3_apply (l : FVec Ideal S5000x128 .bf16) (r : FVec Ideal S128x128 .bf16) (p : Fin 5000) (q : Fin 128) :
    matmul D3 none l r (constant S5000x128 .f32 0x00000000#32) (ix2 p q) = ∑ k : Fin 128, l (ix2 p k) * r (ix2 k q) := by
  refine (Ideal.matmul_constant_zero_apply D3 none l r (ix2 p q)).trans ?_
  rw [← Equiv.sum_comp (contrEquiv1 D3 128 rfl rfl).symm]
  refine Finset.sum_congr rfl fun k _ => ?_
  have hk := contrEquiv1_symm_val D3 128 rfl rfl k
  have el : D3.lhsIdx (ix2 p q) ((contrEquiv1 D3 128 rfl rfl).symm k) = ix2 p k := funext fun a => Fin.ext (by
    match a with
    | ⟨0, _⟩ => exact lhs3_0 _ _
    | ⟨1, _⟩ => exact (lhs3_1 _ _).trans hk)
  have er : D3.rhsIdx (ix2 p q) ((contrEquiv1 D3 128 rfl rfl).symm k) = ix2 k q := funext fun a => Fin.ext (by
    match a with
    | ⟨0, _⟩ => exact (rhs3_0 _ _).trans hk
    | ⟨1, _⟩ => exact rhs3_1 _ _)
  rw [el, er]

/-- A 5000×1 column broadcast over the 128 columns reads, at (p, k), the column's entry of row p. -/
theorem col3_apply (v : FVec Ideal S5000x1 .f32) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else k.val
    rw [if_pos rfl]

/-- A 1×128 row broadcast over the 5000 rows reads, at (p, k), the row's entry of column k. -/
theorem row3_apply (v : FVec Ideal S1x128 .f32) (p : Fin 5000) (k : Fin 128) :
    broadcastTo S5000x128 v broadcasts_S1x128_S5000x128 (ix2 p k) = v (ix2 (0 : Fin 1) k) :=
  broadcastTo_1b_ab_apply v broadcasts_S1x128_S5000x128 p k

/-- The second scaling factor: the degree column, broadcast. -/
theorem pay3_3_apply (dv : Vec Ideal S5000x1 .f32) (p : Fin 5000) (q : Fin 128) :
    k3_pay3 dv (ix2 p q) = dv (ix2 p (0 : Fin 1)) := by
  unfold k3_pay3
  rw [shapeCast_self]
  exact col3_apply dv p q

/-- The normalised, rectified activation (already rounded to bf16, which changes nothing here) at row p, feature k. -/
theorem act3_apply (x : Vec Ideal S5000x128 .f32) (dv : Vec Ideal S5000x1 .f32) (b var mean gamma beta : Vec Ideal S1x128 .f32) (p : Fin 5000) (k : Fin 128) :
    (truncf .bf16 (maximumf (addf (mulf (mulf (subf (addf (mulf (shapeCast S5000x128 x shapeCasts_S5000x128_S5000x128) (broadcastTo S5000x128 (shapeCast S5000x1 dv shapeCasts_S5000x1_S5000x1) broadcasts_S5000x1_S5000x128)) (broadcastTo S5000x128 (shapeCast S1x128 b shapeCasts_S1x128_S1x128) broadcasts_S1x128_S5000x128)) (broadcastTo S5000x128 (shapeCast S1x128 mean shapeCasts_S1x128_S1x128) broadcasts_S1x128_S5000x128)) (broadcastTo S5000x128 (rsqrt (addf (shapeCast S1x128 var shapeCasts_S1x128_S1x128) (broadcast S1x128 (Scalar.ofBits .f32 0x3727C5AC#32)))) broadcasts_S1x128_S5000x128)) (broadcastTo S5000x128 (shapeCast S1x128 gamma shapeCasts_S1x128_S1x128) broadcasts_S1x128_S5000x128)) (broadcastTo S5000x128 (shapeCast S1x128 beta shapeCasts_S1x128_S1x128) broadcasts_S1x128_S5000x128)) (broadcast S5000x128 (Scalar.ofBits .f32 0x00000000#32))) bitsLt_bf16_f32 : FVec Ideal S5000x128 .bf16) (ix2 p k)
      = max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 := by
  simp only [shapeCast_self]
  show max ((((x (ix2 p k) * _ + _) - _) * _) * _ + _) (Ideal.ofBits .f32 0x00000000#32) = _
  rw [col3_apply, row3_apply, row3_apply, row3_apply, row3_apply, row3_apply, Ideal.ofBits_zero_f32]
  rfl

/-- The product: the activations against the weight, summed over the features. -/
theorem pay3_2_apply (x : Vec Ideal S5000x128 .f32) (dv : Vec Ideal S5000x1 .f32) (b var mean gamma beta : Vec Ideal S1x128 .f32) (w : Vec Ideal S128x128 .f32) (p : Fin 5000) (q : Fin 128) :
    k3_pay2 x dv b var mean gamma beta w (ix2 p q)
      = ∑ k : Fin 128, max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * w (ix2 k q) := by
  unfold k3_pay2
  refine (matmul3_apply _ _ p q).trans ?_
  refine Finset.sum_congr rfl fun k _ => ?_
  refine congrArg₂ (· * ·) ?_ rfl
  exact act3_apply x dv b var mean gamma beta p k

/-- THE STORED BLOCK AT AN INDEX. -/
theorem pay3_apply (x : Vec Ideal S5000x128 .f32) (dv : Vec Ideal S5000x1 .f32) (b var mean gamma beta : Vec Ideal S1x128 .f32) (w : Vec Ideal S128x128 .f32) (dv' : Vec Ideal S5000x1 .f32) (p : Fin 5000) (q : Fin 128) :
    k3_pay1 (k3_pay2 x dv b var mean gamma beta w) (k3_pay3 dv') (ix2 p q)
      = (∑ k : Fin 128, max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * w (ix2 k q)) * dv' (ix2 p (0 : Fin 1)) := by
  unfold k3_pay1
  show k3_pay2 x dv b var mean gamma beta w (ix2 p q) * k3_pay3 dv' (ix2 p q) = _
  rw [pay3_2_apply, pay3_3_apply]

end Cert.KernelIdeal.Hand.Val3

end
-- ==== Proof.KI.Val3Blk.lean ====
/-
  Region 3: what each grid point writes back, as a block of ONE function of the arrays the region finds. With agg the
  50000×128 aggregated features, dinv the 50000×1 degree factors, b, mean, var, gamma, beta the 1×128 rows and W the
  128×128 weight, let
      G[r, j] = ( Σ_k  max( (((agg[r,k]·dinv[r,0] + b[0,k]) − mean[0,k]) · rsqrt(var[0,k] + ε)) · gamma[0,k] + beta[0,k], 0 ) · W[k,j] ) · dinv[r,0].
  At point t the output window's block is rows 5000·t … 5000·t+4999, the feature and degree windows hold the same rows,
  and the other windows hold their whole (one-block) arrays; so the block the body stores is G restricted to those rows.
-/
import proofs.«161886_j5566277616090_2_alg».proof.Proof.KI.Reg3
import proofs.«161886_j5566277616090_2_alg».proof.Proof.KI.Val3Pay
import Idealize.ShloMosaic.Lib.ValueIdx
import Idealize.ShloMosaic.Lib.Pipeline.Value

set_option maxRecDepth 16384

noncomputable section

namespace Cert.KernelIdeal.Hand.Val3

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The zero offsets of a whole-buffer rectangle, however spelt. -/
theorem hz3 : (![0, 0] : Fin 2 → Nat) = fun _ => 0 := funext fun a => by fin_cases a <;> rfl

/-- Region 3's result at row r, column j, from the whole arrays. -/
def out3At (agg : S50000x128.Idx → EReal) (dinv : S50000x1.Idx → EReal) (b mean var gamma beta : S1x128.Idx → EReal) (W : S128x128.Idx → EReal) (r : Fin 50000) (j : Fin 128) : EReal :=
  (∑ k : Fin 128, max ((((agg (ix2 r k) * dinv (ix2 r (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * W (ix2 k j)) * dinv (ix2 r (0 : Fin 1))

/-- The same as a function of the output array's index. -/
def G3 (agg : S50000x128.Idx → EReal) (dinv : S50000x1.Idx → EReal) (b mean var gamma beta : S1x128.Idx → EReal) (W : S128x128.Idx → EReal) : S50000x128.Idx → EReal :=
  fun i => out3At agg dinv b mean var gamma beta W ⟨(i 0).val, idx2_lt0 i⟩ ⟨(i 1).val, idx2_lt1 i⟩

/-- The printed index maps, decided over the ten points: the feature and degree windows sit at the output's row block,
    column block 0; every other window at block (0, 0); the output's row block is at most 9, its column block 0. -/
theorem idx_facts3 : ∀ t : Fin cfg3.N, win3_0.index t (0 : Fin 2) = win3_8.index t (0 : Fin 2)
    ∧ win3_0.index t (1 : Fin 2) = 0
    ∧ win3_1.index t (0 : Fin 2) = win3_8.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) ≤ 9
    ∧ win3_8.index t (1 : Fin 2) = 0 :=
  (by decide +kernel : ∀ t : Fin grid3.N, _)

/-- Every row block is some point's. -/
theorem idx_onto3 : ∀ (q0 : Fin 10), ∃ t : Fin cfg3.N, win3_8.index t = ![q0.val, 0] :=
  (by decide +kernel : ∀ (q0 : Fin 10), ∃ t : Fin grid3.N, win3_8.index t = ![q0.val, 0])

/-! The input blocks at point t, read at explicit coordinates: an element of a block sits in the array, on each axis, at
    the block index times the block size plus its coordinate in the block. -/

/-- Features: row p of the block is row (row block)·5000 + p of the array. -/
theorem blk3_0_apply (c : Dev nD) (t : Fin cfg3.N) (p : Fin 5000) (k : Fin 128) (r : Fin 50000)
    (hr : r.val = win3_8.index t (0 : Fin 2) * 5000 + p.val) :
    blk3 V c 0 t (ix2 p k) = V c (Pipeline.arrRef spec3 0) (ix2 r k) := by
  obtain ⟨e0, e1, e2, e3, e4, e5, e6, e7, e8, e9, e10, e11, e12, e13, e14, e15, e16, e17⟩ := idx_facts3 t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- Degree factors: likewise, in the one column. -/
theorem blk3_1_apply (c : Dev nD) (t : Fin cfg3.N) (p : Fin 5000) (r : Fin 50000)
    (hr : r.val = win3_8.index t (0 : Fin 2) * 5000 + p.val) :
    blk3 V c 1 t (ix2 p (0 : Fin 1)) = V c (Pipeline.arrRef spec3 1) (ix2 r (0 : Fin 1)) := by
  obtain ⟨e0, e1, e2, e3, e4, e5, e6, e7, e8, e9, e10, e11, e12, e13, e14, e15, e16, e17⟩ := idx_facts3 t
  show V c (Pipeline.arrRef spec3 1) (((cfg3.win 1).blk t).view.emb (ix2 p (0 : Fin 1))) = V c (Pipeline.arrRef spec3 1) (ix2 r (0 : Fin 1))
  refine congrArg _ (funext fun a => Fin.ext ?_)
  match a with
  | ⟨0, _⟩ => show win3_1.index t (0 : Fin 2) * 5000 + 1 * p.val = r.val; omega
  | ⟨1, _⟩ => show win3_1.index t (1 : Fin 2) * 1 + 1 * (0 : ℕ) = 0; omega

/-- The five 1×128 rows: the block is the array. -/
theorem blk3_2_apply (c : Dev nD) (t : Fin cfg3.N) (k : Fin 128) :
    blk3 V c 2 t (ix2 (0 : Fin 1) k) = V c (Pipeline.arrRef spec3 2) (ix2 (0 : Fin 1) k) := by
  obtain ⟨e0, e1, e2, e3, e4, e5, e6, e7, e8, e9, e10, e11, e12, e13, e14, e15, e16, e17⟩ := idx_facts3 t
  show V c (Pipeline.arrRef spec3 2) (((cfg3.win 2).blk t).view.emb (ix2 (0 : Fin 1) k)) = V c (Pipeline.arrRef spec3 2) (ix2 (0 : Fin 1) k)
  refine congrArg _ (funext fun a => Fin.ext ?_)
  match a with
  | ⟨0, _⟩ => show win3_2.index t (0 : Fin 2) * 1 + 1 * (0 : ℕ) = 0; omega
  | ⟨1, _⟩ => show win3_2.index t (1 : Fin 2) * 128 + 1 * k.val = k.val; omega
theorem blk3_3_apply (c : Dev nD) (t : Fin cfg3.N) (k : Fin 128) :
    blk3 V c 3 t (ix2 (0 : Fin 1) k) = V c (Pipeline.arrRef spec3 3) (ix2 (0 : Fin 1) k) := by
  obtain ⟨e0, e1, e2, e3, e4, e5, e6, e7, e8, e9, e10, e11, e12, e13, e14, e15, e16, e17⟩ := idx_facts3 t
  show V c (Pipeline.arrRef spec3 3) (((cfg3.win 3).blk t).view.emb (ix2 (0 : Fin 1) k)) = V c (Pipeline.arrRef spec3 3) (ix2 (0 : Fin 1) k)
  refine congrArg _ (funext fun a => Fin.ext ?_)
  match a with
  | ⟨0, _⟩ => show win3_3.index t (0 : Fin 2) * 1 + 1 * (0 : ℕ) = 0; omega
  | ⟨1, _⟩ => show win3_3.index t (1 : Fin 2) * 128 + 1 * k.val = k.val; omega
theorem blk3_4_apply (c : Dev nD) (t : Fin cfg3.N) (k : Fin 128) :
    blk3 V c 4 t (ix2 (0 : Fin 1) k) = V c (Pipeline.arrRef spec3 4) (ix2 (0 : Fin 1) k) := by
  obtain ⟨e0, e1, e2, e3, e4, e5, e6, e7, e8, e9, e10, e11, e12, e13, e14, e15, e16, e17⟩ := idx_facts3 t
  show V c (Pipeline.arrRef spec3 4) (((cfg3.win 4).blk t).view.emb (ix2 (0 : Fin 1) k)) = V c (Pipeline.arrRef spec3 4) (ix2 (0 : Fin 1) k)
  refine congrArg _ (funext fun a => Fin.ext ?_)
  match a with
  | ⟨0, _⟩ => show win3_4.index t (0 : Fin 2) * 1 + 1 * (0 : ℕ) = 0; omega
  | ⟨1, _⟩ => show win3_4.index t (1 : Fin 2) * 128 + 1 * k.val = k.val; omega
theorem blk3_5_apply (c : Dev nD) (t : Fin cfg3.N) (k : Fin 128) :
    blk3 V c 5 t (ix2 (0 : Fin 1) k) = V c (Pipeline.arrRef spec3 5) (ix2 (0 : Fin 1) k) := by
  obtain ⟨e0, e1, e2, e3, e4, e5, e6, e7, e8, e9, e10, e11, e12, e13, e14, e15, e16, e17⟩ := idx_facts3 t
  show V c (Pipeline.arrRef spec3 5) (((cfg3.win 5).blk t).view.emb (ix2 (0 : Fin 1) k)) = V c (Pipeline.arrRef spec3 5) (ix2 (0 : Fin 1) k)
  refine congrArg _ (funext fun a => Fin.ext ?_)
  match a with
  | ⟨0, _⟩ => show win3_5.index t (0 : Fin 2) * 1 + 1 * (0 : ℕ) = 0; omega
  | ⟨1, _⟩ => show win3_5.index t (1 : Fin 2) * 128 + 1 * k.val = k.val; omega
theorem blk3_6_apply (c : Dev nD) (t : Fin cfg3.N) (k : Fin 128) :
    blk3 V c 6 t (ix2 (0 : Fin 1) k) = V c (Pipeline.arrRef spec3 6) (ix2 (0 : Fin 1) k) := by
  obtain ⟨e0, e1, e2, e3, e4, e5, e6, e7, e8, e9, e10, e11, e12, e13, e14, e15, e16, e17⟩ := idx_facts3 t
  show V c (Pipeline.arrRef spec3 6) (((cfg3.win 6).blk t).view.emb (ix2 (0 : Fin 1) k)) = V c (Pipeline.arrRef spec3 6) (ix2 (0 : Fin 1) k)
  refine congrArg _ (funext fun a => Fin.ext ?_)
  match a with
  | ⟨0, _⟩ => show win3_6.index t (0 : Fin 2) * 1 + 1 * (0 : ℕ) = 0; omega
  | ⟨1, _⟩ => show win3_6.index t (1 : Fin 2) * 128 + 1 * k.val = k.val; omega

/-- The weight: the block is the array. -/
theorem blk3_7_apply (c : Dev nD) (t : Fin cfg3.N) (k j : Fin 128) :
    blk3 V c 7 t (ix2 k j) = V c (Pipeline.arrRef spec3 7) (ix2 k j) := by
  obtain ⟨e0, e1, e2, e3, e4, e5, e6, e7, e8, e9, e10, e11, e12, e13, e14, e15, e16, e17⟩ := idx_facts3 t
  show V c (Pipeline.arrRef spec3 7) (((cfg3.win 7).blk t).view.emb (ix2 k j)) = V c (Pipeline.arrRef spec3 7) (ix2 k j)
  refine congrArg _ (funext fun a => Fin.ext ?_)
  match a with
  | ⟨0, _⟩ => show win3_7.index t (0 : Fin 2) * 128 + 1 * k.val = k.val; omega
  | ⟨1, _⟩ => show win3_7.index t (1 : Fin 2) * 128 + 1 * j.val = j.val; omega

/-- Any function of the output array's index, read through the output's block at point t, at (p, q): the function at
    row (row block)·5000 + p, column q. -/
theorem read3_8_apply (G : S50000x128.Idx → EReal) (t : Fin cfg3.N) (p : Fin 5000) (q : Fin 128) (r : Fin 50000)
    (hr : r.val = win3_8.index t (0 : Fin 2) * 5000 + p.val) :
    ((cfg3.win 8).blk t).view.read (Elt Ideal) G (ix2 p q) = G (ix2 r q) := by
  obtain ⟨e0, e1, e2, e3, e4, e5, e6, e7, e8, e9, e10, e11, e12, e13, e14, e15, e16, e17⟩ := idx_facts3 t
  show G (((cfg3.win 8).blk t).view.emb (ix2 p q)) = G (ix2 r q)
  refine congrArg _ (funext fun a => Fin.ext ?_)
  match a with
  | ⟨0, _⟩ => show win3_8.index t (0 : Fin 2) * 5000 + 1 * p.val = r.val; omega
  | ⟨1, _⟩ => show win3_8.index t (1 : Fin 2) * 128 + 1 * q.val = q.val; omega

/-- G3 at the index (r, j) is the result at row r, column j. -/
theorem G3_apply (agg : S50000x128.Idx → EReal) (dinv : S50000x1.Idx → EReal) (b mean var gamma beta : S1x128.Idx → EReal) (W : S128x128.Idx → EReal) (r : Fin 50000) (j : Fin 128) :
    G3 agg dinv b mean var gamma beta W (ix2 r j) = out3At agg dinv b mean var gamma beta W r j := rfl

/-- The stored block's element at (p, q) is the result at (r, q) as soon as the block's inputs are the arrays' entries
    of row r: the features and the degree factor of row p of the block those of row r, the rows and the weight the
    arrays' own. -/
theorem pay3_eq_out3At (x : Vec Ideal S5000x128 .f32) (dv : Vec Ideal S5000x1 .f32) (b var mean gamma beta : Vec Ideal S1x128 .f32) (w : Vec Ideal S128x128 .f32)
    (AGG : S50000x128.Idx → EReal) (DINV : S50000x1.Idx → EReal) (B MEAN VAR GAMMA BETA : S1x128.Idx → EReal) (W : S128x128.Idx → EReal)
    (p : Fin 5000) (q : Fin 128) (r : Fin 50000)
    (h0 : ∀ k : Fin 128, x (ix2 p k) = AGG (ix2 r k)) (h1 : dv (ix2 p (0 : Fin 1)) = DINV (ix2 r (0 : Fin 1)))
    (h2 : ∀ k : Fin 128, b (ix2 (0 : Fin 1) k) = B (ix2 (0 : Fin 1) k)) (h3 : ∀ k : Fin 128, mean (ix2 (0 : Fin 1) k) = MEAN (ix2 (0 : Fin 1) k))
    (h4 : ∀ k : Fin 128, var (ix2 (0 : Fin 1) k) = VAR (ix2 (0 : Fin 1) k)) (h5 : ∀ k : Fin 128, gamma (ix2 (0 : Fin 1) k) = GAMMA (ix2 (0 : Fin 1) k))
    (h6 : ∀ k : Fin 128, beta (ix2 (0 : Fin 1) k) = BETA (ix2 (0 : Fin 1) k)) (h7 : ∀ k : Fin 128, w (ix2 k q) = W (ix2 k q)) :
    k3_pay1 (k3_pay2 x dv b var mean gamma beta w) (k3_pay3 dv) (ix2 p q) = out3At AGG DINV B MEAN VAR GAMMA BETA W r q := by
  refine (pay3_apply x dv b var mean gamma beta w dv p q).trans ?_
  unfold out3At
  rw [h1]
  refine congrArg₂ (· * ·) (Finset.sum_congr rfl fun k _ => ?_) rfl
  rw [h0 k, h2 k, h3 k, h4 k, h5 k, h6 k, h7 k]

set_option maxHeartbeats 1000000 in
/-- WHAT POINT t WRITES BACK is block t of G3 of the arrays the region finds. -/
theorem flushed3_eq (c : Dev nD) (t : Fin cfg3.N) :
    (dat3 (F := Ideal) V c).flushed 8 t = ((cfg3.win 8).blk t).view.read (Elt Ideal) (G3 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  show (cfg3.win 8).cut (grid3.coords t) ((dat3 (F := Ideal) V c).after 8 t) = _
  rw [dat3_after_out]
  unfold out3
  rw [View.canon_unit_zero hz3]
  simp only [View.ld_unit_zero (S := S5000x128) hz3, View.ld_unit_zero (S := S5000x1) hz3, View.ld_unit_zero (S := S1x128) hz3, View.ld_unit_zero (S := S128x128) hz3]
  obtain ⟨e0, e1, e2, e3, e4, e5, e6, e7, e8, e9, e10, e11, e12, e13, e14, e15, e16, e17⟩ := idx_facts3 t
  funext y
  obtain ⟨p, q, rfl⟩ : ∃ (p : Fin 5000) (q : Fin 128), y = ix2 p q := ⟨y 0, y 1, eq_ix2 y⟩
  have hp : p.val < 5000 := p.isLt
  have hrow : win3_8.index t (0 : Fin 2) * 5000 + p.val < 50000 := by omega
  refine (pay3_eq_out3At _ _ _ _ _ _ _ _ (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) p q ⟨win3_8.index t (0 : Fin 2) * 5000 + p.val, hrow⟩
      ?_ ?_ ?_ ?_ ?_ ?_ ?_ ?_).trans ?_
  · intro k; exact blk3_0_apply V c t p k _ rfl
  · exact blk3_1_apply V c t p _ rfl
  · intro k; exact blk3_2_apply V c t k
  · intro k; exact blk3_3_apply V c t k
  · intro k; exact blk3_4_apply V c t k
  · intro k; exact blk3_5_apply V c t k
  · intro k; exact blk3_6_apply V c t k
  · intro k; exact blk3_7_apply V c t k q
  · refine Eq.symm ?_
    refine (read3_8_apply _ t p q ⟨win3_8.index t (0 : Fin 2) * 5000 + p.val, hrow⟩ rfl).trans ?_
    exact G3_apply _ _ _ _ _ _ _ _ _ _

end Cert.KernelIdeal.Hand.Val3

end
-- ==== Proof.KI.Val3.lean ====
/-
  Region 3: the output array after the region, read at an index. The ten points' blocks are the ten 5000-row slabs of the
  50000×128 output; row r lies in the slab of point r / 5000, so every index is covered, and the array ends holding, at
  row r and column j,
      ( Σ_k  max( (((agg[r,k]·dinv[r,0] + b[0,k]) − mean[0,k]) · rsqrt(var[0,k] + ε)) · gamma[0,k] + beta[0,k], 0 ) · W[k,j] ) · dinv[r,0]
  of the arrays the region finds (agg, dinv, b, mean, var, gamma, beta, W: windows 0 … 7), ε the f32 word 0x3727C5AC.
-/
import proofs.«161886_j5566277616090_2_alg».proof.Proof.KI.Val3Blk

set_option maxRecDepth 16384

noncomputable section

namespace Cert.KernelIdeal.Hand.Val3

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- Window 0's array as the region finds it: the aggregated features. -/
abbrev agg3 (c : Dev nD) : S50000x128.Idx → EReal := V c (Pipeline.arrRef spec3 0)
/-- Window 1's array as the region finds it: the inverse-square-root degrees. -/
abbrev dinv3 (c : Dev nD) : S50000x1.Idx → EReal := V c (Pipeline.arrRef spec3 1)
/-- Window 2's array as the region finds it: the bias row. -/
abbrev b3 (c : Dev nD) : S1x128.Idx → EReal := V c (Pipeline.arrRef spec3 2)
/-- Window 3's array as the region finds it: the feature means. -/
abbrev mean3 (c : Dev nD) : S1x128.Idx → EReal := V c (Pipeline.arrRef spec3 3)
/-- Window 4's array as the region finds it: the feature variances. -/
abbrev var3 (c : Dev nD) : S1x128.Idx → EReal := V c (Pipeline.arrRef spec3 4)
/-- Window 5's array as the region finds it: the scale row. -/
abbrev gamma3 (c : Dev nD) : S1x128.Idx → EReal := V c (Pipeline.arrRef spec3 5)
/-- Window 6's array as the region finds it: the shift row. -/
abbrev beta3 (c : Dev nD) : S1x128.Idx → EReal := V c (Pipeline.arrRef spec3 6)
/-- Window 7's array as the region finds it: the weight. -/
abbrev W3 (c : Dev nD) : S128x128.Idx → EReal := V c (Pipeline.arrRef spec3 7)

/-- An index of the output array is in point t's block iff each coordinate is in the block's range on its axis. -/
theorem mem_blk3 (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole (Pipeline.arrRef spec3 8)).slice (win3_8.rect t)).set ↔ _
  rw [View.set_slice_whole, Rect.mem_set_unit]
  exact Iff.rfl

/-- Every index of the output array is in the block of a point that writes back: the point of row block r / 5000. -/
theorem cover3 (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  obtain ⟨t, ht⟩ := idx_onto3 ⟨(i 0).val / 5000, by omega⟩
  have q0 : win3_8.index t (0 : Fin 2) = (i 0).val / 5000 := congrFun ht 0
  have q1 : win3_8.index t (1 : Fin 2) = 0 := congrFun ht 1
  refine ⟨t, flush3_8 t, ?_⟩
  rw [mem_blk3]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

/-- THE OUTPUT ARRAY after the region is G3 of the arrays the region finds. -/
theorem final3 (c : Dev nD) :
    (dat3 (F := Ideal) V c).arrAt 8 cfg3.N = G3 (agg3 V c) (dinv3 V c) (b3 V c) (mean3 V c) (var3 V c) (gamma3 V c) (beta3 V c) (W3 V c) :=
  (dat3 (F := Ideal) V c).arrAt_eq_of_cover 8 (G3 (agg3 V c) (dinv3 V c) (b3 V c) (mean3 V c) (var3 V c) (gamma3 V c) (beta3 V c) (W3 V c)) (fun t _ => flushed3_eq V c t) cover3

/-- THE VALUE OF REGION 3: the output array after the region, at row r and column j. -/
theorem out3_apply (c : Dev nD) (r : Fin 50000) (j : Fin 128) :
    (dat3 (F := Ideal) V c).arrAt 8 cfg3.N (ix2 r j)
      = (∑ k : Fin 128, max ((((agg3 V c (ix2 r k) * dinv3 V c (ix2 r (0 : Fin 1)) + b3 V c (ix2 (0 : Fin 1) k)) - mean3 V c (ix2 (0 : Fin 1) k)) * Ideal.rsqrt (var3 V c (ix2 (0 : Fin 1) k) + Ideal.ofBits .f32 0x3727C5AC#32)) * gamma3 V c (ix2 (0 : Fin 1) k) + beta3 V c (ix2 (0 : Fin 1) k)) 0 * W3 V c (ix2 k j)) * dinv3 V c (ix2 r (0 : Fin 1)) := by
  rw [final3, G3_apply]
  unfold out3At
  rfl

end Cert.KernelIdeal.Hand.Val3

end
-- ==== Proof.KI.Val6Pay.lean ====
/-
  Region 6's stored block, read at an index, at the extended reals. There every rounding to or from bf16 is the identity
  and the product into a zero accumulator is the plain sum over the 128 features, so with the block's inputs x (5000×128
  aggregated rows), dv (5000×1 degree factors), b, var, mean, gamma, beta (1×128 rows) and w (128×128), the element at
  row p, column q is
      ( Σ_k  max( (((x[p,k]·dv[p,0] + b[0,k]) − mean[0,k]) · rsqrt(var[0,k] + ε)) · gamma[0,k] + beta[0,k], 0 ) · w[k,q] ) · dv[p,0],
  ε the f32 word 0x3727C5AC. A 1×128 row broadcast over the rows reads its column's entry; a 5000×1 column broadcast over
  the columns reads its row's entry; a shape cast to the same shape is the identity.
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val6

open Cert.KernelIdeal Cert.KernelIdeal.Gen
open Idealize.ShloMosaic Idealize.ShloMosaic.ValueIdx
open scoped BigOperators

/-- The product's dimension numbers: rows of the left operand against columns of the right, contracting the left's
    axis 1 with the right's axis 0. -/
abbrev D6 : DotDims S5000x128 S128x128 S5000x128 := dot_S5000x128_S128x128_S5000x128_1_0_0_1_n_n

/-- The left operand is read at the output's row and the contraction position; -/
theorem lhs6_0 (i : S5000x128.Idx) (q : D6.contr.Idx) : (D6.lhsIdx i q 0).val = (i 0).val := by
  unfold DotDims.lhsIdx
  rw [dif_neg (show ¬(0 : Fin S5000x128.rank) ∈ D6.lhsBatch by decide), dif_pos (show (0 : Fin S5000x128.rank) ∈ D6.lhsNonContracting by decide)]
  rfl
theorem lhs6_1 (i : S5000x128.Idx) (q : D6.contr.Idx) : (D6.lhsIdx i q 1).val = (q ⟨0, by decide⟩).val :=
  D6.lhsIdx_val_of_single rfl i q
/-- the right operand at the contraction position and the output's column. -/
theorem rhs6_0 (i : S5000x128.Idx) (q : D6.contr.Idx) : (D6.rhsIdx i q 0).val = (q ⟨0, by decide⟩).val :=
  D6.rhsIdx_val_of_single rfl i q
theorem rhs6_1 (i : S5000x128.Idx) (q : D6.contr.Idx) : (D6.rhsIdx i q 1).val = (i 1).val := by
  unfold DotDims.rhsIdx
  rw [dif_neg (show ¬(1 : Fin S128x128.rank) ∈ D6.rhsBatch by decide), dif_pos (show (1 : Fin S128x128.rank) ∈ D6.rhsNonContracting by decide)]
  rfl

/-- The product into the zero accumulator, at row p and column q: the sum over the 128 features. -/
theorem matmul6_apply (l : FVec Ideal S5000x128 .bf16) (r : FVec Ideal S128x128 .bf16) (p : Fin 5000) (q : Fin 128) :
    matmul D6 none l r (constant S5000x128 .f32 0x00000000#32) (ix2 p q) = ∑ k : Fin 128, l (ix2 p k) * r (ix2 k q) := by
  refine (Ideal.matmul_constant_zero_apply D6 none l r (ix2 p q)).trans ?_
  rw [← Equiv.sum_comp (contrEquiv1 D6 128 rfl rfl).symm]
  refine Finset.sum_congr rfl fun k _ => ?_
  have hk := contrEquiv1_symm_val D6 128 rfl rfl k
  have el : D6.lhsIdx (ix2 p q) ((contrEquiv1 D6 128 rfl rfl).symm k) = ix2 p k := funext fun a => Fin.ext (by
    match a with
    | ⟨0, _⟩ => exact lhs6_0 _ _
    | ⟨1, _⟩ => exact (lhs6_1 _ _).trans hk)
  have er : D6.rhsIdx (ix2 p q) ((contrEquiv1 D6 128 rfl rfl).symm k) = ix2 k q := funext fun a => Fin.ext (by
    match a with
    | ⟨0, _⟩ => exact (rhs6_0 _ _).trans hk
    | ⟨1, _⟩ => exact rhs6_1 _ _)
  rw [el, er]

/-- A 5000×1 column broadcast over the 128 columns reads, at (p, k), the column's entry of row p. -/
theorem col6_apply (v : FVec Ideal S5000x1 .f32) (p : Fin 5000) (k : Fin 128) :
    broadcastTo S5000x128 v broadcasts_S5000x1_S5000x128 (ix2 p k) = v (ix2 p (0 : Fin 1)) := by
  refine broadcastTo_apply v broadcasts_S5000x1_S5000x128 (ix2 p k) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else k.val
    rw [if_pos rfl]

/-- A 1×128 row broadcast over the 5000 rows reads, at (p, k), the row's entry of column k. -/
theorem row6_apply (v : FVec Ideal S1x128 .f32) (p : Fin 5000) (k : Fin 128) :
    broadcastTo S5000x128 v broadcasts_S1x128_S5000x128 (ix2 p k) = v (ix2 (0 : Fin 1) k) :=
  broadcastTo_1b_ab_apply v broadcasts_S1x128_S5000x128 p k

/-- The second scaling factor: the degree column, broadcast. -/
theorem pay6_3_apply (dv : Vec Ideal S5000x1 .f32) (p : Fin 5000) (q : Fin 128) :
    k6_pay3 dv (ix2 p q) = dv (ix2 p (0 : Fin 1)) := by
  unfold k6_pay3
  rw [shapeCast_self]
  exact col6_apply dv p q

/-- The normalised, rectified activation (already rounded to bf16, which changes nothing here) at row p, feature k. -/
theorem act6_apply (x : Vec Ideal S5000x128 .f32) (dv : Vec Ideal S5000x1 .f32) (b var mean gamma beta : Vec Ideal S1x128 .f32) (p : Fin 5000) (k : Fin 128) :
    (truncf .bf16 (maximumf (addf (mulf (mulf (subf (addf (mulf (shapeCast S5000x128 x shapeCasts_S5000x128_S5000x128) (broadcastTo S5000x128 (shapeCast S5000x1 dv shapeCasts_S5000x1_S5000x1) broadcasts_S5000x1_S5000x128)) (broadcastTo S5000x128 (shapeCast S1x128 b shapeCasts_S1x128_S1x128) broadcasts_S1x128_S5000x128)) (broadcastTo S5000x128 (shapeCast S1x128 mean shapeCasts_S1x128_S1x128) broadcasts_S1x128_S5000x128)) (broadcastTo S5000x128 (rsqrt (addf (shapeCast S1x128 var shapeCasts_S1x128_S1x128) (broadcast S1x128 (Scalar.ofBits .f32 0x3727C5AC#32)))) broadcasts_S1x128_S5000x128)) (broadcastTo S5000x128 (shapeCast S1x128 gamma shapeCasts_S1x128_S1x128) broadcasts_S1x128_S5000x128)) (broadcastTo S5000x128 (shapeCast S1x128 beta shapeCasts_S1x128_S1x128) broadcasts_S1x128_S5000x128)) (broadcast S5000x128 (Scalar.ofBits .f32 0x00000000#32))) bitsLt_bf16_f32 : FVec Ideal S5000x128 .bf16) (ix2 p k)
      = max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 := by
  simp only [shapeCast_self]
  show max ((((x (ix2 p k) * _ + _) - _) * _) * _ + _) (Ideal.ofBits .f32 0x00000000#32) = _
  rw [col6_apply, row6_apply, row6_apply, row6_apply, row6_apply, row6_apply, Ideal.ofBits_zero_f32]
  rfl

/-- The product: the activations against the weight, summed over the features. -/
theorem pay6_2_apply (x : Vec Ideal S5000x128 .f32) (dv : Vec Ideal S5000x1 .f32) (b var mean gamma beta : Vec Ideal S1x128 .f32) (w : Vec Ideal S128x128 .f32) (p : Fin 5000) (q : Fin 128) :
    k6_pay2 x dv b var mean gamma beta w (ix2 p q)
      = ∑ k : Fin 128, max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * w (ix2 k q) := by
  unfold k6_pay2
  refine (matmul6_apply _ _ p q).trans ?_
  refine Finset.sum_congr rfl fun k _ => ?_
  refine congrArg₂ (· * ·) ?_ rfl
  exact act6_apply x dv b var mean gamma beta p k

/-- THE STORED BLOCK AT AN INDEX. -/
theorem pay6_apply (x : Vec Ideal S5000x128 .f32) (dv : Vec Ideal S5000x1 .f32) (b var mean gamma beta : Vec Ideal S1x128 .f32) (w : Vec Ideal S128x128 .f32) (dv' : Vec Ideal S5000x1 .f32) (p : Fin 5000) (q : Fin 128) :
    k6_pay1 (k6_pay2 x dv b var mean gamma beta w) (k6_pay3 dv') (ix2 p q)
      = (∑ k : Fin 128, max ((((x (ix2 p k) * dv (ix2 p (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * w (ix2 k q)) * dv' (ix2 p (0 : Fin 1)) := by
  unfold k6_pay1
  show k6_pay2 x dv b var mean gamma beta w (ix2 p q) * k6_pay3 dv' (ix2 p q) = _
  rw [pay6_2_apply, pay6_3_apply]

end Cert.KernelIdeal.Hand.Val6

end
-- ==== Proof.KI.Val6Blk.lean ====
/-
  Region 6: what each grid point writes back, as a block of ONE function of the arrays the region finds. With agg the
  50000×128 aggregated features, dinv the 50000×1 degree factors, b, mean, var, gamma, beta the 1×128 rows and W the
  128×128 weight, let
      G[r, j] = ( Σ_k  max( (((agg[r,k]·dinv[r,0] + b[0,k]) − mean[0,k]) · rsqrt(var[0,k] + ε)) · gamma[0,k] + beta[0,k], 0 ) · W[k,j] ) · dinv[r,0].
  At point t the output window's block is rows 5000·t … 5000·t+4999, the feature and degree windows hold the same rows,
  and the other windows hold their whole (one-block) arrays; so the block the body stores is G restricted to those rows.
-/
import proofs.«161886_j5566277616090_2_alg».proof.Proof.KI.Reg6
import proofs.«161886_j5566277616090_2_alg».proof.Proof.KI.Val6Pay
import Idealize.ShloMosaic.Lib.ValueIdx
import Idealize.ShloMosaic.Lib.Pipeline.Value

set_option maxRecDepth 16384

noncomputable section

namespace Cert.KernelIdeal.Hand.Val6

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The zero offsets of a whole-buffer rectangle, however spelt. -/
theorem hz6 : (![0, 0] : Fin 2 → Nat) = fun _ => 0 := funext fun a => by fin_cases a <;> rfl

/-- Region 6's result at row r, column j, from the whole arrays. -/
def out6At (agg : S50000x128.Idx → EReal) (dinv : S50000x1.Idx → EReal) (b mean var gamma beta : S1x128.Idx → EReal) (W : S128x128.Idx → EReal) (r : Fin 50000) (j : Fin 128) : EReal :=
  (∑ k : Fin 128, max ((((agg (ix2 r k) * dinv (ix2 r (0 : Fin 1)) + b (ix2 (0 : Fin 1) k)) - mean (ix2 (0 : Fin 1) k)) * Ideal.rsqrt (var (ix2 (0 : Fin 1) k) + Ideal.ofBits .f32 0x3727C5AC#32)) * gamma (ix2 (0 : Fin 1) k) + beta (ix2 (0 : Fin 1) k)) 0 * W (ix2 k j)) * dinv (ix2 r (0 : Fin 1))

/-- The same as a function of the output array's index. -/
def G6 (agg : S50000x128.Idx → EReal) (dinv : S50000x1.Idx → EReal) (b mean var gamma beta : S1x128.Idx → EReal) (W : S128x128.Idx → EReal) : S50000x128.Idx → EReal :=
  fun i => out6At agg dinv b mean var gamma beta W ⟨(i 0).val, idx2_lt0 i⟩ ⟨(i 1).val, idx2_lt1 i⟩

/-- The printed index maps, decided over the ten points: the feature and degree windows sit at the output's row block,
    column block 0; every other window at block (0, 0); the output's row block is at most 9, its column block 0. -/
theorem idx_facts6 : ∀ t : Fin cfg6.N, win6_0.index t (0 : Fin 2) = win6_8.index t (0 : Fin 2)
    ∧ win6_0.index t (1 : Fin 2) = 0
    ∧ win6_1.index t (0 : Fin 2) = win6_8.index t (0 : Fin 2)
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) ≤ 9
    ∧ win6_8.index t (1 : Fin 2) = 0 :=
  (by decide +kernel : ∀ t : Fin grid6.N, _)

/-- Every row block is some point's. -/
theorem idx_onto6 : ∀ (q0 : Fin 10), ∃ t : Fin cfg6.N, win6_8.index t = ![q0.val, 0] :=
  (by decide +kernel : ∀ (q0 : Fin 10), ∃ t : Fin grid6.N, win6_8.index t = ![q0.val, 0])

/-! The input blocks at point t, read at explicit coordinates: an element of a block sits in the array, on each axis, at
    the block index times the block size plus its coordinate in the block. -/

/-- Features: row p of the block is row (row block)·5000 + p of the array. -/
theorem blk6_0_apply (c : Dev nD) (t : Fin cfg6.N) (p : Fin 5000) (k : Fin 128) (r : Fin 50000)
    (hr : r.val = win6_8.index t (0 : Fin 2) * 5000 + p.val) :
    blk6 V c 0 t (ix2 p k) = V c (Pipeline.arrRef spec6 0) (ix2 r k) := by
  obtain ⟨e0, e1, e2, e3, e4, e5, e6, e7, e8, e9, e10, e11, e12, e13, e14, e15, e16, e17⟩ := idx_facts6 t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 128 + 1 * k.val = k.val; omega

/-- Degree factors: likewise, in the one column. -/
theorem blk6_1_apply (c : Dev nD) (t : Fin cfg6.N) (p : Fin 5000) (r : Fin 50000)
    (hr : r.val = win6_8.index t (0 : Fin 2) * 5000 + p.val) :
    blk6 V c 1 t (ix2 p (0 : Fin 1)) = V c (Pipeline.arrRef spec6 1) (ix2 r (0 : Fin 1)) := by
  obtain ⟨e0, e1, e2, e3, e4, e5, e6, e7, e8, e9, e10, e11, e12, e13, e14, e15, e16, e17⟩ := idx_facts6 t
  show V c (Pipeline.arrRef spec6 1) (((cfg6.win 1).blk t).view.emb (ix2 p (0 : Fin 1))) = V c (Pipeline.arrRef spec6 1) (ix2 r (0 : Fin 1))
  refine congrArg _ (funext fun a => Fin.ext ?_)
  match a with
  | ⟨0, _⟩ => show win6_1.index t (0 : Fin 2) * 5000 + 1 * p.val = r.val; omega
  | ⟨1, _⟩ => show win6_1.index t (1 : Fin 2) * 1 + 1 * (0 : ℕ) = 0; omega

/-- The five 1×128 rows: the block is the array. -/
theorem blk6_2_apply (c : Dev nD) (t : Fin cfg6.N) (k : Fin 128) :
    blk6 V c 2 t (ix2 (0 : Fin 1) k) = V c (Pipeline.arrRef spec6 2) (ix2 (0 : Fin 1) k) := by
  obtain ⟨e0, e1, e2, e3, e4, e5, e6, e7, e8, e9, e10, e11, e12, e13, e14, e15, e16, e17⟩ := idx_facts6 t
  show V c (Pipeline.arrRef spec6 2) (((cfg6.win 2).blk t).view.emb (ix2 (0 : Fin 1) k)) = V c (Pipeline.arrRef spec6 2) (ix2 (0 : Fin 1) k)
  refine congrArg _ (funext fun a => Fin.ext ?_)
  match a with
  | ⟨0, _⟩ => show win6_2.index t (0 : Fin 2) * 1 + 1 * (0 : ℕ) = 0; omega
  | ⟨1, _⟩ => show win6_2.index t (1 : Fin 2) * 128 + 1 * k.val = k.val; omega
theorem blk6_3_apply (c : Dev nD) (t : Fin cfg6.N) (k : Fin 128) :
    blk6 V c 3 t (ix2 (0 : Fin 1) k) = V c (Pipeline.arrRef spec6 3) (ix2 (0 : Fin 1) k) := by
  obtain ⟨e0, e1, e2, e3, e4, e5, e6, e7, e8, e9, e10, e11, e12, e13, e14, e15, e16, e17⟩ := idx_facts6 t
  show V c (Pipeline.arrRef spec6 3) (((cfg6.win 3).blk t).view.emb (ix2 (0 : Fin 1) k)) = V c (Pipeline.arrRef spec6 3) (ix2 (0 : Fin 1) k)
  refine congrArg _ (funext fun a => Fin.ext ?_)
  match a with
  | ⟨0, _⟩ => show win6_3.index t (0 : Fin 2) * 1 + 1 * (0 : ℕ) = 0; omega
  | ⟨1, _⟩ => show win6_3.index t (1 : Fin 2) * 128 + 1 * k.val = k.val; omega
theorem blk6_4_apply (c : Dev nD) (t : Fin cfg6.N) (k : Fin 128) :
    blk6 V c 4 t (ix2 (0 : Fin 1) k) = V c (Pipeline.arrRef spec6 4) (ix2 (0 : Fin 1) k) := by
  obtain ⟨e0, e1, e2, e3, e4, e5, e6, e7, e8, e9, e10, e11, e12, e13, e14, e15, e16, e17⟩ := idx_facts6 t
  show V c (Pipeline.arrRef spec6 4) (((cfg6.win 4).blk t).view.emb (ix2 (0 : Fin 1) k)) = V c (Pipeline.arrRef spec6 4) (ix2 (0 : Fin 1) k)
  refine congrArg _ (funext fun a => Fin.ext ?_)
  match a with
  | ⟨0, _⟩ => show win6_4.index t (0 : Fin 2) * 1 + 1 * (0 : ℕ) = 0; omega
  | ⟨1, _⟩ => show win6_4.index t (1 : Fin 2) * 128 + 1 * k.val = k.val; omega
theorem blk6_5_apply (c : Dev nD) (t : Fin cfg6.N) (k : Fin 128) :
    blk6 V c 5 t (ix2 (0 : Fin 1) k) = V c (Pipeline.arrRef spec6 5) (ix2 (0 : Fin 1) k) := by
  obtain ⟨e0, e1, e2, e3, e4, e5, e6, e7, e8, e9, e10, e11, e12, e13, e14, e15, e16, e17⟩ := idx_facts6 t
  show V c (Pipeline.arrRef spec6 5) (((cfg6.win 5).blk t).view.emb (ix2 (0 : Fin 1) k)) = V c (Pipeline.arrRef spec6 5) (ix2 (0 : Fin 1) k)
  refine congrArg _ (funext fun a => Fin.ext ?_)
  match a with
  | ⟨0, _⟩ => show win6_5.index t (0 : Fin 2) * 1 + 1 * (0 : ℕ) = 0; omega
  | ⟨1, _⟩ => show win6_5.index t (1 : Fin 2) * 128 + 1 * k.val = k.val; omega
theorem blk6_6_apply (c : Dev nD) (t : Fin cfg6.N) (k : Fin 128) :
    blk6 V c 6 t (ix2 (0 : Fin 1) k) = V c (Pipeline.arrRef spec6 6) (ix2 (0 : Fin 1) k) := by
  obtain ⟨e0, e1, e2, e3, e4, e5, e6, e7, e8, e9, e10, e11, e12, e13, e14, e15, e16, e17⟩ := idx_facts6 t
  show V c (Pipeline.arrRef spec6 6) (((cfg6.win 6).blk t).view.emb (ix2 (0 : Fin 1) k)) = V c (Pipeline.arrRef spec6 6) (ix2 (0 : Fin 1) k)
  refine congrArg _ (funext fun a => Fin.ext ?_)
  match a with
  | ⟨0, _⟩ => show win6_6.index t (0 : Fin 2) * 1 + 1 * (0 : ℕ) = 0; omega
  | ⟨1, _⟩ => show win6_6.index t (1 : Fin 2) * 128 + 1 * k.val = k.val; omega

/-- The weight: the block is the array. -/
theorem blk6_7_apply (c : Dev nD) (t : Fin cfg6.N) (k j : Fin 128) :
    blk6 V c 7 t (ix2 k j) = V c (Pipeline.arrRef spec6 7) (ix2 k j) := by
  obtain ⟨e0, e1, e2, e3, e4, e5, e6, e7, e8, e9, e10, e11, e12, e13, e14, e15, e16, e17⟩ := idx_facts6 t
  show V c (Pipeline.arrRef spec6 7) (((cfg6.win 7).blk t).view.emb (ix2 k j)) = V c (Pipeline.arrRef spec6 7) (ix2 k j)
  refine congrArg _ (funext fun a => Fin.ext ?_)
  match a with
  | ⟨0, _⟩ => show win6_7.index t (0 : Fin 2) * 128 + 1 * k.val = k.val; omega
  | ⟨1, _⟩ => show win6_7.index t (1 : Fin 2) * 128 + 1 * j.val = j.val; omega

/-- Any function of the output array's index, read through the output's block at point t, at (p, q): the function at
    row (row block)·5000 + p, column q. -/
theorem read6_8_apply (G : S50000x128.Idx → EReal) (t : Fin cfg6.N) (p : Fin 5000) (q : Fin 128) (r : Fin 50000)
    (hr : r.val = win6_8.index t (0 : Fin 2) * 5000 + p.val) :
    ((cfg6.win 8).blk t).view.read (Elt Ideal) G (ix2 p q) = G (ix2 r q) := by
  obtain ⟨e0, e1, e2, e3, e4, e5, e6, e7, e8, e9, e10, e11, e12, e13, e14, e15, e16, e17⟩ := idx_facts6 t
  show G (((cfg6.win 8).blk t).view.emb (ix2 p q)) = G (ix2 r q)
  refine congrArg _ (funext fun a => Fin.ext ?_)
  match a with
  | ⟨0, _⟩ => show win6_8.index t (0 : Fin 2) * 5000 + 1 * p.val = r.val; omega
  | ⟨1, _⟩ => show win6_8.index t (1 : Fin 2) * 128 + 1 * q.val = q.val; omega

/-- G6 at the index (r, j) is the result at row r, column j. -/
theorem G6_apply (agg : S50000x128.Idx → EReal) (dinv : S50000x1.Idx → EReal) (b mean var gamma beta : S1x128.Idx → EReal) (W : S128x128.Idx → EReal) (r : Fin 50000) (j : Fin 128) :
    G6 agg dinv b mean var gamma beta W (ix2 r j) = out6At agg dinv b mean var gamma beta W r j := rfl

/-- The stored block's element at (p, q) is the result at (r, q) as soon as the block's inputs are the arrays' entries
    of row r: the features and the degree factor of row p of the block those of row r, the rows and the weight the
    arrays' own. -/
theorem pay6_eq_out6At (x : Vec Ideal S5000x128 .f32) (dv : Vec Ideal S5000x1 .f32) (b var mean gamma beta : Vec Ideal S1x128 .f32) (w : Vec Ideal S128x128 .f32)
    (AGG : S50000x128.Idx → EReal) (DINV : S50000x1.Idx → EReal) (B MEAN VAR GAMMA BETA : S1x128.Idx → EReal) (W : S128x128.Idx → EReal)
    (p : Fin 5000) (q : Fin 128) (r : Fin 50000)
    (h0 : ∀ k : Fin 128, x (ix2 p k) = AGG (ix2 r k)) (h1 : dv (ix2 p (0 : Fin 1)) = DINV (ix2 r (0 : Fin 1)))
    (h2 : ∀ k : Fin 128, b (ix2 (0 : Fin 1) k) = B (ix2 (0 : Fin 1) k)) (h3 : ∀ k : Fin 128, mean (ix2 (0 : Fin 1) k) = MEAN (ix2 (0 : Fin 1) k))
    (h4 : ∀ k : Fin 128, var (ix2 (0 : Fin 1) k) = VAR (ix2 (0 : Fin 1) k)) (h5 : ∀ k : Fin 128, gamma (ix2 (0 : Fin 1) k) = GAMMA (ix2 (0 : Fin 1) k))
    (h6 : ∀ k : Fin 128, beta (ix2 (0 : Fin 1) k) = BETA (ix2 (0 : Fin 1) k)) (h7 : ∀ k : Fin 128, w (ix2 k q) = W (ix2 k q)) :
    k6_pay1 (k6_pay2 x dv b var mean gamma beta w) (k6_pay3 dv) (ix2 p q) = out6At AGG DINV B MEAN VAR GAMMA BETA W r q := by
  refine (pay6_apply x dv b var mean gamma beta w dv p q).trans ?_
  unfold out6At
  rw [h1]
  refine congrArg₂ (· * ·) (Finset.sum_congr rfl fun k _ => ?_) rfl
  rw [h0 k, h2 k, h3 k, h4 k, h5 k, h6 k, h7 k]

set_option maxHeartbeats 1000000 in
/-- WHAT POINT t WRITES BACK is block t of G6 of the arrays the region finds. -/
theorem flushed6_eq (c : Dev nD) (t : Fin cfg6.N) :
    (dat6 (F := Ideal) V c).flushed 8 t = ((cfg6.win 8).blk t).view.read (Elt Ideal) (G6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7))) := by
  show (cfg6.win 8).cut (grid6.coords t) ((dat6 (F := Ideal) V c).after 8 t) = _
  rw [dat6_after_out]
  unfold out6
  rw [View.canon_unit_zero hz6]
  simp only [View.ld_unit_zero (S := S5000x128) hz6, View.ld_unit_zero (S := S5000x1) hz6, View.ld_unit_zero (S := S1x128) hz6, View.ld_unit_zero (S := S128x128) hz6]
  obtain ⟨e0, e1, e2, e3, e4, e5, e6, e7, e8, e9, e10, e11, e12, e13, e14, e15, e16, e17⟩ := idx_facts6 t
  funext y
  obtain ⟨p, q, rfl⟩ : ∃ (p : Fin 5000) (q : Fin 128), y = ix2 p q := ⟨y 0, y 1, eq_ix2 y⟩
  have hp : p.val < 5000 := p.isLt
  have hrow : win6_8.index t (0 : Fin 2) * 5000 + p.val < 50000 := by omega
  refine (pay6_eq_out6At _ _ _ _ _ _ _ _ (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) p q ⟨win6_8.index t (0 : Fin 2) * 5000 + p.val, hrow⟩
      ?_ ?_ ?_ ?_ ?_ ?_ ?_ ?_).trans ?_
  · intro k; exact blk6_0_apply V c t p k _ rfl
  · exact blk6_1_apply V c t p _ rfl
  · intro k; exact blk6_2_apply V c t k
  · intro k; exact blk6_3_apply V c t k
  · intro k; exact blk6_4_apply V c t k
  · intro k; exact blk6_5_apply V c t k
  · intro k; exact blk6_6_apply V c t k
  · intro k; exact blk6_7_apply V c t k q
  · refine Eq.symm ?_
    refine (read6_8_apply _ t p q ⟨win6_8.index t (0 : Fin 2) * 5000 + p.val, hrow⟩ rfl).trans ?_
    exact G6_apply _ _ _ _ _ _ _ _ _ _

end Cert.KernelIdeal.Hand.Val6

end
-- ==== Proof.KI.Val6.lean ====
/-
  Region 6: the output array after the region, read at an index. The ten points' blocks are the ten 5000-row slabs of the
  50000×128 output; row r lies in the slab of point r / 5000, so every index is covered, and the array ends holding, at
  row r and column j,
      ( Σ_k  max( (((agg[r,k]·dinv[r,0] + b[0,k]) − mean[0,k]) · rsqrt(var[0,k] + ε)) · gamma[0,k] + beta[0,k], 0 ) · W[k,j] ) · dinv[r,0]
  of the arrays the region finds (agg, dinv, b, mean, var, gamma, beta, W: windows 0 … 7), ε the f32 word 0x3727C5AC.
-/
import proofs.«161886_j5566277616090_2_alg».proof.Proof.KI.Val6Blk

set_option maxRecDepth 16384

noncomputable section

namespace Cert.KernelIdeal.Hand.Val6

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- Window 0's array as the region finds it: the aggregated features. -/
abbrev agg6 (c : Dev nD) : S50000x128.Idx → EReal := V c (Pipeline.arrRef spec6 0)
/-- Window 1's array as the region finds it: the inverse-square-root degrees. -/
abbrev dinv6 (c : Dev nD) : S50000x1.Idx → EReal := V c (Pipeline.arrRef spec6 1)
/-- Window 2's array as the region finds it: the bias row. -/
abbrev b6 (c : Dev nD) : S1x128.Idx → EReal := V c (Pipeline.arrRef spec6 2)
/-- Window 3's array as the region finds it: the feature means. -/
abbrev mean6 (c : Dev nD) : S1x128.Idx → EReal := V c (Pipeline.arrRef spec6 3)
/-- Window 4's array as the region finds it: the feature variances. -/
abbrev var6 (c : Dev nD) : S1x128.Idx → EReal := V c (Pipeline.arrRef spec6 4)
/-- Window 5's array as the region finds it: the scale row. -/
abbrev gamma6 (c : Dev nD) : S1x128.Idx → EReal := V c (Pipeline.arrRef spec6 5)
/-- Window 6's array as the region finds it: the shift row. -/
abbrev beta6 (c : Dev nD) : S1x128.Idx → EReal := V c (Pipeline.arrRef spec6 6)
/-- Window 7's array as the region finds it: the weight. -/
abbrev W6 (c : Dev nD) : S128x128.Idx → EReal := V c (Pipeline.arrRef spec6 7)

/-- An index of the output array is in point t's block iff each coordinate is in the block's range on its axis. -/
theorem mem_blk6 (t : Fin cfg6.N) (i : S50000x128.Idx) :
    i ∈ ((cfg6.win 8).blk t).view.set ↔ ∀ a : Fin 2, win6_8.index t a * S5000x128.size a ≤ (i a).val ∧ (i a).val < win6_8.index t a * S5000x128.size a + S5000x128.size a := by
  show i ∈ ((View.whole (Pipeline.arrRef spec6 8)).slice (win6_8.rect t)).set ↔ _
  rw [View.set_slice_whole, Rect.mem_set_unit]
  exact Iff.rfl

/-- Every index of the output array is in the block of a point that writes back: the point of row block r / 5000. -/
theorem cover6 (i : S50000x128.Idx) : ∃ t : Fin cfg6.N, (cfg6.win 8).flush t = true ∧ i ∈ ((cfg6.win 8).blk t).view.set := by
  have hi0 : (i 0).val < 50000 := (i 0).isLt
  have hi1 : (i 1).val < 128 := (i 1).isLt
  obtain ⟨t, ht⟩ := idx_onto6 ⟨(i 0).val / 5000, by omega⟩
  have q0 : win6_8.index t (0 : Fin 2) = (i 0).val / 5000 := congrFun ht 0
  have q1 : win6_8.index t (1 : Fin 2) = 0 := congrFun ht 1
  refine ⟨t, flush6_8 t, ?_⟩
  rw [mem_blk6]
  intro a
  match a with
  | ⟨0, _⟩ => show win6_8.index t (0 : Fin 2) * 5000 ≤ (i 0).val ∧ (i 0).val < win6_8.index t (0 : Fin 2) * 5000 + 5000; omega
  | ⟨1, _⟩ => show win6_8.index t (1 : Fin 2) * 128 ≤ (i 1).val ∧ (i 1).val < win6_8.index t (1 : Fin 2) * 128 + 128; omega

/-- THE OUTPUT ARRAY after the region is G6 of the arrays the region finds. -/
theorem final6 (c : Dev nD) :
    (dat6 (F := Ideal) V c).arrAt 8 cfg6.N = G6 (agg6 V c) (dinv6 V c) (b6 V c) (mean6 V c) (var6 V c) (gamma6 V c) (beta6 V c) (W6 V c) :=
  (dat6 (F := Ideal) V c).arrAt_eq_of_cover 8 (G6 (agg6 V c) (dinv6 V c) (b6 V c) (mean6 V c) (var6 V c) (gamma6 V c) (beta6 V c) (W6 V c)) (fun t _ => flushed6_eq V c t) cover6

/-- THE VALUE OF REGION 6: the output array after the region, at row r and column j. -/
theorem out6_apply (c : Dev nD) (r : Fin 50000) (j : Fin 128) :
    (dat6 (F := Ideal) V c).arrAt 8 cfg6.N (ix2 r j)
      = (∑ k : Fin 128, max ((((agg6 V c (ix2 r k) * dinv6 V c (ix2 r (0 : Fin 1)) + b6 V c (ix2 (0 : Fin 1) k)) - mean6 V c (ix2 (0 : Fin 1) k)) * Ideal.rsqrt (var6 V c (ix2 (0 : Fin 1) k) + Ideal.ofBits .f32 0x3727C5AC#32)) * gamma6 V c (ix2 (0 : Fin 1) k) + beta6 V c (ix2 (0 : Fin 1) k)) 0 * W6 V c (ix2 k j)) * dinv6 V c (ix2 r (0 : Fin 1)) := by
  rw [final6, G6_apply]
  unfold out6At
  rfl

end Cert.KernelIdeal.Hand.Val6

end
-- ==== Proof.Val.RefAct0.lean ====
import proofs.«161886_j5566277616090_2_alg».proof.Proof.Gen.ReferenceIdeal.Read

/-!
# The normalisation and activation after layer 0 of the reference, read at an index

Over the layer's output `h0`, its column means `mean0` and column variances `var0` as named arrays:
`a0[i, j] = max (g[j] · (h0[i, j] − mean0[j]) · rsqrt (var0[j] + ε) + bt[j]) 0`, in the association the
program computes it in — the scale first, then the deviation, then the reciprocal square root — with
`ε` the single-precision word `0x3727C5AC`.
-/

noncomputable section

namespace Cert.Val.Ref

open Cert.ReferenceIdeal Idealize.ShloMosaic Idealize.ShloMosaic.ValueIdx

-- The layer's output, its means and its variances are names here: nothing below looks inside them.
attribute [local irreducible] Read.val_main_v43 Read.val_main_v46 Read.val_main_v53

section
variable (x : (⟨S50000x128, .f32⟩ : BufTy).Contents (Elt Ideal))
  (ei : (⟨S2x800000, .i32⟩ : BufTy).Contents (Elt Ideal))
  (W : (⟨S128x128, .f32⟩ : BufTy).Contents (Elt Ideal))
  (b g bt : (⟨S128, .f32⟩ : BufTy).Contents (Elt Ideal))

/-- The mean, broadcast over the rows (the copy the normalisation reads), at `(i, j)`. -/
theorem v55_at (i : Fin 50000) (j : Fin 128) :
    Read.val_main_v55 (F := Ideal) x ei W b (ix2 i j) = Read.val_main_v46 (F := Ideal) x ei W b (ix1 j) := by
  rw [Read.val_main_v55_apply, Read.val_main_v54_apply]
  have hi : Read.idx_main_v54 (Read.idx_main_v55 (ix2 i j)) = ix1 j := by
    funext a; match a with | ⟨0, _⟩ => rfl
  rw [hi]

/-- The scale, broadcast over the rows, at `(i, j)`. -/
theorem v58_at (i : Fin 50000) (j : Fin 128) :
    Read.val_main_v58 (F := Ideal) g (ix2 i j) = g (ix1 j) := by
  rw [Read.val_main_v58_apply, Read.val_main_v57_apply]
  have hi : Read.idx_main_v57 (Read.idx_main_v58 (ix2 i j)) = ix1 j := by
    funext a; match a with | ⟨0, _⟩ => rfl
  rw [hi]

/-- The shift, broadcast over the rows, at `(i, j)`. -/
theorem v67_at (i : Fin 50000) (j : Fin 128) :
    Read.val_main_v67 (F := Ideal) bt (ix2 i j) = bt (ix1 j) := by
  rw [Read.val_main_v67_apply, Read.val_main_v66_apply]
  have hi : Read.idx_main_v66 (Read.idx_main_v67 (ix2 i j)) = ix1 j := by
    funext a; match a with | ⟨0, _⟩ => rfl
  rw [hi]

/-- The reciprocal square root of the variance plus `ε`, per column. -/
theorem v62_at (j : Fin 128) :
    Read.val_main_v62 (F := Ideal) x ei W b (ix1 j)
      = Ideal.rsqrt (Read.val_main_v53 (F := Ideal) x ei W b (ix1 j) + Ideal.ofBits .f32 0x3727C5AC#32) := by
  rw [Read.val_main_v62_apply, Read.val_main_v61_apply, Read.val_main_v60_apply, Read.val_main_cst_11_apply,
    Ideal.hostUnary_rsqrt_def, Ideal.addf_def, Ideal.ofBits_def]

/-- The same, broadcast over the rows, at `(i, j)`. -/
theorem v64_at (i : Fin 50000) (j : Fin 128) :
    Read.val_main_v64 (F := Ideal) x ei W b (ix2 i j)
      = Ideal.rsqrt (Read.val_main_v53 (F := Ideal) x ei W b (ix1 j) + Ideal.ofBits .f32 0x3727C5AC#32) := by
  rw [Read.val_main_v64_apply, Read.val_main_v63_apply]
  have hi : Read.idx_main_v63 (Read.idx_main_v64 (ix2 i j)) = ix1 j := by
    funext a; match a with | ⟨0, _⟩ => rfl
  rw [hi, v62_at]

attribute [local irreducible] Read.val_main_v55 Read.val_main_v58 Read.val_main_v64 Read.val_main_v67

/-- The normalised, scaled and shifted output at `(i, j)`. -/
theorem v68_at (i : Fin 50000) (j : Fin 128) :
    Read.val_main_v68 (F := Ideal) x ei W b g bt (ix2 i j)
      = g (ix1 j)
            * (Read.val_main_v43 (F := Ideal) x ei W b (ix2 i j) - Read.val_main_v46 (F := Ideal) x ei W b (ix1 j))
          * Ideal.rsqrt (Read.val_main_v53 (F := Ideal) x ei W b (ix1 j) + Ideal.ofBits .f32 0x3727C5AC#32)
        + bt (ix1 j) := by
  rw [Read.val_main_v68_apply, Read.val_main_v65_apply, Read.val_main_v59_apply, Read.val_main_v56_apply,
    v55_at, v58_at, v64_at, v67_at, Ideal.addf_def, Ideal.mulf_def, Ideal.mulf_def, Ideal.subf_def]

attribute [local irreducible] Read.val_main_v68

/-- THE ACTIVATION AFTER LAYER 0 AT `(i, j)`. -/
theorem ref_a0_apply (i : Fin 50000) (j : Fin 128) :
    Read.val_main_v69 (F := Ideal) x ei W b g bt (ix2 i j)
      = max
          (g (ix1 j)
              * (Read.val_main_v43 (F := Ideal) x ei W b (ix2 i j) - Read.val_main_v46 (F := Ideal) x ei W b (ix1 j))
            * Ideal.rsqrt (Read.val_main_v53 (F := Ideal) x ei W b (ix1 j) + Ideal.ofBits .f32 0x3727C5AC#32)
          + bt (ix1 j))
          0 := by
  rw [Read.val_main_v69_apply, v68_at, Ideal.maximumf_def,
    show Read.val_main_call0_v0 (F := Ideal) (ix2 i j) = 0 from Ideal.ofBits_zero_f32]

end

end Cert.Val.Ref
-- ==== Proof.Val.RefAct1.lean ====
import proofs.«161886_j5566277616090_2_alg».proof.Proof.Gen.ReferenceIdeal.Read

/-!
# The normalisation and activation after layer 1 of the reference, read at an index

Over the layer's output `h`, its column means and column variances as named arrays:
`a[i, j] = max (g[j] · (h[i, j] − mean[j]) · rsqrt (var[j] + ε) + bt[j]) 0`, in the association the
program computes it in — the scale first, then the deviation, then the reciprocal square root — with
`ε` the single-precision word `0x3727C5AC`.
-/

noncomputable section

namespace Cert.Val.Ref

open Cert.ReferenceIdeal Idealize.ShloMosaic Idealize.ShloMosaic.ValueIdx

-- The layer's output, its means and its variances are names here: nothing below looks inside them.
attribute [local irreducible] Read.val_main_v86 Read.val_main_v89 Read.val_main_v96

section
variable (x : (⟨S50000x128, .f32⟩ : BufTy).Contents (Elt Ideal))
  (ei : (⟨S2x800000, .i32⟩ : BufTy).Contents (Elt Ideal))
  (W0 : (⟨S128x128, .f32⟩ : BufTy).Contents (Elt Ideal))
  (b0 : (⟨S128, .f32⟩ : BufTy).Contents (Elt Ideal))
  (W1 : (⟨S128x128, .f32⟩ : BufTy).Contents (Elt Ideal))
  (b1 : (⟨S128, .f32⟩ : BufTy).Contents (Elt Ideal))
  (g0 : (⟨S128, .f32⟩ : BufTy).Contents (Elt Ideal))
  (bt0 : (⟨S128, .f32⟩ : BufTy).Contents (Elt Ideal))
  (g1 : (⟨S128, .f32⟩ : BufTy).Contents (Elt Ideal))
  (bt1 : (⟨S128, .f32⟩ : BufTy).Contents (Elt Ideal))

/-- The mean, broadcast over the rows (the copy the normalisation reads), at `(i, j)`. -/
theorem v98_at (i : Fin 50000) (j : Fin 128) :
    Read.val_main_v98 (F := Ideal) x ei W0 b0 W1 b1 g0 bt0 (ix2 i j) = Read.val_main_v89 (F := Ideal) x ei W0 b0 W1 b1 g0 bt0 (ix1 j) := by
  rw [Read.val_main_v98_apply, Read.val_main_v97_apply]
  have hi : Read.idx_main_v97 (Read.idx_main_v98 (ix2 i j)) = ix1 j := by
    funext a; match a with | ⟨0, _⟩ => rfl
  rw [hi]

/-- The scale, broadcast over the rows, at `(i, j)`. -/
theorem v101_at (i : Fin 50000) (j : Fin 128) :
    Read.val_main_v101 (F := Ideal) g1 (ix2 i j) = g1 (ix1 j) := by
  rw [Read.val_main_v101_apply, Read.val_main_v100_apply]
  have hi : Read.idx_main_v100 (Read.idx_main_v101 (ix2 i j)) = ix1 j := by
    funext a; match a with | ⟨0, _⟩ => rfl
  rw [hi]

/-- The shift, broadcast over the rows, at `(i, j)`. -/
theorem v110_at (i : Fin 50000) (j : Fin 128) :
    Read.val_main_v110 (F := Ideal) bt1 (ix2 i j) = bt1 (ix1 j) := by
  rw [Read.val_main_v110_apply, Read.val_main_v109_apply]
  have hi : Read.idx_main_v109 (Read.idx_main_v110 (ix2 i j)) = ix1 j := by
    funext a; match a with | ⟨0, _⟩ => rfl
  rw [hi]

/-- The reciprocal square root of the variance plus `ε`, per column. -/
theorem v105_at (j : Fin 128) :
    Read.val_main_v105 (F := Ideal) x ei W0 b0 W1 b1 g0 bt0 (ix1 j)
      = Ideal.rsqrt (Read.val_main_v96 (F := Ideal) x ei W0 b0 W1 b1 g0 bt0 (ix1 j) + Ideal.ofBits .f32 0x3727C5AC#32) := by
  rw [Read.val_main_v105_apply, Read.val_main_v104_apply, Read.val_main_v103_apply, Read.val_main_cst_19_apply,
    Ideal.hostUnary_rsqrt_def, Ideal.addf_def, Ideal.ofBits_def]

/-- The same, broadcast over the rows, at `(i, j)`. -/
theorem v107_at (i : Fin 50000) (j : Fin 128) :
    Read.val_main_v107 (F := Ideal) x ei W0 b0 W1 b1 g0 bt0 (ix2 i j)
      = Ideal.rsqrt (Read.val_main_v96 (F := Ideal) x ei W0 b0 W1 b1 g0 bt0 (ix1 j) + Ideal.ofBits .f32 0x3727C5AC#32) := by
  rw [Read.val_main_v107_apply, Read.val_main_v106_apply]
  have hi : Read.idx_main_v106 (Read.idx_main_v107 (ix2 i j)) = ix1 j := by
    funext a; match a with | ⟨0, _⟩ => rfl
  rw [hi, v105_at]

attribute [local irreducible] Read.val_main_v98 Read.val_main_v101 Read.val_main_v107 Read.val_main_v110

/-- The normalised, scaled and shifted output at `(i, j)`. -/
theorem v111_at (i : Fin 50000) (j : Fin 128) :
    Read.val_main_v111 (F := Ideal) x ei W0 b0 W1 b1 g0 bt0 g1 bt1 (ix2 i j)
      = g1 (ix1 j)
            * (Read.val_main_v86 (F := Ideal) x ei W0 b0 W1 b1 g0 bt0 (ix2 i j) - Read.val_main_v89 (F := Ideal) x ei W0 b0 W1 b1 g0 bt0 (ix1 j))
          * Ideal.rsqrt (Read.val_main_v96 (F := Ideal) x ei W0 b0 W1 b1 g0 bt0 (ix1 j) + Ideal.ofBits .f32 0x3727C5AC#32)
        + bt1 (ix1 j) := by
  rw [Read.val_main_v111_apply, Read.val_main_v108_apply, Read.val_main_v102_apply, Read.val_main_v99_apply,
    v98_at, v101_at, v107_at, v110_at, Ideal.addf_def, Ideal.mulf_def, Ideal.mulf_def, Ideal.subf_def]

attribute [local irreducible] Read.val_main_v111

/-- THE ACTIVATION AFTER LAYER 1 AT `(i, j)`. -/
theorem ref_a1_apply (i : Fin 50000) (j : Fin 128) :
    Read.val_main_v112 (F := Ideal) x ei W0 b0 W1 b1 g0 bt0 g1 bt1 (ix2 i j)
      = max
          (g1 (ix1 j)
              * (Read.val_main_v86 (F := Ideal) x ei W0 b0 W1 b1 g0 bt0 (ix2 i j) - Read.val_main_v89 (F := Ideal) x ei W0 b0 W1 b1 g0 bt0 (ix1 j))
            * Ideal.rsqrt (Read.val_main_v96 (F := Ideal) x ei W0 b0 W1 b1 g0 bt0 (ix1 j) + Ideal.ofBits .f32 0x3727C5AC#32)
          + bt1 (ix1 j))
          0 := by
  rw [Read.val_main_v112_apply, v111_at, Ideal.maximumf_def,
    show Read.val_main_call1_v0 (F := Ideal) (ix2 i j) = 0 from Ideal.ofBits_zero_f32]

end

end Cert.Val.Ref
-- ==== Proof.Alg.GlueAct.lean ====
/-
  The table each fused normalisation-and-product region writes, in the reference's names. Region 3 (resp. 6) reads the
  aggregate, the column of node factors, the bias row, the mean and variance rows the two regions before it wrote, the
  scale and shift rows and the next weight, and leaves at (i, j)
      ( Σ_k  max( (((agg[i,k]·d[i] + b[k]) − mean[k]) · rsqrt(var[k] + ε)) · g[k] + bt[k], 0 ) · w[k,j] ) · d[i].
  The aggregate is the previous host stretch's and no region since wrote it; the factor column and the rows are the first
  stretch's and nothing wrote them since; the weight is a launch argument. With agg·d + b the reference's layer output,
  mean and var its column statistics, the bracket is the reference's activation (the product's two orders agree), so the
  entry is Σ_k a[i,k]·w[k,j], scaled by the inverse square root of node i's degree.
-/
import proofs.«161886_j5566277616090_2_alg».proof.Proof.Alg.GlueArgs
import proofs.«161886_j5566277616090_2_alg».proof.Proof.KI.Args
import proofs.«161886_j5566277616090_2_alg».proof.Proof.KI.Keep
import proofs.«161886_j5566277616090_2_alg».proof.Proof.KI.Val3
import proofs.«161886_j5566277616090_2_alg».proof.Proof.KI.Val6
import proofs.«161886_j5566277616090_2_alg».proof.Proof.KH.Host0
import proofs.«161886_j5566277616090_2_alg».proof.Proof.Val.BnGlue
import proofs.«161886_j5566277616090_2_alg».proof.Proof.Val.RefAct0
import proofs.«161886_j5566277616090_2_alg».proof.Proof.Val.RefAct1
set_option maxRecDepth 16384

noncomputable section

namespace Cert.KernelIdeal.Hand.Glue

open Cert.KernelIdeal Cert.KernelIdeal.Gen Cert.KernelIdeal.Hand
open Idealize.ShloMosaic.ValueIdx
open Idealize.ShloMosaic Idealize.ShloMosaic.TcCoe
open Idealize.SL.Sem
open scoped BigOperators

variable (m : (ℓ : Loc nD τ sig) → Buf (Elt Ideal) ℓ) (c : Dev nD)

/-! Nothing after the first stretch writes the factor column, the parameter rows or the weights. -/
theorem kept_v12 : Kept main_v12 :=
  ⟨by decide, by decide, by decide, by decide, by decide, by decide, by decide, by decide⟩
theorem kept_v13 : Kept main_v13 :=
  ⟨by decide, by decide, by decide, by decide, by decide, by decide, by decide, by decide⟩
theorem kept_v14 : Kept main_v14 :=
  ⟨by decide, by decide, by decide, by decide, by decide, by decide, by decide, by decide⟩
theorem kept_v16 : Kept main_v16 :=
  ⟨by decide, by decide, by decide, by decide, by decide, by decide, by decide, by decide⟩
theorem kept_v17 : Kept main_v17 :=
  ⟨by decide, by decide, by decide, by decide, by decide, by decide, by decide, by decide⟩
theorem kept_v18 : Kept main_v18 :=
  ⟨by decide, by decide, by decide, by decide, by decide, by decide, by decide, by decide⟩
theorem kept_v19 : Kept main_v19 :=
  ⟨by decide, by decide, by decide, by decide, by decide, by decide, by decide, by decide⟩
theorem kept_arg5 : Kept main_arg5 :=
  ⟨by decide, by decide, by decide, by decide, by decide, by decide, by decide, by decide⟩
theorem kept_arg7 : Kept main_arg7 :=
  ⟨by decide, by decide, by decide, by decide, by decide, by decide, by decide, by decide⟩

/-- The next table after layer 0: region 3 leaves at (i, j) the layer's activation row i against column j of the
    next weight, scaled by node i's factor. `hH`: the scaled aggregate plus the bias row is the reference's layer output;
    `hM`, `hV`: the mean and variance rows are the reference's; `hDC`: the factor column holds the inverse square roots of
    the degrees. -/
theorem g_hw1
    (hH : ∀ (i : Fin 50000) (j : Fin 128), sAgg0 m c (ix2 i j) * sDcol m c (ix2 i (0 : Fin 1)) + sRow13 m c (ix2 (0 : Fin 1) j)
      = Cert.ReferenceIdeal.Read.val_main_v43 (F := Ideal) (argX m c) (argE m c) (argW0 m c) (argB0 m c) (ix2 i j))
    (hM : ∀ j : Fin 128, sMean0 m c (ix2 (0 : Fin 1) j) = Cert.ReferenceIdeal.Read.val_main_v46 (F := Ideal) (argX m c) (argE m c) (argW0 m c) (argB0 m c) (ix1 j))
    (hV : ∀ j : Fin 128, sVar0 m c (ix2 (0 : Fin 1) j) = Cert.ReferenceIdeal.Read.val_main_v53 (F := Ideal) (argX m c) (argE m c) (argW0 m c) (argB0 m c) (ix1 j))
    (hDC : ∀ i : Fin 50000, sDcol m c (ix2 i (0 : Fin 1)) = Cert.Val.Ref.dinv (argE m c) (ix1 i))
    (i : Fin 50000) (j : Fin 128) :
    sTbl1 m c (ix2 i j)
      = (∑ k : Fin 128, Cert.ReferenceIdeal.Read.val_main_v69 (F := Ideal) (argX m c) (argE m c) (argW0 m c) (argB0 m c) (argG0 m c) (argBT0 m c) (ix2 i k) * argW1 m c (ix2 k j))
          * Cert.Val.Ref.dinv (argE m c) (ix1 i) := by
  -- the region's eight input arrays, as it finds them, in the staged names
  have e0 : Val3.agg3 (E5 m) c = sAgg0 m c := (across2 m c main_v31 (by decide)).trans (across1 m c main_v31 (by decide))
  have e1 : Val3.dinv3 (E5 m) c = sDcol m c := keep5 m c kept_v12
  have e2 : Val3.b3 (E5 m) c = sRow13 m c := keep5 m c kept_v13
  have e3 : Val3.mean3 (E5 m) c = sMean0 m c := across2 m c main_v32 (by decide)
  have e4 : Val3.var3 (E5 m) c = sVar0 m c := rfl
  have e5 : Val3.gamma3 (E5 m) c = sRow16 m c := keep5 m c kept_v16
  have e6 : Val3.beta3 (E5 m) c = sRow17 m c := keep5 m c kept_v17
  have e7 : Val3.W3 (E5 m) c = argW1 m c :=
    (keep5 m c kept_arg5).trans (StableHlo.after_of_writes_sub hostOps0 _ hostOps0_writes (by decide))
  have h := Val3.out3_apply (E5 m) c i j
  rw [e0, e1, e2, e3, e4, e5, e6, e7] at h
  refine ((congrFun (W6_arr m c 8) (ix2 i j)).trans h).trans ?_
  -- the scale and shift rows are the reshaped arguments
  have hg : ∀ k : Fin 128, sRow16 m c (ix2 (0 : Fin 1) k) = argG0 m c (ix1 k) := fun k => Host.row16_at (W0 m c) k
  have hb : ∀ k : Fin 128, sRow17 m c (ix2 (0 : Fin 1) k) = argBT0 m c (ix1 k) := fun k => Host.row17_at (W0 m c) k
  have key := Cert.Val.act_glue
    (fun (i : Fin 50000) (k : Fin 128) => sAgg0 m c (ix2 i k))
    (fun (i : Fin 50000) (k : Fin 128) => Cert.ReferenceIdeal.Read.val_main_v43 (F := Ideal) (argX m c) (argE m c) (argW0 m c) (argB0 m c) (ix2 i k))
    (fun i : Fin 50000 => sDcol m c (ix2 i (0 : Fin 1)))
    (fun k : Fin 128 => sRow13 m c (ix2 (0 : Fin 1) k))
    (fun k : Fin 128 => sMean0 m c (ix2 (0 : Fin 1) k)) (fun k : Fin 128 => Cert.ReferenceIdeal.Read.val_main_v46 (F := Ideal) (argX m c) (argE m c) (argW0 m c) (argB0 m c) (ix1 k))
    (fun k : Fin 128 => sVar0 m c (ix2 (0 : Fin 1) k)) (fun k : Fin 128 => Cert.ReferenceIdeal.Read.val_main_v53 (F := Ideal) (argX m c) (argE m c) (argW0 m c) (argB0 m c) (ix1 k))
    (fun k : Fin 128 => argG0 m c (ix1 k)) (fun k : Fin 128 => argBT0 m c (ix1 k))
    hH hM hV
    (fun (i : Fin 50000) (k : Fin 128) => Cert.ReferenceIdeal.Read.val_main_v69 (F := Ideal) (argX m c) (argE m c) (argW0 m c) (argB0 m c) (argG0 m c) (argBT0 m c) (ix2 i k))
    (fun i k => Cert.Val.Ref.ref_a0_apply (argX m c) (argE m c) (argW0 m c) (argB0 m c) (argG0 m c) (argBT0 m c) i k)
    (fun (k j : Fin 128) => argW1 m c (ix2 k j)) i j
  beta_reduce at key
  rw [← hDC i]
  refine Eq.trans ?_ key
  refine congrArg (· * sDcol m c (ix2 i (0 : Fin 1))) (Finset.sum_congr rfl fun k _ => ?_)
  rw [hg k, hb k]

/-- The next table after layer 1: region 6 leaves at (i, j) the layer's activation row i against column j of the
    next weight, scaled by node i's factor. `hH`: the scaled aggregate plus the bias row is the reference's layer output;
    `hM`, `hV`: the mean and variance rows are the reference's; `hDC`: the factor column holds the inverse square roots of
    the degrees. -/
theorem g_hw2
    (hH : ∀ (i : Fin 50000) (j : Fin 128), sAgg1 m c (ix2 i j) * sDcol m c (ix2 i (0 : Fin 1)) + sRow14 m c (ix2 (0 : Fin 1) j)
      = Cert.ReferenceIdeal.Read.val_main_v86 (F := Ideal) (argX m c) (argE m c) (argW0 m c) (argB0 m c) (argW1 m c) (argB1 m c) (argG0 m c) (argBT0 m c) (ix2 i j))
    (hM : ∀ j : Fin 128, sMean1 m c (ix2 (0 : Fin 1) j) = Cert.ReferenceIdeal.Read.val_main_v89 (F := Ideal) (argX m c) (argE m c) (argW0 m c) (argB0 m c) (argW1 m c) (argB1 m c) (argG0 m c) (argBT0 m c) (ix1 j))
    (hV : ∀ j : Fin 128, sVar1 m c (ix2 (0 : Fin 1) j) = Cert.ReferenceIdeal.Read.val_main_v96 (F := Ideal) (argX m c) (argE m c) (argW0 m c) (argB0 m c) (argW1 m c) (argB1 m c) (argG0 m c) (argBT0 m c) (ix1 j))
    (hDC : ∀ i : Fin 50000, sDcol m c (ix2 i (0 : Fin 1)) = Cert.Val.Ref.dinv (argE m c) (ix1 i))
    (i : Fin 50000) (j : Fin 128) :
    sTbl2 m c (ix2 i j)
      = (∑ k : Fin 128, Cert.ReferenceIdeal.Read.val_main_v112 (F := Ideal) (argX m c) (argE m c) (argW0 m c) (argB0 m c) (argW1 m c) (argB1 m c) (argG0 m c) (argBT0 m c) (argG1 m c) (argBT1 m c) (ix2 i k) * argW2 m c (ix2 k j))
          * Cert.Val.Ref.dinv (argE m c) (ix1 i) := by
  -- the region's eight input arrays, as it finds them, in the staged names
  have e0 : Val6.agg6 (E9 m) c = sAgg1 m c := (across5 m c main_v45 (by decide)).trans (across4 m c main_v45 (by decide))
  have e1 : Val6.dinv6 (E9 m) c = sDcol m c := keep9 m c kept_v12
  have e2 : Val6.b6 (E9 m) c = sRow14 m c := keep9 m c kept_v14
  have e3 : Val6.mean6 (E9 m) c = sMean1 m c := across5 m c main_v46 (by decide)
  have e4 : Val6.var6 (E9 m) c = sVar1 m c := rfl
  have e5 : Val6.gamma6 (E9 m) c = sRow18 m c := keep9 m c kept_v18
  have e6 : Val6.beta6 (E9 m) c = sRow19 m c := keep9 m c kept_v19
  have e7 : Val6.W6 (E9 m) c = argW2 m c :=
    (keep9 m c kept_arg7).trans (StableHlo.after_of_writes_sub hostOps0 _ hostOps0_writes (by decide))
  have h := Val6.out6_apply (E9 m) c i j
  rw [e0, e1, e2, e3, e4, e5, e6, e7] at h
  refine ((congrFun (W10_arr m c 8) (ix2 i j)).trans h).trans ?_
  -- the scale and shift rows are the reshaped arguments
  have hg : ∀ k : Fin 128, sRow18 m c (ix2 (0 : Fin 1) k) = argG1 m c (ix1 k) := fun k => Host.row18_at (W0 m c) k
  have hb : ∀ k : Fin 128, sRow19 m c (ix2 (0 : Fin 1) k) = argBT1 m c (ix1 k) := fun k => Host.row19_at (W0 m c) k
  have key := Cert.Val.act_glue
    (fun (i : Fin 50000) (k : Fin 128) => sAgg1 m c (ix2 i k))
    (fun (i : Fin 50000) (k : Fin 128) => Cert.ReferenceIdeal.Read.val_main_v86 (F := Ideal) (argX m c) (argE m c) (argW0 m c) (argB0 m c) (argW1 m c) (argB1 m c) (argG0 m c) (argBT0 m c) (ix2 i k))
    (fun i : Fin 50000 => sDcol m c (ix2 i (0 : Fin 1)))
    (fun k : Fin 128 => sRow14 m c (ix2 (0 : Fin 1) k))
    (fun k : Fin 128 => sMean1 m c (ix2 (0 : Fin 1) k)) (fun k : Fin 128 => Cert.ReferenceIdeal.Read.val_main_v89 (F := Ideal) (argX m c) (argE m c) (argW0 m c) (argB0 m c) (argW1 m c) (argB1 m c) (argG0 m c) (argBT0 m c) (ix1 k))
    (fun k : Fin 128 => sVar1 m c (ix2 (0 : Fin 1) k)) (fun k : Fin 128 => Cert.ReferenceIdeal.Read.val_main_v96 (F := Ideal) (argX m c) (argE m c) (argW0 m c) (argB0 m c) (argW1 m c) (argB1 m c) (argG0 m c) (argBT0 m c) (ix1 k))
    (fun k : Fin 128 => argG1 m c (ix1 k)) (fun k : Fin 128 => argBT1 m c (ix1 k))
    hH hM hV
    (fun (i : Fin 50000) (k : Fin 128) => Cert.ReferenceIdeal.Read.val_main_v112 (F := Ideal) (argX m c) (argE m c) (argW0 m c) (argB0 m c) (argW1 m c) (argB1 m c) (argG0 m c) (argBT0 m c) (argG1 m c) (argBT1 m c) (ix2 i k))
    (fun i k => Cert.Val.Ref.ref_a1_apply (argX m c) (argE m c) (argW0 m c) (argB0 m c) (argW1 m c) (argB1 m c) (argG0 m c) (argBT0 m c) (argG1 m c) (argBT1 m c) i k)
    (fun (k j : Fin 128) => argW2 m c (ix2 k j)) i j
  beta_reduce at key
  rw [← hDC i]
  refine Eq.trans ?_ key
  refine congrArg (· * sDcol m c (ix2 i (0 : Fin 1))) (Finset.sum_congr rfl fun k _ => ?_)
  rw [hg k, hb k]

end Cert.KernelIdeal.Hand.Glue

end
-- ==== Proof.KH.Host4.lean ====
/-
  The aggregation stretch in front of regions 4–6, read at an index: the same gather, widening and accumulating
  scatter as in front of regions 1–3, on another table.
      agg[i, j] = 0 + Σ_{e : dst e = i} table[src e, j].
-/
import proofs.«161886_j5566277616090_2_alg».proof.Proof.KH.Host1

set_option maxRecDepth 16384

noncomputable section

open scoped BigOperators

namespace Cert.KernelIdeal.Hand.Host

open Cert.KernelIdeal Cert.KernelIdeal.Gen Cert.Val
open Idealize.ShloMosaic Idealize.ShloMosaic.TcCoe Idealize.ShloMosaic.ValueIdx Idealize.ShloMosaic.StableHlo
open Idealize.SL.Sem

/-- What the stretch leaves in its result buffer: the aggregate of the table the region before it wrote. -/
theorem agg1_term (V : Valuation τ sig (Elt Ideal)) :
    StableHlo.after (hostOps4 (F := Ideal)) V (Proc.devRef .tc main_v45)
      = agg (V (Proc.devRef .tc main_v34)) (V (Proc.devRef .tc main_v3)) (V (Proc.devRef .tc main_v6)) := by
  dsimp only [hostOps4]; after_results_simp; rfl

/-- The same read at `(i, j)`: zero plus the sum, over the edges whose destination word reads `i`, of
column `j` of the table's row that the edge's source word names. -/
theorem agg1_at (V : Valuation τ sig (Elt Ideal)) (i : Fin 50000) (j : Fin 128) :
    @Eq EReal (StableHlo.after (hostOps4 (F := Ideal)) V (Proc.devRef .tc main_v45) (ix2 i j))
      (0 + Finset.sum (M := EReal)
        (Finset.univ.filter
          (fun e : Fin 850000 => (V (Proc.devRef .tc main_v6) (ix1 e)).toInt = (i.val : ℤ)))
        (fun e => V (Proc.devRef .tc main_v34) (ix2 (wrapRow (V (Proc.devRef .tc main_v3) (ix1 e))) j))) := by
  rw [agg1_term]
  exact agg_at _ _ _ i j

end Cert.KernelIdeal.Hand.Host
-- ==== Proof.KH.Host7.lean ====
/-
  The aggregation stretch in front of the last region (its first fourteen operations; the target gathers after it do not touch its result), read at an index: the same gather, widening and accumulating
  scatter as in front of regions 1–3, on another table.
      agg[i, j] = 0 + Σ_{e : dst e = i} table[src e, j].
-/
import proofs.«161886_j5566277616090_2_alg».proof.Proof.KH.Host1

set_option maxRecDepth 16384

noncomputable section

open scoped BigOperators

namespace Cert.KernelIdeal.Hand.Host

open Cert.KernelIdeal Cert.KernelIdeal.Gen Cert.Val
open Idealize.ShloMosaic Idealize.ShloMosaic.TcCoe Idealize.ShloMosaic.ValueIdx Idealize.ShloMosaic.StableHlo
open Idealize.SL.Sem

/-- What the stretch leaves in its result buffer: the aggregate of the table the region before it wrote. -/
theorem agg2_term (V : Valuation τ sig (Elt Ideal)) :
    StableHlo.after (hostOps7 (F := Ideal)) V (Proc.devRef .tc main_v59)
      = agg (V (Proc.devRef .tc main_v48)) (V (Proc.devRef .tc main_v3)) (V (Proc.devRef .tc main_v6)) := by
  dsimp only [hostOps7]; after_results_simp; rfl

/-- The same read at `(i, j)`: zero plus the sum, over the edges whose destination word reads `i`, of
column `j` of the table's row that the edge's source word names. -/
theorem agg2_at (V : Valuation τ sig (Elt Ideal)) (i : Fin 50000) (j : Fin 128) :
    @Eq EReal (StableHlo.after (hostOps7 (F := Ideal)) V (Proc.devRef .tc main_v59) (ix2 i j))
      (0 + Finset.sum (M := EReal)
        (Finset.univ.filter
          (fun e : Fin 850000 => (V (Proc.devRef .tc main_v6) (ix1 e)).toInt = (i.val : ℤ)))
        (fun e => V (Proc.devRef .tc main_v48) (ix2 (wrapRow (V (Proc.devRef .tc main_v3) (ix1 e))) j))) := by
  rw [agg2_term]
  exact agg_at _ _ _ i j

end Cert.KernelIdeal.Hand.Host
-- ==== Proof.Alg.GlueAgg.lean ====
/-
  The second and third aggregates, at the staged contents of a core's buffers, in the reference's names. The host
  stretch in front of regions 4–6 (resp. after region 6) leaves at (i, j)
      0 + Σ_{e : dst e = i} t[src e, j],
  t being the table region 3 (resp. region 6) wrote, the edges' words being those of the first stretch — which nothing
  after that stretch writes — and so the reference's own source and destination words of the edge list.
-/
import proofs.«161886_j5566277616090_2_alg».proof.Proof.KI.Args
import proofs.«161886_j5566277616090_2_alg».proof.Proof.KI.Keep
import proofs.«161886_j5566277616090_2_alg».proof.Proof.KH.Host4
import proofs.«161886_j5566277616090_2_alg».proof.Proof.KH.Host7
import proofs.«161886_j5566277616090_2_alg».proof.Proof.Val.RefLayer0
import proofs.«161886_j5566277616090_2_alg».proof.Proof.Alg.GlueArgs

set_option maxRecDepth 16384

noncomputable section

open scoped BigOperators

namespace Cert.KernelIdeal.Hand.Glue

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- Nothing after the first stretch writes the source words … -/
theorem kept_v3 : Kept main_v3 :=
  ⟨by decide, by decide, by decide, by decide, by decide, by decide, by decide, by decide⟩
/-- … nor the destination words. -/
theorem kept_v6 : Kept main_v6 :=
  ⟨by decide, by decide, by decide, by decide, by decide, by decide, by decide, by decide⟩

/-- THE SECOND AGGREGATE at (i, j): zero plus the sum, over the edges whose destination word reads i, of column j of
    the row of region 3's result that the edge's source word names. `hsrc`, `hdst`: after the first stretch the
    source and destination words are the reference's. -/
theorem g_agg1
    (hsrc : W1 m c (Proc.devRef .tc main_v3) = Cert.ReferenceIdeal.Read.val_main_v3 (F := Ideal) (argE m c))
    (hdst : W1 m c (Proc.devRef .tc main_v6) = Cert.ReferenceIdeal.Read.val_main_v6 (F := Ideal) (argE m c))
    (i : Fin 50000) (j : Fin 128) :
    sAgg1 m c (ix2 i j)
      = 0 + ∑ e ∈ Finset.univ.filter (fun e : Fin 850000 => Cert.Val.Ref.dstI (argE m c) e = (i.val : ℤ)),
          sTbl1 m c (ix2 (Cert.Val.Ref.srcc (argE m c) e) j) := by
  have h3 : W6 m c (Proc.devRef .tc main_v3) = Cert.ReferenceIdeal.Read.val_main_v3 (F := Ideal) (argE m c) :=
    (keep6 m c kept_v3).trans hsrc
  have h6 : W6 m c (Proc.devRef .tc main_v6) = Cert.ReferenceIdeal.Read.val_main_v6 (F := Ideal) (argE m c) :=
    (keep6 m c kept_v6).trans hdst
  refine (Host.agg1_at (W6 m c) i j).trans ?_
  refine congrArg (fun s : EReal => 0 + s) ?_
  refine Finset.sum_congr (Finset.filter_congr fun e _ => ?_) fun e _ => ?_
  · rw [h6]; exact Iff.rfl
  · rw [h3]; rfl

/-- THE THIRD AGGREGATE at (i, j): the same over region 6's result. -/
theorem g_agg2
    (hsrc : W1 m c (Proc.devRef .tc main_v3) = Cert.ReferenceIdeal.Read.val_main_v3 (F := Ideal) (argE m c))
    (hdst : W1 m c (Proc.devRef .tc main_v6) = Cert.ReferenceIdeal.Read.val_main_v6 (F := Ideal) (argE m c))
    (i : Fin 50000) (j : Fin 128) :
    sAgg2 m c (ix2 i j)
      = 0 + ∑ e ∈ Finset.univ.filter (fun e : Fin 850000 => Cert.Val.Ref.dstI (argE m c) e = (i.val : ℤ)),
          sTbl2 m c (ix2 (Cert.Val.Ref.srcc (argE m c) e) j) := by
  have h3 : W10 m c (Proc.devRef .tc main_v3) = Cert.ReferenceIdeal.Read.val_main_v3 (F := Ideal) (argE m c) :=
    (keep10 m c kept_v3).trans hsrc
  have h6 : W10 m c (Proc.devRef .tc main_v6) = Cert.ReferenceIdeal.Read.val_main_v6 (F := Ideal) (argE m c) :=
    (keep10 m c kept_v6).trans hdst
  refine (Host.agg2_at (W10 m c) i j).trans ?_
  refine congrArg (fun s : EReal => 0 + s) ?_
  refine Finset.sum_congr (Finset.filter_congr fun e _ => ?_) fun e _ => ?_
  · rw [h6]; exact Iff.rfl
  · rw [h3]; rfl

end Cert.KernelIdeal.Hand.Glue

end
-- ==== Proof.KH.Host7t.lean ====
/-
  The host operations between the sixth and the seventh region, read at an index. They compute the third aggregate
  (a table of 50000 rows), and then pick, for each of the 4096 target words, one row of that table and one entry of
  the column of inverse square roots of the degrees: in front of each of the two gathers the target word is wrapped (a
  negative word is counted from the end of the table: 50000 is added to it), and the gather keeps the start row inside
  the table. So row r of the gathered rows is the aggregate's row that target word r names, and entry r of the gathered
  factors is that node's inverse square root. The aggregate is kept as what the stretch leaves in its buffer: nothing
  here looks inside it. Everything is stated over an arbitrary valuation V of the buffers when the stretch starts.
-/
import proofs.«161886_j5566277616090_2_alg».proof.Proof.Gen.KernelIdeal.Launch
import proofs.«161886_j5566277616090_2_alg».proof.Proof.Val.HostIdx
import proofs.«161886_j5566277616090_2_alg».proof.Proof.Val.RowAt
import proofs.«161886_j5566277616090_2_alg».proof.Proof.Val.Wrap
import Idealize.ShloMosaic.Lib.StableHlo.Run
import Idealize.ShloMosaic.Lib.Pipeline.Value
import Idealize.ShloMosaic.Lib.ValueIdx

set_option maxRecDepth 16384

noncomputable section

namespace Cert.KernelIdeal.Hand.Host

open Cert.KernelIdeal Cert.KernelIdeal.Gen Cert.Val
open Idealize.ShloMosaic Idealize.ShloMosaic.TcCoe Idealize.ShloMosaic.ValueIdx Idealize.ShloMosaic.StableHlo
open Idealize.SL.Sem

variable (V : Valuation τ sig (Elt Ideal))

/-- The target words: which node each of the 4096 output rows is. -/
abbrev t7_words : S4096.Idx → BitVec 32 := V (Proc.devRef .tc main_arg2)

set_option maxHeartbeats 2000000 in
/-- The index column in front of the gather of the aggregate's rows: each target word, a negative one moved up by the
    number of nodes, as a column. -/
theorem t7_idx65_term :
    after (hostOps7 (F := Ideal)) V (Proc.devRef .tc main_v65)
      = broadcastInDim S4096x1 ![0] bcast_S4096_S4096x1_0
          (select (cmpi .slt (t7_words V) (broadcastInDim S4096 ![] bcast_S_S4096 (constantI S_ 32 0#32)))
            (addi (t7_words V) (broadcastInDim S4096 ![] bcast_S_S4096 (constantI S_ 32 50000#32)))
            (t7_words V)) := by
  dsimp only [hostOps7]; after_results_simp
  all_goals rfl

set_option maxHeartbeats 2000000 in
/-- The same column, computed a second time in front of the gather of the inverse square roots. -/
theorem t7_idx72_term :
    after (hostOps7 (F := Ideal)) V (Proc.devRef .tc main_v72)
      = broadcastInDim S4096x1 ![0] bcast_S4096_S4096x1_0
          (select (cmpi .slt (t7_words V) (broadcastInDim S4096 ![] bcast_S_S4096 (constantI S_ 32 0#32)))
            (addi (t7_words V) (broadcastInDim S4096 ![] bcast_S_S4096 (constantI S_ 32 50000#32)))
            (t7_words V)) := by
  dsimp only [hostOps7]; after_results_simp
  all_goals rfl

/-- Either column at (r, 0): target word r, wrapped. -/
theorem t7_wrapCol_at (r : Fin 4096) :
    (broadcastInDim S4096x1 ![0] bcast_S4096_S4096x1_0
          (select (cmpi .slt (t7_words V) (broadcastInDim S4096 ![] bcast_S_S4096 (constantI S_ 32 0#32)))
            (addi (t7_words V) (broadcastInDim S4096 ![] bcast_S_S4096 (constantI S_ 32 50000#32)))
            (t7_words V))) (ix2 r (0 : Fin 1))
      = Scalar.select (IntOp.cmpi .slt (t7_words V (ix1 r)) 0#32) (IntOp.addi (t7_words V (ix1 r)) 50000#32) (t7_words V (ix1 r)) :=
  bcastCol_apply bcast_S4096_S4096x1_0 _ r

set_option maxHeartbeats 2000000 in
/-- The gathered rows are the gather, at that column, of the third aggregate as the stretch leaves it. -/
theorem t7_tpre_term :
    after (hostOps7 (F := Ideal)) V (Proc.devRef .tc main_v66)
      = Host.gather gather_S50000x128_S4096x1_S4096x128_1_0_n_n_0_1_1128
          (after (hostOps7 (F := Ideal)) V (Proc.devRef .tc main_v59))
          (after (hostOps7 (F := Ideal)) V (Proc.devRef .tc main_v65)) := by
  dsimp only [hostOps7]; after_results_simp
  all_goals rfl

set_option maxHeartbeats 2000000 in
/-- The gathered factors are the gather, at that column, of the column of inverse square roots the stretch finds. -/
theorem t7_dinvt_term :
    after (hostOps7 (F := Ideal)) V (Proc.devRef .tc main_v73)
      = Host.gather gather_S50000x1_S4096x1_S4096x1_1_0_n_n_0_1_11
          (V (Proc.devRef .tc main_v12))
          (after (hostOps7 (F := Ideal)) V (Proc.devRef .tc main_v72)) := by
  dsimp only [hostOps7]; after_results_simp
  all_goals rfl

/-- The gathered rows at (r, k): the third aggregate, as the stretch leaves it, at column k of the row target word r
    names (a negative word counted from the end, then kept inside the table). -/
theorem t7_tpre_at (r : Fin 4096) (k : Fin 128) :
    after (hostOps7 (F := Ideal)) V (Proc.devRef .tc main_v66) (ix2 r k)
      = after (hostOps7 (F := Ideal)) V (Proc.devRef .tc main_v59) (ix2 (wrapRow (t7_words V (ix1 r))) k) := by
  rw [t7_tpre_term]
  refine (gatherRow_apply (by norm_num) gather_S50000x128_S4096x1_S4096x128_1_0_n_n_0_1_1128_wf
    (after (hostOps7 (F := Ideal)) V (Proc.devRef .tc main_v59))
    (after (hostOps7 (F := Ideal)) V (Proc.devRef .tc main_v65)) r k).trans ?_
  refine row_at_wrap _ _ (t7_words V (ix1 r)) ?_ _ k
  rw [t7_idx65_term]
  exact t7_wrapCol_at V r

/-- The gathered factors at (r, 0): the inverse square root of the degree of the node target word r names, read off
    the column the stretch finds. -/
theorem t7_dinvt_at (r : Fin 4096) :
    after (hostOps7 (F := Ideal)) V (Proc.devRef .tc main_v73) (ix2 r (0 : Fin 1))
      = V (Proc.devRef .tc main_v12) (ix2 (wrapRow (t7_words V (ix1 r))) (0 : Fin 1)) := by
  rw [t7_dinvt_term]
  refine (gatherRow_apply (by norm_num) gather_S50000x1_S4096x1_S4096x1_1_0_n_n_0_1_11_wf
    (V (Proc.devRef .tc main_v12))
    (after (hostOps7 (F := Ideal)) V (Proc.devRef .tc main_v72)) r (0 : Fin 1)).trans ?_
  refine row_at_wrap _ _ (t7_words V (ix1 r)) ?_ _ (0 : Fin 1)
  rw [t7_idx72_term]
  exact t7_wrapCol_at V r

end Cert.KernelIdeal.Hand.Host

end
-- ==== Proof.Alg.GlueTailIn.lean ====
/-
  The last region's gathered inputs, at the staged contents of a core's buffers, in the reference's names.
  Before the last region the host gathers, for each of the 4096 target words, the row of the third
  aggregate and the entry of the column of inverse square roots that the word names.  The four pad and
  reshape stretches after it touch neither, the column and the bias row are as the first stretch left
  them, and nothing ever writes the target words.  So the scaled, biased gathered row is the scaled,
  biased row of the third aggregate at the node the target word names.
-/
import proofs.«161886_j5566277616090_2_alg».proof.Proof.KI.Keep
import proofs.«161886_j5566277616090_2_alg».proof.Proof.KH.Host7t
import proofs.«161886_j5566277616090_2_alg».proof.Proof.Alg.GlueArgs
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Hand.Glue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-! ## What is carried -/

variable (m : (ℓ : Loc nD τ sig) → Buf (Elt Ideal) ℓ) (c : Dev nD)

/-- An argument that nothing writes holds, at every boundary up to the last region's entry, its launch contents. -/
private theorem arg1 {b : Ref sig .tc} (h0 : b ∉ hostOps0_W) :
    W1 m c (Proc.devRef .tc b) = m ((c : Thread nD τ).loc b) :=
  (StableHlo.after_of_writes_sub hostOps0 _ hostOps0_writes h0).trans rfl

/-- The four pad and reshape stretches leave what they do not write. -/
private theorem carry12 {b : Ref sig .tc} (h1 : b ∉ hostOps7_1_W) : W12 m c (Proc.devRef .tc b) = W11 m c (Proc.devRef .tc b) :=
  StableHlo.after_of_writes_sub hostOps7_1 _ hostOps7_1_writes h1
private theorem carry13 {b : Ref sig .tc} (h2 : b ∉ hostOps7_2_W) : W13 m c (Proc.devRef .tc b) = W12 m c (Proc.devRef .tc b) :=
  StableHlo.after_of_writes_sub hostOps7_2 _ hostOps7_2_writes h2
private theorem carry14 {b : Ref sig .tc} (h3 : b ∉ hostOps7_3_W) : W14 m c (Proc.devRef .tc b) = W13 m c (Proc.devRef .tc b) :=
  StableHlo.after_of_writes_sub hostOps7_3 _ hostOps7_3_writes h3
private theorem carry15 {b : Ref sig .tc} (h4 : b ∉ hostOps7_4_W) : W15 m c (Proc.devRef .tc b) = W14 m c (Proc.devRef .tc b) :=
  StableHlo.after_of_writes_sub hostOps7_4 _ hostOps7_4_writes h4

/-! ## The four inputs -/

/-- The scaled, biased gathered row is the scaled, biased row of the third aggregate at the node the target word
names: so, once that row is the reference's third-layer row (`hH2`), it is the reference's row at that node. -/
theorem g_tp
    (hH2 : ∀ (i : Fin 50000) (k : Fin 128),
      sAgg2 m c (ix2 i k) * sDcol m c (ix2 i (0 : Fin 1)) + sRow15 m c (ix2 (0 : Fin 1) k)
        = Cert.ReferenceIdeal.Read.val_main_v129 (F := Ideal) (argX m c) (argE m c) (argW0 m c) (argB0 m c) (argW1 m c) (argB1 m c) (argW2 m c) (argB2 m c) (argG0 m c) (argBT0 m c) (argG1 m c) (argBT1 m c) (ix2 i k))
    (r : Fin 4096) (k : Fin 128) :
    sTpre m c (ix2 r k) * sDinvt m c (ix2 r (0 : Fin 1)) + sB2row m c (ix2 (0 : Fin 1) k)
      = Cert.ReferenceIdeal.Read.val_main_v129 (F := Ideal) (argX m c) (argE m c) (argW0 m c) (argB0 m c) (argW1 m c) (argB1 m c) (argW2 m c) (argB2 m c) (argG0 m c) (argBT0 m c) (argG1 m c) (argBT1 m c)
          (ix2 (Cert.Val.wrapRow (argT m c (ix1 r))) k) := by
  have kT : Kept main_arg2 := ⟨by decide, by decide, by decide, by decide, by decide, by decide, by decide, by decide⟩
  have k12 : Kept main_v12 := ⟨by decide, by decide, by decide, by decide, by decide, by decide, by decide, by decide⟩
  have k15 : Kept main_v15 := ⟨by decide, by decide, by decide, by decide, by decide, by decide, by decide, by decide⟩
  have hT : W10 m c (Proc.devRef .tc main_arg2) = argT m c := (keep10 m c kT).trans (arg1 m c (by decide))
  have hw : Host.t7_words (W10 m c) (ix1 r) = argT m c (ix1 r) := congrFun hT (ix1 r)
  have e66 : W15 m c (Proc.devRef .tc main_v66) = W11 m c (Proc.devRef .tc main_v66) :=
    (carry15 m c (by decide)).trans ((carry14 m c (by decide)).trans ((carry13 m c (by decide)).trans (carry12 m c (by decide))))
  have e73 : W15 m c (Proc.devRef .tc main_v73) = W11 m c (Proc.devRef .tc main_v73) :=
    (carry15 m c (by decide)).trans ((carry14 m c (by decide)).trans ((carry13 m c (by decide)).trans (carry12 m c (by decide))))
  have h66 : sTpre m c (ix2 r k) = sAgg2 m c (ix2 (Cert.Val.wrapRow (argT m c (ix1 r))) k) := by
    have h1 := Host.t7_tpre_at (W10 m c) r k
    rw [hw] at h1
    exact (congrFun e66 (ix2 r k)).trans h1
  have h73 : sDinvt m c (ix2 r (0 : Fin 1)) = sDcol m c (ix2 (Cert.Val.wrapRow (argT m c (ix1 r))) (0 : Fin 1)) := by
    have h1 := Host.t7_dinvt_at (W10 m c) r
    rw [hw] at h1
    exact ((congrFun e73 (ix2 r (0 : Fin 1))).trans h1).trans
      (congrFun (keep10 m c k12) (ix2 (Cert.Val.wrapRow (argT m c (ix1 r))) (0 : Fin 1)))
  have h15 : sB2row m c (ix2 (0 : Fin 1) k) = sRow15 m c (ix2 (0 : Fin 1) k) :=
    congrFun (keep15 m c k15) (ix2 (0 : Fin 1) k)
  rw [h66, h73, h15]
  exact hH2 (Cert.Val.wrapRow (argT m c (ix1 r))) k

end Cert.KernelIdeal.Hand.Glue
-- ==== Proof.Alg.GlueTailPad.lean ====
/-
  The three parameter arrays the last region reads that the host prepares just before it, at the staged contents of a
  core's buffers, in the arguments' names. The first feed-forward bias (128 entries) is made a row; the second weight
  (128 × 64) is padded on the right to 128 × 128; the second bias (64 entries) is made a row and padded on the right to
  1 × 128. Below column (lane) 64 a padded array is the array it pads, whatever it is filled with; a vector made a row
  reads at (0, j) as the vector at j; and the arguments are what was launched, since no host stretch and no region
  writes them.
-/
import proofs.«161886_j5566277616090_2_alg».proof.Proof.KI.Args
import proofs.«161886_j5566277616090_2_alg».proof.Proof.KI.Keep
import proofs.«161886_j5566277616090_2_alg».proof.Proof.KH.Host0
import proofs.«161886_j5566277616090_2_alg».proof.Proof.Alg.GlueArgs
import Idealize.ShloMosaic.Lib.KernelVsHost
import Idealize.ShloMosaic.Lib.StableHlo.Run
import Idealize.ShloMosaic.Lib.Pipeline.Value

set_option maxRecDepth 16384

noncomputable section

namespace Cert.KernelIdeal.Hand.Glue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-! ## The three host steps, over an arbitrary valuation of the buffers when the step starts -/

section Steps
variable (V : Valuation τ sig (Elt Ideal))

/-- The padded second weight below column 64: the weight the step finds. -/
theorem padW_at (k : Fin 128) (j : Fin 128) (hj : j.val < 64) :
    @Eq EReal (after (hostOps7_1 (F := Ideal)) V (Proc.devRef .tc main_v74) (ix2 k j))
      (V (Proc.devRef .tc main_arg15) (ix2 k (⟨j.val, hj⟩ : Fin 64))) := by
  have e : after (hostOps7_1 (F := Ideal)) V (Proc.devRef .tc main_v74)
      = pad S128x128 ![0, 0] ![0, 64] ![0, 0] (V (Proc.devRef .tc main_arg15) : S128x64.Idx → EReal)
          (sitofp (F := Ideal) .f32 (V (Proc.devRef .tc main_c_13) : S_.Idx → BitVec 32) : S_.Idx → EReal)
          pads_S128x64_S128x128_000_0640 h_S_ := by
    dsimp only [hostOps7_1]; after_results_simp
    all_goals rfl
  rw [e]
  refine pad_apply_of_inside _ _ _ _ _ pads_S128x64_S128x128_000_0640 h_S_ (ix2 k j)
    (ix2 k (⟨j.val, hj⟩ : Fin 64)) fun a => ?_
  match a with
  | ⟨0, _⟩ => show k.val = 0 + k.val * (0 + 1); omega
  | ⟨1, _⟩ => show j.val = 0 + j.val * (0 + 1); omega

/-- The second bias made a row, at `(0, j)`: the bias the step finds, at `j`. -/
theorem rowB2_at (j : Fin 64) :
    @Eq EReal (after (hostOps7_2 (F := Ideal)) V (Proc.devRef .tc main_v75) (ix2 (0 : Fin 1) j))
      (V (Proc.devRef .tc main_arg16) (ix1 j)) := by
  have e : after (hostOps7_2 (F := Ideal)) V (Proc.devRef .tc main_v75)
      = shapeCast S1x64 (V (Proc.devRef .tc main_arg16) : S64.Idx → EReal) shapeCasts_S64_S1x64 := by
    dsimp only [hostOps7_2]; after_results_simp
    all_goals rfl
  rw [e]
  exact Host.row_apply _ shapeCasts_S64_S1x64 j

/-- The padded second bias below lane 64: the row the step finds. -/
theorem padB_at (j : Fin 128) (hj : j.val < 64) :
    @Eq EReal (after (hostOps7_3 (F := Ideal)) V (Proc.devRef .tc main_v76) (ix2 (0 : Fin 1) j))
      (V (Proc.devRef .tc main_v75) (ix2 (0 : Fin 1) (⟨j.val, hj⟩ : Fin 64))) := by
  have e : after (hostOps7_3 (F := Ideal)) V (Proc.devRef .tc main_v76)
      = pad S1x128 ![0, 0] ![0, 64] ![0, 0] (V (Proc.devRef .tc main_v75) : S1x64.Idx → EReal)
          (sitofp (F := Ideal) .f32 (V (Proc.devRef .tc main_c_14) : S_.Idx → BitVec 32) : S_.Idx → EReal)
          pads_S1x64_S1x128_000_0640 h_S_ := by
    dsimp only [hostOps7_3]; after_results_simp
    all_goals rfl
  rw [e]
  refine pad_apply_of_inside _ _ _ _ _ pads_S1x64_S1x128_000_0640 h_S_ (ix2 (0 : Fin 1) j)
    (ix2 (0 : Fin 1) (⟨j.val, hj⟩ : Fin 64)) fun a => ?_
  match a with
  | ⟨0, _⟩ => show (0 : ℕ) = 0 + 0 * (0 + 1); omega
  | ⟨1, _⟩ => show j.val = 0 + j.val * (0 + 1); omega

/-- The first bias made a row, at `(0, k)`: the bias the step finds, at `k`. -/
theorem rowB1_at (k : Fin 128) :
    @Eq EReal (after (hostOps7_4 (F := Ideal)) V (Proc.devRef .tc main_v77) (ix2 (0 : Fin 1) k))
      (V (Proc.devRef .tc main_arg14) (ix1 k)) := by
  have e : after (hostOps7_4 (F := Ideal)) V (Proc.devRef .tc main_v77)
      = shapeCast S1x128 (V (Proc.devRef .tc main_arg14) : S128.Idx → EReal) shapeCasts_S128_S1x128 := by
    dsimp only [hostOps7_4]; after_results_simp
    all_goals rfl
  rw [e]
  exact Host.row_apply _ shapeCasts_S128_S1x128 k

end Steps

/-! ## The arguments are what was launched -/

variable (m : (ℓ : Loc nD τ sig) → Buf (Elt Ideal) ℓ) (c : Dev nD)

theorem kept_arg14 : Kept main_arg14 :=
  ⟨by decide, by decide, by decide, by decide, by decide, by decide, by decide, by decide⟩
theorem kept_arg15 : Kept main_arg15 :=
  ⟨by decide, by decide, by decide, by decide, by decide, by decide, by decide, by decide⟩
theorem kept_arg16 : Kept main_arg16 :=
  ⟨by decide, by decide, by decide, by decide, by decide, by decide, by decide, by decide⟩

/-- The first stretch writes none of the three. -/
theorem arg14_1 : W1 m c (Proc.devRef .tc main_arg14) = argF1B m c :=
  StableHlo.after_of_writes_sub hostOps0 _ hostOps0_writes (by decide)
theorem arg15_1 : W1 m c (Proc.devRef .tc main_arg15) = argF2W m c :=
  StableHlo.after_of_writes_sub hostOps0 _ hostOps0_writes (by decide)
theorem arg16_1 : W1 m c (Proc.devRef .tc main_arg16) = argF2B m c :=
  StableHlo.after_of_writes_sub hostOps0 _ hostOps0_writes (by decide)

/-! ## The three arrays as the last region finds them -/

/-- THE FIRST BIAS ROW at `(0, k)` is the first feed-forward bias at `k`. -/
theorem g_f1b (k : Fin 128) : sF1Brow m c (ix2 (0 : Fin 1) k) = argF1B m c (ix1 k) := by
  refine (rowB1_at (W14 m c) k).trans ?_
  exact congrFun ((keep14 m c kept_arg14).trans (arg14_1 m c)) (ix1 k)

/-- THE PADDED SECOND WEIGHT at `(k, j)`, `j` below 64, is the second feed-forward weight at `(k, j)`. -/
theorem g_f2w (k : Fin 128) (j : Fin 64) :
    sF2Wpad m c (ix2 k ⟨j.val, by omega⟩) = argF2W m c (ix2 k j) := by
  have h4 : W15 m c (Proc.devRef .tc main_v74) = W14 m c (Proc.devRef .tc main_v74) :=
    StableHlo.after_of_writes_sub hostOps7_4 _ hostOps7_4_writes (by decide)
  have h3 : W14 m c (Proc.devRef .tc main_v74) = W13 m c (Proc.devRef .tc main_v74) :=
    StableHlo.after_of_writes_sub hostOps7_3 _ hostOps7_3_writes (by decide)
  have h2 : W13 m c (Proc.devRef .tc main_v74) = W12 m c (Proc.devRef .tc main_v74) :=
    StableHlo.after_of_writes_sub hostOps7_2 _ hostOps7_2_writes (by decide)
  refine (congrFun (h4.trans (h3.trans h2)) (ix2 k (⟨j.val, by omega⟩ : Fin 128))).trans ?_
  refine (padW_at (W11 m c) k (⟨j.val, by omega⟩ : Fin 128) j.isLt).trans ?_
  exact congrFun ((keep11 m c kept_arg15).trans (arg15_1 m c)) (ix2 k j)

/-- THE PADDED SECOND BIAS ROW at `(0, j)`, `j` below 64, is the second feed-forward bias at `j`. -/
theorem g_f2b (j : Fin 64) :
    sF2Bpad m c (ix2 (0 : Fin 1) ⟨j.val, by omega⟩) = argF2B m c (ix1 j) := by
  have h4 : W15 m c (Proc.devRef .tc main_v76) = W14 m c (Proc.devRef .tc main_v76) :=
    StableHlo.after_of_writes_sub hostOps7_4 _ hostOps7_4_writes (by decide)
  refine (congrFun h4 (ix2 (0 : Fin 1) (⟨j.val, by omega⟩ : Fin 128))).trans ?_
  refine (padB_at (W13 m c) (⟨j.val, by omega⟩ : Fin 128) j.isLt).trans ?_
  refine (rowB2_at (W12 m c) j).trans ?_
  exact congrFun ((keep12 m c kept_arg16).trans (arg16_1 m c)) (ix1 j)

end Cert.KernelIdeal.Hand.Glue

end
-- ==== Proof.KI.Val7Pay.lean ====
/-
  Region 7's arithmetic at one entry, at the ideal values: floats are extended reals, a conversion to or from bf16 is
  the identity, and a matrix product accumulated from zero is the plain sum over the contracted axis.
  For the seven loaded blocks x (1024×128), dv (1024×1), b2 (1×128), w1 (128×128), b1 (1×128), w2 (128×128), bo (1×128),
  entry (r, j) of the stored block is
      Σ_k max( Σ_k' (x[r,k']·dv[r,0] + b2[0,k'])·w1[k',k] + b1[0,k] , 0 ) · w2[k,j]  +  bo[0,j].
  Three facts carry it: a column of factors broadcast across lanes reads its row's factor; a row broadcast down the
  rows reads its lane; term k of a product reads the left operand at (row, k) and the right at (k, column).
-/
import proofs.«161886_j5566277616090_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand.Val7

open Cert.KernelIdeal Cert.KernelIdeal.Gen
open Idealize.ShloMosaic Idealize.ShloMosaic.ValueIdx

/-- A column of factors, one per row, broadcast across the lanes reads at (p, c) the factor of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dimension numbers of both matrix products: rows of the left operand against columns of the right. -/
abbrev D7 : DotDims S1024x128 S128x128 S1024x128 := dot_S1024x128_S128x128_S1024x128_1_0_0_1_n_n

/-- Where a product's term k reads its operands: the left at (row, k), the right at (k, column). -/
theorem D7_lhs0 (i : S1024x128.Idx) (q : D7.contr.Idx) : (D7.lhsIdx i q 0).val = (i 0).val := by
  unfold DotDims.lhsIdx
  rw [dif_neg (show ¬(0 : Fin S1024x128.rank) ∈ D7.lhsBatch by decide), dif_pos (show (0 : Fin S1024x128.rank) ∈ D7.lhsNonContracting by decide)]
  rfl
theorem D7_lhs1 (i : S1024x128.Idx) (q : D7.contr.Idx) : (D7.lhsIdx i q 1).val = (q ⟨0, by decide⟩).val :=
  D7.lhsIdx_val_of_single rfl i q
theorem D7_rhs0 (i : S1024x128.Idx) (q : D7.contr.Idx) : (D7.rhsIdx i q 0).val = (q ⟨0, by decide⟩).val :=
  D7.rhsIdx_val_of_single rfl i q
theorem D7_rhs1 (i : S1024x128.Idx) (q : D7.contr.Idx) : (D7.rhsIdx i q 1).val = (i 1).val := by
  unfold DotDims.rhsIdx
  rw [dif_neg (show ¬(1 : Fin S128x128.rank) ∈ D7.rhsBatch by decide), dif_pos (show (1 : Fin S128x128.rank) ∈ D7.rhsNonContracting by decide)]
  rfl

/-- A matrix product accumulated from zero, at the ideal values, read at (r, j): the sum over the 128 contracted
    positions of left (r, k) times right (k, j). -/
theorem matmul7_apply (a : FVec Ideal S1024x128 .bf16) (b : FVec Ideal S128x128 .bf16) (r : Fin 1024) (j : Fin 128) :
    matmul D7 none a b (constant (F := Ideal) S1024x128 .f32 0x00000000#32) (ix2 r j) = ∑ k : Fin 128, a (ix2 r k) * b (ix2 k j) := by
  refine (Ideal.matmul_constant_zero_apply D7 none a b (ix2 r j)).trans ?_
  rw [← Equiv.sum_comp (contrEquiv1 D7 128 rfl rfl).symm]
  refine Finset.sum_congr rfl fun k _ => ?_
  have hk := contrEquiv1_symm_val D7 128 rfl rfl k
  have el : D7.lhsIdx (ix2 r j) ((contrEquiv1 D7 128 rfl rfl).symm k) = ix2 r k := funext fun ax => Fin.ext (by
    match ax with
    | ⟨0, _⟩ => exact D7_lhs0 _ _
    | ⟨1, _⟩ => exact (D7_lhs1 _ _).trans hk)
  have er : D7.rhsIdx (ix2 r j) ((contrEquiv1 D7 128 rfl rfl).symm k) = ix2 k j := funext fun ax => Fin.ext (by
    match ax with
    | ⟨0, _⟩ => exact (D7_rhs0 _ _).trans hk
    | ⟨1, _⟩ => exact D7_rhs1 _ _)
  rw [el, er]

/-- Entry (r, j) of the block the body stores, from the seven loaded blocks, at the ideal values. With
    u[r,k'] = x[r,k']·dv[r,0] + b2[0,k']  (the row scaled by its factor, the bias added), the first layer is
    h[r,k] = max(Σ_k' u[r,k']·w1[k',k] + b1[0,k], 0)  and the entry is  Σ_k h[r,k]·w2[k,j] + bo[0,j]:
    the conversions to bf16 change nothing here and both products start from a zero accumulator. -/
theorem k7_pay1_apply (x : Vec Ideal S1024x128 .f32) (dv : Vec Ideal S1024x1 .f32) (b2 : Vec Ideal S1x128 .f32)
    (w1 : Vec Ideal S128x128 .f32) (b1 : Vec Ideal S1x128 .f32) (w2 : Vec Ideal S128x128 .f32) (bo : Vec Ideal S1x128 .f32)
    (r : Fin 1024) (j : Fin 128) :
    k7_pay1 x dv b2 w1 b1 w2 bo (ix2 r j)
      = (∑ k : Fin 128, max ((∑ k' : Fin 128, (x (ix2 r k') * dv (ix2 r (0 : Fin 1)) + b2 (ix2 (0 : Fin 1) k')) * w1 (ix2 k' k))
            + b1 (ix2 (0 : Fin 1) k)) 0 * w2 (ix2 k j)) + bo (ix2 (0 : Fin 1) j) := by
  unfold k7_pay1
  simp only [shapeCast_self]
  show (matmul (F := Ideal) D7 none _ _ _) (ix2 r j) + (broadcastTo S1024x128 bo _) (ix2 r j) = _
  refine congrArg₂ (· + ·) ?_ ?_
  · refine (matmul7_apply _ _ r j).trans ?_
    refine Finset.sum_congr rfl fun k _ => ?_
    show max ((matmul (F := Ideal) D7 none _ _ _) (ix2 r k) + (broadcastTo S1024x128 b1 _) (ix2 r k)) (Ideal.ofBits .f32 0x00000000#32)
        * w2 (ix2 k j) = _
    rw [Ideal.ofBits_zero_f32, broadcastTo_1b_ab_apply]
    refine congrArg (fun s => max (s + b1 (ix2 (0 : Fin 1) k)) 0 * w2 (ix2 k j)) ?_
    refine (matmul7_apply _ _ r k).trans ?_
    refine Finset.sum_congr rfl fun k' _ => ?_
    show (x (ix2 r k') * (broadcastTo S1024x128 dv _) (ix2 r k') + (broadcastTo S1024x128 b2 _) (ix2 r k')) * w1 (ix2 k' k) = _
    rw [broadcastTo_a1_ab_apply, broadcastTo_1b_ab_apply]
  · rw [broadcastTo_1b_ab_apply]

end Cert.KernelIdeal.Hand.Val7

end
-- ==== Proof.KI.Val7Blk.lean ====
/-
  Region 7's windows as parts of their arrays. The grid has four points; at point t the two per-row inputs (the gathered
  rows, 4096×128, and their factors, 4096×1) and the output (4096×128) are at row block t, rows 1024·t … 1024·t+1023;
  the five shared inputs (three 1×128 rows, two 128×128 weights) are always their whole array. So an entry of an input
  block is the array's entry 1024·t rows further down (or the same entry, for a shared input), an entry (r, j) of the
  output array lies in exactly the block of point r / 1024, and the four blocks written back cover the array.
-/
import proofs.«161886_j5566277616090_2_alg».proof.Proof.KI.Reg7
import Idealize.ShloMosaic.Lib.ValueIdx
import Idealize.ShloMosaic.Lib.Pipeline.Value

set_option maxRecDepth 16384

noncomputable section

namespace Cert.KernelIdeal.Hand.Val7

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The zero offsets of a whole-buffer access, as the constant function. -/
theorem hz : (![0, 0] : Fin 2 → Nat) = fun _ => 0 := funext fun a => by fin_cases a <;> rfl

/-- The printed index maps, decided over the four grid points: the row blocks of the two per-row inputs and of the
    output are block t at point t; the five shared inputs are always their one block; no window moves along the lanes. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Each input window's block at point t is the array read where the block sits: rows 1024·t … of the two per-row
    arrays, the whole array for the five shared ones. Stated at literal coordinates. -/
theorem blk7_0_apply (c : Dev nD) (t : Fin cfg7.N) (p : Fin 1024) (k : Fin 128) (R : Fin 4096) (hR : R.val = t.val * 1024 + p.val) :
    (blk7 V c 0 t : Vec F S1024x128 .f32) (ix2 p k) = (V c (Pipeline.arrRef spec7 0) : S4096x128.Idx → Elt F .f32) (ix2 R k) := by
  obtain ⟨e00, e01, e10, e11, e20, e21, e30, e31, e40, e41, e50, e51, e60, e61, e70, e71⟩ := idx_facts7 t
  show (V c (Pipeline.arrRef spec7 0) : S4096x128.Idx → Elt F .f32) (((cfg7.win 0).blk t).view.emb (ix2 p k)) = _
  refine congrArg _ (funext fun a => Fin.ext ?_)
  match a with
  | ⟨0, _⟩ => show win7_0.index t (0 : Fin 2) * 1024 + 1 * p.val = R.val; rw [e00, hR]; omega
  | ⟨1, _⟩ => show win7_0.index t (1 : Fin 2) * 128 + 1 * k.val = k.val; rw [e01]; omega
theorem blk7_1_apply (c : Dev nD) (t : Fin cfg7.N) (p : Fin 1024) (k : Fin 1) (R : Fin 4096) (hR : R.val = t.val * 1024 + p.val) :
    (blk7 V c 1 t : Vec F S1024x1 .f32) (ix2 p k) = (V c (Pipeline.arrRef spec7 1) : S4096x1.Idx → Elt F .f32) (ix2 R k) := by
  obtain ⟨e00, e01, e10, e11, e20, e21, e30, e31, e40, e41, e50, e51, e60, e61, e70, e71⟩ := idx_facts7 t
  show (V c (Pipeline.arrRef spec7 1) : S4096x1.Idx → Elt F .f32) (((cfg7.win 1).blk t).view.emb (ix2 p k)) = _
  refine congrArg _ (funext fun a => Fin.ext ?_)
  match a with
  | ⟨0, _⟩ => show win7_1.index t (0 : Fin 2) * 1024 + 1 * p.val = R.val; rw [e10, hR]; omega
  | ⟨1, _⟩ => show win7_1.index t (1 : Fin 2) * 1 + 1 * k.val = k.val; rw [e11]; omega
theorem blk7_2_apply (c : Dev nD) (t : Fin cfg7.N) (p : Fin 1) (k : Fin 128) :
    (blk7 V c 2 t : Vec F S1x128 .f32) (ix2 p k) = (V c (Pipeline.arrRef spec7 2) : S1x128.Idx → Elt F .f32) (ix2 p k) := by
  obtain ⟨e00, e01, e10, e11, e20, e21, e30, e31, e40, e41, e50, e51, e60, e61, e70, e71⟩ := idx_facts7 t
  show (V c (Pipeline.arrRef spec7 2) : S1x128.Idx → Elt F .f32) (((cfg7.win 2).blk t).view.emb (ix2 p k)) = _
  refine congrArg _ (funext fun a => Fin.ext ?_)
  match a with
  | ⟨0, _⟩ => show win7_2.index t (0 : Fin 2) * 1 + 1 * p.val = p.val; rw [e20]; omega
  | ⟨1, _⟩ => show win7_2.index t (1 : Fin 2) * 128 + 1 * k.val = k.val; rw [e21]; omega
theorem blk7_3_apply (c : Dev nD) (t : Fin cfg7.N) (p : Fin 128) (k : Fin 128) :
    (blk7 V c 3 t : Vec F S128x128 .f32) (ix2 p k) = (V c (Pipeline.arrRef spec7 3) : S128x128.Idx → Elt F .f32) (ix2 p k) := by
  obtain ⟨e00, e01, e10, e11, e20, e21, e30, e31, e40, e41, e50, e51, e60, e61, e70, e71⟩ := idx_facts7 t
  show (V c (Pipeline.arrRef spec7 3) : S128x128.Idx → Elt F .f32) (((cfg7.win 3).blk t).view.emb (ix2 p k)) = _
  refine congrArg _ (funext fun a => Fin.ext ?_)
  match a with
  | ⟨0, _⟩ => show win7_3.index t (0 : Fin 2) * 128 + 1 * p.val = p.val; rw [e30]; omega
  | ⟨1, _⟩ => show win7_3.index t (1 : Fin 2) * 128 + 1 * k.val = k.val; rw [e31]; omega
theorem blk7_4_apply (c : Dev nD) (t : Fin cfg7.N) (p : Fin 1) (k : Fin 128) :
    (blk7 V c 4 t : Vec F S1x128 .f32) (ix2 p k) = (V c (Pipeline.arrRef spec7 4) : S1x128.Idx → Elt F .f32) (ix2 p k) := by
  obtain ⟨e00, e01, e10, e11, e20, e21, e30, e31, e40, e41, e50, e51, e60, e61, e70, e71⟩ := idx_facts7 t
  show (V c (Pipeline.arrRef spec7 4) : S1x128.Idx → Elt F .f32) (((cfg7.win 4).blk t).view.emb (ix2 p k)) = _
  refine congrArg _ (funext fun a => Fin.ext ?_)
  match a with
  | ⟨0, _⟩ => show win7_4.index t (0 : Fin 2) * 1 + 1 * p.val = p.val; rw [e40]; omega
  | ⟨1, _⟩ => show win7_4.index t (1 : Fin 2) * 128 + 1 * k.val = k.val; rw [e41]; omega
theorem blk7_5_apply (c : Dev nD) (t : Fin cfg7.N) (p : Fin 128) (k : Fin 128) :
    (blk7 V c 5 t : Vec F S128x128 .f32) (ix2 p k) = (V c (Pipeline.arrRef spec7 5) : S128x128.Idx → Elt F .f32) (ix2 p k) := by
  obtain ⟨e00, e01, e10, e11, e20, e21, e30, e31, e40, e41, e50, e51, e60, e61, e70, e71⟩ := idx_facts7 t
  show (V c (Pipeline.arrRef spec7 5) : S128x128.Idx → Elt F .f32) (((cfg7.win 5).blk t).view.emb (ix2 p k)) = _
  refine congrArg _ (funext fun a => Fin.ext ?_)
  match a with
  | ⟨0, _⟩ => show win7_5.index t (0 : Fin 2) * 128 + 1 * p.val = p.val; rw [e50]; omega
  | ⟨1, _⟩ => show win7_5.index t (1 : Fin 2) * 128 + 1 * k.val = k.val; rw [e51]; omega
theorem blk7_6_apply (c : Dev nD) (t : Fin cfg7.N) (p : Fin 1) (k : Fin 128) :
    (blk7 V c 6 t : Vec F S1x128 .f32) (ix2 p k) = (V c (Pipeline.arrRef spec7 6) : S1x128.Idx → Elt F .f32) (ix2 p k) := by
  obtain ⟨e00, e01, e10, e11, e20, e21, e30, e31, e40, e41, e50, e51, e60, e61, e70, e71⟩ := idx_facts7 t
  show (V c (Pipeline.arrRef spec7 6) : S1x128.Idx → Elt F .f32) (((cfg7.win 6).blk t).view.emb (ix2 p k)) = _
  refine congrArg _ (funext fun a => Fin.ext ?_)
  match a with
  | ⟨0, _⟩ => show win7_6.index t (0 : Fin 2) * 1 + 1 * p.val = p.val; rw [e60]; omega
  | ⟨1, _⟩ => show win7_6.index t (1 : Fin 2) * 128 + 1 * k.val = k.val; rw [e61]; omega

/-- An index of the output array is in point t's block iff each coordinate is in the block's range on its axis. -/
theorem mem_blk7 (t : Fin cfg7.N) (i : S4096x128.Idx) :
    i ∈ ((cfg7.win 7).blk t).view.set ↔ ∀ a : Fin 2, win7_7.index t a * S1024x128.size a ≤ (i a).val ∧ (i a).val < win7_7.index t a * S1024x128.size a + S1024x128.size a := by
  show i ∈ ((View.whole main_v78).slice (win7_7.rect t)).set ↔ _
  rw [View.set_slice_whole, Rect.mem_set_unit]
  exact Iff.rfl

/-- Every entry of the output array is written back by some point: row r by point r / 1024 (4096 rows, 1024 a block). -/
theorem cover7 (i : S4096x128.Idx) : ∃ t : Fin cfg7.N, (cfg7.win 7).flush t = true ∧ i ∈ ((cfg7.win 7).blk t).view.set := by
  have h0 : (i 0).val < 4096 := (i 0).isLt
  have h1 : (i 1).val < 128 := (i 1).isLt
  have hN : cfg7.N = 4 := N_7
  have ht : (i 0).val / 1024 < cfg7.N := by rw [hN]; omega
  obtain ⟨e00, e01, e10, e11, e20, e21, e30, e31, e40, e41, e50, e51, e60, e61, e70, e71⟩ := idx_facts7 ⟨(i 0).val / 1024, ht⟩
  refine ⟨⟨(i 0).val / 1024, ht⟩, flush7_7 _, ?_⟩
  rw [mem_blk7]
  intro a
  match a with
  | ⟨0, _⟩ =>
    show win7_7.index ⟨(i 0).val / 1024, ht⟩ (0 : Fin 2) * 1024 ≤ (i 0).val ∧ (i 0).val < win7_7.index ⟨(i 0).val / 1024, ht⟩ (0 : Fin 2) * 1024 + 1024
    rw [e70]; show (i 0).val / 1024 * 1024 ≤ (i 0).val ∧ (i 0).val < (i 0).val / 1024 * 1024 + 1024; omega
  | ⟨1, _⟩ =>
    show win7_7.index ⟨(i 0).val / 1024, ht⟩ (1 : Fin 2) * 128 ≤ (i 1).val ∧ (i 1).val < win7_7.index ⟨(i 0).val / 1024, ht⟩ (1 : Fin 2) * 128 + 128
    rw [e71]; omega

end Cert.KernelIdeal.Hand.Val7

end
-- ==== Proof.KI.Val7.lean ====
/-
  The value of region 7 at the ideal values: the output array after the region, entry by entry, as one function of the
  seven input arrays as the region finds them. With t_pre the gathered rows, dinv_t their inverse-square-root degrees,
  b2 the graph layer's bias, (f1w, f1b) the first feed-forward layer and (f2w_pad, f2b_pad) the second, zero-padded to
  128 lanes, entry (r, j) of the 4096×128 result is
      Σ_k max( Σ_k' (t_pre[r,k']·dinv_t[r,0] + b2[0,k'])·f1w[k',k] + f1b[0,k] , 0 ) · f2w_pad[k,j]  +  f2b_pad[0,j].
  Point t stores the payload of its input blocks; at an entry that payload is the formula above over the blocks; each
  block entry is an array entry (rows shifted by 1024·t for the per-row inputs); so what point t writes back is block t
  of the one function, and the four blocks cover the array.
-/
import proofs.«161886_j5566277616090_2_alg».proof.Proof.KI.Val7Pay
import proofs.«161886_j5566277616090_2_alg».proof.Proof.KI.Val7Blk

set_option maxRecDepth 16384

noncomputable section

namespace Cert.KernelIdeal.Hand.Val7

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The seven input arrays as the region finds them: the gathered pre-activation rows and their inverse-square-root
    degrees, the graph layer's bias, the first feed-forward weight and bias, the second weight and bias (both padded
    with zero columns to 128 lanes). -/
abbrev tpre (c : Dev nD) : S4096x128.Idx → EReal := V c (Pipeline.arrRef spec7 0)
abbrev dinvt (c : Dev nD) : S4096x1.Idx → EReal := V c (Pipeline.arrRef spec7 1)
abbrev gbias (c : Dev nD) : S1x128.Idx → EReal := V c (Pipeline.arrRef spec7 2)
abbrev f1w (c : Dev nD) : S128x128.Idx → EReal := V c (Pipeline.arrRef spec7 3)
abbrev f1b (c : Dev nD) : S1x128.Idx → EReal := V c (Pipeline.arrRef spec7 4)
abbrev f2wpad (c : Dev nD) : S128x128.Idx → EReal := V c (Pipeline.arrRef spec7 5)
abbrev f2bpad (c : Dev nD) : S1x128.Idx → EReal := V c (Pipeline.arrRef spec7 6)

/-- Entry (r, j) of the result: the second layer applied to the rectified first layer of row r's scaled, biased
    features. -/
def out7 (c : Dev nD) (r : Fin 4096) (j : Fin 128) : EReal :=
  (∑ k : Fin 128, max ((∑ k' : Fin 128, (tpre V c (ix2 r k') * dinvt V c (ix2 r (0 : Fin 1)) + gbias V c (ix2 (0 : Fin 1) k')) * f1w V c (ix2 k' k))
      + f1b V c (ix2 (0 : Fin 1) k)) 0 * f2wpad V c (ix2 k j)) + f2bpad V c (ix2 (0 : Fin 1) j)

/-- The output array as one function of the input arrays, entry by entry. -/
def G7 (c : Dev nD) : S4096x128.Idx → EReal := fun i => out7 V c ⟨(i 0).val, idx2_lt0 i⟩ ⟨(i 1).val, idx2_lt1 i⟩

/-- What point t writes back is block t of that one function: the stored block's entry (p, q) is the payload of the
    point's input blocks there, each input block is its array 1024·t rows down (or the array itself), and the output
    block's entry (p, q) is the array's entry (1024·t + p, q). -/
theorem flushed7_eq (c : Dev nD) (t : Fin cfg7.N) :
    (dat7 (F := Ideal) V c).flushed 7 t = ((cfg7.win 7).blk t).view.read (Elt Ideal) (G7 V c) := by
  have hN : cfg7.N = 4 := N_7
  have htl : t.val < 4 := by have := t.isLt; omega
  obtain ⟨e00, e01, e10, e11, e20, e21, e30, e31, e40, e41, e50, e51, e60, e61, e70, e71⟩ := idx_facts7 t
  show (cfg7.win 7).cut (grid7.coords t) ((dat7 V c).after 7 t) = _
  rw [dat7_after_out]
  unfold ffn7
  rw [View.canon_unit_zero hz]
  simp only [View.ld_unit_zero (S := S1024x128) hz, View.ld_unit_zero (S := S1024x1) hz, View.ld_unit_zero (S := S1x128) hz,
    View.ld_unit_zero (S := S128x128) hz]
  show (k7_pay1 (blk7 V c 0 t) (blk7 V c 1 t) (blk7 V c 2 t) (blk7 V c 3 t) (blk7 V c 4 t) (blk7 V c 5 t) (blk7 V c 6 t) : S1024x128.Idx → EReal)
      = fun y : S1024x128.Idx => G7 V c (((cfg7.win 7).blk t).view.emb y)
  funext y
  obtain ⟨p, q, rfl⟩ : ∃ (p : Fin 1024) (q : Fin 128), y = ix2 p q := ⟨y 0, y 1, eq_ix2 y⟩
  have hR : t.val * 1024 + p.val < 4096 := by have := p.isLt; omega
  have hemb : (((cfg7.win 7).blk t).view.emb (ix2 p q) : S4096x128.Idx) = ix2 (⟨t.val * 1024 + p.val, hR⟩ : Fin 4096) q :=
    funext fun a => Fin.ext (by
      match a with
      | ⟨0, _⟩ => show win7_7.index t (0 : Fin 2) * 1024 + 1 * p.val = t.val * 1024 + p.val; rw [e70]; omega
      | ⟨1, _⟩ => show win7_7.index t (1 : Fin 2) * 128 + 1 * q.val = q.val; rw [e71]; omega)
  refine (k7_pay1_apply _ _ _ _ _ _ _ p q).trans ?_
  refine Eq.trans ?_ (congrArg (G7 V c) hemb).symm
  show _ = out7 V c ⟨t.val * 1024 + p.val, hR⟩ q
  unfold out7
  simp only [blk7_0_apply V c t p _ ⟨t.val * 1024 + p.val, hR⟩ rfl, blk7_1_apply V c t p _ ⟨t.val * 1024 + p.val, hR⟩ rfl,
    blk7_2_apply V c t, blk7_3_apply V c t, blk7_4_apply V c t, blk7_5_apply V c t, blk7_6_apply V c t]

/-- The output array after the region is that function: the four blocks written back cover it. -/
theorem final7 (c : Dev nD) : (dat7 (F := Ideal) V c).arrAt 7 cfg7.N = G7 V c :=
  (dat7 V c).arrAt_eq_of_cover 7 (G7 V c) (fun t _ => flushed7_eq V c t) cover7

/-- THE VALUE OF REGION 7, entry by entry: after the region the output array holds at (r, j)
      Σ_k max( Σ_k' (t_pre[r,k']·dinv_t[r,0] + b2[0,k'])·f1w[k',k] + f1b[0,k] , 0 ) · f2w_pad[k,j]  +  f2b_pad[0,j],
    the max with 0 being the rectifier, every array read as the region found it. -/
theorem out7_apply (c : Dev nD) (r : Fin 4096) (j : Fin 128) :
    (dat7 (F := Ideal) V c).arrAt 7 cfg7.N (ix2 r j)
      = (∑ k : Fin 128, max ((∑ k' : Fin 128, (tpre V c (ix2 r k') * dinvt V c (ix2 r (0 : Fin 1)) + gbias V c (ix2 (0 : Fin 1) k')) * f1w V c (ix2 k' k))
            + f1b V c (ix2 (0 : Fin 1) k)) 0 * f2wpad V c (ix2 k j)) + f2bpad V c (ix2 (0 : Fin 1) j) :=
  congrFun (final7 V c) (ix2 r j)

end Cert.KernelIdeal.Hand.Val7

end
-- ==== Proof.Val.RefTail.lean ====
import proofs.«161886_j5566277616090_2_alg».proof.Proof.Gen.ReferenceIdeal.Read
import proofs.«161886_j5566277616090_2_alg».proof.Proof.Val.HostIdx
import proofs.«161886_j5566277616090_2_alg».proof.Proof.Val.RowAt
import proofs.«161886_j5566277616090_2_alg».proof.Proof.Val.RefLayer0

/-!
# The tail of the reference, read at an index

After the third graph-convolution layer the reference picks, for each of the 4096 target words, the row
of the layer's output the word names (a negative word wrapped by the number of rows, the start index then
clamped), and runs a two-layer feed-forward network on it:
`out[r, j] = Σ_k max (Σ_k' h2[t r, k'] · f1w[k', k] + f1b[k]) 0 · f2w[k, j] + f2b[j]`, `t r` the row the
`r`-th target word names.  Read at `(r, j)` through the generated per-operation readings, with the one
unread stage (the row gather) read by the lemma on the host operation, this is that formula over the third
layer's output as a named array: nothing here looks inside it.
-/

noncomputable section

open scoped BigOperators

namespace Cert.Val.Ref

open Cert.ReferenceIdeal Idealize.ShloMosaic Idealize.ShloMosaic.ValueIdx Cert.Val

/-! ## Names -/

/-- The target words, the second feed-forward weight and its bias, at the exact instance. -/
abbrev TArr := (⟨S4096, .i32⟩ : BufTy).Contents (Elt Ideal)
abbrev W2Arr := (⟨S128x64, .f32⟩ : BufTy).Contents (Elt Ideal)
abbrev B2Arr := (⟨S64, .f32⟩ : BufTy).Contents (Elt Ideal)

variable (x : XArr) (ei : EArr) (ti : TArr) (W0 : WArr) (b0 : BArr) (W1 : WArr) (b1 : BArr) (W2 : WArr)
  (b2 g0 bt0 g1 bt1 : BArr) (f1w : WArr) (f1b : BArr) (f2w : W2Arr) (f2b : B2Arr)

-- The third layer's output is a name here: nothing below looks inside it.
attribute [local irreducible] Read.val_main_v129

/-- The third layer's output `[50000, 128]`. -/
local notation "H2" => Read.val_main_v129 (F := Ideal) x ei W0 b0 W1 b1 W2 b2 g0 bt0 g1 bt1

/-! ## The index column in front of the row gather -/

/-- The start-index column of the row gather: the wrapped target word. -/
theorem v135_at (r : Fin 4096) :
    Read.val_main_v135 (F := Ideal) ti (ix2 r (0 : Fin 1))
      = Scalar.select (IntOp.cmpi .slt (ti (ix1 r)) 0#32) (IntOp.addi (ti (ix1 r)) 50000#32) (ti (ix1 r)) := by
  rw [Read.val_main_v135_apply]
  have hi : Read.idx_main_v135 (ix2 r (0 : Fin 1)) = ix1 r := by
    funext a; match a with | ⟨0, _⟩ => rfl
  rw [hi]
  rfl

attribute [local irreducible] Read.val_main_v135

/-! ## The gathered rows -/

/-- The gathered row of target `r`: the row of the third layer's output its word names. -/
theorem v136_at (r : Fin 4096) (k : Fin 128) :
    Read.val_main_v136 (F := Ideal) x ei ti W0 b0 W1 b1 W2 b2 g0 bt0 g1 bt1 (ix2 r k)
      = H2 (ix2 (wrapRow (ti (ix1 r))) k) := by
  unfold Read.val_main_v136
  refine (gatherRow_apply (by norm_num) Facts₀.gather_S50000x128_S4096x1_S4096x128_1_0_n_n_0_1_1128_wf
    H2 (Read.val_main_v135 (F := Ideal) ti) r k).trans ?_
  exact row_at_wrap H2 (Read.val_main_v135 (F := Ideal) ti (ix2 r (0 : Fin 1))) (ti (ix1 r)) (v135_at ti r) _ k

attribute [local irreducible] Read.val_main_v136

/-! ## The first feed-forward layer -/

/-- The first product at `(r, k)`. -/
theorem v137_at (r : Fin 4096) (k : Fin 128) :
    Read.val_main_v137 (F := Ideal) x ei ti W0 b0 W1 b1 W2 b2 g0 bt0 g1 bt1 f1w (ix2 r k)
      = ∑ k' : Fin 128, H2 (ix2 (wrapRow (ti (ix1 r))) k') * f1w (ix2 k' k) := by
  rw [Read.val_main_v137_apply]
  refine Finset.sum_congr rfl (fun k' _ => ?_)
  have hl : Read.lidx_main_v137 (ix2 r k) k' = ix2 r k' := by
    funext a; match a with | ⟨0, _⟩ => rfl | ⟨1, _⟩ => rfl
  have hr : Read.ridx_main_v137 (ix2 r k) k' = ix2 k' k := by
    funext a; match a with | ⟨0, _⟩ => rfl | ⟨1, _⟩ => rfl
  rw [hl, hr, v136_at]

attribute [local irreducible] Read.val_main_v137

/-- The first layer's pre-activation at `(r, k)`: the product plus the bias. -/
theorem v140_at (r : Fin 4096) (k : Fin 128) :
    Read.val_main_v140 (F := Ideal) x ei ti W0 b0 W1 b1 W2 b2 g0 bt0 g1 bt1 f1w f1b (ix2 r k)
      = (∑ k' : Fin 128, H2 (ix2 (wrapRow (ti (ix1 r))) k') * f1w (ix2 k' k)) + f1b (ix1 k) := by
  rw [Read.val_main_v140_apply, v137_at, Read.val_main_v139_apply, Read.val_main_v138_apply]
  have hi : Read.idx_main_v138 (Read.idx_main_v139 (ix2 r k)) = ix1 k := by
    funext a; match a with | ⟨0, _⟩ => rfl
  rw [hi]
  rfl

attribute [local irreducible] Read.val_main_v140

/-- The zero the activation compares with. -/
theorem call2_v0_at (i : S4096x128.Idx) : Read.val_main_call2_v0 (F := Ideal) i = 0 := by
  rw [Read.val_main_call2_v0_apply, Read.val_main_call2_cst_apply]
  exact Ideal.ofBits_zero_f32

/-- The first layer's activation at `(r, k)`: the larger of the pre-activation and zero. -/
theorem v141_at (r : Fin 4096) (k : Fin 128) :
    Read.val_main_v141 (F := Ideal) x ei ti W0 b0 W1 b1 W2 b2 g0 bt0 g1 bt1 f1w f1b (ix2 r k)
      = max ((∑ k' : Fin 128, H2 (ix2 (wrapRow (ti (ix1 r))) k') * f1w (ix2 k' k)) + f1b (ix1 k)) 0 := by
  rw [Read.val_main_v141_apply, v140_at, call2_v0_at]
  rfl

attribute [local irreducible] Read.val_main_v141

/-! ## The second feed-forward layer -/

/-- The second product at `(r, j)`. -/
theorem v142_at (r : Fin 4096) (j : Fin 64) :
    Read.val_main_v142 (F := Ideal) x ei ti W0 b0 W1 b1 W2 b2 g0 bt0 g1 bt1 f1w f1b f2w (ix2 r j)
      = ∑ k : Fin 128,
          max ((∑ k' : Fin 128, H2 (ix2 (wrapRow (ti (ix1 r))) k') * f1w (ix2 k' k)) + f1b (ix1 k)) 0
            * f2w (ix2 k j) := by
  rw [Read.val_main_v142_apply]
  refine Finset.sum_congr rfl (fun k _ => ?_)
  have hl : Read.lidx_main_v142 (ix2 r j) k = ix2 r k := by
    funext a; match a with | ⟨0, _⟩ => rfl | ⟨1, _⟩ => rfl
  have hr : Read.ridx_main_v142 (ix2 r j) k = ix2 k j := by
    funext a; match a with | ⟨0, _⟩ => rfl | ⟨1, _⟩ => rfl
  rw [hl, hr, v141_at]

attribute [local irreducible] Read.val_main_v142

/-- THE REFERENCE'S RESULT AT `(r, j)`: the two-layer feed-forward network on the row of the third layer's
output that the `r`-th target word names. -/
theorem ref_out_apply (r : Fin 4096) (j : Fin 64) :
    Read.val_main_v145 (F := Ideal) x ei ti W0 b0 W1 b1 W2 b2 g0 bt0 g1 bt1 f1w f1b f2w f2b (ix2 r j)
      = (∑ k : Fin 128,
          max ((∑ k' : Fin 128, H2 (ix2 (wrapRow (ti (ix1 r))) k') * f1w (ix2 k' k)) + f1b (ix1 k)) 0
            * f2w (ix2 k j))
        + f2b (ix1 j) := by
  rw [Read.val_main_v145_apply, v142_at, Read.val_main_v144_apply, Read.val_main_v143_apply]
  have hi : Read.idx_main_v143 (Read.idx_main_v144 (ix2 r j)) = ix1 j := by
    funext a; match a with | ⟨0, _⟩ => rfl
  rw [hi]
  rfl

end Cert.Val.Ref
-- ==== Proof.Alg.GlueTail.lean ====
/-
  The tail, at the staged contents of a core's buffers, in the reference's names. The last region leaves at (r, j) of
  its 4096 × 128 result
      Σ_k max( Σ_k' (t[r,k']·d[r,0] + b2[0,k'])·f1w[k',k] + f1b[0,k] , 0 ) · f2w_pad[k,j]  +  f2b_pad[0,j]
  over the seven arrays it finds, and the host then keeps the first 64 columns. Once the scaled, biased gathered row is
  the reference's third-layer row at the row the target word names, the first feed-forward bias row is the argument's,
  and the first 64 columns of the padded second weight and bias are the arguments', that entry is the reference's
  result at (r, j): its two-layer feed-forward network on that row.
-/
import proofs.«161886_j5566277616090_2_alg».proof.Proof.KI.Args
import proofs.«161886_j5566277616090_2_alg».proof.Proof.KI.Val7
import proofs.«161886_j5566277616090_2_alg».proof.Proof.KH.Host1
import proofs.«161886_j5566277616090_2_alg».proof.Proof.Val.RefTail
import proofs.«161886_j5566277616090_2_alg».proof.Proof.Alg.GlueArgs
import Idealize.ShloMosaic.Lib.StableHlo.Run
import Idealize.ShloMosaic.Lib.Pipeline.Value

set_option maxRecDepth 16384

noncomputable section

open scoped BigOperators

namespace Cert.KernelIdeal.Hand.Glue

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-- The last host operation keeps the first 64 columns of the last region's result. -/
theorem slice_term (V : Valuation τ sig (Elt Ideal)) :
    StableHlo.after (hostOps8 (F := Ideal)) V (Proc.devRef .tc main_v79)
      = extractStridedSlice S4096x64 ![0, 0] (V (Proc.devRef .tc main_v78)) slices_S4096x128_S4096x64_0_0 := by
  dsimp only [hostOps8]; after_results_simp

/-- The same read at `(r, j)`: the result's entry at `(r, j)`, `j` read as one of the 128 columns. -/
theorem slice_at (V : Valuation τ sig (Elt Ideal)) (r : Fin 4096) (j : Fin 64) (hj : j.val < 128) :
    @Eq EReal (StableHlo.after (hostOps8 (F := Ideal)) V (Proc.devRef .tc main_v79) (ix2 r j))
      (V (Proc.devRef .tc main_v78) (ix2 r (⟨j.val, hj⟩ : Fin 128))) := by
  rw [slice_term]
  exact extractStridedSlice_apply ![0, 0] (V (Proc.devRef .tc main_v78)) slices_S4096x128_S4096x64_0_0 (ix2 r j)
    (ix2 r (⟨j.val, hj⟩ : Fin 128)) (fun a => match a with
      | ⟨0, _⟩ => by show r.val = 0 + r.val; omega
      | ⟨1, _⟩ => by show j.val = 0 + j.val; omega)

variable (m : (ℓ : Loc nD τ sig) → Buf (Elt Ideal) ℓ) (c : Dev nD)

/-- The first feed-forward weight is an argument nothing writes: the last region finds it as launched. -/
theorem g_f1w : W15 m c (Proc.devRef .tc main_arg13) = argF1W m c :=
  calc W15 m c (Proc.devRef .tc main_arg13)
    _ = W14 m c (Proc.devRef .tc main_arg13) := StableHlo.after_of_writes_sub hostOps7_4 _ hostOps7_4_writes (by decide)
    _ = W13 m c (Proc.devRef .tc main_arg13) := StableHlo.after_of_writes_sub hostOps7_3 _ hostOps7_3_writes (by decide)
    _ = W12 m c (Proc.devRef .tc main_arg13) := StableHlo.after_of_writes_sub hostOps7_2 _ hostOps7_2_writes (by decide)
    _ = W11 m c (Proc.devRef .tc main_arg13) := StableHlo.after_of_writes_sub hostOps7_1 _ hostOps7_1_writes (by decide)
    _ = W10 m c (Proc.devRef .tc main_arg13) := StableHlo.after_of_writes_sub hostOps7 _ hostOps7_writes (by decide)
    _ = W9 m c (Proc.devRef .tc main_arg13) := across6 m c main_arg13 (by decide)
    _ = W8 m c (Proc.devRef .tc main_arg13) := across5 m c main_arg13 (by decide)
    _ = W7 m c (Proc.devRef .tc main_arg13) := across4 m c main_arg13 (by decide)
    _ = W6 m c (Proc.devRef .tc main_arg13) := StableHlo.after_of_writes_sub hostOps4 _ hostOps4_writes (by decide)
    _ = W5 m c (Proc.devRef .tc main_arg13) := across3 m c main_arg13 (by decide)
    _ = W4 m c (Proc.devRef .tc main_arg13) := across2 m c main_arg13 (by decide)
    _ = W3 m c (Proc.devRef .tc main_arg13) := across1 m c main_arg13 (by decide)
    _ = W2 m c (Proc.devRef .tc main_arg13) := StableHlo.after_of_writes_sub hostOps1 _ hostOps1_writes (by decide)
    _ = W1 m c (Proc.devRef .tc main_arg13) := across0 m c main_arg13 (by decide)
    _ = W0 m c (Proc.devRef .tc main_arg13) := StableHlo.after_of_writes_sub hostOps0 _ hostOps0_writes (by decide)
    _ = argF1W m c := rfl

/-- THE RESULT at (r, j): the kept columns of the last region's result are the reference's result. `hTP`: the
    scaled, biased gathered row is the reference's third-layer row at the row the target word names; `hF1B`, `hF2W`,
    `hF2B`: the first bias row, and the first 64 columns of the padded second weight and bias, are the arguments'. -/
theorem g_out
    (hTP : ∀ (r : Fin 4096) (k : Fin 128), sTpre m c (ix2 r k) * sDinvt m c (ix2 r (0 : Fin 1)) + sB2row m c (ix2 (0 : Fin 1) k) = Cert.ReferenceIdeal.Read.val_main_v129 (F := Ideal) (argX m c) (argE m c) (argW0 m c) (argB0 m c) (argW1 m c) (argB1 m c) (argW2 m c) (argB2 m c) (argG0 m c) (argBT0 m c) (argG1 m c) (argBT1 m c) (ix2 (Cert.Val.wrapRow (argT m c (ix1 r))) k))
    (hF1B : ∀ k : Fin 128, sF1Brow m c (ix2 (0 : Fin 1) k) = argF1B m c (ix1 k))
    (hF2W : ∀ (k : Fin 128) (j : Fin 64), sF2Wpad m c (ix2 k ⟨j.val, by omega⟩) = argF2W m c (ix2 k j))
    (hF2B : ∀ j : Fin 64, sF2Bpad m c (ix2 (0 : Fin 1) ⟨j.val, by omega⟩) = argF2B m c (ix1 j))
    (r : Fin 4096) (j : Fin 64) :
    sOut m c (ix2 r j) = Cert.ReferenceIdeal.Read.val_main_v145 (F := Ideal) (argX m c) (argE m c) (argT m c) (argW0 m c) (argB0 m c) (argW1 m c) (argB1 m c) (argW2 m c) (argB2 m c) (argG0 m c) (argBT0 m c) (argG1 m c) (argBT1 m c) (argF1W m c) (argF1B m c) (argF2W m c) (argF2B m c) (ix2 r j) := by
  have hj : j.val < 128 := by omega
  have hw : Val7.f1w (E15 m) c = argF1W m c := g_f1w m c
  have h7 := Val7.out7_apply (E15 m) c r (⟨j.val, hj⟩ : Fin 128)
  rw [hw] at h7
  have h : sOut78 m c (ix2 r (⟨j.val, hj⟩ : Fin 128))
      = (∑ k : Fin 128, max ((∑ k' : Fin 128, (sTpre m c (ix2 r k') * sDinvt m c (ix2 r (0 : Fin 1)) + sB2row m c (ix2 (0 : Fin 1) k')) * argF1W m c (ix2 k' k))
            + sF1Brow m c (ix2 (0 : Fin 1) k)) 0 * sF2Wpad m c (ix2 k (⟨j.val, hj⟩ : Fin 128)))
          + sF2Bpad m c (ix2 (0 : Fin 1) (⟨j.val, hj⟩ : Fin 128)) :=
    (congrFun (W16_arr m c 7) (ix2 r (⟨j.val, hj⟩ : Fin 128))).trans h7
  refine (slice_at (W16 m c) r j hj).trans ?_
  refine h.trans ?_
  refine Eq.trans ?_ (Cert.Val.Ref.ref_out_apply (argX m c) (argE m c) (argT m c) (argW0 m c) (argB0 m c) (argW1 m c) (argB1 m c) (argW2 m c) (argB2 m c) (argG0 m c) (argBT0 m c) (argG1 m c) (argBT1 m c) (argF1W m c) (argF1B m c) (argF2W m c) (argF2B m c) r j).symm
  rw [hF2B j]
  refine congrArg (fun s : EReal => s + argF2B m c (ix1 j)) ?_
  refine Finset.sum_congr rfl fun k _ => ?_
  rw [hF2W k j, hF1B k]
  refine congrArg (fun s : EReal => max (s + argF1B m c (ix1 k)) 0 * argF2W m c (ix2 k j)) ?_
  refine Finset.sum_congr rfl fun k' _ => ?_
  rw [hTP r k']

end Cert.KernelIdeal.Hand.Glue

end
-- ==== Proof.Alg.Main.lean ====
/-
  The kernel program's result is the reference's, at the extended reals: the eight regions' arrays and the host stretches'
  results, followed boundary by boundary, are the reference's stages — the three pre-activations (by distributivity over
  the per-destination sums), the two layers' means and variances, the normalised and rectified activations, and the
  feed-forward head on the gathered target rows.
-/
import proofs.«161886_j5566277616090_2_alg».proof.Proof.Gen.KernelIdeal.Launch
import proofs.«161886_j5566277616090_2_alg».proof.Proof.Gen.KernelIdeal.Skeleton
import proofs.«161886_j5566277616090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161886_j5566277616090_2_alg».proof.Proof.Alg.Glue0a
import proofs.«161886_j5566277616090_2_alg».proof.Proof.Alg.GlueH
import proofs.«161886_j5566277616090_2_alg».proof.Proof.Alg.GlueMean
import proofs.«161886_j5566277616090_2_alg».proof.Proof.Alg.GlueVar
import proofs.«161886_j5566277616090_2_alg».proof.Proof.Alg.GlueAct
import proofs.«161886_j5566277616090_2_alg».proof.Proof.Alg.GlueAgg
import proofs.«161886_j5566277616090_2_alg».proof.Proof.Alg.GlueTailIn
import proofs.«161886_j5566277616090_2_alg».proof.Proof.Alg.GlueTailPad
import proofs.«161886_j5566277616090_2_alg».proof.Proof.Alg.GlueTail
import proofs.«161886_j5566277616090_2_alg».proof.Proof.KH.Host0
set_option maxRecDepth 16384

noncomputable section

namespace Cert.KernelIdeal.Hand.Glue

open Cert.KernelIdeal Cert.KernelIdeal.Gen Cert.KernelIdeal.Hand
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The result buffer at the last boundary is the reference's result stage of the launch arguments. -/
theorem kernel_value :
    W17 (F := Ideal) m c (Proc.devRef .tc main_v79)
      = Cert.ReferenceIdeal.Read.val_main_v145 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  -- the same equation over the typed names of the arguments and of the result buffer
  show sOut m c
      = Cert.ReferenceIdeal.Read.val_main_v145 (F := Ideal) (argX m c) (argE m c) (argT m c) (argW0 m c) (argB0 m c)
          (argW1 m c) (argB1 m c) (argW2 m c) (argB2 m c) (argG0 m c) (argBT0 m c) (argG1 m c) (argBT1 m c)
          (argF1W m c) (argF1B m c) (argF2W m c) (argF2B m c)
  funext idx
  obtain ⟨r, j, rfl⟩ : ∃ (r : Fin 4096) (j : Fin 64), idx = ix2 r j := ⟨idx 0, idx 1, eq_ix2 idx⟩
  -- the first stretch's column of factors and bias rows
  have hDC := g_dinvCol m c
  have hB0 : ∀ j : Fin 128, sRow13 m c (ix2 (0 : Fin 1) j) = argB0 m c (ix1 j) := fun j => Host.row13_at (W0 m c) j
  have hB1 : ∀ j : Fin 128, sRow14 m c (ix2 (0 : Fin 1) j) = argB1 m c (ix1 j) := fun j => Host.row14_at (W0 m c) j
  have hB2 : ∀ j : Fin 128, sRow15 m c (ix2 (0 : Fin 1) j) = argB2 m c (ix1 j) := fun j => Host.row15_at (W0 m c) j
  -- layer 0: pre-activation, mean, variance, the next table
  have hH0 := g_h0 m c (g_hw0 m c) (g_agg0 m c) hDC hB0
  have hM0 := g_mean0 m c hH0
  have hV0 := g_var0 m c hH0 hM0
  have hT1 := g_hw1 m c hH0 hM0 hV0 hDC
  -- layer 1
  have hH1 := g_h1 m c hT1 (g_agg1 m c (g_src m c) (g_dst m c)) hDC hB1
  have hM1 := g_mean1 m c hH1
  have hV1 := g_var1 m c hH1 hM1
  have hT2 := g_hw2 m c hH1 hM1 hV1 hDC
  -- layer 2 and the head
  have hH2 := g_h2 m c hT2 (g_agg2 m c (g_src m c) (g_dst m c)) hDC hB2
  exact g_out m c (g_tp m c hH2) (g_f1b m c) (g_f2w m c) (g_f2b m c) r j

end Cert.KernelIdeal.Hand.Glue

end
-- ==== Proof.lean ====
/-
  The certificate of a three-layer graph convolution with batch normalisation and a two-layer feed-forward head, a
  kernel program of eight tiled regions among host gathers and scatter-adds against a plain array program.
  Frames: both kernel programs run as seventeen segments chained through the contents of the buffers at each boundary
  (Proof/KB/Run.lean at the word level, Proof/KI/Run.lean at the extended reals); the reference's is its run with the
  result dropped. The idealization rewrote nothing. At the extended reals the two sides differ by where the
  per-destination factor dinv[i] multiplies — once outside the per-destination sum in the kernel, inside every edge's
  term in the reference — which is right-distributivity by a nonnegative real: every node has its self-loop, so every
  degree is at least one and its inverse square root a nonnegative real.
-/
import proofs.«161886_j5566277616090_2_alg».proof.Defs
import proofs.«161886_j5566277616090_2_alg».proof.Proof.Gen.Kernel
import proofs.«161886_j5566277616090_2_alg».proof.Proof.Gen.KernelIdeal
import proofs.«161886_j5566277616090_2_alg».proof.Proof.Gen.ReferenceIdeal
import proofs.«161886_j5566277616090_2_alg».proof.Proof.Gen.ReferenceIdeal.Run
import proofs.«161886_j5566277616090_2_alg».proof.Proof.Gen.ReferenceIdeal.Read
import proofs.«161886_j5566277616090_2_alg».proof.Proof.Gen.Pre_finite_inputs
import proofs.«161886_j5566277616090_2_alg».proof.Proof.KB.Run
import proofs.«161886_j5566277616090_2_alg».proof.Proof.KI.Run
import proofs.«161886_j5566277616090_2_alg».proof.Proof.Alg.Main
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run, and the reference's result is the kernel
    program's: the latter's result buffer at the last boundary is the reference's result stage of the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W17 (F := Ideal) m c (Proc.devRef .tc Cert.KernelIdeal.main_v79), Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v145_eq m' c]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  exact (Cert.KernelIdeal.Hand.Glue.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
